-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S16x384x768 : Shape := ⟨3, ![16, 384, 768]⟩
abbrev S256x768 : Shape := ⟨2, ![256, 768]⟩
abbrev S256 : Shape := ⟨1, ![256]⟩
abbrev S1x384 : Shape := ⟨2, ![1, 384]⟩
abbrev S1 : Shape := ⟨1, ![1]⟩
abbrev S768x1536 : Shape := ⟨2, ![768, 1536]⟩
abbrev S768 : Shape := ⟨1, ![768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S16x384x768 : S_.BroadcastsInDim S16x384x768 (![] : Fin 0 → Fin S16x384x768.rank)
  reducesTo_S16x384x768_S_d0_1_2 : S16x384x768.ReducesTo [0, 1, 2] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S1x384 : S_.BroadcastsInDim S1x384 (![] : Fin 0 → Fin S1x384.rank)
  reducesTo_S1x384_S_d0_1 : S1x384.ReducesTo [0, 1] S_
  bcast_S_S1 : S_.BroadcastsInDim S1 (![] : Fin 0 → Fin S1.rank)
  reducesTo_S1_S_d0 : S1.ReducesTo [0] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_

variable [Facts]

def fn_part5 {F : FTy → Type} [FloatOps F] (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  main_v88

def fn_part4 {F : FTy → Type} [FloatOps F] (main_arg14 : FVec F S1x384 .f32) (main_arg15 : FVec F S1 .f32) (main_arg16 : FVec F S768x1536 .f32) (main_arg17 : FVec F S768 .f32) (main_v63 : IVec S_ 1) (main_v67 : IVec S_ 1) : IVec S_ 1 :=
  let main_v68 : IVec S_ 1 := andi main_v63 main_v67
  let main_v69 : FVec F S1x384 .f32 := Host.absf main_arg14
  let main_cst_26 : FVec F S_ .f32 := constant S_ .f32 0x7F800000#32
  let main_v70 : FVec F S1x384 .f32 := broadcastInDim S1x384 ![] bcast_S_S1x384 main_cst_26
  let main_v71 : IVec S1x384 1 := cmpf .olt main_v69 main_v70
  let main_c_27 : IVec S_ 1 := constantI S_ 1 1#1
  let main_v72 : IVec S_ 1 := (fun x v => Host.reduce IntOp.andi x v reducesTo_S1x384_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S768x1536 .f32 := Host.absf main_arg16
  let main_cst_30 : FVec F S_ .f32 := constant S_ .f32 0x7F800000#32
  let main_v80 : FVec F S768x1536 .f32 := broadcastInDim S768x1536 ![] bcast_S_S768x1536 main_cst_30
  let main_v81 : IVec S768x1536 1 := cmpf .olt main_v79 main_v80
  let main_c_31 : IVec S_ 1 := constantI S_ 1 1#1
  let main_v82 : IVec S_ 1 := (fun x v => Host.reduce IntOp.andi x v reducesTo_S768x1536_S_d0_1 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256x768 .f32) (main_arg13 : FVec F S256 .f32) (main_arg14 : FVec F S1x384 .f32) (main_arg15 : FVec F S1 .f32) (main_arg16 : FVec F S768x1536 .f32) (main_arg17 : FVec F S768 .f32) (main_v48 : IVec S_ 1) (main_v49 : FVec F S256x768 .f32) (main_v50 : FVec F S256x768 .f32) : IVec S_ 1 :=
  let main_v51 : IVec S256x768 1 := cmpf .olt main_v49 main_v50
  let main_c_19 : IVec S_ 1 := constantI S_ 1 1#1
  let main_v52 : IVec S_ 1 := (fun x v => Host.reduce IntOp.andi x v reducesTo_S256x768_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x768 .f32 := Host.absf main_arg12
  let main_cst_22 : FVec F S_ .f32 := constant S_ .f32 0x7F800000#32
  let main_v60 : FVec F S256x768 .f32 := broadcastInDim S256x768 ![] bcast_S_S256x768 main_cst_22
  let main_v61 : IVec S256x768 1 := cmpf .olt main_v59 main_v60
  let main_c_23 : IVec S_ 1 := constantI S_ 1 1#1
  let main_v62 : IVec S_ 1 := (fun x v => Host.reduce IntOp.andi x v reducesTo_S256x768_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256x768 .f32) (main_arg9 : FVec F S256 .f32) (main_arg10 : FVec F S256x768 .f32) (main_arg11 : FVec F S256 .f32) (main_arg12 : FVec F S256x768 .f32) (main_arg13 : FVec F S256 .f32) (main_arg14 : FVec F S1x384 .f32) (main_arg15 : FVec F S1 .f32) (main_arg16 : FVec F S768x1536 .f32) (main_arg17 : FVec F S768 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x768 .f32 := Host.absf main_arg8
  let main_cst_14 : FVec F S_ .f32 := constant S_ .f32 0x7F800000#32
  let main_v40 : FVec F S256x768 .f32 := broadcastInDim S256x768 ![] bcast_S_S256x768 main_cst_14
  let main_v41 : IVec S256x768 1 := cmpf .olt main_v39 main_v40
  let main_c_15 : IVec S_ 1 := constantI S_ 1 1#1
  let main_v42 : IVec S_ 1 := (fun x v => Host.reduce IntOp.andi x v reducesTo_S256x768_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x768 .f32 := Host.absf main_arg10
  let main_cst_18 : FVec F S_ .f32 := constant S_ .f32 0x7F800000#32
  let main_v50 : FVec F S256x768 .f32 := broadcastInDim S256x768 ![] bcast_S_S256x768 main_cst_18
  fn_part3 (F := F) main_arg11 main_arg12 main_arg13 main_arg14 main_arg15 main_arg16 main_arg17 main_v48 main_v49 main_v50

def fn_part1 {F : FTy → Type} [FloatOps F] (main_arg4 : FVec F S256x768 .f32) (main_arg5 : FVec F S256 .f32) (main_arg6 : FVec F S256x768 .f32) (main_arg7 : FVec F S256 .f32) (main_arg8 : FVec F S256x768 .f32) (main_arg9 : FVec F S256 .f32) (main_arg10 : FVec F S256x768 .f32) (main_arg11 : FVec F S256 .f32) (main_arg12 : FVec F S256x768 .f32) (main_arg13 : FVec F S256 .f32) (main_arg14 : FVec F S1x384 .f32) (main_arg15 : FVec F S1 .f32) (main_arg16 : FVec F S768x1536 .f32) (main_arg17 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x768 .f32 := Host.absf main_arg6
  let main_cst_10 : FVec F S_ .f32 := constant S_ .f32 0x7F800000#32
  let main_v30 : FVec F S256x768 .f32 := broadcastInDim S256x768 ![] bcast_S_S256x768 main_cst_10
  let main_v31 : IVec S256x768 1 := cmpf .olt main_v29 main_v30
  let main_c_11 : IVec S_ 1 := constantI S_ 1 1#1
  let main_v32 : IVec S_ 1 := (fun x v => Host.reduce IntOp.andi x v reducesTo_S256x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16x1024x768 .f32) (main_arg1 : FVec F S16x384x768 .f32) (main_arg2 : FVec F S256x768 .f32) (main_arg3 : FVec F S256 .f32) (main_arg4 : FVec F S256x768 .f32) (main_arg5 : FVec F S256 .f32) (main_arg6 : FVec F S256x768 .f32) (main_arg7 : FVec F S256 .f32) (main_arg8 : FVec F S256x768 .f32) (main_arg9 : FVec F S256 .f32) (main_arg10 : FVec F S256x768 .f32) (main_arg11 : FVec F S256 .f32) (main_arg12 : FVec F S256x768 .f32) (main_arg13 : FVec F S256 .f32) (main_arg14 : FVec F S1x384 .f32) (main_arg15 : FVec F S1 .f32) (main_arg16 : FVec F S768x1536 .f32) (main_arg17 : FVec F S768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S16x384x768 .f32 := Host.absf main_arg1
  let main_cst_0 : FVec F S_ .f32 := constant S_ .f32 0x7F800000#32
  let main_v5 : FVec F S16x384x768 .f32 := broadcastInDim S16x384x768 ![] bcast_S_S16x384x768 main_cst_0
  let main_v6 : IVec S16x384x768 1 := cmpf .olt main_v4 main_v5
  let main_c_1 : IVec S_ 1 := constantI S_ 1 1#1
  let main_v7 : IVec S_ 1 := (fun x v => Host.reduce IntOp.andi x v reducesTo_S16x384x768_S_d0_1_2 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16x1024x768 : Shape := ⟨3, ![16, 1024, 768]⟩
abbrev S16x384x768 : Shape := ⟨3, ![16, 384, 768]⟩
abbrev S256x768 : Shape := ⟨2, ![256, 768]⟩
abbrev S256 : Shape := ⟨1, ![256]⟩
abbrev S1x384 : Shape := ⟨2, ![1, 384]⟩
abbrev S1 : Shape := ⟨1, ![1]⟩
abbrev S768x1536 : Shape := ⟨2, ![768, 1536]⟩
abbrev S768 : Shape := ⟨1, ![768]⟩
abbrev S16x1024x256 : Shape := ⟨3, ![16, 1024, 256]⟩
abbrev S1x1024x768 : Shape := ⟨3, ![1, 1024, 768]⟩
abbrev S1x1024x256 : Shape := ⟨3, ![1, 1024, 256]⟩
abbrev S1024x768 : Shape := ⟨2, ![1024, 768]⟩
abbrev S1024x256 : Shape := ⟨2, ![1024, 256]⟩
abbrev S1x256 : Shape := ⟨2, ![1, 256]⟩
abbrev S16x384x256 : Shape := ⟨3, ![16, 384, 256]⟩
abbrev S1x384x768 : Shape := ⟨3, ![1, 384, 768]⟩
abbrev S1x384x256 : Shape := ⟨3, ![1, 384, 256]⟩
abbrev S384x768 : Shape := ⟨2, ![384, 768]⟩
abbrev S384x256 : Shape := ⟨2, ![384, 256]⟩
abbrev S1024x1024 : Shape := ⟨2, ![1024, 1024]⟩
abbrev S1024 : Shape := ⟨1, ![1024]⟩
abbrev S1024x1 : Shape := ⟨2, ![1024, 1]⟩
abbrev S16x1x384 : Shape := ⟨3, ![16, 1, 384]⟩
abbrev S1x1x384 : Shape := ⟨3, ![1, 1, 384]⟩
abbrev S384x384 : Shape := ⟨2, ![384, 384]⟩
abbrev S384 : Shape := ⟨1, ![384]⟩
abbrev S384x1 : Shape := ⟨2, ![384, 1]⟩
abbrev S1x1 : Shape := ⟨2, ![1, 1]⟩
abbrev S1024x384 : Shape := ⟨2, ![1024, 384]⟩
abbrev S16x1024x1536 : Shape := ⟨3, ![16, 1024, 1536]⟩
abbrev S1x512x768 : Shape := ⟨3, ![1, 512, 768]⟩
abbrev S1x512x1536 : Shape := ⟨3, ![1, 512, 1536]⟩
abbrev S512x768 : Shape := ⟨2, ![512, 768]⟩
abbrev S768x768 : Shape := ⟨2, ![768, 768]⟩
abbrev S1x768 : Shape := ⟨2, ![1, 768]⟩

abbrev nBuf : Space → Nat
  | .hbm => 29
  | .vmem => 64
  | .smem => 0
  | _ => 0

abbrev bufTy : (tb : Table) → Fin (tcTables nBuf tb) → BufTy
  | .hbm, ⟨0, _⟩ => ⟨S16x1024x768, .f32⟩
  | .hbm, ⟨1, _⟩ => ⟨S16x384x768, .f32⟩
  | .hbm, ⟨2, _⟩ => ⟨S256x768, .f32⟩
  | .hbm, ⟨3, _⟩ => ⟨S256, .f32⟩
  | .hbm, ⟨4, _⟩ => ⟨S256x768, .f32⟩
  | .hbm, ⟨5, _⟩ => ⟨S256, .f32⟩
  | .hbm, ⟨6, _⟩ => ⟨S256x768, .f32⟩
  | .hbm, ⟨7, _⟩ => ⟨S256, .f32⟩
  | .hbm, ⟨8, _⟩ => ⟨S256x768, .f32⟩
  | .hbm, ⟨9, _⟩ => ⟨S256, .f32⟩
  | .hbm, ⟨10, _⟩ => ⟨S256x768, .f32⟩
  | .hbm, ⟨11, _⟩ => ⟨S256, .f32⟩
  | .hbm, ⟨12, _⟩ => ⟨S256x768, .f32⟩
  | .hbm, ⟨13, _⟩ => ⟨S256, .f32⟩
  | .hbm, ⟨14, _⟩ => ⟨S1x384, .f32⟩
  | .hbm, ⟨15, _⟩ => ⟨S1, .f32⟩
  | .hbm, ⟨16, _⟩ => ⟨S768x1536, .f32⟩
  | .hbm, ⟨17, _⟩ => ⟨S768, .f32⟩
  | .hbm, ⟨18, _⟩ => ⟨S16x1024x256, .f32⟩
  | .hbm, ⟨19, _⟩ => ⟨S16x1024x256, .f32⟩
  | .hbm, ⟨20, _⟩ => ⟨S16x1024x256, .f32⟩
  | .hbm, ⟨21, _⟩ => ⟨S16x384x256, .f32⟩
  | .hbm, ⟨22, _⟩ => ⟨S16x384x256, .f32⟩
  | .hbm, ⟨23, _⟩ => ⟨S16x384x256, .f32⟩
  | .hbm, ⟨24, _⟩ => ⟨S16x1024x768, .f32⟩
  | .hbm, ⟨25, _⟩ => ⟨S16x1x384, .f32⟩
  | .hbm, ⟨26, _⟩ => ⟨S16x1024x768, .f32⟩
  | .hbm, ⟨27, _⟩ => ⟨S16x1024x1536, .f32⟩
  | .hbm, ⟨28, _⟩ => ⟨S16x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S256x768, .f32⟩
  | .local _ .vmem, ⟨3, _⟩ => ⟨S256, .f32⟩
  | .local _ .vmem, ⟨4, _⟩ => ⟨S256x768, .f32⟩
  | .local _ .vmem, ⟨5, _⟩ => ⟨S256, .f32⟩
  | .local _ .vmem, ⟨6, _⟩ => ⟨S256x768, .f32⟩
  | .local _ .vmem, ⟨7, _⟩ => ⟨S256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x384x768, .f32⟩
  | .local _ .vmem, ⟨15, _⟩ => ⟨S1x384x768, .f32⟩
  | .local _ .vmem, ⟨16, _⟩ => ⟨S256x768, .f32⟩
  | .local _ .vmem, ⟨17, _⟩ => ⟨S256, .f32⟩
  | .local _ .vmem, ⟨18, _⟩ => ⟨S256x768, .f32⟩
  | .local _ .vmem, ⟨19, _⟩ => ⟨S256, .f32⟩
  | .local _ .vmem, ⟨20, _⟩ => ⟨S256x768, .f32⟩
  | .local _ .vmem, ⟨21, _⟩ => ⟨S256, .f32⟩
  | .local _ .vmem, ⟨22, _⟩ => ⟨S1x384x256, .f32⟩
  | .local _ .vmem, ⟨23, _⟩ => ⟨S1x384x256, .f32⟩
  | .local _ .vmem, ⟨24, _⟩ => ⟨S1x384x256, .f32⟩
  | .local _ .vmem, ⟨25, _⟩ => ⟨S1x384x256, .f32⟩
  | .local _ .vmem, ⟨26, _⟩ => ⟨S1x384x256, .f32⟩
  | .local _ .vmem, ⟨27, _⟩ => ⟨S1x384x256, .f32⟩
  | .local _ .vmem, ⟨28, _⟩ => ⟨S1x1024x256, .f32⟩
  | .local _ .vmem, ⟨29, _⟩ => ⟨S1x1024x256, .f32⟩
  | .local _ .vmem, ⟨30, _⟩ => ⟨S1x1024x256, .f32⟩
  | .local _ .vmem, ⟨31, _⟩ => ⟨S1x1024x256, .f32⟩
  | .local _ .vmem, ⟨32, _⟩ => ⟨S1x1024x768, .f32⟩
  | .local _ .vmem, ⟨33, _⟩ => ⟨S1x1024x768, .f32⟩
  | .local _ .vmem, ⟨34, _⟩ => ⟨S1x1024x768, .f32⟩
  | .local _ .vmem, ⟨35, _⟩ => ⟨S1x1024x768, .f32⟩
  | .local _ .vmem, ⟨36, _⟩ => ⟨S1x384x256, .f32⟩
  | .local _ .vmem, ⟨37, _⟩ => ⟨S1x384x256, .f32⟩
  | .local _ .vmem, ⟨38, _⟩ => ⟨S1x384x256, .f32⟩
  | .local _ .vmem, ⟨39, _⟩ => ⟨S1x384x256, .f32⟩
  | .local _ .vmem, ⟨40, _⟩ => ⟨S1x384, .f32⟩
  | .local _ .vmem, ⟨41, _⟩ => ⟨S1, .f32⟩
  | .local _ .vmem, ⟨42, _⟩ => ⟨S1x1x384, .f32⟩
  | .local _ .vmem, ⟨43, _⟩ => ⟨S1x1x384, .f32⟩
  | .local _ .vmem, ⟨44, _⟩ => ⟨S1x1024x256, .f32⟩
  | .local _ .vmem, ⟨45, _⟩ => ⟨S1x1024x256, .f32⟩
  | .local _ .vmem, ⟨46, _⟩ => ⟨S1x384x256, .f32⟩
  | .local _ .vmem, ⟨47, _⟩ => ⟨S1x384x256, .f32⟩
  | .local _ .vmem, ⟨48, _⟩ => ⟨S1x1x384, .f32⟩
  | .local _ .vmem, ⟨49, _⟩ => ⟨S1x1x384, .f32⟩
  | .local _ .vmem, ⟨50, _⟩ => ⟨S1x384x768, .f32⟩
  | .local _ .vmem, ⟨51, _⟩ => ⟨S1x384x768, .f32⟩
  | .local _ .vmem, ⟨52, _⟩ => ⟨S1x1024x768, .f32⟩
  | .local _ .vmem, ⟨53, _⟩ => ⟨S1x1024x768, .f32⟩
  | .local _ .vmem, ⟨54, _⟩ => ⟨S1x512x768, .f32⟩
  | .local _ .vmem, ⟨55, _⟩ => ⟨S1x512x768, .f32⟩
  | .local _ .vmem, ⟨56, _⟩ => ⟨S1x512x768, .f32⟩
  | .local _ .vmem, ⟨57, _⟩ => ⟨S1x512x768, .f32⟩
  | .local _ .vmem, ⟨58, _⟩ => ⟨S768x1536, .f32⟩
  | .local _ .vmem, ⟨59, _⟩ => ⟨S768, .f32⟩
  | .local _ .vmem, ⟨60, _⟩ => ⟨S1x512x1536, .f32⟩
  | .local _ .vmem, ⟨61, _⟩ => ⟨S1x512x1536, .f32⟩
  | .local _ .vmem, ⟨62, _⟩ => ⟨S1x512x768, .f32⟩
  | .local _ .vmem, ⟨63, _⟩ => ⟨S1x512x768, .f32⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v1_0 : Ref sig .tc := ⟨.hbm, 21, rfl⟩
abbrev main_v1_1 : Ref sig .tc := ⟨.hbm, 22, rfl⟩
abbrev main_v1_2 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5_0 : Ref sig .tc := ⟨.hbm, 27, rfl⟩
abbrev main_v5_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg4_1 : Ref sig .tc := ⟨.vmem, 61, rfl⟩
abbrev cc5_stg5_0 : Ref sig .tc := ⟨.vmem, 62, rfl⟩
abbrev cc5_stg5_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem4_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem4_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem4_1 : DmaSem sig := 61
abbrev cc5_sem5_0 : DmaSem sig := 62
abbrev cc5_sem5_1 : DmaSem sig := 63

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x384x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x384x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x384x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x384x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x384x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x384x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x1x384 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x384x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x384 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x384x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1024x768 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![16, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x512x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x512x768 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S768x1536 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1x512x1536 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x512x768 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S256 : S1024x256.Reduces [0] S256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x384x768_S1x384x768_0_0_0 : ∀ a, (![0, 0, 0] : Fin 3 → Nat) a + S1x384x768.size a ≤ S1x384x768.size a
  h_S1x384x768 : 0 < S1x384x768.numel
  shapeCasts_S1x384x768_S384x768 : S1x384x768.ShapeCasts S384x768
  broadcasts_S1x256_S384x256 : S1x256.Broadcasts S384x256
  reduces_S384x256_S256 : S384x256.Reduces [0] S256
  inb_S1x384x256_S1x384x256_0_0_0 : ∀ a, (![0, 0, 0] : Fin 3 → Nat) a + S1x384x256.size a ≤ S1x384x256.size a
  h_S1x384x256 : 0 < S1x384x256.numel
  shapeCasts_S1x384x256_S384x256 : S1x384x256.ShapeCasts S384x256
  shapeCasts_S384x256_S1x384x256 : S384x256.ShapeCasts S1x384x256
  reduces_S1024x1024_S1024 : S1024x1024.Reduces [1] S1024
  shapeCasts_S1024_S1024x1 : S1024.ShapeCasts S1024x1
  broadcasts_S1024x1_S1024x1024 : S1024x1.Broadcasts S1024x1024
  shapeCasts_S1024x768_S1x1024x768 : S1024x768.ShapeCasts S1x1024x768
  reduces_S384x384_S384 : S384x384.Reduces [1] S384
  shapeCasts_S384_S384x1 : S384.ShapeCasts S384x1
  broadcasts_S384x1_S384x384 : S384x1.Broadcasts S384x384
  inb_S1x384_S1x384_0_0 : ∀ a, (![0, 0] : Fin 2 → Nat) a + S1x384.size a ≤ S1x384.size a
  h_S1x384 : 0 < S1x384.numel
  inb_S1_S1_0 : ∀ a, (![0] : Fin 1 → Nat) a + S1.size a ≤ S1.size a
  h_S1 : 0 < S1.numel
  shapeCasts_S1_S1x1 : S1.ShapeCasts S1x1
  broadcasts_S1x1_S1x384 : S1x1.Broadcasts S1x384
  reduces_S1x384_S1 : S1x384.Reduces [1] S1
  inb_S1x1x384_S1x1x384_0_0_0 : ∀ a, (![0, 0, 0] : Fin 3 → Nat) a + S1x1x384.size a ≤ S1x1x384.size a
  h_S1x1x384 : 0 < S1x1x384.numel
  shapeCasts_S1x1x384_S1x384 : S1x1x384.ShapeCasts S1x384
  shapeCasts_S1x384_S1x1x384 : S1x384.ShapeCasts S1x1x384
  reduces_S1024x384_S1024 : S1024x384.Reduces [1] S1024
  broadcasts_S1024x1_S1024x384 : S1024x1.Broadcasts S1024x384
  broadcasts_S1x384_S1024x384 : S1x384.Broadcasts S1024x384
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x512x1536_S1x512x768_0_0_0 : ∀ a, (![0, 0, 0] : Fin 3 → Nat) a + S1x512x768.size a ≤ S1x512x1536.size a
  shapeCasts_S512x768_S1x512x768 : S512x768.ShapeCasts S1x512x768
  inb_S1x512x1536_S1x512x768_0_0_768 : ∀ a, (![0, 0, 768] : Fin 3 → Nat) a + S1x512x768.size a ≤ S1x512x1536.size a
  inb_S768x1536_S768x1536_0_0 : ∀ a, (![0, 0] : Fin 2 → Nat) a + S768x1536.size a ≤ S768x1536.size a
  h_S768x1536 : 0 < S768x1536.numel
  slices_S768x1536_o0_0_S768x768 : S768x1536.Slices ![0, 0] S768x768
  slices_S768x1536_o0_768_S768x768 : S768x1536.Slices ![0, 768] S768x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  dot_S1024x768_S256x768_S1024x256_1_1_0_0_n_n_wf : DotDims.WF S1024x768 S256x768 S1024x256 [1] [1] [0] [0] [] []
  dot_S384x768_S256x768_S384x256_1_1_0_0_n_n_wf : DotDims.WF S384x768 S256x768 S384x256 [1] [1] [0] [0] [] []
  dot_S1024x256_S1024x256_S1024x1024_1_1_0_0_n_n_wf : DotDims.WF S1024x256 S1024x256 S1024x1024 [1] [1] [0] [0] [] []
  dot_S1024x1024_S1024x768_S1024x768_1_0_0_1_n_n_wf : DotDims.WF S1024x1024 S1024x768 S1024x768 [1] [0] [0] [1] [] []
  dot_S384x256_S384x256_S384x384_1_1_0_0_n_n_wf : DotDims.WF S384x256 S384x256 S384x384 [1] [1] [0] [0] [] []
  dot_S1x384_S384x384_S1x384_1_1_0_0_n_n_wf : DotDims.WF S1x384 S384x384 S1x384 [1] [1] [0] [0] [] []
  dot_S1024x256_S384x256_S1024x384_1_1_0_0_n_n_wf : DotDims.WF S1024x256 S384x256 S1024x384 [1] [1] [0] [0] [] []
  dot_S1024x384_S384x768_S1024x768_1_0_0_1_n_n_wf : DotDims.WF S1024x384 S384x768 S1024x768 [1] [0] [0] [1] [] []
  dot_S512x768_S768x768_S512x768_1_1_0_0_n_n_wf : DotDims.WF S512x768 S768x768 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .f32 = 32 ∨ (Rect.block (s := S16x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S16x1024x256.size a
  hwx0_7 : ∀ i : grid0.Coords, EltTy.bits .f32 = 32 ∨ (Rect.block (s := S16x1024x256) S1x1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x256.size a ≤ S16x1024x256.size a
  hwx0_8 : ∀ i : grid0.Coords, EltTy.bits .f32 = 32 ∨ (Rect.block (s := S16x1024x256) S1x1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S16x1024x256.size a
  hwx0_9 : ∀ i : grid0.Coords, EltTy.bits .f32 = 32 ∨ (Rect.block (s := S16x1024x256) S1x1024x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x384x768.size a ≤ S16x384x768.size a
  hwx1_0 : ∀ i : grid1.Coords, EltTy.bits .f32 = 32 ∨ (Rect.block (s := S16x384x768) S1x384x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x768.size a ≤ S256x768.size a
  hwx1_1 : ∀ i : grid1.Coords, EltTy.bits .f32 = 32 ∨ (Rect.block (s := S256x768) S256x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .f32 = 32 ∨ (Rect.block (s := S256x768) S256x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x768.size a ≤ S256x768.size a
  hwx1_5 : ∀ i : grid1.Coords, EltTy.bits .f32 = 32 ∨ (Rect.block (s := S256x768) S256x768.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x384x256.size a ≤ S16x384x256.size a
  hwx1_7 : ∀ i : grid1.Coords, EltTy.bits .f32 = 32 ∨ (Rect.block (s := S16x384x256) S1x384x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x384x256.size a ≤ S16x384x256.size a
  hwx1_8 : ∀ i : grid1.Coords, EltTy.bits .f32 = 32 ∨ (Rect.block (s := S16x384x256) S1x384x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x384x256.size a ≤ S16x384x256.size a
  hwx1_9 : ∀ i : grid1.Coords, EltTy.bits .f32 = 32 ∨ (Rect.block (s := S16x384x256) S1x384x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x256.size a ≤ S16x1024x256.size a
  hwx2_0 : ∀ i : grid2.Coords, EltTy.bits .f32 = 32 ∨ (Rect.block (s := S16x1024x256) S1x1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x256.size a ≤ S16x1024x256.size a
  hwx2_1 : ∀ i : grid2.Coords, EltTy.bits .f32 = 32 ∨ (Rect.block (s := S16x1024x256) S1x1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x768.size a ≤ S16x1024x768.size a
  hwx2_2 : ∀ i : grid2.Coords, EltTy.bits .f32 = 32 ∨ (Rect.block (s := S16x1024x768) S1x1024x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x768.size a ≤ S16x1024x768.size a
  hwx2_3 : ∀ i : grid2.Coords, EltTy.bits .f32 = 32 ∨ (Rect.block (s := S16x1024x768) S1x1024x768.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x384x256.size a ≤ S16x384x256.size a
  hwx3_0 : ∀ i : grid3.Coords, EltTy.bits .f32 = 32 ∨ (Rect.block (s := S16x384x256) S1x384x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x384x256.size a ≤ S16x384x256.size a
  hwx3_1 : ∀ i : grid3.Coords, EltTy.bits .f32 = 32 ∨ (Rect.block (s := S16x384x256) S1x384x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x384.size a ≤ S1x384.size a
  hwx3_2 : ∀ i : grid3.Coords, EltTy.bits .f32 = 32 ∨ (Rect.block (s := S1x384) S1x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1.size a ≤ S1.size a
  hwx3_3 : ∀ i : grid3.Coords, EltTy.bits .f32 = 32 ∨ (Rect.block (s := S1) S1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x384.size a ≤ S16x1x384.size a
  hwx3_4 : ∀ i : grid3.Coords, EltTy.bits .f32 = 32 ∨ (Rect.block (s := S16x1x384) S1x1x384.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1024x256.size a ≤ S16x1024x256.size a
  hwx4_0 : ∀ i : grid4.Coords, EltTy.bits .f32 = 32 ∨ (Rect.block (s := S16x1024x256) S1x1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x384x256.size a ≤ S16x384x256.size a
  hwx4_1 : ∀ i : grid4.Coords, EltTy.bits .f32 = 32 ∨ (Rect.block (s := S16x384x256) S1x384x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x384.size a ≤ S16x1x384.size a
  hwx4_2 : ∀ i : grid4.Coords, EltTy.bits .f32 = 32 ∨ (Rect.block (s := S16x1x384) S1x1x384.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x384x768.size a ≤ S16x384x768.size a
  hwx4_3 : ∀ i : grid4.Coords, EltTy.bits .f32 = 32 ∨ (Rect.block (s := S16x384x768) S1x384x768.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1024x768.size a ≤ S16x1024x768.size a
  hwx4_4 : ∀ i : grid4.Coords, EltTy.bits .f32 = 32 ∨ (Rect.block (s := S16x1024x768) S1x1024x768.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x512x768.size a ≤ S16x1024x768.size a
  hwx5_0 : ∀ i : grid5.Coords, EltTy.bits .f32 = 32 ∨ (Rect.block (s := S16x1024x768) S1x512x768.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x512x768.size a ≤ S16x1024x768.size a
  hwx5_1 : ∀ i : grid5.Coords, EltTy.bits .f32 = 32 ∨ (Rect.block (s := S16x1024x768) S1x512x768.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S768x1536.size a ≤ S768x1536.size a
  hwx5_2 : ∀ i : grid5.Coords, EltTy.bits .f32 = 32 ∨ (Rect.block (s := S768x1536) S768x1536.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S768.size a ≤ S768.size a
  hwx5_3 : ∀ i : grid5.Coords, EltTy.bits .f32 = 32 ∨ (Rect.block (s := S768) S768.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x512x1536.size a ≤ S16x1024x1536.size a
  hwx5_4 : ∀ i : grid5.Coords, EltTy.bits .f32 = 32 ∨ (Rect.block (s := S16x1024x1536) S1x512x1536.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x512x768.size a ≤ S16x1024x768.size a
  hwx5_5 : ∀ i : grid5.Coords, EltTy.bits .f32 = 32 ∨ (Rect.block (s := S16x1024x768) S1x512x768.size (cc5_transform_5 i) (hinb5_5 i)).WholeWords (EltTy.packing .f32)

variable [Facts₀]

def dot_S1024x768_S256x768_S1024x256_1_1_0_0_n_n : DotDims S1024x768 S256x768 S1024x256 where
  lhsContracting := [1]
  rhsContracting := [1]
  lhsNonContracting := [0]
  rhsNonContracting := [0]
  lhsBatch := []
  rhsBatch := []
  wf := dot_S1024x768_S256x768_S1024x256_1_1_0_0_n_n_wf
def dot_S384x768_S256x768_S384x256_1_1_0_0_n_n : DotDims S384x768 S256x768 S384x256 where
  lhsContracting := [1]
  rhsContracting := [1]
  lhsNonContracting := [0]
  rhsNonContracting := [0]
  lhsBatch := []
  rhsBatch := []
  wf := dot_S384x768_S256x768_S384x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf
def dot_S384x256_S384x256_S384x384_1_1_0_0_n_n : DotDims S384x256 S384x256 S384x384 where
  lhsContracting := [1]
  rhsContracting := [1]
  lhsNonContracting := [0]
  rhsNonContracting := [0]
  lhsBatch := []
  rhsBatch := []
  wf := dot_S384x256_S384x256_S384x384_1_1_0_0_n_n_wf
def dot_S1x384_S384x384_S1x384_1_1_0_0_n_n : DotDims S1x384 S384x384 S1x384 where
  lhsContracting := [1]
  rhsContracting := [1]
  lhsNonContracting := [0]
  rhsNonContracting := [0]
  lhsBatch := []
  rhsBatch := []
  wf := dot_S1x384_S384x384_S1x384_1_1_0_0_n_n_wf
def dot_S1024x256_S384x256_S1024x384_1_1_0_0_n_n : DotDims S1024x256 S384x256 S1024x384 where
  lhsContracting := [1]
  rhsContracting := [1]
  lhsNonContracting := [0]
  rhsNonContracting := [0]
  lhsBatch := []
  rhsBatch := []
  wf := dot_S1024x256_S384x256_S1024x384_1_1_0_0_n_n_wf
def dot_S1024x384_S384x768_S1024x768_1_0_0_1_n_n : DotDims S1024x384 S384x768 S1024x768 where
  lhsContracting := [1]
  rhsContracting := [0]
  lhsNonContracting := [0]
  rhsNonContracting := [1]
  lhsBatch := []
  rhsBatch := []
  wf := dot_S1024x384_S384x768_S1024x768_1_0_0_1_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S1x384x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1_0) S1x384x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1_1) S1x384x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1_2) S1x384x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v0_0) S1x1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S1x1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S1x1024x768.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1_0) S1x384x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1_1) S1x384x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S1x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1x1x384.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v0_2) S1x1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1_2) S1x384x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S1x1x384.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg1) S1x384x768.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v4) S1x1024x768.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v2) S1x512x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S1x512x768.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S768x1536.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S768.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v5_0) S1x512x1536.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v5_1) S1x512x768.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S16x1024x768 : Shape := ⟨3, ![16, 1024, 768]⟩
abbrev S16x384x768 : Shape := ⟨3, ![16, 384, 768]⟩
abbrev S256x768 : Shape := ⟨2, ![256, 768]⟩
abbrev S256 : Shape := ⟨1, ![256]⟩
abbrev S1x384 : Shape := ⟨2, ![1, 384]⟩
abbrev S1 : Shape := ⟨1, ![1]⟩
abbrev S768x1536 : Shape := ⟨2, ![768, 1536]⟩
abbrev S768 : Shape := ⟨1, ![768]⟩
abbrev S16x1024x256 : Shape := ⟨3, ![16, 1024, 256]⟩
abbrev S1x1x256 : Shape := ⟨3, ![1, 1, 256]⟩
abbrev S_ : Shape := ⟨0, ![]⟩
abbrev S16x256 : Shape := ⟨2, ![16, 256]⟩
abbrev S16x1x256 : Shape := ⟨3, ![16, 1, 256]⟩
abbrev S16x384x256 : Shape := ⟨3, ![16, 384, 256]⟩
abbrev S16x1024x1024 : Shape := ⟨3, ![16, 1024, 1024]⟩
abbrev S16x1024 : Shape := ⟨2, ![16, 1024]⟩
abbrev S16x1024x1 : Shape := ⟨3, ![16, 1024, 1]⟩
abbrev S16x384x384 : Shape := ⟨3, ![16, 384, 384]⟩
abbrev S16x384 : Shape := ⟨2, ![16, 384]⟩
abbrev S16x384x1 : Shape := ⟨3, ![16, 384, 1]⟩
abbrev S16x1024x384 : Shape := ⟨3, ![16, 1024, 384]⟩
abbrev S1x1x1 : Shape := ⟨3, ![1, 1, 1]⟩
abbrev S16x1 : Shape := ⟨2, ![16, 1]⟩
abbrev S16x1x1 : Shape := ⟨3, ![16, 1, 1]⟩
abbrev S16x1x384 : Shape := ⟨3, ![16, 1, 384]⟩
abbrev S16x1024x1536 : Shape := ⟨3, ![16, 1024, 1536]⟩
abbrev S1x1x768 : Shape := ⟨3, ![1, 1, 768]⟩

abbrev nBuf : Space → Nat
  | .hbm => 172
  | .vmem => 0
  | .smem => 0
  | _ => 0

abbrev hbmTy0_0 (i : Nat) : BufTy := match i % 128 with
  | 0 => ⟨S16x1024x768, .f32⟩
  | 1 => ⟨S16x384x768, .f32⟩
  | 2 => ⟨S256x768, .f32⟩
  | 3 => ⟨S256, .f32⟩
  | 4 => ⟨S256x768, .f32⟩
  | 5 => ⟨S256, .f32⟩
  | 6 => ⟨S256x768, .f32⟩
  | 7 => ⟨S256, .f32⟩
  | 8 => ⟨S256x768, .f32⟩
  | 9 => ⟨S256, .f32⟩
  | 10 => ⟨S256x768, .f32⟩
  | 11 => ⟨S256, .f32⟩
  | 12 => ⟨S256x768, .f32⟩
  | 13 => ⟨S256, .f32⟩
  | 14 => ⟨S1x384, .f32⟩
  | 15 => ⟨S1, .f32⟩
  | 16 => ⟨S768x1536, .f32⟩
  | 17 => ⟨S768, .f32⟩
  | 18 => ⟨S16x1024x256, .f32⟩
  | 19 => ⟨S1x1x256, .f32⟩
  | 20 => ⟨S16x1024x256, .f32⟩
  | 21 => ⟨S16x1024x256, .f32⟩
  | 22 => ⟨S_, .f32⟩
  | 23 => ⟨S16x256, .f32⟩
  | 24 => ⟨S16x1x256, .f32⟩
  | 25 => ⟨S_, .f32⟩
  | 26 => ⟨S16x1x256, .f32⟩
  | 27 => ⟨S16x1x256, .f32⟩
  | 28 => ⟨S16x1024x256, .f32⟩
  | 29 => ⟨S16x1024x256, .f32⟩
  | 30 => ⟨S16x1024x256, .f32⟩
  | 31 => ⟨S1x1x256, .f32⟩
  | 32 => ⟨S16x1024x256, .f32⟩
  | 33 => ⟨S16x1024x256, .f32⟩
  | 34 => ⟨S_, .f32⟩
  | 35 => ⟨S16x256, .f32⟩
  | 36 => ⟨S16x1x256, .f32⟩
  | 37 => ⟨S_, .f32⟩
  | 38 => ⟨S16x1x256, .f32⟩
  | 39 => ⟨S16x1x256, .f32⟩
  | 40 => ⟨S16x1024x256, .f32⟩
  | 41 => ⟨S16x1024x256, .f32⟩
  | 42 => ⟨S16x1024x256, .f32⟩
  | 43 => ⟨S1x1x256, .f32⟩
  | 44 => ⟨S16x1024x256, .f32⟩
  | 45 => ⟨S16x1024x256, .f32⟩
  | 46 => ⟨S_, .f32⟩
  | 47 => ⟨S16x256, .f32⟩
  | 48 => ⟨S16x1x256, .f32⟩
  | 49 => ⟨S_, .f32⟩
  | 50 => ⟨S16x1x256, .f32⟩
  | 51 => ⟨S16x1x256, .f32⟩
  | 52 => ⟨S16x1024x256, .f32⟩
  | 53 => ⟨S16x1024x256, .f32⟩
  | 54 => ⟨S16x384x256, .f32⟩
  | 55 => ⟨S1x1x256, .f32⟩
  | 56 => ⟨S16x384x256, .f32⟩
  | 57 => ⟨S16x384x256, .f32⟩
  | 58 => ⟨S_, .f32⟩
  | 59 => ⟨S16x256, .f32⟩
  | 60 => ⟨S16x1x256, .f32⟩
  | 61 => ⟨S_, .f32⟩
  | 62 => ⟨S16x1x256, .f32⟩
  | 63 => ⟨S16x1x256, .f32⟩
  | 64 => ⟨S16x384x256, .f32⟩
  | 65 => ⟨S16x384x256, .f32⟩
  | 66 => ⟨S16x384x256, .f32⟩
  | 67 => ⟨S1x1x256, .f32⟩
  | 68 => ⟨S16x384x256, .f32⟩
  | 69 => ⟨S16x384x256, .f32⟩
  | 70 => ⟨S_, .f32⟩
  | 71 => ⟨S16x256, .f32⟩
  | 72 => ⟨S16x1x256, .f32⟩
  | 73 => ⟨S_, .f32⟩
  | 74 => ⟨S16x1x256, .f32⟩
  | 75 => ⟨S16x1x256, .f32⟩
  | 76 => ⟨S16x384x256, .f32⟩
  | 77 => ⟨S16x384x256, .f32⟩
  | 78 => ⟨S16x384x256, .f32⟩
  | 79 => ⟨S1x1x256, .f32⟩
  | 80 => ⟨S16x384x256, .f32⟩
  | 81 => ⟨S16x384x256, .f32⟩
  | 82 => ⟨S_, .f32⟩
  | 83 => ⟨S16x256, .f32⟩
  | 84 => ⟨S16x1x256, .f32⟩
  | 85 => ⟨S_, .f32⟩
  | 86 => ⟨S16x1x256, .f32⟩
  | 87 => ⟨S16x1x256, .f32⟩
  | 88 => ⟨S16x384x256, .f32⟩
  | 89 => ⟨S16x384x256, .f32⟩
  | 90 => ⟨S16x1024x1024, .f32⟩
  | 91 => ⟨S_, .f32⟩
  | 92 => ⟨S16x1024x1024, .f32⟩
  | 93 => ⟨S16x1024x1024, .f32⟩
  | 94 => ⟨S_, .f32⟩
  | 95 => ⟨S16x1024, .f32⟩
  | 96 => ⟨S_, .f32⟩
  | 97 => ⟨S16x1024, .f32⟩
  | 98 => ⟨S16x1024, .f32⟩
  | 99 => ⟨S16x1024x1, .f32⟩
  | 100 => ⟨S16x1024x1024, .f32⟩
  | 101 => ⟨S16x1024x1024, .f32⟩
  | 102 => ⟨S16x1024x1024, .f32⟩
  | 103 => ⟨S_, .f32⟩
  | 104 => ⟨S16x1024, .f32⟩
  | 105 => ⟨S16x1024x1, .f32⟩
  | 106 => ⟨S16x1024x1024, .f32⟩
  | 107 => ⟨S16x1024x1024, .f32⟩
  | 108 => ⟨S16x384x384, .f32⟩
  | 109 => ⟨S_, .f32⟩
  | 110 => ⟨S16x384x384, .f32⟩
  | 111 => ⟨S16x384x384, .f32⟩
  | 112 => ⟨S_, .f32⟩
  | 113 => ⟨S16x384, .f32⟩
  | 114 => ⟨S_, .f32⟩
  | 115 => ⟨S16x384, .f32⟩
  | 116 => ⟨S16x384, .f32⟩
  | 117 => ⟨S16x384x1, .f32⟩
  | 118 => ⟨S16x384x384, .f32⟩
  | 119 => ⟨S16x384x384, .f32⟩
  | 120 => ⟨S16x384x384, .f32⟩
  | 121 => ⟨S_, .f32⟩
  | 122 => ⟨S16x384, .f32⟩
  | 123 => ⟨S16x384x1, .f32⟩
  | 124 => ⟨S16x384x384, .f32⟩
  | 125 => ⟨S16x384x384, .f32⟩
  | 126 => ⟨S16x1024x384, .f32⟩
  | 127 => ⟨S_, .f32⟩
  | _ => ⟨S16x1024x768, .f32⟩

abbrev hbmTy0_1 (i : Nat) : BufTy := match i % 128 with
  | 0 => ⟨S16x1024x384, .f32⟩
  | 1 => ⟨S16x1024x384, .f32⟩
  | 2 => ⟨S_, .f32⟩
  | 3 => ⟨S16x1024, .f32⟩
  | 4 => ⟨S_, .f32⟩
  | 5 => ⟨S16x1024, .f32⟩
  | 6 => ⟨S16x1024, .f32⟩
  | 7 => ⟨S16x1024x1, .f32⟩
  | 8 => ⟨S16x1024x384, .f32⟩
  | 9 => ⟨S16x1024x384, .f32⟩
  | 10 => ⟨S16x1024x384, .f32⟩
  | 11 => ⟨S_, .f32⟩
  | 12 => ⟨S16x1024, .f32⟩
  | 13 => ⟨S16x1024x1, .f32⟩
  | 14 => ⟨S16x1024x384, .f32⟩
  | 15 => ⟨S16x1024x384, .f32⟩
  | 16 => ⟨S16x1024x768, .f32⟩
  | 17 => ⟨S16x384x1, .f32⟩
  | 18 => ⟨S1x1x1, .f32⟩
  | 19 => ⟨S16x384x1, .f32⟩
  | 20 => ⟨S16x384x1, .f32⟩
  | 21 => ⟨S_, .f32⟩
  | 22 => ⟨S16x1, .f32⟩
  | 23 => ⟨S_, .f32⟩
  | 24 => ⟨S16x1, .f32⟩
  | 25 => ⟨S16x1, .f32⟩
  | 26 => ⟨S16x1x1, .f32⟩
  | 27 => ⟨S16x384x1, .f32⟩
  | 28 => ⟨S16x384x1, .f32⟩
  | 29 => ⟨S16x384x1, .f32⟩
  | 30 => ⟨S_, .f32⟩
  | 31 => ⟨S16x1, .f32⟩
  | 32 => ⟨S16x1x1, .f32⟩
  | 33 => ⟨S16x384x1, .f32⟩
  | 34 => ⟨S16x384x1, .f32⟩
  | 35 => ⟨S16x1x384, .f32⟩
  | 36 => ⟨S16x1024x384, .f32⟩
  | 37 => ⟨S16x1024x384, .f32⟩
  | 38 => ⟨S16x1024x768, .f32⟩
  | 39 => ⟨S16x1024x1536, .f32⟩
  | 40 => ⟨S16x1024x768, .f32⟩
  | 41 => ⟨S1x1x768, .f32⟩
  | 42 => ⟨S16x1024x768, .f32⟩
  | 43 => ⟨S16x1024x768, .f32⟩
  | _ => ⟨S16x1024x768, .f32⟩

abbrev hbmTy (i : Nat) : BufTy := match i / 128 with
  | 0 => hbmTy0_0 i
  | 1 => hbmTy0_1 i
  | _ => ⟨S16x1024x768, .f32⟩

abbrev bufTy : (tb : Table) → Fin (tcTables nBuf tb) → BufTy
  | .hbm, ⟨i, _⟩ => hbmTy i
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_cst_20 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_23 : Ref sig .tc := ⟨.hbm, 149, rfl⟩
abbrev main_v107 : Ref sig .tc := ⟨.hbm, 150, rfl⟩
abbrev main_cst_24 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_25 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  reducesTo_S16x1024x256_S16x256_d1 : S16x1024x256.ReducesTo [1] S16x256
  h_S_ : 0 < S_.numel
  bcast_S16x256_S16x1x256_0_2 : S16x256.BroadcastsInDim S16x1x256 (![0, 2] : Fin 2 → Fin S16x1x256.rank)
  bcast_S_S16x1x256 : S_.BroadcastsInDim S16x1x256 (![] : Fin 0 → Fin S16x1x256.rank)
  bcast_S16x1x256_S16x1024x256_0_1_2 : S16x1x256.BroadcastsInDim S16x1024x256 (![0, 1, 2] : Fin 3 → Fin S16x1024x256.rank)
  bcast_S1x1x256_S16x384x256_0_1_2 : S1x1x256.BroadcastsInDim S16x384x256 (![0, 1, 2] : Fin 3 → Fin S16x384x256.rank)
  reducesTo_S16x384x256_S16x256_d1 : S16x384x256.ReducesTo [1] S16x256
  bcast_S16x1x256_S16x384x256_0_1_2 : S16x1x256.BroadcastsInDim S16x384x256 (![0, 1, 2] : Fin 3 → Fin S16x384x256.rank)
  bcast_S_S16x1024x1024 : S_.BroadcastsInDim S16x1024x1024 (![] : Fin 0 → Fin S16x1024x1024.rank)
  reducesTo_S16x1024x1024_S16x1024_d2 : S16x1024x1024.ReducesTo [2] S16x1024
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x384x384 : S_.BroadcastsInDim S16x384x384 (![] : Fin 0 → Fin S16x384x384.rank)
  reducesTo_S16x384x384_S16x384_d2 : S16x384x384.ReducesTo [2] S16x384
  bcast_S_S16x384 : S_.BroadcastsInDim S16x384 (![] : Fin 0 → Fin S16x384.rank)
  bcast_S16x384_S16x384x1_0_1 : S16x384.BroadcastsInDim S16x384x1 (![0, 1] : Fin 2 → Fin S16x384x1.rank)
  bcast_S16x384x1_S16x384x384_0_1_2 : S16x384x1.BroadcastsInDim S16x384x384 (![0, 1, 2] : Fin 3 → Fin S16x384x384.rank)
  bcast_S_S16x1024x384 : S_.BroadcastsInDim S16x1024x384 (![] : Fin 0 → Fin S16x1024x384.rank)
  reducesTo_S16x1024x384_S16x1024_d2 : S16x1024x384.ReducesTo [2] S16x1024
  bcast_S16x1024x1_S16x1024x384_0_1_2 : S16x1024x1.BroadcastsInDim S16x1024x384 (![0, 1, 2] : Fin 3 → Fin S16x1024x384.rank)
  bcast_S1_S1x1x1_2 : S1.BroadcastsInDim S1x1x1 (![2] : Fin 1 → Fin S1x1x1.rank)
  bcast_S1x1x1_S16x384x1_0_1_2 : S1x1x1.BroadcastsInDim S16x384x1 (![0, 1, 2] : Fin 3 → Fin S16x384x1.rank)
  reducesTo_S16x384x1_S16x1_d1 : S16x384x1.ReducesTo [1] S16x1
  bcast_S_S16x1 : S_.BroadcastsInDim S16x1 (![] : Fin 0 → Fin S16x1.rank)
  bcast_S16x1_S16x1x1_0_2 : S16x1.BroadcastsInDim S16x1x1 (![0, 2] : Fin 2 → Fin S16x1x1.rank)
  bcast_S16x1x1_S16x384x1_0_1_2 : S16x1x1.BroadcastsInDim S16x384x1 (![0, 1, 2] : Fin 3 → Fin S16x384x1.rank)
  transposes_S16x384x1_S16x1x384_0_2_1 : S16x384x1.Transposes [0, 2, 1] S16x1x384
  bcast_S16x1x384_S16x1024x384_0_1_2 : S16x1x384.BroadcastsInDim S16x1024x384 (![0, 1, 2] : Fin 3 → Fin S16x1024x384.rank)
  concatenates_S16x1024x768_S16x1024x768_S16x1024x1536_d2 : Shape.Concatenates [S16x1024x768, S16x1024x768] S16x1024x1536 2
  bcast_S768_S1x1x768_2 : S768.BroadcastsInDim S1x1x768 (![2] : Fin 1 → Fin S1x1x768.rank)
  bcast_S1x1x768_S16x1024x768_0_1_2 : S1x1x768.BroadcastsInDim S16x1024x768 (![0, 1, 2] : Fin 3 → Fin S16x1024x768.rank)
  dot_S16x1024x768_S256x768_S16x1024x256_2_1_01_0_n_n_wf : DotDims.WF S16x1024x768 S256x768 S16x1024x256 [2] [1] [0, 1] [0] [] []
  dot_S16x384x768_S256x768_S16x384x256_2_1_01_0_n_n_wf : DotDims.WF S16x384x768 S256x768 S16x384x256 [2] [1] [0, 1] [0] [] []
  dot_S16x1024x256_S16x1024x256_S16x1024x1024_2_2_1_1_0_0_wf : DotDims.WF S16x1024x256 S16x1024x256 S16x1024x1024 [2] [2] [1] [1] [0] [0]
  dot_S16x384x256_S16x384x256_S16x384x384_2_2_1_1_0_0_wf : DotDims.WF S16x384x256 S16x384x256 S16x384x384 [2] [2] [1] [1] [0] [0]
  dot_S16x1024x256_S16x384x256_S16x1024x384_2_2_1_1_0_0_wf : DotDims.WF S16x1024x256 S16x384x256 S16x1024x384 [2] [2] [1] [1] [0] [0]
  dot_S16x1024x1024_S16x1024x768_S16x1024x768_2_1_1_2_0_0_wf : DotDims.WF S16x1024x1024 S16x1024x768 S16x1024x768 [2] [1] [1] [2] [0] [0]
  dot_S16x384x384_S1x384_S16x384x1_2_1_01_0_n_n_wf : DotDims.WF S16x384x384 S1x384 S16x384x1 [2] [1] [0, 1] [0] [] []
  dot_S16x1024x384_S16x384x768_S16x1024x768_2_1_1_2_0_0_wf : DotDims.WF S16x1024x384 S16x384x768 S16x1024x768 [2] [1] [1] [2] [0] [0]
  dot_S16x1024x1536_S768x1536_S16x1024x768_2_1_01_0_n_n_wf : DotDims.WF S16x1024x1536 S768x1536 S16x1024x768 [2] [1] [0, 1] [0] [] []

variable [Facts₀]

def dot_S16x1024x768_S256x768_S16x1024x256_2_1_01_0_n_n : DotDims S16x1024x768 S256x768 S16x1024x256 where
  lhsContracting := [2]
  rhsContracting := [1]
  lhsNonContracting := [0, 1]
  rhsNonContracting := [0]
  lhsBatch := []
  rhsBatch := []
  wf := dot_S16x1024x768_S256x768_S16x1024x256_2_1_01_0_n_n_wf
def dot_S16x384x768_S256x768_S16x384x256_2_1_01_0_n_n : DotDims S16x384x768 S256x768 S16x384x256 where
  lhsContracting := [2]
  rhsContracting := [1]
  lhsNonContracting := [0, 1]
  rhsNonContracting := [0]
  lhsBatch := []
  rhsBatch := []
  wf := dot_S16x384x768_S256x768_S16x384x256_2_1_01_0_n_n_wf
def dot_S16x1024x256_S16x1024x256_S16x1024x1024_2_2_1_1_0_0 : DotDims S16x1024x256 S16x1024x256 S16x1024x1024 where
  lhsContracting := [2]
  rhsContracting := [2]
  lhsNonContracting := [1]
  rhsNonContracting := [1]
  lhsBatch := [0]
  rhsBatch := [0]
  wf := dot_S16x1024x256_S16x1024x256_S16x1024x1024_2_2_1_1_0_0_wf
def dot_S16x384x256_S16x384x256_S16x384x384_2_2_1_1_0_0 : DotDims S16x384x256 S16x384x256 S16x384x384 where
  lhsContracting := [2]
  rhsContracting := [2]
  lhsNonContracting := [1]
  rhsNonContracting := [1]
  lhsBatch := [0]
  rhsBatch := [0]
  wf := dot_S16x384x256_S16x384x256_S16x384x384_2_2_1_1_0_0_wf
def dot_S16x1024x256_S16x384x256_S16x1024x384_2_2_1_1_0_0 : DotDims S16x1024x256 S16x384x256 S16x1024x384 where
  lhsContracting := [2]
  rhsContracting := [2]
  lhsNonContracting := [1]
  rhsNonContracting := [1]
  lhsBatch := [0]
  rhsBatch := [0]
  wf := dot_S16x1024x256_S16x384x256_S16x1024x384_2_2_1_1_0_0_wf
def dot_S16x1024x1024_S16x1024x768_S16x1024x768_2_1_1_2_0_0 : DotDims S16x1024x1024 S16x1024x768 S16x1024x768 where
  lhsContracting := [2]
  rhsContracting := [1]
  lhsNonContracting := [1]
  rhsNonContracting := [2]
  lhsBatch := [0]
  rhsBatch := [0]
  wf := dot_S16x1024x1024_S16x1024x768_S16x1024x768_2_1_1_2_0_0_wf
def dot_S16x384x384_S1x384_S16x384x1_2_1_01_0_n_n : DotDims S16x384x384 S1x384 S16x384x1 where
  lhsContracting := [2]
  rhsContracting := [1]
  lhsNonContracting := [0, 1]
  rhsNonContracting := [0]
  lhsBatch := []
  rhsBatch := []
  wf := dot_S16x384x384_S1x384_S16x384x1_2_1_01_0_n_n_wf
def dot_S16x1024x384_S16x384x768_S16x1024x768_2_1_1_2_0_0 : DotDims S16x1024x384 S16x384x768 S16x1024x768 where
  lhsContracting := [2]
  rhsContracting := [1]
  lhsNonContracting := [1]
  rhsNonContracting := [2]
  lhsBatch := [0]
  rhsBatch := [0]
  wf := dot_S16x1024x384_S16x384x768_S16x1024x768_2_1_1_2_0_0_wf
def dot_S16x1024x1536_S768x1536_S16x1024x768_2_1_01_0_n_n : DotDims S16x1024x1536 S768x1536 S16x1024x768 where
  lhsContracting := [2]
  rhsContracting := [1]
  lhsNonContracting := [0, 1]
  rhsNonContracting := [0]
  lhsBatch := []
  rhsBatch := []
  wf := dot_S16x1024x1536_S768x1536_S16x1024x768_2_1_01_0_n_n_wf

class Facts : Prop extends Facts₀ where

variable [Facts]
-- ==== Proof.KRun.lean ====
/-
  The idealized kernel's run with its two results named.

  @main is six kernel regions in a row.  The generated frame module folds the buffer contents through them: `Gen.W6 m ρ c`
  is what every unscoped buffer of core `c` holds when the last region has written back — each region's arrays at what its
  pipeline leaves, every other buffer as the region found it.  Every weakly fair execution of @main ends, without a
  fault, in a state whose unscoped buffers are `Gen.W6`; read at the two result buffers and at the eighteen arguments
  (which no region writes) this is the run below.
-/
import proofs.«178307_j44994077393156_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the contents the
    fold through the six regions gives them and the argument arrays as launched. -/
theorem run : θ_run defs (onTc (τ := τ) (main (F := F))) ⟨m, fun _ => 0, ρ⟩ (fun r => ∀ c : Dev nD,
      r.2.mem ((c.tc : Thread nD τ).loc main_v5_0) = W6 m ρ c (Proc.devRef .tc main_v5_0)
      ∧ r.2.mem ((c.tc : Thread nD τ).loc main_v5_1) = W6 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5_0 (by decide)),
       h c _ (mem_uc main_v5_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)

end Cert.KernelIdeal.KValue

end
-- ==== Proof.KChain.lean ====
/-
  The buffers' contents as the six calls find them. Between calls nothing but the calls themselves writes a buffer: a call
  leaves each of its result arrays at what its pipeline wrote back, and every other buffer as it found it. So each input of
  each call is either an argument as launched or an earlier call's result array, and the two results of the program are the
  last call's two result arrays.
-/
import proofs.«178307_j44994077393156_1_alg».proof.Proof.Gen.KernelIdeal.Frame
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## What call 0 finds in its input windows -/

/-- Input window 0 of call 0 finds the argument 0 as launched. -/
theorem entry0_0 : V0 m ρ c (Pipeline.arrRef spec0 0) = m ((c : Thread nD τ).loc main_arg0) :=
  calc V0 m ρ c (Pipeline.arrRef spec0 0)
    _ = W0 m ρ c (Proc.devRef .tc main_arg0) := rfl
    _ = m ((c : Thread nD τ).loc main_arg0) := rfl

/-- Input window 1 of call 0 finds the argument 2 as launched. -/
theorem entry0_1 : V0 m ρ c (Pipeline.arrRef spec0 1) = m ((c : Thread nD τ).loc main_arg2) :=
  calc V0 m ρ c (Pipeline.arrRef spec0 1)
    _ = W0 m ρ c (Proc.devRef .tc main_arg2) := rfl
    _ = m ((c : Thread nD τ).loc main_arg2) := rfl

/-- Input window 2 of call 0 finds the argument 3 as launched. -/
theorem entry0_2 : V0 m ρ c (Pipeline.arrRef spec0 2) = m ((c : Thread nD τ).loc main_arg3) :=
  calc V0 m ρ c (Pipeline.arrRef spec0 2)
    _ = W0 m ρ c (Proc.devRef .tc main_arg3) := rfl
    _ = m ((c : Thread nD τ).loc main_arg3) := rfl

/-- Input window 3 of call 0 finds the argument 4 as launched. -/
theorem entry0_3 : V0 m ρ c (Pipeline.arrRef spec0 3) = m ((c : Thread nD τ).loc main_arg4) :=
  calc V0 m ρ c (Pipeline.arrRef spec0 3)
    _ = W0 m ρ c (Proc.devRef .tc main_arg4) := rfl
    _ = m ((c : Thread nD τ).loc main_arg4) := rfl

/-- Input window 4 of call 0 finds the argument 5 as launched. -/
theorem entry0_4 : V0 m ρ c (Pipeline.arrRef spec0 4) = m ((c : Thread nD τ).loc main_arg5) :=
  calc V0 m ρ c (Pipeline.arrRef spec0 4)
    _ = W0 m ρ c (Proc.devRef .tc main_arg5) := rfl
    _ = m ((c : Thread nD τ).loc main_arg5) := rfl

/-- Input window 5 of call 0 finds the argument 6 as launched. -/
theorem entry0_5 : V0 m ρ c (Pipeline.arrRef spec0 5) = m ((c : Thread nD τ).loc main_arg6) :=
  calc V0 m ρ c (Pipeline.arrRef spec0 5)
    _ = W0 m ρ c (Proc.devRef .tc main_arg6) := rfl
    _ = m ((c : Thread nD τ).loc main_arg6) := rfl

/-- Input window 6 of call 0 finds the argument 7 as launched. -/
theorem entry0_6 : V0 m ρ c (Pipeline.arrRef spec0 6) = m ((c : Thread nD τ).loc main_arg7) :=
  calc V0 m ρ c (Pipeline.arrRef spec0 6)
    _ = W0 m ρ c (Proc.devRef .tc main_arg7) := rfl
    _ = m ((c : Thread nD τ).loc main_arg7) := rfl

/-! ## What call 1 finds in its input windows -/

/-- Input window 0 of call 1 finds the argument 1 as launched. -/
theorem entry1_0 : V1 m ρ c (Pipeline.arrRef spec1 0) = m ((c : Thread nD τ).loc main_arg1) :=
  calc V1 m ρ c (Pipeline.arrRef spec1 0)
    _ = W1 m ρ c (Proc.devRef .tc main_arg1) := rfl
    _ = W0 m ρ c (Proc.devRef .tc main_arg1) := W1_of_ne m ρ c main_arg1 (by decide)
    _ = m ((c : Thread nD τ).loc main_arg1) := rfl

/-- Input window 1 of call 1 finds the argument 8 as launched. -/
theorem entry1_1 : V1 m ρ c (Pipeline.arrRef spec1 1) = m ((c : Thread nD τ).loc main_arg8) :=
  calc V1 m ρ c (Pipeline.arrRef spec1 1)
    _ = W1 m ρ c (Proc.devRef .tc main_arg8) := rfl
    _ = W0 m ρ c (Proc.devRef .tc main_arg8) := W1_of_ne m ρ c main_arg8 (by decide)
    _ = m ((c : Thread nD τ).loc main_arg8) := rfl

/-- Input window 2 of call 1 finds the argument 9 as launched. -/
theorem entry1_2 : V1 m ρ c (Pipeline.arrRef spec1 2) = m ((c : Thread nD τ).loc main_arg9) :=
  calc V1 m ρ c (Pipeline.arrRef spec1 2)
    _ = W1 m ρ c (Proc.devRef .tc main_arg9) := rfl
    _ = W0 m ρ c (Proc.devRef .tc main_arg9) := W1_of_ne m ρ c main_arg9 (by decide)
    _ = m ((c : Thread nD τ).loc main_arg9) := rfl

/-- Input window 3 of call 1 finds the argument 10 as launched. -/
theorem entry1_3 : V1 m ρ c (Pipeline.arrRef spec1 3) = m ((c : Thread nD τ).loc main_arg10) :=
  calc V1 m ρ c (Pipeline.arrRef spec1 3)
    _ = W1 m ρ c (Proc.devRef .tc main_arg10) := rfl
    _ = W0 m ρ c (Proc.devRef .tc main_arg10) := W1_of_ne m ρ c main_arg10 (by decide)
    _ = m ((c : Thread nD τ).loc main_arg10) := rfl

/-- Input window 4 of call 1 finds the argument 11 as launched. -/
theorem entry1_4 : V1 m ρ c (Pipeline.arrRef spec1 4) = m ((c : Thread nD τ).loc main_arg11) :=
  calc V1 m ρ c (Pipeline.arrRef spec1 4)
    _ = W1 m ρ c (Proc.devRef .tc main_arg11) := rfl
    _ = W0 m ρ c (Proc.devRef .tc main_arg11) := W1_of_ne m ρ c main_arg11 (by decide)
    _ = m ((c : Thread nD τ).loc main_arg11) := rfl

/-- Input window 5 of call 1 finds the argument 12 as launched. -/
theorem entry1_5 : V1 m ρ c (Pipeline.arrRef spec1 5) = m ((c : Thread nD τ).loc main_arg12) :=
  calc V1 m ρ c (Pipeline.arrRef spec1 5)
    _ = W1 m ρ c (Proc.devRef .tc main_arg12) := rfl
    _ = W0 m ρ c (Proc.devRef .tc main_arg12) := W1_of_ne m ρ c main_arg12 (by decide)
    _ = m ((c : Thread nD τ).loc main_arg12) := rfl

/-- Input window 6 of call 1 finds the argument 13 as launched. -/
theorem entry1_6 : V1 m ρ c (Pipeline.arrRef spec1 6) = m ((c : Thread nD τ).loc main_arg13) :=
  calc V1 m ρ c (Pipeline.arrRef spec1 6)
    _ = W1 m ρ c (Proc.devRef .tc main_arg13) := rfl
    _ = W0 m ρ c (Proc.devRef .tc main_arg13) := W1_of_ne m ρ c main_arg13 (by decide)
    _ = m ((c : Thread nD τ).loc main_arg13) := rfl

/-! ## What call 2 finds in its input windows -/

/-- Input window 0 of call 2 finds call 0's result array of window 7. -/
theorem entry2_0 : V2 m ρ c (Pipeline.arrRef spec2 0) = (dat0 (F := Ideal) (V0 m ρ) c).arrAt 7 cfg0.N :=
  calc V2 m ρ c (Pipeline.arrRef spec2 0)
    _ = W2 m ρ c (Proc.devRef .tc main_v0_0) := rfl
    _ = W1 m ρ c (Proc.devRef .tc main_v0_0) := W2_of_ne m ρ c main_v0_0 (by decide)
    _ = (dat0 (F := Ideal) (V0 m ρ) c).arrAt 7 cfg0.N := W1_arr m ρ c 7

/-- Input window 1 of call 2 finds call 0's result array of window 8. -/
theorem entry2_1 : V2 m ρ c (Pipeline.arrRef spec2 1) = (dat0 (F := Ideal) (V0 m ρ) c).arrAt 8 cfg0.N :=
  calc V2 m ρ c (Pipeline.arrRef spec2 1)
    _ = W2 m ρ c (Proc.devRef .tc main_v0_1) := rfl
    _ = W1 m ρ c (Proc.devRef .tc main_v0_1) := W2_of_ne m ρ c main_v0_1 (by decide)
    _ = (dat0 (F := Ideal) (V0 m ρ) c).arrAt 8 cfg0.N := W1_arr m ρ c 8

/-- Input window 2 of call 2 finds the argument 0 as launched. -/
theorem entry2_2 : V2 m ρ c (Pipeline.arrRef spec2 2) = m ((c : Thread nD τ).loc main_arg0) :=
  calc V2 m ρ c (Pipeline.arrRef spec2 2)
    _ = W2 m ρ c (Proc.devRef .tc main_arg0) := rfl
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-! ## What call 3 finds in its input windows -/

/-- Input window 0 of call 3 finds call 1's result array of window 7. -/
theorem entry3_0 : V3 m ρ c (Pipeline.arrRef spec3 0) = (dat1 (F := Ideal) (V1 m ρ) c).arrAt 7 cfg1.N :=
  calc V3 m ρ c (Pipeline.arrRef spec3 0)
    _ = W3 m ρ c (Proc.devRef .tc main_v1_0) := rfl
    _ = W2 m ρ c (Proc.devRef .tc main_v1_0) := W3_of_ne m ρ c main_v1_0 (by decide)
    _ = (dat1 (F := Ideal) (V1 m ρ) c).arrAt 7 cfg1.N := W2_arr m ρ c 7

/-- Input window 1 of call 3 finds call 1's result array of window 8. -/
theorem entry3_1 : V3 m ρ c (Pipeline.arrRef spec3 1) = (dat1 (F := Ideal) (V1 m ρ) c).arrAt 8 cfg1.N :=
  calc V3 m ρ c (Pipeline.arrRef spec3 1)
    _ = W3 m ρ c (Proc.devRef .tc main_v1_1) := rfl
    _ = W2 m ρ c (Proc.devRef .tc main_v1_1) := W3_of_ne m ρ c main_v1_1 (by decide)
    _ = (dat1 (F := Ideal) (V1 m ρ) c).arrAt 8 cfg1.N := W2_arr m ρ c 8

/-- Input window 2 of call 3 finds the argument 14 as launched. -/
theorem entry3_2 : V3 m ρ c (Pipeline.arrRef spec3 2) = m ((c : Thread nD τ).loc main_arg14) :=
  calc V3 m ρ c (Pipeline.arrRef spec3 2)
    _ = W3 m ρ c (Proc.devRef .tc main_arg14) := rfl
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := W1_of_ne m ρ c main_arg14 (by decide)
    _ = m ((c : Thread nD τ).loc main_arg14) := rfl

/-- Input window 3 of call 3 finds the argument 15 as launched. -/
theorem entry3_3 : V3 m ρ c (Pipeline.arrRef spec3 3) = m ((c : Thread nD τ).loc main_arg15) :=
  calc V3 m ρ c (Pipeline.arrRef spec3 3)
    _ = W3 m ρ c (Proc.devRef .tc main_arg15) := rfl
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := W1_of_ne m ρ c main_arg15 (by decide)
    _ = m ((c : Thread nD τ).loc main_arg15) := rfl

/-! ## What call 4 finds in its input windows -/

/-- Input window 0 of call 4 finds call 0's result array of window 9. -/
theorem entry4_0 : V4 m ρ c (Pipeline.arrRef spec4 0) = (dat0 (F := Ideal) (V0 m ρ) c).arrAt 9 cfg0.N :=
  calc V4 m ρ c (Pipeline.arrRef spec4 0)
    _ = W4 m ρ c (Proc.devRef .tc main_v0_2) := rfl
    _ = W3 m ρ c (Proc.devRef .tc main_v0_2) := W4_of_ne m ρ c main_v0_2 (by decide)
    _ = W2 m ρ c (Proc.devRef .tc main_v0_2) := W3_of_ne m ρ c main_v0_2 (by decide)
    _ = W1 m ρ c (Proc.devRef .tc main_v0_2) := W2_of_ne m ρ c main_v0_2 (by decide)
    _ = (dat0 (F := Ideal) (V0 m ρ) c).arrAt 9 cfg0.N := W1_arr m ρ c 9

/-- Input window 1 of call 4 finds call 1's result array of window 9. -/
theorem entry4_1 : V4 m ρ c (Pipeline.arrRef spec4 1) = (dat1 (F := Ideal) (V1 m ρ) c).arrAt 9 cfg1.N :=
  calc V4 m ρ c (Pipeline.arrRef spec4 1)
    _ = W4 m ρ c (Proc.devRef .tc main_v1_2) := rfl
    _ = W3 m ρ c (Proc.devRef .tc main_v1_2) := W4_of_ne m ρ c main_v1_2 (by decide)
    _ = W2 m ρ c (Proc.devRef .tc main_v1_2) := W3_of_ne m ρ c main_v1_2 (by decide)
    _ = (dat1 (F := Ideal) (V1 m ρ) c).arrAt 9 cfg1.N := W2_arr m ρ c 9

/-- Input window 2 of call 4 finds call 3's result array of window 4. -/
theorem entry4_2 : V4 m ρ c (Pipeline.arrRef spec4 2) = (dat3 (F := Ideal) (V3 m ρ) c).arrAt 4 cfg3.N :=
  calc V4 m ρ c (Pipeline.arrRef spec4 2)
    _ = W4 m ρ c (Proc.devRef .tc main_v3) := rfl
    _ = (dat3 (F := Ideal) (V3 m ρ) c).arrAt 4 cfg3.N := W4_arr m ρ c 4

/-- Input window 3 of call 4 finds the argument 1 as launched. -/
theorem entry4_3 : V4 m ρ c (Pipeline.arrRef spec4 3) = m ((c : Thread nD τ).loc main_arg1) :=
  calc V4 m ρ c (Pipeline.arrRef spec4 3)
    _ = W4 m ρ c (Proc.devRef .tc main_arg1) := rfl
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-! ## What call 5 finds in its input windows -/

/-- Input window 0 of call 5 finds call 2's result array of window 3. -/
theorem entry5_0 : V5 m ρ c (Pipeline.arrRef spec5 0) = (dat2 (F := Ideal) (V2 m ρ) c).arrAt 3 cfg2.N :=
  calc V5 m ρ c (Pipeline.arrRef spec5 0)
    _ = W5 m ρ c (Proc.devRef .tc main_v2) := rfl
    _ = W4 m ρ c (Proc.devRef .tc main_v2) := W5_of_ne m ρ c main_v2 (by decide)
    _ = W3 m ρ c (Proc.devRef .tc main_v2) := W4_of_ne m ρ c main_v2 (by decide)
    _ = (dat2 (F := Ideal) (V2 m ρ) c).arrAt 3 cfg2.N := W3_arr m ρ c 3

/-- Input window 1 of call 5 finds call 4's result array of window 4. -/
theorem entry5_1 : V5 m ρ c (Pipeline.arrRef spec5 1) = (dat4 (F := Ideal) (V4 m ρ) c).arrAt 4 cfg4.N :=
  calc V5 m ρ c (Pipeline.arrRef spec5 1)
    _ = W5 m ρ c (Proc.devRef .tc main_v4) := rfl
    _ = (dat4 (F := Ideal) (V4 m ρ) c).arrAt 4 cfg4.N := W5_arr m ρ c 4

/-- Input window 2 of call 5 finds the argument 16 as launched. -/
theorem entry5_2 : V5 m ρ c (Pipeline.arrRef spec5 2) = m ((c : Thread nD τ).loc main_arg16) :=
  calc V5 m ρ c (Pipeline.arrRef spec5 2)
    _ = W5 m ρ c (Proc.devRef .tc main_arg16) := rfl
    _ = W4 m ρ c (Proc.devRef .tc main_arg16) := W5_of_ne m ρ c main_arg16 (by decide)
    _ = W3 m ρ c (Proc.devRef .tc main_arg16) := W4_of_ne m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := W1_of_ne m ρ c main_arg16 (by decide)
    _ = m ((c : Thread nD τ).loc main_arg16) := rfl

/-- Input window 3 of call 5 finds the argument 17 as launched. -/
theorem entry5_3 : V5 m ρ c (Pipeline.arrRef spec5 3) = m ((c : Thread nD τ).loc main_arg17) :=
  calc V5 m ρ c (Pipeline.arrRef spec5 3)
    _ = W5 m ρ c (Proc.devRef .tc main_arg17) := rfl
    _ = W4 m ρ c (Proc.devRef .tc main_arg17) := W5_of_ne m ρ c main_arg17 (by decide)
    _ = W3 m ρ c (Proc.devRef .tc main_arg17) := W4_of_ne m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := W1_of_ne m ρ c main_arg17 (by decide)
    _ = m ((c : Thread nD τ).loc main_arg17) := rfl

/-! ## The program's two results -/

/-- The buffer of result 0 ends at the last call's result array of window 4. -/
theorem result_0 : W6 m ρ c (Proc.devRef .tc main_v5_0) = (dat5 (F := Ideal) (V5 m ρ) c).arrAt 4 cfg5.N :=
  W6_arr m ρ c 4

/-- The buffer of result 1 ends at the last call's result array of window 5. -/
theorem result_1 : W6 m ρ c (Proc.devRef .tc main_v5_1) = (dat5 (F := Ideal) (V5 m ρ) c).arrAt 5 cfg5.N :=
  W6_arr m ρ c 5

end Cert.KernelIdeal.KValue

end
-- ==== Proof.Spec.lean ====
/-
  The mathematics of the pipeline, stated once, free of both programs.

  Every array is read in coordinates: a rank-3 array `A` is the function `fun b n r => A (ix3 b n r)` of its three
  `Fin` coordinates, and so on.  All values are extended reals; a float operation is the exact one, a change of float
  format the identity.  The stages, one batch element at a time:

  * `lin x W b`      : the affine map  y[n,r] = (Σ_d x[n,d]·W[r,d]) + b[r];
  * `centre cnt y`   : y[n,r] − (Σ_n' y[n',r]) / cnt, the column mean taken off (cnt is the number of rows);
  * `softmax s`      : exp(s[m] − max s) / Σ_m' exp(s[m'] − max s), the maximum a fold of `max` from −∞;
  * `scores q k`     : (Σ_r q[n,r]·k[m,r]) · 1/16;
  * `mix a x`        : Σ_m a[n,m]·x[m,d];
  * `gate lw lb a`   : the softmax over n of (Σ_m lw[m]·a[n,m]) + lb.
-/
import Idealize.ShloMosaic.PureOps.Ideal
import Idealize.ShloMosaic.PureOps.Ideal.Laws
import Idealize.ShloMosaic.Lib.ValueIdx

noncomputable section

namespace Cert.Spec

open Idealize.ShloMosaic

/-- The three float words the programs share besides zero and −∞: 1024, 384 and 1/16, at their ideal values. -/
abbrev c1024 : EReal := Ideal.ofBits .f32 0x44800000#32
abbrev c384 : EReal := Ideal.ofBits .f32 0x43C00000#32
abbrev sixteenth : EReal := Ideal.ofBits .f32 0x3D800000#32

/-- The pattern of −∞ denotes the bottom of the extended reals. -/
theorem ofBits_neg_inf : Ideal.ofBits .f32 0xFF800000#32 = (⊥ : EReal) := by
  simp [Ideal.ofBits, Ideal.ieee]

variable {N M D R : Nat}

/-- y[n,r] = (Σ_d x[n,d]·W[r,d]) + b[r]. -/
def lin (x : Fin N → Fin D → EReal) (W : Fin R → Fin D → EReal) (b : Fin R → EReal) (n : Fin N) (r : Fin R) : EReal :=
  (∑ d : Fin D, x n d * W r d) + b r

/-- y[n,r] minus the mean of column r, the mean as the column's sum divided by `cnt`. -/
def centre (cnt : EReal) (y : Fin N → Fin R → EReal) (n : Fin N) (r : Fin R) : EReal :=
  y n r - Ideal.div (∑ n' : Fin N, y n' r) cnt

/-- The centred projection of one batch element. -/
def proj (cnt : EReal) (x : Fin N → Fin D → EReal) (W : Fin R → Fin D → EReal) (b : Fin R → EReal) : Fin N → Fin R → EReal :=
  centre cnt (lin x W b)

/-- The maximum of a finite family, as the fold of `max` from −∞. -/
def rowMax (s : Fin M → EReal) : EReal := (Finset.univ : Finset (Fin M)).fold max ⊥ s

/-- The softmax of a finite family. -/
def softmax (s : Fin M → EReal) (m : Fin M) : EReal :=
  Ideal.div (Ideal.exp (s m - rowMax s)) (∑ m' : Fin M, Ideal.exp (s m' - rowMax s))

/-- The scaled scores (Σ_r q[n,r]·k[m,r]) · 1/16. -/
def scores (q : Fin N → Fin R → EReal) (k : Fin M → Fin R → EReal) (n : Fin N) (m : Fin M) : EReal :=
  (∑ r : Fin R, q n r * k m r) * sixteenth

/-- The attention weights: each row of the scores through the softmax. -/
def attn (q : Fin N → Fin R → EReal) (k : Fin M → Fin R → EReal) (n : Fin N) : Fin M → EReal :=
  softmax (scores q k n)

/-- Σ_m a[n,m]·x[m,d]. -/
def mix (a : Fin N → Fin M → EReal) (x : Fin M → Fin D → EReal) (n : Fin N) (d : Fin D) : EReal :=
  ∑ m : Fin M, a n m * x m d

/-- The gate: the softmax over n of (Σ_m lw[m]·a[n,m]) + lb. -/
def gate (lw : Fin M → EReal) (lb : EReal) (a : Fin N → Fin M → EReal) : Fin N → EReal :=
  softmax fun n => (∑ m : Fin M, lw m * a n m) + lb

end Cert.Spec

end
-- ==== Proof.KProjBody.lean ====
/-
  What the two centred-projection calls share, free of both programs: the array of centred projections as ONE function
  of the rows array and a weight/bias pair, index by index; that the centred projection respects equal arguments; and the
  zero block offsets written as constant functions.
-/
import proofs.«178307_j44994077393156_1_alg».proof.Proof.Spec
import Idealize.ShloMosaic.Lib.ValueIdx

noncomputable section

namespace Cert.KernelIdeal.KValue

open Idealize.ShloMosaic Idealize.ShloMosaic.ValueIdx

/-- The zero offsets of a whole-block access, as a constant function: rank 3, 2 and 1. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The array of centred projections: entry (b, n, r) is the centred projection of batch element b's rows at (n, r). -/
def projArr {N : Nat} (cnt : EReal) (X : (⟨3, ![16, N, 768]⟩ : Shape).Idx → EReal) (W : (⟨2, ![256, 768]⟩ : Shape).Idx → EReal)
    (B : (⟨1, ![256]⟩ : Shape).Idx → EReal) : (⟨3, ![16, N, 256]⟩ : Shape).Idx → EReal :=
  fun i => Cert.Spec.proj cnt (fun n d => X (ix3 (i 0) n d)) (fun r d => W (ix2 r d)) (fun r => B (ix1 r)) (i 1) (i 2)

/-- Equal rows, weights, bias and position give equal centred projections. -/
theorem proj_congr {N D R : Nat} (cnt : EReal) {x x' : Fin N → Fin D → EReal} {W W' : Fin R → Fin D → EReal}
    {b b' : Fin R → EReal} {n n' : Fin N} {r r' : Fin R} (hx : x = x') (hW : W = W') (hb : b = b') (hn : n = n') (hr : r = r') :
    Cert.Spec.proj cnt x W b n r = Cert.Spec.proj cnt x' W' b' n' r' := by
  subst hx hW hb hn hr; rfl

end Cert.KernelIdeal.KValue

end
-- ==== Proof.KProj0.lean ====
/-
  The first centred-projection call, read off its pipeline: each of its three result arrays is, batch element by batch
  element, the centred projection of that element's 1024 rows by one of the three weight/bias pairs.
-/
import proofs.«178307_j44994077393156_1_alg».proof.Proof.Gen.KernelIdeal.Frame
import proofs.«178307_j44994077393156_1_alg».proof.Proof.Spec
import proofs.«178307_j44994077393156_1_alg».proof.Proof.KProjBody
import Idealize.ShloMosaic.PureOps.Ideal.Laws
import Idealize.ShloMosaic.Lib.Pipeline.Value
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

/-! ## The pieces of the body that are not pointwise -/

/-- The product's left operand index at output (n, r) and contraction coordinate q is row n … -/
theorem mm0_lhs0 (i : S1024x256.Idx) (q : dot_S1024x768_S256x768_S1024x256_1_1_0_0_n_n.contr.Idx) :
    (dot_S1024x768_S256x768_S1024x256_1_1_0_0_n_n.lhsIdx i q 0).val = (i 0).val := by
  unfold DotDims.lhsIdx
  rw [dif_neg (show ¬(0 : Fin S1024x768.rank) ∈ dot_S1024x768_S256x768_S1024x256_1_1_0_0_n_n.lhsBatch by decide), dif_pos (show (0 : Fin S1024x768.rank) ∈ dot_S1024x768_S256x768_S1024x256_1_1_0_0_n_n.lhsNonContracting by decide)]
  rfl
/-- … and column q; … -/
theorem mm0_lhs1 (i : S1024x256.Idx) (q : dot_S1024x768_S256x768_S1024x256_1_1_0_0_n_n.contr.Idx) :
    (dot_S1024x768_S256x768_S1024x256_1_1_0_0_n_n.lhsIdx i q 1).val = (q ⟨0, by decide⟩).val :=
  dot_S1024x768_S256x768_S1024x256_1_1_0_0_n_n.lhsIdx_val_of_single rfl i q
/-- … the right operand's is row r … -/
theorem mm0_rhs0 (i : S1024x256.Idx) (q : dot_S1024x768_S256x768_S1024x256_1_1_0_0_n_n.contr.Idx) :
    (dot_S1024x768_S256x768_S1024x256_1_1_0_0_n_n.rhsIdx i q 0).val = (i 1).val := by
  unfold DotDims.rhsIdx
  rw [dif_neg (show ¬(0 : Fin S256x768.rank) ∈ dot_S1024x768_S256x768_S1024x256_1_1_0_0_n_n.rhsBatch by decide), dif_pos (show (0 : Fin S256x768.rank) ∈ dot_S1024x768_S256x768_S1024x256_1_1_0_0_n_n.rhsNonContracting by decide)]
  rfl
/-- … and column q. -/
theorem mm0_rhs1 (i : S1024x256.Idx) (q : dot_S1024x768_S256x768_S1024x256_1_1_0_0_n_n.contr.Idx) :
    (dot_S1024x768_S256x768_S1024x256_1_1_0_0_n_n.rhsIdx i q 1).val = (q ⟨0, by decide⟩).val :=
  dot_S1024x768_S256x768_S1024x256_1_1_0_0_n_n.rhsIdx_val_of_single rfl i q

/-- The matrix product "nd,rd->nr" into the zero accumulator, at (n, r): Σ_d x[n,d]·w[r,d]. -/
theorem mm0_apply (xb : FVec Ideal S1024x768 .bf16) (wb : FVec Ideal S256x768 .bf16) (n : Fin 1024) (r : Fin 256) :
    matmul dot_S1024x768_S256x768_S1024x256_1_1_0_0_n_n none xb wb (constant (F := Ideal) S1024x256 .f32 0x00000000#32) (ix2 n r)
      = ∑ d : Fin 768, xb (ix2 n d) * wb (ix2 r d) := by
  simp only [matmul]
  rw [Ideal.matmul_constant_zero_apply, ← Equiv.sum_comp (contrEquiv1 dot_S1024x768_S256x768_S1024x256_1_1_0_0_n_n 768 rfl rfl).symm]
  refine Finset.sum_congr rfl fun k _ => ?_
  have hk := contrEquiv1_symm_val dot_S1024x768_S256x768_S1024x256_1_1_0_0_n_n 768 rfl rfl k
  have el : dot_S1024x768_S256x768_S1024x256_1_1_0_0_n_n.lhsIdx (ix2 n r) ((contrEquiv1 dot_S1024x768_S256x768_S1024x256_1_1_0_0_n_n 768 rfl rfl).symm k) = ix2 n k := funext fun a => Fin.ext (by
    match a with
    | ⟨0, _⟩ => exact mm0_lhs0 _ _
    | ⟨1, _⟩ => exact (mm0_lhs1 _ _).trans hk)
  have er : dot_S1024x768_S256x768_S1024x256_1_1_0_0_n_n.rhsIdx (ix2 n r) ((contrEquiv1 dot_S1024x768_S256x768_S1024x256_1_1_0_0_n_n 768 rfl rfl).symm k) = ix2 r k := funext fun a => Fin.ext (by
    match a with
    | ⟨0, _⟩ => exact mm0_rhs0 _ _
    | ⟨1, _⟩ => exact (mm0_rhs1 _ _).trans hk)
  rw [el, er]

/-- The sum down a column: the reduction over the row axis, at r, is Σ_n of the entries (n, r). -/
theorem colsum0_apply (src : FVec Ideal S1024x256 .f32) (hφ : FKind.Formats .f32)
    (hacc : (0x00000000#32 : BitVec 32) = FKind.add.neutral .f32 hφ) (r : Fin 256) :
    multiReduction .add [0] S256 src 0x00000000#32 reduces_S1024x256_S256 hφ hacc (ix1 r) = ∑ k : Fin 1024, src (ix2 k r) := by
  refine (Ideal.multiReduction_add_single src 0x00000000#32 reduces_S1024x256_S256 hφ hacc (ix1 r)).trans ?_
  refine Finset.sum_congr rfl fun k _ => congrArg src ?_
  funext a
  match a with
  | ⟨0, _⟩ => rfl
  | ⟨1, _⟩ => rfl

/-! ## The body's value at an entry -/

/-- The affine map of the body: the matrix product plus the bias row, at (n, r). -/
theorem lin0_apply (xb : FVec Ideal S1024x768 .bf16) (w : Vec Ideal S256x768 .f32) (b : Vec Ideal S256 .f32) (n : Fin 1024) (r : Fin 256) :
    addf (matmul dot_S1024x768_S256x768_S1024x256_1_1_0_0_n_n none xb (truncf .bf16 w bitsLt_bf16_f32) (constant (F := Ideal) S1024x256 .f32 0x00000000#32))
        (broadcastTo S1024x256 (shapeCast S1x256 b shapeCasts_S256_S1x256) broadcasts_S1x256_S1024x256) (ix2 n r)
      = Cert.Spec.lin (fun n d => xb (ix2 n d)) (fun r d => w (ix2 r d)) (fun r => b (ix1 r)) n r := by
  refine (addf_apply _ _ _).trans ?_
  unfold Cert.Spec.lin
  refine congrArg₂ (· + ·) ?_ ?_
  · exact mm0_apply xb (truncf .bf16 w bitsLt_bf16_f32) n r
  · refine (broadcastTo_1b_ab_apply _ _ n r).trans ?_
    exact shapeCast_a_1a_apply b _ (0 : Fin 1) r

/-- The whole body over the narrowed rows: entry (n, r) of what it stores is the centred projection of the rows. -/
theorem pay0_1_apply (xb : FVec Ideal S1024x768 .bf16) (w : Vec Ideal S256x768 .f32) (b : Vec Ideal S256 .f32) (n : Fin 1024) (r : Fin 256) :
    k0_pay1 xb w b (ix3 (0 : Fin 1) n r)
      = Cert.Spec.proj Cert.Spec.c1024 (fun n d => xb (ix2 n d)) (fun r d => w (ix2 r d)) (fun r => b (ix1 r)) n r := by
  unfold k0_pay1
  refine (shapeCast_ab_1ab_apply _ _ (0 : Fin 1) n r).trans ?_
  refine (subf_apply _ _ _).trans ?_
  unfold Cert.Spec.proj Cert.Spec.centre
  refine congrArg₂ (· - ·) ?_ ?_
  · exact lin0_apply xb w b n r
  · refine (broadcastTo_1b_ab_apply _ _ n r).trans ?_
    refine (divf_apply _ _ _).trans ?_
    refine congrArg₂ Ideal.div ?_ rfl
    refine (shapeCast_a_1a_apply _ _ (0 : Fin 1) r).trans ?_
    refine (colsum0_apply _ _ _ r).trans ?_
    exact Finset.sum_congr rfl fun k _ => lin0_apply xb w b k r

/-- The rows as the body narrows them: the block's one batch element, entry by entry. -/
theorem pay0_2_apply (x : Vec Ideal S1x1024x768 .f32) (n : Fin 1024) (d : Fin 768) :
    k0_pay2 x (ix2 n d) = x (ix3 (0 : Fin 1) n d) := by
  unfold k0_pay2
  show shapeCast S1024x768 x shapeCasts_S1x1024x768_S1024x768 (ix2 n d) = _
  exact shapeCast_1ab_ab_apply x _ n d

/-- The three stores of the body are one term: the body over the narrowed rows. -/
theorem pay0_3_eq (x : Vec Ideal S1x1024x768 .f32) (w : Vec Ideal S256x768 .f32) (b : Vec Ideal S256 .f32) :
    k0_pay3 x w b = k0_pay1 (k0_pay2 x) w b := rfl
theorem pay0_4_eq (x : Vec Ideal S1x1024x768 .f32) (w : Vec Ideal S256x768 .f32) (b : Vec Ideal S256 .f32) :
    k0_pay4 x w b = k0_pay1 (k0_pay2 x) w b := rfl

/-- So at ANY index j of the stored block, the body over the block x of one batch element and a weight/bias pair is the
    centred projection of that element's rows at j's row and column. -/
theorem body0_at (x : Vec Ideal S1x1024x768 .f32) (w : Vec Ideal S256x768 .f32) (b : Vec Ideal S256 .f32) (j : S1x1024x256.Idx) :
    k0_pay1 (k0_pay2 x) w b j
      = Cert.Spec.proj Cert.Spec.c1024 (fun n d => x (ix3 (0 : Fin 1) n d)) (fun r d => w (ix2 r d)) (fun r => b (ix1 r)) (j 1) (j 2) := by
  obtain ⟨u, n, r, rfl⟩ : ∃ (u : Fin 1) (n : Fin 1024) (r : Fin 256), j = ix3 u n r := ⟨j 0, j 1, j 2, eq_ix3 j⟩
  obtain rfl : u = 0 := Subsingleton.elim _ _
  refine (pay0_1_apply (k0_pay2 x) w b n r).trans ?_
  have e : (fun n d => k0_pay2 x (ix2 n d)) = fun n d => x (ix3 (0 : Fin 1) n d) :=
    funext fun n => funext fun d => pay0_2_apply x n d
  rw [e]

variable (V : (c : Dev nD) → (b : Ref sig .tc) → Buf (Elt Ideal) ((c : Thread nD τ).loc b))

/-! ## The windows' blocks, read off the arrays

The grid has one axis of 16 points; point t handles batch element t: the rows' window and the three result windows are at
block (t, 0, 0), every weight and bias window at its one block. -/

/-- The printed index maps over the grid: the rows' window moves with the point, … -/
theorem idxX0 : ∀ t : Fin cfg0.N, win0_0.index t (0 : Fin 3) = t.val ∧ win0_0.index t (1 : Fin 3) = 0 ∧ win0_0.index t (2 : Fin 3) = 0 :=
  (by decide +kernel : ∀ t : Fin grid0.N, _)
/-- … weight window 1 stays at its one block, … -/
theorem idxW0_1 : ∀ t : Fin cfg0.N, win0_1.index t (0 : Fin 2) = 0 ∧ win0_1.index t (1 : Fin 2) = 0 :=
  (by decide +kernel : ∀ t : Fin grid0.N, _)
/-- … weight window 3 stays at its one block, … -/
theorem idxW0_3 : ∀ t : Fin cfg0.N, win0_3.index t (0 : Fin 2) = 0 ∧ win0_3.index t (1 : Fin 2) = 0 :=
  (by decide +kernel : ∀ t : Fin grid0.N, _)
/-- … weight window 5 stays at its one block, … -/
theorem idxW0_5 : ∀ t : Fin cfg0.N, win0_5.index t (0 : Fin 2) = 0 ∧ win0_5.index t (1 : Fin 2) = 0 :=
  (by decide +kernel : ∀ t : Fin grid0.N, _)
/-- … bias window 2 stays at its one block, … -/
theorem idxB0_2 : ∀ t : Fin cfg0.N, win0_2.index t (0 : Fin 1) = 0 :=
  (by decide +kernel : ∀ t : Fin grid0.N, _)
/-- … bias window 4 stays at its one block, … -/
theorem idxB0_4 : ∀ t : Fin cfg0.N, win0_4.index t (0 : Fin 1) = 0 :=
  (by decide +kernel : ∀ t : Fin grid0.N, _)
/-- … bias window 6 stays at its one block, … -/
theorem idxB0_6 : ∀ t : Fin cfg0.N, win0_6.index t (0 : Fin 1) = 0 :=
  (by decide +kernel : ∀ t : Fin grid0.N, _)
/-- … and result window 7 moves with the point. -/
theorem idxO0_7 : ∀ t : Fin cfg0.N, win0_7.index t (0 : Fin 3) = t.val ∧ win0_7.index t (1 : Fin 3) = 0 ∧ win0_7.index t (2 : Fin 3) = 0 :=
  (by decide +kernel : ∀ t : Fin grid0.N, _)
/-- … and result window 8 moves with the point. -/
theorem idxO0_8 : ∀ t : Fin cfg0.N, win0_8.index t (0 : Fin 3) = t.val ∧ win0_8.index t (1 : Fin 3) = 0 ∧ win0_8.index t (2 : Fin 3) = 0 :=
  (by decide +kernel : ∀ t : Fin grid0.N, _)
/-- … and result window 9 moves with the point. -/
theorem idxO0_9 : ∀ t : Fin cfg0.N, win0_9.index t (0 : Fin 3) = t.val ∧ win0_9.index t (1 : Fin 3) = 0 ∧ win0_9.index t (2 : Fin 3) = 0 :=
  (by decide +kernel : ∀ t : Fin grid0.N, _)

/-- The rows' block at point t is batch element t of the rows array. -/
theorem xblk0 (c : Dev nD) (t : Fin cfg0.N) (tb : Fin 16) (htb : tb.val = t.val) (n : Fin 1024) (d : Fin 768) :
    (iblk0 V c 0 t : Vec Ideal S1x1024x768 .f32) (ix3 (0 : Fin 1) n d) = (V c (Pipeline.arrRef spec0 0) : S16x1024x768.Idx → EReal) (ix3 tb n d) := by
  obtain ⟨e0, e1, e2⟩ := idxX0 t
  unfold iblk0
  rw [View.read_apply]
  refine congrArg (V c (Pipeline.arrRef spec0 0) : S16x1024x768.Idx → EReal) ?_
  funext a
  apply Fin.ext
  match a with
  | ⟨0, _⟩ => show win0_0.index t (0 : Fin 3) * 1 + 1 * 0 = tb.val; omega
  | ⟨1, _⟩ => show win0_0.index t (1 : Fin 3) * 1024 + 1 * n.val = n.val; omega
  | ⟨2, _⟩ => show win0_0.index t (2 : Fin 3) * 768 + 1 * d.val = d.val; omega

/-- Weight window 1's block is its whole array, at every point. -/
theorem wblk0_1 (c : Dev nD) (t : Fin cfg0.N) :
    (iblk0 V c 1 t : Vec Ideal S256x768 .f32) = (V c (Pipeline.arrRef spec0 1) : S256x768.Idx → EReal) := by
  obtain ⟨e0, e1⟩ := idxW0_1 t
  funext j
  unfold iblk0
  rw [View.read_apply]
  refine congrArg (V c (Pipeline.arrRef spec0 1) : S256x768.Idx → EReal) ?_
  funext a
  apply Fin.ext
  have h0 : (j 0).val < 256 := (j 0).isLt
  have h1 : (j 1).val < 768 := (j 1).isLt
  match a with
  | ⟨0, _⟩ => show win0_1.index t (0 : Fin 2) * 256 + 1 * (j 0).val = (j 0).val; omega
  | ⟨1, _⟩ => show win0_1.index t (1 : Fin 2) * 768 + 1 * (j 1).val = (j 1).val; omega

/-- Weight window 3's block is its whole array, at every point. -/
theorem wblk0_3 (c : Dev nD) (t : Fin cfg0.N) :
    (iblk0 V c 3 t : Vec Ideal S256x768 .f32) = (V c (Pipeline.arrRef spec0 3) : S256x768.Idx → EReal) := by
  obtain ⟨e0, e1⟩ := idxW0_3 t
  funext j
  unfold iblk0
  rw [View.read_apply]
  refine congrArg (V c (Pipeline.arrRef spec0 3) : S256x768.Idx → EReal) ?_
  funext a
  apply Fin.ext
  have h0 : (j 0).val < 256 := (j 0).isLt
  have h1 : (j 1).val < 768 := (j 1).isLt
  match a with
  | ⟨0, _⟩ => show win0_3.index t (0 : Fin 2) * 256 + 1 * (j 0).val = (j 0).val; omega
  | ⟨1, _⟩ => show win0_3.index t (1 : Fin 2) * 768 + 1 * (j 1).val = (j 1).val; omega

/-- Weight window 5's block is its whole array, at every point. -/
theorem wblk0_5 (c : Dev nD) (t : Fin cfg0.N) :
    (iblk0 V c 5 t : Vec Ideal S256x768 .f32) = (V c (Pipeline.arrRef spec0 5) : S256x768.Idx → EReal) := by
  obtain ⟨e0, e1⟩ := idxW0_5 t
  funext j
  unfold iblk0
  rw [View.read_apply]
  refine congrArg (V c (Pipeline.arrRef spec0 5) : S256x768.Idx → EReal) ?_
  funext a
  apply Fin.ext
  have h0 : (j 0).val < 256 := (j 0).isLt
  have h1 : (j 1).val < 768 := (j 1).isLt
  match a with
  | ⟨0, _⟩ => show win0_5.index t (0 : Fin 2) * 256 + 1 * (j 0).val = (j 0).val; omega
  | ⟨1, _⟩ => show win0_5.index t (1 : Fin 2) * 768 + 1 * (j 1).val = (j 1).val; omega

/-- Bias window 2's block is its whole array, at every point. -/
theorem bblk0_2 (c : Dev nD) (t : Fin cfg0.N) :
    (iblk0 V c 2 t : Vec Ideal S256 .f32) = (V c (Pipeline.arrRef spec0 2) : S256.Idx → EReal) := by
  have e0 := idxB0_2 t
  funext j
  unfold iblk0
  rw [View.read_apply]
  refine congrArg (V c (Pipeline.arrRef spec0 2) : S256.Idx → EReal) ?_
  funext a
  apply Fin.ext
  match a with
  | ⟨0, _⟩ => show win0_2.index t (0 : Fin 1) * 256 + 1 * (j 0).val = (j 0).val; omega

/-- Bias window 4's block is its whole array, at every point. -/
theorem bblk0_4 (c : Dev nD) (t : Fin cfg0.N) :
    (iblk0 V c 4 t : Vec Ideal S256 .f32) = (V c (Pipeline.arrRef spec0 4) : S256.Idx → EReal) := by
  have e0 := idxB0_4 t
  funext j
  unfold iblk0
  rw [View.read_apply]
  refine congrArg (V c (Pipeline.arrRef spec0 4) : S256.Idx → EReal) ?_
  funext a
  apply Fin.ext
  match a with
  | ⟨0, _⟩ => show win0_4.index t (0 : Fin 1) * 256 + 1 * (j 0).val = (j 0).val; omega

/-- Bias window 6's block is its whole array, at every point. -/
theorem bblk0_6 (c : Dev nD) (t : Fin cfg0.N) :
    (iblk0 V c 6 t : Vec Ideal S256 .f32) = (V c (Pipeline.arrRef spec0 6) : S256.Idx → EReal) := by
  have e0 := idxB0_6 t
  funext j
  unfold iblk0
  rw [View.read_apply]
  refine congrArg (V c (Pipeline.arrRef spec0 6) : S256.Idx → EReal) ?_
  funext a
  apply Fin.ext
  match a with
  | ⟨0, _⟩ => show win0_6.index t (0 : Fin 1) * 256 + 1 * (j 0).val = (j 0).val; omega

/-! ## Result window 7: weight and bias windows 1 and 2 -/

/-- WHAT POINT t WRITES BACK to result window 7 is block t of the array of centred projections of the rows array by the
    weight/bias pair of windows 1 and 2, all three as the region finds them. -/
theorem flushed0_7_eq (c : Dev nD) (t : Fin cfg0.N) :
    (dat0 (F := Ideal) V c).flushed 7 t
      = ((cfg0.win 7).blk t).view.read (Elt Ideal) (projArr Cert.Spec.c1024 (V c (Pipeline.arrRef spec0 0) : S16x1024x768.Idx → EReal) (V c (Pipeline.arrRef spec0 1) : S256x768.Idx → EReal) (V c (Pipeline.arrRef spec0 2) : S256.Idx → EReal)) := by
  show (cfg0.win 7).cut (grid0.coords t) ((dat0 (F := Ideal) V c).after 7 t) = _
  rw [after0_7]
  unfold out0_7
  rw [View.canon_unit_zero hz3]
  simp only [View.ld_unit_zero (S := S1x1024x768) hz3, View.ld_unit_zero (S := S256x768) hz2, View.ld_unit_zero (S := S256) hz1]
  obtain ⟨e0, e1, e2⟩ := idxO0_7 t
  funext j
  show k0_pay1 (k0_pay2 (iblk0 V c 0 t)) (iblk0 V c 1 t) (iblk0 V c 2 t) j
    = projArr Cert.Spec.c1024 (V c (Pipeline.arrRef spec0 0) : S16x1024x768.Idx → EReal) (V c (Pipeline.arrRef spec0 1) : S256x768.Idx → EReal) (V c (Pipeline.arrRef spec0 2) : S256.Idx → EReal) (((cfg0.win 7).blk t).view.emb j)
  refine (body0_at (iblk0 V c 0 t) (iblk0 V c 1 t) (iblk0 V c 2 t) j).trans ?_
  have hj0 : (j 0).val < 1 := (j 0).isLt
  have hj1 : (j 1).val < 1024 := (j 1).isLt
  have hj2 : (j 2).val < 256 := (j 2).isLt
  unfold projArr
  refine proj_congr Cert.Spec.c1024 ?_ ?_ ?_ ?_ ?_
  · funext n d
    refine xblk0 V c t _ ?_ n d
    show win0_7.index t (0 : Fin 3) * 1 + 1 * (j 0).val = t.val
    omega
  · exact congrArg (fun (f : S256x768.Idx → EReal) => fun (r : Fin 256) (d : Fin 768) => f (ix2 r d)) (wblk0_1 V c t)
  · exact congrArg (fun (f : S256.Idx → EReal) => fun (r : Fin 256) => f (ix1 r)) (bblk0_2 V c t)
  · apply Fin.ext
    show (j 1).val = win0_7.index t (1 : Fin 3) * 1024 + 1 * (j 1).val
    omega
  · apply Fin.ext
    show (j 2).val = win0_7.index t (2 : Fin 3) * 256 + 1 * (j 2).val
    omega

/-- An index of the result array is in point t's block iff each coordinate is in the block's range on its axis. -/
theorem mem_blk0_7 (t : Fin cfg0.N) (i : S16x1024x256.Idx) :
    i ∈ ((cfg0.win 7).blk t).view.set ↔ ∀ a : Fin 3, win0_7.index t a * S1x1024x256.size a ≤ (i a).val ∧ (i a).val < win0_7.index t a * S1x1024x256.size a + S1x1024x256.size a := by
  show i ∈ ((View.whole main_v0_0).slice (win0_7.rect t)).set ↔ _
  rw [View.set_slice_whole, Rect.mem_set_unit]
  exact Iff.rfl

/-- Every index of the result array is in the block of the point its batch coordinate names. -/
theorem covered0_7 (i : S16x1024x256.Idx) :
    ∃ t : Fin cfg0.N, (cfg0.win 7).flush t = true ∧ i ∈ ((cfg0.win 7).blk t).view.set := by
  have hi0 : (i 0).val < 16 := (i 0).isLt
  have hi1 : (i 1).val < 1024 := (i 1).isLt
  have hi2 : (i 2).val < 256 := (i 2).isLt
  obtain ⟨t, ht⟩ : ∃ t : Fin cfg0.N, t.val = (i 0).val := ⟨⟨(i 0).val, by rw [show cfg0.N = 16 from N_0]; exact hi0⟩, rfl⟩
  obtain ⟨e0, e1, e2⟩ := idxO0_7 t
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 256 ≤ (i 2).val ∧ (i 2).val < win0_7.index t (2 : Fin 3) * 256 + 256; omega

/-- THE ARRAY after the call: the centred projection of each batch element's rows by the pair of windows 1 and 2. -/
theorem final0_7 (c : Dev nD) :
    (dat0 (F := Ideal) V c).arrAt 7 cfg0.N
      = fun (i : S16x1024x256.Idx) => Cert.Spec.proj Cert.Spec.c1024
          (fun n d => (V c (Pipeline.arrRef spec0 0) : S16x1024x768.Idx → EReal) (ix3 (i 0) n d))
          (fun r d => (V c (Pipeline.arrRef spec0 1) : S256x768.Idx → EReal) (ix2 r d))
          (fun r => (V c (Pipeline.arrRef spec0 2) : S256.Idx → EReal) (ix1 r)) (i 1) (i 2) :=
  (dat0 (F := Ideal) V c).arrAt_eq_of_cover 7 (projArr Cert.Spec.c1024 (V c (Pipeline.arrRef spec0 0) : S16x1024x768.Idx → EReal) (V c (Pipeline.arrRef spec0 1) : S256x768.Idx → EReal) (V c (Pipeline.arrRef spec0 2) : S256.Idx → EReal))
    (fun t _ => flushed0_7_eq V c t) covered0_7

/-! ## Result window 8: weight and bias windows 3 and 4 -/

/-- WHAT POINT t WRITES BACK to result window 8 is block t of the array of centred projections of the rows array by the
    weight/bias pair of windows 3 and 4, all three as the region finds them. -/
theorem flushed0_8_eq (c : Dev nD) (t : Fin cfg0.N) :
    (dat0 (F := Ideal) V c).flushed 8 t
      = ((cfg0.win 8).blk t).view.read (Elt Ideal) (projArr Cert.Spec.c1024 (V c (Pipeline.arrRef spec0 0) : S16x1024x768.Idx → EReal) (V c (Pipeline.arrRef spec0 3) : S256x768.Idx → EReal) (V c (Pipeline.arrRef spec0 4) : S256.Idx → EReal)) := by
  show (cfg0.win 8).cut (grid0.coords t) ((dat0 (F := Ideal) V c).after 8 t) = _
  rw [after0_8]
  unfold out0_8
  rw [View.canon_unit_zero hz3]
  simp only [View.ld_unit_zero (S := S1x1024x768) hz3, View.ld_unit_zero (S := S256x768) hz2, View.ld_unit_zero (S := S256) hz1]
  obtain ⟨e0, e1, e2⟩ := idxO0_8 t
  funext j
  show k0_pay1 (k0_pay2 (iblk0 V c 0 t)) (iblk0 V c 3 t) (iblk0 V c 4 t) j
    = projArr Cert.Spec.c1024 (V c (Pipeline.arrRef spec0 0) : S16x1024x768.Idx → EReal) (V c (Pipeline.arrRef spec0 3) : S256x768.Idx → EReal) (V c (Pipeline.arrRef spec0 4) : S256.Idx → EReal) (((cfg0.win 8).blk t).view.emb j)
  refine (body0_at (iblk0 V c 0 t) (iblk0 V c 3 t) (iblk0 V c 4 t) j).trans ?_
  have hj0 : (j 0).val < 1 := (j 0).isLt
  have hj1 : (j 1).val < 1024 := (j 1).isLt
  have hj2 : (j 2).val < 256 := (j 2).isLt
  unfold projArr
  refine proj_congr Cert.Spec.c1024 ?_ ?_ ?_ ?_ ?_
  · funext n d
    refine xblk0 V c t _ ?_ n d
    show win0_8.index t (0 : Fin 3) * 1 + 1 * (j 0).val = t.val
    omega
  · exact congrArg (fun (f : S256x768.Idx → EReal) => fun (r : Fin 256) (d : Fin 768) => f (ix2 r d)) (wblk0_3 V c t)
  · exact congrArg (fun (f : S256.Idx → EReal) => fun (r : Fin 256) => f (ix1 r)) (bblk0_4 V c t)
  · apply Fin.ext
    show (j 1).val = win0_8.index t (1 : Fin 3) * 1024 + 1 * (j 1).val
    omega
  · apply Fin.ext
    show (j 2).val = win0_8.index t (2 : Fin 3) * 256 + 1 * (j 2).val
    omega

/-- An index of the result array is in point t's block iff each coordinate is in the block's range on its axis. -/
theorem mem_blk0_8 (t : Fin cfg0.N) (i : S16x1024x256.Idx) :
    i ∈ ((cfg0.win 8).blk t).view.set ↔ ∀ a : Fin 3, win0_8.index t a * S1x1024x256.size a ≤ (i a).val ∧ (i a).val < win0_8.index t a * S1x1024x256.size a + S1x1024x256.size a := by
  show i ∈ ((View.whole main_v0_1).slice (win0_8.rect t)).set ↔ _
  rw [View.set_slice_whole, Rect.mem_set_unit]
  exact Iff.rfl

/-- Every index of the result array is in the block of the point its batch coordinate names. -/
theorem covered0_8 (i : S16x1024x256.Idx) :
    ∃ t : Fin cfg0.N, (cfg0.win 8).flush t = true ∧ i ∈ ((cfg0.win 8).blk t).view.set := by
  have hi0 : (i 0).val < 16 := (i 0).isLt
  have hi1 : (i 1).val < 1024 := (i 1).isLt
  have hi2 : (i 2).val < 256 := (i 2).isLt
  obtain ⟨t, ht⟩ : ∃ t : Fin cfg0.N, t.val = (i 0).val := ⟨⟨(i 0).val, by rw [show cfg0.N = 16 from N_0]; exact hi0⟩, rfl⟩
  obtain ⟨e0, e1, e2⟩ := idxO0_8 t
  refine ⟨t, flush0_8 t, ?_⟩
  rw [mem_blk0_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 256 ≤ (i 2).val ∧ (i 2).val < win0_8.index t (2 : Fin 3) * 256 + 256; omega

/-- THE ARRAY after the call: the centred projection of each batch element's rows by the pair of windows 3 and 4. -/
theorem final0_8 (c : Dev nD) :
    (dat0 (F := Ideal) V c).arrAt 8 cfg0.N
      = fun (i : S16x1024x256.Idx) => Cert.Spec.proj Cert.Spec.c1024
          (fun n d => (V c (Pipeline.arrRef spec0 0) : S16x1024x768.Idx → EReal) (ix3 (i 0) n d))
          (fun r d => (V c (Pipeline.arrRef spec0 3) : S256x768.Idx → EReal) (ix2 r d))
          (fun r => (V c (Pipeline.arrRef spec0 4) : S256.Idx → EReal) (ix1 r)) (i 1) (i 2) :=
  (dat0 (F := Ideal) V c).arrAt_eq_of_cover 8 (projArr Cert.Spec.c1024 (V c (Pipeline.arrRef spec0 0) : S16x1024x768.Idx → EReal) (V c (Pipeline.arrRef spec0 3) : S256x768.Idx → EReal) (V c (Pipeline.arrRef spec0 4) : S256.Idx → EReal))
    (fun t _ => flushed0_8_eq V c t) covered0_8

/-! ## Result window 9: weight and bias windows 5 and 6 -/

/-- WHAT POINT t WRITES BACK to result window 9 is block t of the array of centred projections of the rows array by the
    weight/bias pair of windows 5 and 6, all three as the region finds them. -/
theorem flushed0_9_eq (c : Dev nD) (t : Fin cfg0.N) :
    (dat0 (F := Ideal) V c).flushed 9 t
      = ((cfg0.win 9).blk t).view.read (Elt Ideal) (projArr Cert.Spec.c1024 (V c (Pipeline.arrRef spec0 0) : S16x1024x768.Idx → EReal) (V c (Pipeline.arrRef spec0 5) : S256x768.Idx → EReal) (V c (Pipeline.arrRef spec0 6) : S256.Idx → EReal)) := by
  show (cfg0.win 9).cut (grid0.coords t) ((dat0 (F := Ideal) V c).after 9 t) = _
  rw [after0_9]
  unfold out0_9
  rw [View.canon_unit_zero hz3]
  simp only [View.ld_unit_zero (S := S1x1024x768) hz3, View.ld_unit_zero (S := S256x768) hz2, View.ld_unit_zero (S := S256) hz1]
  obtain ⟨e0, e1, e2⟩ := idxO0_9 t
  funext j
  show k0_pay1 (k0_pay2 (iblk0 V c 0 t)) (iblk0 V c 5 t) (iblk0 V c 6 t) j
    = projArr Cert.Spec.c1024 (V c (Pipeline.arrRef spec0 0) : S16x1024x768.Idx → EReal) (V c (Pipeline.arrRef spec0 5) : S256x768.Idx → EReal) (V c (Pipeline.arrRef spec0 6) : S256.Idx → EReal) (((cfg0.win 9).blk t).view.emb j)
  refine (body0_at (iblk0 V c 0 t) (iblk0 V c 5 t) (iblk0 V c 6 t) j).trans ?_
  have hj0 : (j 0).val < 1 := (j 0).isLt
  have hj1 : (j 1).val < 1024 := (j 1).isLt
  have hj2 : (j 2).val < 256 := (j 2).isLt
  unfold projArr
  refine proj_congr Cert.Spec.c1024 ?_ ?_ ?_ ?_ ?_
  · funext n d
    refine xblk0 V c t _ ?_ n d
    show win0_9.index t (0 : Fin 3) * 1 + 1 * (j 0).val = t.val
    omega
  · exact congrArg (fun (f : S256x768.Idx → EReal) => fun (r : Fin 256) (d : Fin 768) => f (ix2 r d)) (wblk0_5 V c t)
  · exact congrArg (fun (f : S256.Idx → EReal) => fun (r : Fin 256) => f (ix1 r)) (bblk0_6 V c t)
  · apply Fin.ext
    show (j 1).val = win0_9.index t (1 : Fin 3) * 1024 + 1 * (j 1).val
    omega
  · apply Fin.ext
    show (j 2).val = win0_9.index t (2 : Fin 3) * 256 + 1 * (j 2).val
    omega

/-- An index of the result array is in point t's block iff each coordinate is in the block's range on its axis. -/
theorem mem_blk0_9 (t : Fin cfg0.N) (i : S16x1024x256.Idx) :
    i ∈ ((cfg0.win 9).blk t).view.set ↔ ∀ a : Fin 3, win0_9.index t a * S1x1024x256.size a ≤ (i a).val ∧ (i a).val < win0_9.index t a * S1x1024x256.size a + S1x1024x256.size a := by
  show i ∈ ((View.whole main_v0_2).slice (win0_9.rect t)).set ↔ _
  rw [View.set_slice_whole, Rect.mem_set_unit]
  exact Iff.rfl

/-- Every index of the result array is in the block of the point its batch coordinate names. -/
theorem covered0_9 (i : S16x1024x256.Idx) :
    ∃ t : Fin cfg0.N, (cfg0.win 9).flush t = true ∧ i ∈ ((cfg0.win 9).blk t).view.set := by
  have hi0 : (i 0).val < 16 := (i 0).isLt
  have hi1 : (i 1).val < 1024 := (i 1).isLt
  have hi2 : (i 2).val < 256 := (i 2).isLt
  obtain ⟨t, ht⟩ : ∃ t : Fin cfg0.N, t.val = (i 0).val := ⟨⟨(i 0).val, by rw [show cfg0.N = 16 from N_0]; exact hi0⟩, rfl⟩
  obtain ⟨e0, e1, e2⟩ := idxO0_9 t
  refine ⟨t, flush0_9 t, ?_⟩
  rw [mem_blk0_9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 256 ≤ (i 2).val ∧ (i 2).val < win0_9.index t (2 : Fin 3) * 256 + 256; omega

/-- THE ARRAY after the call: the centred projection of each batch element's rows by the pair of windows 5 and 6. -/
theorem final0_9 (c : Dev nD) :
    (dat0 (F := Ideal) V c).arrAt 9 cfg0.N
      = fun (i : S16x1024x256.Idx) => Cert.Spec.proj Cert.Spec.c1024
          (fun n d => (V c (Pipeline.arrRef spec0 0) : S16x1024x768.Idx → EReal) (ix3 (i 0) n d))
          (fun r d => (V c (Pipeline.arrRef spec0 5) : S256x768.Idx → EReal) (ix2 r d))
          (fun r => (V c (Pipeline.arrRef spec0 6) : S256.Idx → EReal) (ix1 r)) (i 1) (i 2) :=
  (dat0 (F := Ideal) V c).arrAt_eq_of_cover 9 (projArr Cert.Spec.c1024 (V c (Pipeline.arrRef spec0 0) : S16x1024x768.Idx → EReal) (V c (Pipeline.arrRef spec0 5) : S256x768.Idx → EReal) (V c (Pipeline.arrRef spec0 6) : S256.Idx → EReal))
    (fun t _ => flushed0_9_eq V c t) covered0_9

end Cert.KernelIdeal.KValue

end
-- ==== Proof.KProj1.lean ====
/-
  The second centred-projection call, read off its pipeline: each of its three result arrays is, batch element by batch
  element, the centred projection of that element's 384 rows by one of the three weight/bias pairs.
-/
import proofs.«178307_j44994077393156_1_alg».proof.Proof.Gen.KernelIdeal.Frame
import proofs.«178307_j44994077393156_1_alg».proof.Proof.Spec
import proofs.«178307_j44994077393156_1_alg».proof.Proof.KProjBody
import Idealize.ShloMosaic.PureOps.Ideal.Laws
import Idealize.ShloMosaic.Lib.Pipeline.Value
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

/-! ## The pieces of the body that are not pointwise -/

/-- The product's left operand index at output (n, r) and contraction coordinate q is row n … -/
theorem mm1_lhs0 (i : S384x256.Idx) (q : dot_S384x768_S256x768_S384x256_1_1_0_0_n_n.contr.Idx) :
    (dot_S384x768_S256x768_S384x256_1_1_0_0_n_n.lhsIdx i q 0).val = (i 0).val := by
  unfold DotDims.lhsIdx
  rw [dif_neg (show ¬(0 : Fin S384x768.rank) ∈ dot_S384x768_S256x768_S384x256_1_1_0_0_n_n.lhsBatch by decide), dif_pos (show (0 : Fin S384x768.rank) ∈ dot_S384x768_S256x768_S384x256_1_1_0_0_n_n.lhsNonContracting by decide)]
  rfl
/-- … and column q; … -/
theorem mm1_lhs1 (i : S384x256.Idx) (q : dot_S384x768_S256x768_S384x256_1_1_0_0_n_n.contr.Idx) :
    (dot_S384x768_S256x768_S384x256_1_1_0_0_n_n.lhsIdx i q 1).val = (q ⟨0, by decide⟩).val :=
  dot_S384x768_S256x768_S384x256_1_1_0_0_n_n.lhsIdx_val_of_single rfl i q
/-- … the right operand's is row r … -/
theorem mm1_rhs0 (i : S384x256.Idx) (q : dot_S384x768_S256x768_S384x256_1_1_0_0_n_n.contr.Idx) :
    (dot_S384x768_S256x768_S384x256_1_1_0_0_n_n.rhsIdx i q 0).val = (i 1).val := by
  unfold DotDims.rhsIdx
  rw [dif_neg (show ¬(0 : Fin S256x768.rank) ∈ dot_S384x768_S256x768_S384x256_1_1_0_0_n_n.rhsBatch by decide), dif_pos (show (0 : Fin S256x768.rank) ∈ dot_S384x768_S256x768_S384x256_1_1_0_0_n_n.rhsNonContracting by decide)]
  rfl
/-- … and column q. -/
theorem mm1_rhs1 (i : S384x256.Idx) (q : dot_S384x768_S256x768_S384x256_1_1_0_0_n_n.contr.Idx) :
    (dot_S384x768_S256x768_S384x256_1_1_0_0_n_n.rhsIdx i q 1).val = (q ⟨0, by decide⟩).val :=
  dot_S384x768_S256x768_S384x256_1_1_0_0_n_n.rhsIdx_val_of_single rfl i q

/-- The matrix product "nd,rd->nr" into the zero accumulator, at (n, r): Σ_d x[n,d]·w[r,d]. -/
theorem mm1_apply (xb : FVec Ideal S384x768 .bf16) (wb : FVec Ideal S256x768 .bf16) (n : Fin 384) (r : Fin 256) :
    matmul dot_S384x768_S256x768_S384x256_1_1_0_0_n_n none xb wb (constant (F := Ideal) S384x256 .f32 0x00000000#32) (ix2 n r)
      = ∑ d : Fin 768, xb (ix2 n d) * wb (ix2 r d) := by
  simp only [matmul]
  rw [Ideal.matmul_constant_zero_apply, ← Equiv.sum_comp (contrEquiv1 dot_S384x768_S256x768_S384x256_1_1_0_0_n_n 768 rfl rfl).symm]
  refine Finset.sum_congr rfl fun k _ => ?_
  have hk := contrEquiv1_symm_val dot_S384x768_S256x768_S384x256_1_1_0_0_n_n 768 rfl rfl k
  have el : dot_S384x768_S256x768_S384x256_1_1_0_0_n_n.lhsIdx (ix2 n r) ((contrEquiv1 dot_S384x768_S256x768_S384x256_1_1_0_0_n_n 768 rfl rfl).symm k) = ix2 n k := funext fun a => Fin.ext (by
    match a with
    | ⟨0, _⟩ => exact mm1_lhs0 _ _
    | ⟨1, _⟩ => exact (mm1_lhs1 _ _).trans hk)
  have er : dot_S384x768_S256x768_S384x256_1_1_0_0_n_n.rhsIdx (ix2 n r) ((contrEquiv1 dot_S384x768_S256x768_S384x256_1_1_0_0_n_n 768 rfl rfl).symm k) = ix2 r k := funext fun a => Fin.ext (by
    match a with
    | ⟨0, _⟩ => exact mm1_rhs0 _ _
    | ⟨1, _⟩ => exact (mm1_rhs1 _ _).trans hk)
  rw [el, er]

/-- The sum down a column: the reduction over the row axis, at r, is Σ_n of the entries (n, r). -/
theorem colsum1_apply (src : FVec Ideal S384x256 .f32) (hφ : FKind.Formats .f32)
    (hacc : (0x00000000#32 : BitVec 32) = FKind.add.neutral .f32 hφ) (r : Fin 256) :
    multiReduction .add [0] S256 src 0x00000000#32 reduces_S384x256_S256 hφ hacc (ix1 r) = ∑ k : Fin 384, src (ix2 k r) := by
  refine (Ideal.multiReduction_add_single src 0x00000000#32 reduces_S384x256_S256 hφ hacc (ix1 r)).trans ?_
  refine Finset.sum_congr rfl fun k _ => congrArg src ?_
  funext a
  match a with
  | ⟨0, _⟩ => rfl
  | ⟨1, _⟩ => rfl

/-! ## The body's value at an entry -/

/-- The affine map of the body: the matrix product plus the bias row, at (n, r). -/
theorem lin1_apply (xb : FVec Ideal S384x768 .bf16) (w : Vec Ideal S256x768 .f32) (b : Vec Ideal S256 .f32) (n : Fin 384) (r : Fin 256) :
    addf (matmul dot_S384x768_S256x768_S384x256_1_1_0_0_n_n none xb (truncf .bf16 w bitsLt_bf16_f32) (constant (F := Ideal) S384x256 .f32 0x00000000#32))
        (broadcastTo S384x256 (shapeCast S1x256 b shapeCasts_S256_S1x256) broadcasts_S1x256_S384x256) (ix2 n r)
      = Cert.Spec.lin (fun n d => xb (ix2 n d)) (fun r d => w (ix2 r d)) (fun r => b (ix1 r)) n r := by
  refine (addf_apply _ _ _).trans ?_
  unfold Cert.Spec.lin
  refine congrArg₂ (· + ·) ?_ ?_
  · exact mm1_apply xb (truncf .bf16 w bitsLt_bf16_f32) n r
  · refine (broadcastTo_1b_ab_apply _ _ n r).trans ?_
    exact shapeCast_a_1a_apply b _ (0 : Fin 1) r

/-- The whole body over the narrowed rows: entry (n, r) of what it stores is the centred projection of the rows. -/
theorem pay1_1_apply (xb : FVec Ideal S384x768 .bf16) (w : Vec Ideal S256x768 .f32) (b : Vec Ideal S256 .f32) (n : Fin 384) (r : Fin 256) :
    k1_pay1 xb w b (ix3 (0 : Fin 1) n r)
      = Cert.Spec.proj Cert.Spec.c384 (fun n d => xb (ix2 n d)) (fun r d => w (ix2 r d)) (fun r => b (ix1 r)) n r := by
  unfold k1_pay1
  refine (shapeCast_ab_1ab_apply _ _ (0 : Fin 1) n r).trans ?_
  refine (subf_apply _ _ _).trans ?_
  unfold Cert.Spec.proj Cert.Spec.centre
  refine congrArg₂ (· - ·) ?_ ?_
  · exact lin1_apply xb w b n r
  · refine (broadcastTo_1b_ab_apply _ _ n r).trans ?_
    refine (divf_apply _ _ _).trans ?_
    refine congrArg₂ Ideal.div ?_ rfl
    refine (shapeCast_a_1a_apply _ _ (0 : Fin 1) r).trans ?_
    refine (colsum1_apply _ _ _ r).trans ?_
    exact Finset.sum_congr rfl fun k _ => lin1_apply xb w b k r

/-- The rows as the body narrows them: the block's one batch element, entry by entry. -/
theorem pay1_2_apply (x : Vec Ideal S1x384x768 .f32) (n : Fin 384) (d : Fin 768) :
    k1_pay2 x (ix2 n d) = x (ix3 (0 : Fin 1) n d) := by
  unfold k1_pay2
  show shapeCast S384x768 x shapeCasts_S1x384x768_S384x768 (ix2 n d) = _
  exact shapeCast_1ab_ab_apply x _ n d

/-- The three stores of the body are one term: the body over the narrowed rows. -/
theorem pay1_3_eq (x : Vec Ideal S1x384x768 .f32) (w : Vec Ideal S256x768 .f32) (b : Vec Ideal S256 .f32) :
    k1_pay3 x w b = k1_pay1 (k1_pay2 x) w b := rfl
theorem pay1_4_eq (x : Vec Ideal S1x384x768 .f32) (w : Vec Ideal S256x768 .f32) (b : Vec Ideal S256 .f32) :
    k1_pay4 x w b = k1_pay1 (k1_pay2 x) w b := rfl

/-- So at ANY index j of the stored block, the body over the block x of one batch element and a weight/bias pair is the
    centred projection of that element's rows at j's row and column. -/
theorem body1_at (x : Vec Ideal S1x384x768 .f32) (w : Vec Ideal S256x768 .f32) (b : Vec Ideal S256 .f32) (j : S1x384x256.Idx) :
    k1_pay1 (k1_pay2 x) w b j
      = Cert.Spec.proj Cert.Spec.c384 (fun n d => x (ix3 (0 : Fin 1) n d)) (fun r d => w (ix2 r d)) (fun r => b (ix1 r)) (j 1) (j 2) := by
  obtain ⟨u, n, r, rfl⟩ : ∃ (u : Fin 1) (n : Fin 384) (r : Fin 256), j = ix3 u n r := ⟨j 0, j 1, j 2, eq_ix3 j⟩
  obtain rfl : u = 0 := Subsingleton.elim _ _
  refine (pay1_1_apply (k1_pay2 x) w b n r).trans ?_
  have e : (fun n d => k1_pay2 x (ix2 n d)) = fun n d => x (ix3 (0 : Fin 1) n d) :=
    funext fun n => funext fun d => pay1_2_apply x n d
  rw [e]

variable (V : (c : Dev nD) → (b : Ref sig .tc) → Buf (Elt Ideal) ((c : Thread nD τ).loc b))

/-! ## The windows' blocks, read off the arrays

The grid has one axis of 16 points; point t handles batch element t: the rows' window and the three result windows are at
block (t, 0, 0), every weight and bias window at its one block. -/

/-- The printed index maps over the grid: the rows' window moves with the point, … -/
theorem idxX1 : ∀ t : Fin cfg1.N, win1_0.index t (0 : Fin 3) = t.val ∧ win1_0.index t (1 : Fin 3) = 0 ∧ win1_0.index t (2 : Fin 3) = 0 :=
  (by decide +kernel : ∀ t : Fin grid1.N, _)
/-- … weight window 1 stays at its one block, … -/
theorem idxW1_1 : ∀ t : Fin cfg1.N, win1_1.index t (0 : Fin 2) = 0 ∧ win1_1.index t (1 : Fin 2) = 0 :=
  (by decide +kernel : ∀ t : Fin grid1.N, _)
/-- … weight window 3 stays at its one block, … -/
theorem idxW1_3 : ∀ t : Fin cfg1.N, win1_3.index t (0 : Fin 2) = 0 ∧ win1_3.index t (1 : Fin 2) = 0 :=
  (by decide +kernel : ∀ t : Fin grid1.N, _)
/-- … weight window 5 stays at its one block, … -/
theorem idxW1_5 : ∀ t : Fin cfg1.N, win1_5.index t (0 : Fin 2) = 0 ∧ win1_5.index t (1 : Fin 2) = 0 :=
  (by decide +kernel : ∀ t : Fin grid1.N, _)
/-- … bias window 2 stays at its one block, … -/
theorem idxB1_2 : ∀ t : Fin cfg1.N, win1_2.index t (0 : Fin 1) = 0 :=
  (by decide +kernel : ∀ t : Fin grid1.N, _)
/-- … bias window 4 stays at its one block, … -/
theorem idxB1_4 : ∀ t : Fin cfg1.N, win1_4.index t (0 : Fin 1) = 0 :=
  (by decide +kernel : ∀ t : Fin grid1.N, _)
/-- … bias window 6 stays at its one block, … -/
theorem idxB1_6 : ∀ t : Fin cfg1.N, win1_6.index t (0 : Fin 1) = 0 :=
  (by decide +kernel : ∀ t : Fin grid1.N, _)
/-- … and result window 7 moves with the point. -/
theorem idxO1_7 : ∀ t : Fin cfg1.N, win1_7.index t (0 : Fin 3) = t.val ∧ win1_7.index t (1 : Fin 3) = 0 ∧ win1_7.index t (2 : Fin 3) = 0 :=
  (by decide +kernel : ∀ t : Fin grid1.N, _)
/-- … and result window 8 moves with the point. -/
theorem idxO1_8 : ∀ t : Fin cfg1.N, win1_8.index t (0 : Fin 3) = t.val ∧ win1_8.index t (1 : Fin 3) = 0 ∧ win1_8.index t (2 : Fin 3) = 0 :=
  (by decide +kernel : ∀ t : Fin grid1.N, _)
/-- … and result window 9 moves with the point. -/
theorem idxO1_9 : ∀ t : Fin cfg1.N, win1_9.index t (0 : Fin 3) = t.val ∧ win1_9.index t (1 : Fin 3) = 0 ∧ win1_9.index t (2 : Fin 3) = 0 :=
  (by decide +kernel : ∀ t : Fin grid1.N, _)

/-- The rows' block at point t is batch element t of the rows array. -/
theorem xblk1 (c : Dev nD) (t : Fin cfg1.N) (tb : Fin 16) (htb : tb.val = t.val) (n : Fin 384) (d : Fin 768) :
    (iblk1 V c 0 t : Vec Ideal S1x384x768 .f32) (ix3 (0 : Fin 1) n d) = (V c (Pipeline.arrRef spec1 0) : S16x384x768.Idx → EReal) (ix3 tb n d) := by
  obtain ⟨e0, e1, e2⟩ := idxX1 t
  unfold iblk1
  rw [View.read_apply]
  refine congrArg (V c (Pipeline.arrRef spec1 0) : S16x384x768.Idx → EReal) ?_
  funext a
  apply Fin.ext
  match a with
  | ⟨0, _⟩ => show win1_0.index t (0 : Fin 3) * 1 + 1 * 0 = tb.val; omega
  | ⟨1, _⟩ => show win1_0.index t (1 : Fin 3) * 384 + 1 * n.val = n.val; omega
  | ⟨2, _⟩ => show win1_0.index t (2 : Fin 3) * 768 + 1 * d.val = d.val; omega

/-- Weight window 1's block is its whole array, at every point. -/
theorem wblk1_1 (c : Dev nD) (t : Fin cfg1.N) :
    (iblk1 V c 1 t : Vec Ideal S256x768 .f32) = (V c (Pipeline.arrRef spec1 1) : S256x768.Idx → EReal) := by
  obtain ⟨e0, e1⟩ := idxW1_1 t
  funext j
  unfold iblk1
  rw [View.read_apply]
  refine congrArg (V c (Pipeline.arrRef spec1 1) : S256x768.Idx → EReal) ?_
  funext a
  apply Fin.ext
  have h0 : (j 0).val < 256 := (j 0).isLt
  have h1 : (j 1).val < 768 := (j 1).isLt
  match a with
  | ⟨0, _⟩ => show win1_1.index t (0 : Fin 2) * 256 + 1 * (j 0).val = (j 0).val; omega
  | ⟨1, _⟩ => show win1_1.index t (1 : Fin 2) * 768 + 1 * (j 1).val = (j 1).val; omega

/-- Weight window 3's block is its whole array, at every point. -/
theorem wblk1_3 (c : Dev nD) (t : Fin cfg1.N) :
    (iblk1 V c 3 t : Vec Ideal S256x768 .f32) = (V c (Pipeline.arrRef spec1 3) : S256x768.Idx → EReal) := by
  obtain ⟨e0, e1⟩ := idxW1_3 t
  funext j
  unfold iblk1
  rw [View.read_apply]
  refine congrArg (V c (Pipeline.arrRef spec1 3) : S256x768.Idx → EReal) ?_
  funext a
  apply Fin.ext
  have h0 : (j 0).val < 256 := (j 0).isLt
  have h1 : (j 1).val < 768 := (j 1).isLt
  match a with
  | ⟨0, _⟩ => show win1_3.index t (0 : Fin 2) * 256 + 1 * (j 0).val = (j 0).val; omega
  | ⟨1, _⟩ => show win1_3.index t (1 : Fin 2) * 768 + 1 * (j 1).val = (j 1).val; omega

/-- Weight window 5's block is its whole array, at every point. -/
theorem wblk1_5 (c : Dev nD) (t : Fin cfg1.N) :
    (iblk1 V c 5 t : Vec Ideal S256x768 .f32) = (V c (Pipeline.arrRef spec1 5) : S256x768.Idx → EReal) := by
  obtain ⟨e0, e1⟩ := idxW1_5 t
  funext j
  unfold iblk1
  rw [View.read_apply]
  refine congrArg (V c (Pipeline.arrRef spec1 5) : S256x768.Idx → EReal) ?_
  funext a
  apply Fin.ext
  have h0 : (j 0).val < 256 := (j 0).isLt
  have h1 : (j 1).val < 768 := (j 1).isLt
  match a with
  | ⟨0, _⟩ => show win1_5.index t (0 : Fin 2) * 256 + 1 * (j 0).val = (j 0).val; omega
  | ⟨1, _⟩ => show win1_5.index t (1 : Fin 2) * 768 + 1 * (j 1).val = (j 1).val; omega

/-- Bias window 2's block is its whole array, at every point. -/
theorem bblk1_2 (c : Dev nD) (t : Fin cfg1.N) :
    (iblk1 V c 2 t : Vec Ideal S256 .f32) = (V c (Pipeline.arrRef spec1 2) : S256.Idx → EReal) := by
  have e0 := idxB1_2 t
  funext j
  unfold iblk1
  rw [View.read_apply]
  refine congrArg (V c (Pipeline.arrRef spec1 2) : S256.Idx → EReal) ?_
  funext a
  apply Fin.ext
  match a with
  | ⟨0, _⟩ => show win1_2.index t (0 : Fin 1) * 256 + 1 * (j 0).val = (j 0).val; omega

/-- Bias window 4's block is its whole array, at every point. -/
theorem bblk1_4 (c : Dev nD) (t : Fin cfg1.N) :
    (iblk1 V c 4 t : Vec Ideal S256 .f32) = (V c (Pipeline.arrRef spec1 4) : S256.Idx → EReal) := by
  have e0 := idxB1_4 t
  funext j
  unfold iblk1
  rw [View.read_apply]
  refine congrArg (V c (Pipeline.arrRef spec1 4) : S256.Idx → EReal) ?_
  funext a
  apply Fin.ext
  match a with
  | ⟨0, _⟩ => show win1_4.index t (0 : Fin 1) * 256 + 1 * (j 0).val = (j 0).val; omega

/-- Bias window 6's block is its whole array, at every point. -/
theorem bblk1_6 (c : Dev nD) (t : Fin cfg1.N) :
    (iblk1 V c 6 t : Vec Ideal S256 .f32) = (V c (Pipeline.arrRef spec1 6) : S256.Idx → EReal) := by
  have e0 := idxB1_6 t
  funext j
  unfold iblk1
  rw [View.read_apply]
  refine congrArg (V c (Pipeline.arrRef spec1 6) : S256.Idx → EReal) ?_
  funext a
  apply Fin.ext
  match a with
  | ⟨0, _⟩ => show win1_6.index t (0 : Fin 1) * 256 + 1 * (j 0).val = (j 0).val; omega

/-! ## Result window 7: weight and bias windows 1 and 2 -/

/-- WHAT POINT t WRITES BACK to result window 7 is block t of the array of centred projections of the rows array by the
    weight/bias pair of windows 1 and 2, all three as the region finds them. -/
theorem flushed1_7_eq (c : Dev nD) (t : Fin cfg1.N) :
    (dat1 (F := Ideal) V c).flushed 7 t
      = ((cfg1.win 7).blk t).view.read (Elt Ideal) (projArr Cert.Spec.c384 (V c (Pipeline.arrRef spec1 0) : S16x384x768.Idx → EReal) (V c (Pipeline.arrRef spec1 1) : S256x768.Idx → EReal) (V c (Pipeline.arrRef spec1 2) : S256.Idx → EReal)) := by
  show (cfg1.win 7).cut (grid1.coords t) ((dat1 (F := Ideal) V c).after 7 t) = _
  rw [after1_7]
  unfold out1_7
  rw [View.canon_unit_zero hz3]
  simp only [View.ld_unit_zero (S := S1x384x768) hz3, View.ld_unit_zero (S := S256x768) hz2, View.ld_unit_zero (S := S256) hz1]
  obtain ⟨e0, e1, e2⟩ := idxO1_7 t
  funext j
  show k1_pay1 (k1_pay2 (iblk1 V c 0 t)) (iblk1 V c 1 t) (iblk1 V c 2 t) j
    = projArr Cert.Spec.c384 (V c (Pipeline.arrRef spec1 0) : S16x384x768.Idx → EReal) (V c (Pipeline.arrRef spec1 1) : S256x768.Idx → EReal) (V c (Pipeline.arrRef spec1 2) : S256.Idx → EReal) (((cfg1.win 7).blk t).view.emb j)
  refine (body1_at (iblk1 V c 0 t) (iblk1 V c 1 t) (iblk1 V c 2 t) j).trans ?_
  have hj0 : (j 0).val < 1 := (j 0).isLt
  have hj1 : (j 1).val < 384 := (j 1).isLt
  have hj2 : (j 2).val < 256 := (j 2).isLt
  unfold projArr
  refine proj_congr Cert.Spec.c384 ?_ ?_ ?_ ?_ ?_
  · funext n d
    refine xblk1 V c t _ ?_ n d
    show win1_7.index t (0 : Fin 3) * 1 + 1 * (j 0).val = t.val
    omega
  · exact congrArg (fun (f : S256x768.Idx → EReal) => fun (r : Fin 256) (d : Fin 768) => f (ix2 r d)) (wblk1_1 V c t)
  · exact congrArg (fun (f : S256.Idx → EReal) => fun (r : Fin 256) => f (ix1 r)) (bblk1_2 V c t)
  · apply Fin.ext
    show (j 1).val = win1_7.index t (1 : Fin 3) * 384 + 1 * (j 1).val
    omega
  · apply Fin.ext
    show (j 2).val = win1_7.index t (2 : Fin 3) * 256 + 1 * (j 2).val
    omega

/-- An index of the result array is in point t's block iff each coordinate is in the block's range on its axis. -/
theorem mem_blk1_7 (t : Fin cfg1.N) (i : S16x384x256.Idx) :
    i ∈ ((cfg1.win 7).blk t).view.set ↔ ∀ a : Fin 3, win1_7.index t a * S1x384x256.size a ≤ (i a).val ∧ (i a).val < win1_7.index t a * S1x384x256.size a + S1x384x256.size a := by
  show i ∈ ((View.whole main_v1_0).slice (win1_7.rect t)).set ↔ _
  rw [View.set_slice_whole, Rect.mem_set_unit]
  exact Iff.rfl

/-- Every index of the result array is in the block of the point its batch coordinate names. -/
theorem covered1_7 (i : S16x384x256.Idx) :
    ∃ t : Fin cfg1.N, (cfg1.win 7).flush t = true ∧ i ∈ ((cfg1.win 7).blk t).view.set := by
  have hi0 : (i 0).val < 16 := (i 0).isLt
  have hi1 : (i 1).val < 384 := (i 1).isLt
  have hi2 : (i 2).val < 256 := (i 2).isLt
  obtain ⟨t, ht⟩ : ∃ t : Fin cfg1.N, t.val = (i 0).val := ⟨⟨(i 0).val, by rw [show cfg1.N = 16 from N_1]; exact hi0⟩, rfl⟩
  obtain ⟨e0, e1, e2⟩ := idxO1_7 t
  refine ⟨t, flush1_7 t, ?_⟩
  rw [mem_blk1_7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 384 ≤ (i 1).val ∧ (i 1).val < win1_7.index t (1 : Fin 3) * 384 + 384; omega
  | ⟨2, _⟩ => show win1_7.index t (2 : Fin 3) * 256 ≤ (i 2).val ∧ (i 2).val < win1_7.index t (2 : Fin 3) * 256 + 256; omega

/-- THE ARRAY after the call: the centred projection of each batch element's rows by the pair of windows 1 and 2. -/
theorem final1_7 (c : Dev nD) :
    (dat1 (F := Ideal) V c).arrAt 7 cfg1.N
      = fun (i : S16x384x256.Idx) => Cert.Spec.proj Cert.Spec.c384
          (fun n d => (V c (Pipeline.arrRef spec1 0) : S16x384x768.Idx → EReal) (ix3 (i 0) n d))
          (fun r d => (V c (Pipeline.arrRef spec1 1) : S256x768.Idx → EReal) (ix2 r d))
          (fun r => (V c (Pipeline.arrRef spec1 2) : S256.Idx → EReal) (ix1 r)) (i 1) (i 2) :=
  (dat1 (F := Ideal) V c).arrAt_eq_of_cover 7 (projArr Cert.Spec.c384 (V c (Pipeline.arrRef spec1 0) : S16x384x768.Idx → EReal) (V c (Pipeline.arrRef spec1 1) : S256x768.Idx → EReal) (V c (Pipeline.arrRef spec1 2) : S256.Idx → EReal))
    (fun t _ => flushed1_7_eq V c t) covered1_7

/-! ## Result window 8: weight and bias windows 3 and 4 -/

/-- WHAT POINT t WRITES BACK to result window 8 is block t of the array of centred projections of the rows array by the
    weight/bias pair of windows 3 and 4, all three as the region finds them. -/
theorem flushed1_8_eq (c : Dev nD) (t : Fin cfg1.N) :
    (dat1 (F := Ideal) V c).flushed 8 t
      = ((cfg1.win 8).blk t).view.read (Elt Ideal) (projArr Cert.Spec.c384 (V c (Pipeline.arrRef spec1 0) : S16x384x768.Idx → EReal) (V c (Pipeline.arrRef spec1 3) : S256x768.Idx → EReal) (V c (Pipeline.arrRef spec1 4) : S256.Idx → EReal)) := by
  show (cfg1.win 8).cut (grid1.coords t) ((dat1 (F := Ideal) V c).after 8 t) = _
  rw [after1_8]
  unfold out1_8
  rw [View.canon_unit_zero hz3]
  simp only [View.ld_unit_zero (S := S1x384x768) hz3, View.ld_unit_zero (S := S256x768) hz2, View.ld_unit_zero (S := S256) hz1]
  obtain ⟨e0, e1, e2⟩ := idxO1_8 t
  funext j
  show k1_pay1 (k1_pay2 (iblk1 V c 0 t)) (iblk1 V c 3 t) (iblk1 V c 4 t) j
    = projArr Cert.Spec.c384 (V c (Pipeline.arrRef spec1 0) : S16x384x768.Idx → EReal) (V c (Pipeline.arrRef spec1 3) : S256x768.Idx → EReal) (V c (Pipeline.arrRef spec1 4) : S256.Idx → EReal) (((cfg1.win 8).blk t).view.emb j)
  refine (body1_at (iblk1 V c 0 t) (iblk1 V c 3 t) (iblk1 V c 4 t) j).trans ?_
  have hj0 : (j 0).val < 1 := (j 0).isLt
  have hj1 : (j 1).val < 384 := (j 1).isLt
  have hj2 : (j 2).val < 256 := (j 2).isLt
  unfold projArr
  refine proj_congr Cert.Spec.c384 ?_ ?_ ?_ ?_ ?_
  · funext n d
    refine xblk1 V c t _ ?_ n d
    show win1_8.index t (0 : Fin 3) * 1 + 1 * (j 0).val = t.val
    omega
  · exact congrArg (fun (f : S256x768.Idx → EReal) => fun (r : Fin 256) (d : Fin 768) => f (ix2 r d)) (wblk1_3 V c t)
  · exact congrArg (fun (f : S256.Idx → EReal) => fun (r : Fin 256) => f (ix1 r)) (bblk1_4 V c t)
  · apply Fin.ext
    show (j 1).val = win1_8.index t (1 : Fin 3) * 384 + 1 * (j 1).val
    omega
  · apply Fin.ext
    show (j 2).val = win1_8.index t (2 : Fin 3) * 256 + 1 * (j 2).val
    omega

/-- An index of the result array is in point t's block iff each coordinate is in the block's range on its axis. -/
theorem mem_blk1_8 (t : Fin cfg1.N) (i : S16x384x256.Idx) :
    i ∈ ((cfg1.win 8).blk t).view.set ↔ ∀ a : Fin 3, win1_8.index t a * S1x384x256.size a ≤ (i a).val ∧ (i a).val < win1_8.index t a * S1x384x256.size a + S1x384x256.size a := by
  show i ∈ ((View.whole main_v1_1).slice (win1_8.rect t)).set ↔ _
  rw [View.set_slice_whole, Rect.mem_set_unit]
  exact Iff.rfl

/-- Every index of the result array is in the block of the point its batch coordinate names. -/
theorem covered1_8 (i : S16x384x256.Idx) :
    ∃ t : Fin cfg1.N, (cfg1.win 8).flush t = true ∧ i ∈ ((cfg1.win 8).blk t).view.set := by
  have hi0 : (i 0).val < 16 := (i 0).isLt
  have hi1 : (i 1).val < 384 := (i 1).isLt
  have hi2 : (i 2).val < 256 := (i 2).isLt
  obtain ⟨t, ht⟩ : ∃ t : Fin cfg1.N, t.val = (i 0).val := ⟨⟨(i 0).val, by rw [show cfg1.N = 16 from N_1]; exact hi0⟩, rfl⟩
  obtain ⟨e0, e1, e2⟩ := idxO1_8 t
  refine ⟨t, flush1_8 t, ?_⟩
  rw [mem_blk1_8]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 384 ≤ (i 1).val ∧ (i 1).val < win1_8.index t (1 : Fin 3) * 384 + 384; omega
  | ⟨2, _⟩ => show win1_8.index t (2 : Fin 3) * 256 ≤ (i 2).val ∧ (i 2).val < win1_8.index t (2 : Fin 3) * 256 + 256; omega

/-- THE ARRAY after the call: the centred projection of each batch element's rows by the pair of windows 3 and 4. -/
theorem final1_8 (c : Dev nD) :
    (dat1 (F := Ideal) V c).arrAt 8 cfg1.N
      = fun (i : S16x384x256.Idx) => Cert.Spec.proj Cert.Spec.c384
          (fun n d => (V c (Pipeline.arrRef spec1 0) : S16x384x768.Idx → EReal) (ix3 (i 0) n d))
          (fun r d => (V c (Pipeline.arrRef spec1 3) : S256x768.Idx → EReal) (ix2 r d))
          (fun r => (V c (Pipeline.arrRef spec1 4) : S256.Idx → EReal) (ix1 r)) (i 1) (i 2) :=
  (dat1 (F := Ideal) V c).arrAt_eq_of_cover 8 (projArr Cert.Spec.c384 (V c (Pipeline.arrRef spec1 0) : S16x384x768.Idx → EReal) (V c (Pipeline.arrRef spec1 3) : S256x768.Idx → EReal) (V c (Pipeline.arrRef spec1 4) : S256.Idx → EReal))
    (fun t _ => flushed1_8_eq V c t) covered1_8

/-! ## Result window 9: weight and bias windows 5 and 6 -/

/-- WHAT POINT t WRITES BACK to result window 9 is block t of the array of centred projections of the rows array by the
    weight/bias pair of windows 5 and 6, all three as the region finds them. -/
theorem flushed1_9_eq (c : Dev nD) (t : Fin cfg1.N) :
    (dat1 (F := Ideal) V c).flushed 9 t
      = ((cfg1.win 9).blk t).view.read (Elt Ideal) (projArr Cert.Spec.c384 (V c (Pipeline.arrRef spec1 0) : S16x384x768.Idx → EReal) (V c (Pipeline.arrRef spec1 5) : S256x768.Idx → EReal) (V c (Pipeline.arrRef spec1 6) : S256.Idx → EReal)) := by
  show (cfg1.win 9).cut (grid1.coords t) ((dat1 (F := Ideal) V c).after 9 t) = _
  rw [after1_9]
  unfold out1_9
  rw [View.canon_unit_zero hz3]
  simp only [View.ld_unit_zero (S := S1x384x768) hz3, View.ld_unit_zero (S := S256x768) hz2, View.ld_unit_zero (S := S256) hz1]
  obtain ⟨e0, e1, e2⟩ := idxO1_9 t
  funext j
  show k1_pay1 (k1_pay2 (iblk1 V c 0 t)) (iblk1 V c 5 t) (iblk1 V c 6 t) j
    = projArr Cert.Spec.c384 (V c (Pipeline.arrRef spec1 0) : S16x384x768.Idx → EReal) (V c (Pipeline.arrRef spec1 5) : S256x768.Idx → EReal) (V c (Pipeline.arrRef spec1 6) : S256.Idx → EReal) (((cfg1.win 9).blk t).view.emb j)
  refine (body1_at (iblk1 V c 0 t) (iblk1 V c 5 t) (iblk1 V c 6 t) j).trans ?_
  have hj0 : (j 0).val < 1 := (j 0).isLt
  have hj1 : (j 1).val < 384 := (j 1).isLt
  have hj2 : (j 2).val < 256 := (j 2).isLt
  unfold projArr
  refine proj_congr Cert.Spec.c384 ?_ ?_ ?_ ?_ ?_
  · funext n d
    refine xblk1 V c t _ ?_ n d
    show win1_9.index t (0 : Fin 3) * 1 + 1 * (j 0).val = t.val
    omega
  · exact congrArg (fun (f : S256x768.Idx → EReal) => fun (r : Fin 256) (d : Fin 768) => f (ix2 r d)) (wblk1_5 V c t)
  · exact congrArg (fun (f : S256.Idx → EReal) => fun (r : Fin 256) => f (ix1 r)) (bblk1_6 V c t)
  · apply Fin.ext
    show (j 1).val = win1_9.index t (1 : Fin 3) * 384 + 1 * (j 1).val
    omega
  · apply Fin.ext
    show (j 2).val = win1_9.index t (2 : Fin 3) * 256 + 1 * (j 2).val
    omega

/-- An index of the result array is in point t's block iff each coordinate is in the block's range on its axis. -/
theorem mem_blk1_9 (t : Fin cfg1.N) (i : S16x384x256.Idx) :
    i ∈ ((cfg1.win 9).blk t).view.set ↔ ∀ a : Fin 3, win1_9.index t a * S1x384x256.size a ≤ (i a).val ∧ (i a).val < win1_9.index t a * S1x384x256.size a + S1x384x256.size a := by
  show i ∈ ((View.whole main_v1_2).slice (win1_9.rect t)).set ↔ _
  rw [View.set_slice_whole, Rect.mem_set_unit]
  exact Iff.rfl

/-- Every index of the result array is in the block of the point its batch coordinate names. -/
theorem covered1_9 (i : S16x384x256.Idx) :
    ∃ t : Fin cfg1.N, (cfg1.win 9).flush t = true ∧ i ∈ ((cfg1.win 9).blk t).view.set := by
  have hi0 : (i 0).val < 16 := (i 0).isLt
  have hi1 : (i 1).val < 384 := (i 1).isLt
  have hi2 : (i 2).val < 256 := (i 2).isLt
  obtain ⟨t, ht⟩ : ∃ t : Fin cfg1.N, t.val = (i 0).val := ⟨⟨(i 0).val, by rw [show cfg1.N = 16 from N_1]; exact hi0⟩, rfl⟩
  obtain ⟨e0, e1, e2⟩ := idxO1_9 t
  refine ⟨t, flush1_9 t, ?_⟩
  rw [mem_blk1_9]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 384 ≤ (i 1).val ∧ (i 1).val < win1_9.index t (1 : Fin 3) * 384 + 384; omega
  | ⟨2, _⟩ => show win1_9.index t (2 : Fin 3) * 256 ≤ (i 2).val ∧ (i 2).val < win1_9.index t (2 : Fin 3) * 256 + 256; omega

/-- THE ARRAY after the call: the centred projection of each batch element's rows by the pair of windows 5 and 6. -/
theorem final1_9 (c : Dev nD) :
    (dat1 (F := Ideal) V c).arrAt 9 cfg1.N
      = fun (i : S16x384x256.Idx) => Cert.Spec.proj Cert.Spec.c384
          (fun n d => (V c (Pipeline.arrRef spec1 0) : S16x384x768.Idx → EReal) (ix3 (i 0) n d))
          (fun r d => (V c (Pipeline.arrRef spec1 5) : S256x768.Idx → EReal) (ix2 r d))
          (fun r => (V c (Pipeline.arrRef spec1 6) : S256.Idx → EReal) (ix1 r)) (i 1) (i 2) :=
  (dat1 (F := Ideal) V c).arrAt_eq_of_cover 9 (projArr Cert.Spec.c384 (V c (Pipeline.arrRef spec1 0) : S16x384x768.Idx → EReal) (V c (Pipeline.arrRef spec1 5) : S256x768.Idx → EReal) (V c (Pipeline.arrRef spec1 6) : S256.Idx → EReal))
    (fun t _ => flushed1_9_eq V c t) covered1_9

end Cert.KernelIdeal.KValue

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.KSoftmaxRows.lean ====
/-
  The row softmax as the two attention bodies compute it, read at an index.

  Over an [n, m] array of scores s the body takes each row's maximum (a reduction over the second axis from the
  word of −∞), turns that [n] vector into an [n, 1] column and repeats the column across the row, subtracts,
  exponentiates, sums each row of the exponentials the same way, and divides.  At (p, q) that is the softmax of
  row p of s at q: exp(s[p,q] − max_q' s[p,q']) / Σ_q' exp(s[p,q'] − max_q'' s[p,q'']).
-/
import proofs.«178307_j44994077393156_1_alg».proof.Proof.Spec
import proofs.«178307_j44994077393156_1_alg».proof.Proof.LibKeepdims

noncomputable section

namespace Cert.KernelIdeal.KValue

open Idealize.ShloMosaic Idealize.ShloMosaic.ValueIdx

/-- The index of an [n, m] array that lies over p of the [n] result of a reduction along the second axis, with
    coordinate k on that axis, is (p, k). -/
theorem lift_row {n m : ℕ} (h : (⟨2, ![n, m]⟩ : Shape).Reduces [1] ⟨1, ![n]⟩) (p : Fin n) (k : Fin m) :
    h.lift (ix1 p) k = ix2 p k := by
  funext c
  apply Fin.ext
  match c with
  | ⟨0, _⟩ => rfl
  | ⟨1, _⟩ => rfl

/-- A row's maximum: the reduction by max along the second axis from the word of −∞, at p, is the fold of max
    from ⊥ over row p. -/
theorem rowMax_apply {n m : ℕ} (s : FVec Ideal ⟨2, ![n, m]⟩ .f32)
    (h : (⟨2, ![n, m]⟩ : Shape).Reduces [1] ⟨1, ![n]⟩) (hφ : FKind.Formats .f32)
    (hacc : (0xFF800000#32 : BitVec (FTy.bits .f32)) = FKind.maximumf.neutral .f32 hφ) (p : Fin n) :
    multiReduction .maximumf [1] ⟨1, ![n]⟩ s 0xFF800000#32 h hφ hacc (ix1 p)
      = Cert.Spec.rowMax fun q => s (ix2 p q) := by
  rw [Ideal.multiReduction_maximumf_single]
  show (Finset.univ : Finset (Fin m)).fold max (Ideal.ofBits .f32 0xFF800000#32) _ = _
  rw [Cert.Spec.ofBits_neg_inf]
  unfold Cert.Spec.rowMax
  congr 1
  funext k
  exact congrArg s (lift_row h p k)

/-- A row's sum: the reduction by addition along the second axis, at p, is the sum over row p. -/
theorem rowSum_apply {n m : ℕ} (e : FVec Ideal ⟨2, ![n, m]⟩ .f32)
    (h : (⟨2, ![n, m]⟩ : Shape).Reduces [1] ⟨1, ![n]⟩) (hφ : FKind.Formats .f32)
    (hacc : (0x00000000#32 : BitVec (FTy.bits .f32)) = FKind.add.neutral .f32 hφ) (p : Fin n) :
    multiReduction .add [1] ⟨1, ![n]⟩ e 0x00000000#32 h hφ hacc (ix1 p) = ∑ q : Fin m, e (ix2 p q) := by
  rw [Ideal.multiReduction_add_single]
  show ∑ k : Fin m, e (h.lift (ix1 p) k) = _
  exact Finset.sum_congr rfl fun k _ => congrArg e (lift_row h p k)

/-- An [n] vector made a column and repeated across the rows of an [n, m] array reads, at (p, q), its entry p. -/
theorem column_apply {n m : ℕ} (v : (⟨1, ![n]⟩ : Shape).Idx → EReal)
    (hc : (⟨1, ![n]⟩ : Shape).ShapeCasts ⟨2, ![n, 1]⟩) (hb : (⟨2, ![n, 1]⟩ : Shape).Broadcasts ⟨2, ![n, m]⟩)
    (p : Fin n) (q : Fin m) :
    broadcastTo ⟨2, ![n, m]⟩ (shapeCast ⟨2, ![n, 1]⟩ v hc) hb (ix2 p q) = v (ix1 p) :=
  (broadcastTo_a1_ab_apply _ hb p q).trans (shapeCast_a_a1_apply v hc p 0)

/-- The shifted exponentials: exp(s − rowmax) at (p, q). -/
theorem expShift_apply {n m : ℕ} (s : FVec Ideal ⟨2, ![n, m]⟩ .f32)
    (hr : (⟨2, ![n, m]⟩ : Shape).Reduces [1] ⟨1, ![n]⟩)
    (hc : (⟨1, ![n]⟩ : Shape).ShapeCasts ⟨2, ![n, 1]⟩) (hb : (⟨2, ![n, 1]⟩ : Shape).Broadcasts ⟨2, ![n, m]⟩)
    (hφ : FKind.Formats .f32) (hmax : (0xFF800000#32 : BitVec (FTy.bits .f32)) = FKind.maximumf.neutral .f32 hφ)
    (p : Fin n) (q : Fin m) :
    exp (subf s (broadcastTo ⟨2, ![n, m]⟩ (shapeCast ⟨2, ![n, 1]⟩
        (multiReduction .maximumf [1] ⟨1, ![n]⟩ s 0xFF800000#32 hr hφ hmax) hc) hb)) (ix2 p q)
      = Ideal.exp (s (ix2 p q) - Cert.Spec.rowMax fun q' => s (ix2 p q')) := by
  show Ideal.exp (s (ix2 p q) - broadcastTo ⟨2, ![n, m]⟩ (shapeCast ⟨2, ![n, 1]⟩
        (multiReduction .maximumf [1] ⟨1, ![n]⟩ s 0xFF800000#32 hr hφ hmax) hc) hb (ix2 p q)) = _
  rw [column_apply, rowMax_apply]

/-- An array of exponentials divided by its row sums, the sums taken and repeated as the body does, at (p, q). -/
theorem divRowSum_apply {n m : ℕ} (e : FVec Ideal ⟨2, ![n, m]⟩ .f32)
    (hr : (⟨2, ![n, m]⟩ : Shape).Reduces [1] ⟨1, ![n]⟩)
    (hc : (⟨1, ![n]⟩ : Shape).ShapeCasts ⟨2, ![n, 1]⟩) (hb : (⟨2, ![n, 1]⟩ : Shape).Broadcasts ⟨2, ![n, m]⟩)
    (hφ : FKind.Formats .f32) (hadd : (0x00000000#32 : BitVec (FTy.bits .f32)) = FKind.add.neutral .f32 hφ)
    (p : Fin n) (q : Fin m) :
    divf e (broadcastTo ⟨2, ![n, m]⟩ (shapeCast ⟨2, ![n, 1]⟩
        (multiReduction .add [1] ⟨1, ![n]⟩ e 0x00000000#32 hr hφ hadd) hc) hb) (ix2 p q)
      = Ideal.div (e (ix2 p q)) (∑ q' : Fin m, e (ix2 p q')) := by
  show Ideal.div (e (ix2 p q)) (broadcastTo ⟨2, ![n, m]⟩ (shapeCast ⟨2, ![n, 1]⟩
        (multiReduction .add [1] ⟨1, ![n]⟩ e 0x00000000#32 hr hφ hadd) hc) hb (ix2 p q)) = _
  rw [column_apply, rowSum_apply]

/-- THE ROW SOFTMAX of the body, at (p, q): the softmax of row p of the scores, at q. -/
theorem softmaxRows_apply {n m : ℕ} (s : FVec Ideal ⟨2, ![n, m]⟩ .f32)
    (hr : (⟨2, ![n, m]⟩ : Shape).Reduces [1] ⟨1, ![n]⟩)
    (hc : (⟨1, ![n]⟩ : Shape).ShapeCasts ⟨2, ![n, 1]⟩) (hb : (⟨2, ![n, 1]⟩ : Shape).Broadcasts ⟨2, ![n, m]⟩)
    (hφ : FKind.Formats .f32) (hmax : (0xFF800000#32 : BitVec (FTy.bits .f32)) = FKind.maximumf.neutral .f32 hφ)
    (hadd : (0x00000000#32 : BitVec (FTy.bits .f32)) = FKind.add.neutral .f32 hφ) (p : Fin n) (q : Fin m) :
    divf (exp (subf s (broadcastTo ⟨2, ![n, m]⟩ (shapeCast ⟨2, ![n, 1]⟩
            (multiReduction .maximumf [1] ⟨1, ![n]⟩ s 0xFF800000#32 hr hφ hmax) hc) hb)))
        (broadcastTo ⟨2, ![n, m]⟩ (shapeCast ⟨2, ![n, 1]⟩
          (multiReduction .add [1] ⟨1, ![n]⟩
            (exp (subf s (broadcastTo ⟨2, ![n, m]⟩ (shapeCast ⟨2, ![n, 1]⟩
              (multiReduction .maximumf [1] ⟨1, ![n]⟩ s 0xFF800000#32 hr hφ hmax) hc) hb)))
            0x00000000#32 hr hφ hadd) hc) hb) (ix2 p q)
      = Cert.Spec.softmax (fun q' => s (ix2 p q')) q := by
  refine (divRowSum_apply _ hr hc hb hφ hadd p q).trans ?_
  unfold Cert.Spec.softmax
  rw [expShift_apply s hr hc hb hφ hmax p q]
  exact congrArg _ (Finset.sum_congr rfl fun q' _ => expShift_apply s hr hc hb hφ hmax p q')

end Cert.KernelIdeal.KValue

end
-- ==== Proof.KAttn2.lean ====
/-
  The first attention call, read off the TensorCore's run.

  The call runs once per batch element: point t of its sixteen stages batch element t of the two projections
  ([1,1024,256] each) and of the features ([1,1024,768]) and stores one [1,1024,768] block.  The body forms the scores
  (Σ_r q1[n,r]·q2[m,r]) · 1/16, passes each row through the softmax, and applies the weights to the features:
  out[n,d] = Σ_m a[n,m]·x[m,d].  Here that is proved at an index (the two products as finite sums, the row softmax by the
  shared lemma, the unit-axis casts by coordinates), then carried from blocks to the whole array: point t's block of
  every window is block (t, 0, 0), what point t writes back is block t of ONE function of the three arrays, and the
  sixteen blocks cover the output array.
-/
import proofs.«178307_j44994077393156_1_alg».proof.Proof.Gen.KernelIdeal.Frame
import proofs.«178307_j44994077393156_1_alg».proof.Proof.KSoftmaxRows
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's two products read at an index -/

theorem scoresDot2_apply_lhs0 (j : S1024x1024.Idx) (q : dot_S1024x256_S1024x256_S1024x1024_1_1_0_0_n_n.contr.Idx) :
    (dot_S1024x256_S1024x256_S1024x1024_1_1_0_0_n_n.lhsIdx j q 0).val = (j 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem scoresDot2_apply_lhs1 (j : S1024x1024.Idx) (q : dot_S1024x256_S1024x256_S1024x1024_1_1_0_0_n_n.contr.Idx) :
    (dot_S1024x256_S1024x256_S1024x1024_1_1_0_0_n_n.lhsIdx j q 1).val = (q ⟨0, by decide⟩).val :=
  dot_S1024x256_S1024x256_S1024x1024_1_1_0_0_n_n.lhsIdx_val_of_single rfl j q
theorem scoresDot2_apply_rhs0 (j : S1024x1024.Idx) (q : dot_S1024x256_S1024x256_S1024x1024_1_1_0_0_n_n.contr.Idx) :
    (dot_S1024x256_S1024x256_S1024x1024_1_1_0_0_n_n.rhsIdx j q 0).val = (j 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem scoresDot2_apply_rhs1 (j : S1024x1024.Idx) (q : dot_S1024x256_S1024x256_S1024x1024_1_1_0_0_n_n.contr.Idx) :
    (dot_S1024x256_S1024x256_S1024x1024_1_1_0_0_n_n.rhsIdx j q 1).val = (q ⟨0, by decide⟩).val :=
  dot_S1024x256_S1024x256_S1024x1024_1_1_0_0_n_n.rhsIdx_val_of_single rfl j q

/-- The product of the two projections, rows against rows: at (n, m) the sum over r of A[n,r]·B[m,r]. -/
theorem scoresDot2_apply (A : FVec Ideal S1024x256 .bf16) (B : FVec Ideal S1024x256 .bf16) (n : Fin 1024) (m : Fin 1024) :
    matmul dot_S1024x256_S1024x256_S1024x1024_1_1_0_0_n_n none A B (constant (F := Ideal) S1024x1024 .f32 0x00000000#32) (ix2 n m)
      = ∑ r : Fin 256, A (ix2 n r) * B (ix2 m r) := by
  simp only [matmul]
  rw [Ideal.matmul_constant_zero_apply, ← Equiv.sum_comp (contrEquiv1 dot_S1024x256_S1024x256_S1024x1024_1_1_0_0_n_n 256 rfl rfl).symm]
  refine Finset.sum_congr rfl fun r _ => ?_
  have hk := contrEquiv1_symm_val dot_S1024x256_S1024x256_S1024x1024_1_1_0_0_n_n 256 rfl rfl r
  have el : dot_S1024x256_S1024x256_S1024x1024_1_1_0_0_n_n.lhsIdx (ix2 n m) ((contrEquiv1 dot_S1024x256_S1024x256_S1024x1024_1_1_0_0_n_n 256 rfl rfl).symm r) = ix2 n r := funext fun a => Fin.ext (by
    match a with
    | ⟨0, _⟩ => exact scoresDot2_apply_lhs0 _ _
    | ⟨1, _⟩ => exact (scoresDot2_apply_lhs1 _ _).trans hk)
  have er : dot_S1024x256_S1024x256_S1024x1024_1_1_0_0_n_n.rhsIdx (ix2 n m) ((contrEquiv1 dot_S1024x256_S1024x256_S1024x1024_1_1_0_0_n_n 256 rfl rfl).symm r) = ix2 m r := funext fun a => Fin.ext (by
    match a with
    | ⟨0, _⟩ => exact scoresDot2_apply_rhs0 _ _
    | ⟨1, _⟩ => exact (scoresDot2_apply_rhs1 _ _).trans hk)
  rw [el, er]

theorem mixDot2_apply_lhs0 (j : S1024x768.Idx) (q : dot_S1024x1024_S1024x768_S1024x768_1_0_0_1_n_n.contr.Idx) :
    (dot_S1024x1024_S1024x768_S1024x768_1_0_0_1_n_n.lhsIdx j q 0).val = (j 0).val := by
  unfold DotDims.lhsIdx
  rw [dif_neg (show ¬(0 : Fin S1024x1024.rank) ∈ dot_S1024x1024_S1024x768_S1024x768_1_0_0_1_n_n.lhsBatch by decide), dif_pos (show (0 : Fin S1024x1024.rank) ∈ dot_S1024x1024_S1024x768_S1024x768_1_0_0_1_n_n.lhsNonContracting by decide)]
  rfl
theorem mixDot2_apply_lhs1 (j : S1024x768.Idx) (q : dot_S1024x1024_S1024x768_S1024x768_1_0_0_1_n_n.contr.Idx) :
    (dot_S1024x1024_S1024x768_S1024x768_1_0_0_1_n_n.lhsIdx j q 1).val = (q ⟨0, by decide⟩).val :=
  dot_S1024x1024_S1024x768_S1024x768_1_0_0_1_n_n.lhsIdx_val_of_single rfl j q
theorem mixDot2_apply_rhs0 (j : S1024x768.Idx) (q : dot_S1024x1024_S1024x768_S1024x768_1_0_0_1_n_n.contr.Idx) :
    (dot_S1024x1024_S1024x768_S1024x768_1_0_0_1_n_n.rhsIdx j q 0).val = (q ⟨0, by decide⟩).val :=
  dot_S1024x1024_S1024x768_S1024x768_1_0_0_1_n_n.rhsIdx_val_of_single rfl j q
theorem mixDot2_apply_rhs1 (j : S1024x768.Idx) (q : dot_S1024x1024_S1024x768_S1024x768_1_0_0_1_n_n.contr.Idx) :
    (dot_S1024x1024_S1024x768_S1024x768_1_0_0_1_n_n.rhsIdx j q 1).val = (j 1).val := by
  unfold DotDims.rhsIdx
  rw [dif_neg (show ¬(1 : Fin S1024x768.rank) ∈ dot_S1024x1024_S1024x768_S1024x768_1_0_0_1_n_n.rhsBatch by decide), dif_pos (show (1 : Fin S1024x768.rank) ∈ dot_S1024x1024_S1024x768_S1024x768_1_0_0_1_n_n.rhsNonContracting by decide)]
  rfl

/-- The weights times the features: at (n, d) the sum over m of A[n,m]·B[m,d]. -/
theorem mixDot2_apply (A : FVec Ideal S1024x1024 .bf16) (B : FVec Ideal S1024x768 .bf16) (n : Fin 1024) (m : Fin 768) :
    matmul dot_S1024x1024_S1024x768_S1024x768_1_0_0_1_n_n none A B (constant (F := Ideal) S1024x768 .f32 0x00000000#32) (ix2 n m)
      = ∑ r : Fin 1024, A (ix2 n r) * B (ix2 r m) := by
  simp only [matmul]
  rw [Ideal.matmul_constant_zero_apply, ← Equiv.sum_comp (contrEquiv1 dot_S1024x1024_S1024x768_S1024x768_1_0_0_1_n_n 1024 rfl rfl).symm]
  refine Finset.sum_congr rfl fun r _ => ?_
  have hk := contrEquiv1_symm_val dot_S1024x1024_S1024x768_S1024x768_1_0_0_1_n_n 1024 rfl rfl r
  have el : dot_S1024x1024_S1024x768_S1024x768_1_0_0_1_n_n.lhsIdx (ix2 n m) ((contrEquiv1 dot_S1024x1024_S1024x768_S1024x768_1_0_0_1_n_n 1024 rfl rfl).symm r) = ix2 n r := funext fun a => Fin.ext (by
    match a with
    | ⟨0, _⟩ => exact mixDot2_apply_lhs0 _ _
    | ⟨1, _⟩ => exact (mixDot2_apply_lhs1 _ _).trans hk)
  have er : dot_S1024x1024_S1024x768_S1024x768_1_0_0_1_n_n.rhsIdx (ix2 n m) ((contrEquiv1 dot_S1024x1024_S1024x768_S1024x768_1_0_0_1_n_n 1024 rfl rfl).symm r) = ix2 r m := funext fun a => Fin.ext (by
    match a with
    | ⟨0, _⟩ => exact (mixDot2_apply_rhs0 _ _).trans hk
    | ⟨1, _⟩ => exact mixDot2_apply_rhs1 _ _)
  rw [el, er]

/-! ## The body's result at an index -/

/-- What the body stores, at (u, n, d), over its three loaded blocks: the attention weights of the two projections
    (scaled scores, each row through the softmax) applied to the features. -/
theorem pay2_apply (q1 q2 : Vec Ideal S1x1024x256 .f32) (x : Vec Ideal S1x1024x768 .f32) (u : Fin 1) (n : Fin 1024) (d : Fin 768) :
    k2_pay1 q1 q2 x (ix3 u n d)
      = Cert.Spec.mix (Cert.Spec.attn (fun n r => q1 (ix3 (0 : Fin 1) n r)) (fun m r => q2 (ix3 (0 : Fin 1) m r)))
          (fun m d => x (ix3 (0 : Fin 1) m d)) n d := by
  unfold k2_pay1
  dsimp only
  refine (shapeCast_ab_1ab_apply _ _ u n d).trans ?_
  refine (mixDot2_apply _ _ n d).trans ?_
  unfold Cert.Spec.mix
  refine Finset.sum_congr rfl fun m _ => ?_
  refine congrArg₂ (· * ·) ?_ ?_
  · refine (softmaxRows_apply (n := 1024) (m := 1024) _ _ _ _ _ _ _ n m).trans ?_
    unfold Cert.Spec.attn
    refine congrArg (fun s => Cert.Spec.softmax s m) (funext fun m' => ?_)
    unfold Cert.Spec.scores
    refine congrArg (· * Cert.Spec.sixteenth) ?_
    refine (scoresDot2_apply _ _ n m').trans (Finset.sum_congr rfl fun r _ => ?_)
    refine congrArg₂ (· * ·) ?_ ?_
    · exact shapeCast_1ab_ab_apply q1 _ n r
    · exact shapeCast_1ab_ab_apply q2 _ m' r
  · exact shapeCast_1ab_ab_apply x _ m d

/-! ## From the blocks to the array -/

theorem zeros3 : (![0, 0, 0] : Fin 3 → Nat) = fun _ => 0 := funext fun a => by fin_cases a <;> rfl

/-- The printed index maps, decided over the sixteen points: point t's block of every window is block (t, 0, 0). -/
theorem index2 : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0) :=
  (by decide +kernel : ∀ t : Fin grid2.N, _)

/-- Point t as a batch coordinate. -/
abbrev batch2 (t : Fin cfg2.N) : Fin 16 := ⟨t.val, Nat.lt_of_lt_of_eq t.isLt N_2⟩

/-- The first projection's block at point t is batch element t of its array. -/
theorem iblk2_0_apply (c : Dev nD) (t : Fin cfg2.N) (u : Fin 1) (n : Fin 1024) (r : Fin 256) :
    (iblk2 V c 0 t : Vec Ideal S1x1024x256 .f32) (ix3 u n r)
      = (V c (Pipeline.arrRef spec2 0) : S16x1024x256.Idx → EReal) (ix3 (batch2 t) n r) := by
  obtain ⟨⟨e0, e1, e2⟩, -, -, -⟩ := index2 t
  unfold iblk2
  rw [View.read_apply]
  refine congrArg (V c (Pipeline.arrRef spec2 0) : S16x1024x256.Idx → EReal) (funext fun a => Fin.ext ?_)
  match a with
  | ⟨0, _⟩ => show win2_0.index t (0 : Fin 3) * 1 + 1 * u.val = t.val; omega
  | ⟨1, _⟩ => show win2_0.index t (1 : Fin 3) * 1024 + 1 * n.val = n.val; omega
  | ⟨2, _⟩ => show win2_0.index t (2 : Fin 3) * 256 + 1 * r.val = r.val; omega

/-- The second projection's block at point t is batch element t of its array. -/
theorem iblk2_1_apply (c : Dev nD) (t : Fin cfg2.N) (u : Fin 1) (n : Fin 1024) (r : Fin 256) :
    (iblk2 V c 1 t : Vec Ideal S1x1024x256 .f32) (ix3 u n r)
      = (V c (Pipeline.arrRef spec2 1) : S16x1024x256.Idx → EReal) (ix3 (batch2 t) n r) := by
  obtain ⟨-, ⟨e0, e1, e2⟩, -, -⟩ := index2 t
  unfold iblk2
  rw [View.read_apply]
  refine congrArg (V c (Pipeline.arrRef spec2 1) : S16x1024x256.Idx → EReal) (funext fun a => Fin.ext ?_)
  match a with
  | ⟨0, _⟩ => show win2_1.index t (0 : Fin 3) * 1 + 1 * u.val = t.val; omega
  | ⟨1, _⟩ => show win2_1.index t (1 : Fin 3) * 1024 + 1 * n.val = n.val; omega
  | ⟨2, _⟩ => show win2_1.index t (2 : Fin 3) * 256 + 1 * r.val = r.val; omega

/-- The features' block at point t is batch element t of their array. -/
theorem iblk2_2_apply (c : Dev nD) (t : Fin cfg2.N) (u : Fin 1) (n : Fin 1024) (d : Fin 768) :
    (iblk2 V c 2 t : Vec Ideal S1x1024x768 .f32) (ix3 u n d)
      = (V c (Pipeline.arrRef spec2 2) : S16x1024x768.Idx → EReal) (ix3 (batch2 t) n d) := by
  obtain ⟨-, -, ⟨e0, e1, e2⟩, -⟩ := index2 t
  unfold iblk2
  rw [View.read_apply]
  refine congrArg (V c (Pipeline.arrRef spec2 2) : S16x1024x768.Idx → EReal) (funext fun a => Fin.ext ?_)
  match a with
  | ⟨0, _⟩ => show win2_2.index t (0 : Fin 3) * 1 + 1 * u.val = t.val; omega
  | ⟨1, _⟩ => show win2_2.index t (1 : Fin 3) * 1024 + 1 * n.val = n.val; omega
  | ⟨2, _⟩ => show win2_2.index t (2 : Fin 3) * 768 + 1 * d.val = d.val; omega

/-- The first attention output as ONE function of the three arrays the region reads: at (b, n, d), batch element b's
    weights applied to batch element b's features. -/
abbrev attnOut2 (Q1 Q2 : S16x1024x256.Idx → EReal) (X : S16x1024x768.Idx → EReal) : S16x1024x768.Idx → EReal := fun i =>
  Cert.Spec.mix (Cert.Spec.attn (fun n r => Q1 (ix3 (i 0) n r)) (fun m r => Q2 (ix3 (i 0) m r)))
    (fun m d => X (ix3 (i 0) m d)) (i 1) (i 2)

/-- The body's result over blocks that are batch element b of three arrays is block b of that function. -/
theorem pay2_block (x0 x1 : Vec Ideal S1x1024x256 .f32) (x2 : Vec Ideal S1x1024x768 .f32)
    (Q1 Q2 : S16x1024x256.Idx → EReal) (X : S16x1024x768.Idx → EReal) (b : Fin 16)
    (h0 : ∀ n r, x0 (ix3 (0 : Fin 1) n r) = Q1 (ix3 b n r)) (h1 : ∀ m r, x1 (ix3 (0 : Fin 1) m r) = Q2 (ix3 b m r))
    (h2 : ∀ m d, x2 (ix3 (0 : Fin 1) m d) = X (ix3 b m d)) (j : S1x1024x768.Idx) :
    k2_pay1 x0 x1 x2 j = attnOut2 Q1 Q2 X (ix3 b (j 1) (j 2)) := by
  obtain ⟨u, n, d, rfl⟩ : ∃ (u : Fin 1) (n : Fin 1024) (d : Fin 768), j = ix3 u n d := ⟨j 0, j 1, j 2, eq_ix3 j⟩
  refine (pay2_apply x0 x1 x2 u n d).trans ?_
  rw [show (fun n r => x0 (ix3 (0 : Fin 1) n r)) = fun n r => Q1 (ix3 b n r) from funext fun n => funext fun r => h0 n r,
    show (fun m r => x1 (ix3 (0 : Fin 1) m r)) = fun m r => Q2 (ix3 b m r) from funext fun m => funext fun r => h1 m r,
    show (fun m d => x2 (ix3 (0 : Fin 1) m d)) = fun m d => X (ix3 b m d) from funext fun m => funext fun d => h2 m d]

/-- WHAT POINT t WRITES BACK is block t of the attention output of the arrays as the region finds them. -/
theorem flushed2_3_eq (c : Dev nD) (t : Fin cfg2.N) :
    (dat2 (F := Ideal) V c).flushed 3 t = ((cfg2.win 3).blk t).view.read (Elt Ideal)
      (attnOut2 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zeros3]
  simp only [View.ld_unit_zero (S := S1x1024x256) zeros3, View.ld_unit_zero (S := S1x1024x768) zeros3]
  obtain ⟨-, -, -, e0, e1, e2⟩ := index2 t
  funext j
  have hemb : ((cfg2.win 3).blk t).view.emb j = (ix3 (batch2 t) (j 1) (j 2) : S16x1024x768.Idx) := funext fun a => Fin.ext (by
    match a with
    | ⟨0, _⟩ => show win2_3.index t (0 : Fin 3) * 1 + 1 * (j 0).val = t.val; have hj : (j 0).val < 1 := (j 0).isLt; omega
    | ⟨1, _⟩ => show win2_3.index t (1 : Fin 3) * 1024 + 1 * (j 1).val = (j 1).val; omega
    | ⟨2, _⟩ => show win2_3.index t (2 : Fin 3) * 768 + 1 * (j 2).val = (j 2).val; omega)
  exact (pay2_block (iblk2 V c 0 t) (iblk2 V c 1 t) (iblk2 V c 2 t)
      (V c (Pipeline.arrRef spec2 0)) (V c (Pipeline.arrRef spec2 1)) (V c (Pipeline.arrRef spec2 2)) (batch2 t)
      (fun n r => iblk2_0_apply V c t 0 n r) (fun m r => iblk2_1_apply V c t 0 m r) (fun m d => iblk2_2_apply V c t 0 m d) j).trans
    (congrArg (attnOut2 (V c (Pipeline.arrRef spec2 0)) (V c (Pipeline.arrRef spec2 1)) (V c (Pipeline.arrRef spec2 2))) hemb.symm)

/-- An index of the output array is in point t's block iff each coordinate is in the block's range on its axis. -/
theorem mem_blk2_3 (t : Fin cfg2.N) (i : S16x1024x768.Idx) :
    i ∈ ((cfg2.win 3).blk t).view.set ↔ ∀ a : Fin 3, win2_3.index t a * S1x1024x768.size a ≤ (i a).val ∧ (i a).val < win2_3.index t a * S1x1024x768.size a + S1x1024x768.size a := by
  show i ∈ ((View.whole main_v2).slice (win2_3.rect t)).set ↔ _
  rw [View.set_slice_whole, Rect.mem_set_unit]
  exact Iff.rfl

/-- Every index of the output array is in the block of the point its batch coordinate names. -/
theorem covered2_3 (i : S16x1024x768.Idx) :
    ∃ t : Fin cfg2.N, (cfg2.win 3).flush t = true ∧ i ∈ ((cfg2.win 3).blk t).view.set := by
  have hi0 : (i 0).val < 16 := (i 0).isLt
  have hi1 : (i 1).val < 1024 := (i 1).isLt
  have hi2 : (i 2).val < 768 := (i 2).isLt
  have ht : (i 0).val < cfg2.N := Nat.lt_of_lt_of_eq hi0 N_2.symm
  refine ⟨⟨(i 0).val, ht⟩, flush2_3 _, ?_⟩
  rw [mem_blk2_3]
  obtain ⟨-, -, -, e0, e1, e2⟩ := index2 ⟨(i 0).val, ht⟩
  have e0' : win2_3.index ⟨(i 0).val, ht⟩ (0 : Fin 3) = (i 0).val := e0
  intro a
  match a with
  | ⟨0, _⟩ => show win2_3.index ⟨(i 0).val, _⟩ (0 : Fin 3) * 1 ≤ (i 0).val ∧ (i 0).val < win2_3.index ⟨(i 0).val, _⟩ (0 : Fin 3) * 1 + 1; omega
  | ⟨1, _⟩ => show win2_3.index ⟨(i 0).val, _⟩ (1 : Fin 3) * 1024 ≤ (i 1).val ∧ (i 1).val < win2_3.index ⟨(i 0).val, _⟩ (1 : Fin 3) * 1024 + 1024; omega
  | ⟨2, _⟩ => show win2_3.index ⟨(i 0).val, _⟩ (2 : Fin 3) * 768 ≤ (i 2).val ∧ (i 2).val < win2_3.index ⟨(i 0).val, _⟩ (2 : Fin 3) * 768 + 768; omega

/-- THE ARRAY after the region: the attention output of the three arrays the region reads, everywhere. -/
theorem final2_3 (c : Dev nD) :
    (dat2 (F := Ideal) V c).arrAt 3 cfg2.N = fun (i : S16x1024x768.Idx) =>
      Cert.Spec.mix
        (Cert.Spec.attn (fun n r => (V c (Pipeline.arrRef spec2 0) : S16x1024x256.Idx → EReal) (ix3 (i 0) n r))
          (fun m r => (V c (Pipeline.arrRef spec2 1) : S16x1024x256.Idx → EReal) (ix3 (i 0) m r)))
        (fun m d => (V c (Pipeline.arrRef spec2 2) : S16x1024x768.Idx → EReal) (ix3 (i 0) m d)) (i 1) (i 2) :=
  (dat2 (F := Ideal) V c).arrAt_eq_of_cover 3 _ (fun t _ => flushed2_3_eq V c t) covered2_3

end Cert.KernelIdeal.KValue

end
-- ==== Proof.KGate.lean ====
/-
  The gate call of the pipeline, read as a function of its input arrays.

  One grid point b of the 16 handles batch element b.  Its body forms the scaled scores (Σ_r k1[n,r]·k2[m,r])·1/16 of
  the two [384, 256] projection blocks, passes each row through the softmax, contracts the result with the one row of
  weights, out[0,n] = Σ_m w[0,m]·a[n,m], adds the bias, passes that [1, 384] row through the softmax along its 384
  entries, and stores it as the [1, 1, 384] block of the gate array.  The blocks tile the gate array, so it ends as ONE
  function of the input arrays: at (b, 0, n) the gate of batch element b at n.
-/
import proofs.«178307_j44994077393156_1_alg».proof.Proof.Gen.KernelIdeal.Frame
import proofs.«178307_j44994077393156_1_alg».proof.Proof.Spec
import proofs.«178307_j44994077393156_1_alg».proof.Proof.KSoftmaxRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

namespace Gate3

/-! ## The body's payload at an index -/

/-- The operand indices of the scores product at output index i and contraction index q: the left operand's row is i's
    row, the right operand's row is i's column. -/
theorem lhs_scores3_0 (i : S384x384.Idx) (q : dot_S384x256_S384x256_S384x384_1_1_0_0_n_n.contr.Idx) :
    (dot_S384x256_S384x256_S384x384_1_1_0_0_n_n.lhsIdx i q 0).val = (i 0).val := by
  unfold DotDims.lhsIdx
  rw [dif_neg (show ¬(0 : Fin S384x256.rank) ∈ dot_S384x256_S384x256_S384x384_1_1_0_0_n_n.lhsBatch by decide),
    dif_pos (show (0 : Fin S384x256.rank) ∈ dot_S384x256_S384x256_S384x384_1_1_0_0_n_n.lhsNonContracting by decide)]
  rfl
theorem rhs_scores3_0 (i : S384x384.Idx) (q : dot_S384x256_S384x256_S384x384_1_1_0_0_n_n.contr.Idx) :
    (dot_S384x256_S384x256_S384x384_1_1_0_0_n_n.rhsIdx i q 0).val = (i 1).val := by
  unfold DotDims.rhsIdx
  rw [dif_neg (show ¬(0 : Fin S384x256.rank) ∈ dot_S384x256_S384x256_S384x384_1_1_0_0_n_n.rhsBatch by decide),
    dif_pos (show (0 : Fin S384x256.rank) ∈ dot_S384x256_S384x256_S384x384_1_1_0_0_n_n.rhsNonContracting by decide)]
  rfl

/-- The product of the two [384,256] blocks, both contracted along their last axis, into zeros: at (n, m) the sum over
    r of l[n,r]·k[m,r]. -/
theorem matmul_scores3_apply (l k : FVec Ideal S384x256 .bf16) (n m : Fin 384) :
    matmul (F := Ideal) dot_S384x256_S384x256_S384x384_1_1_0_0_n_n none l k (constant S384x384 .f32 0x00000000#32) (ix2 n m)
      = ∑ r : Fin 256, l (ix2 n r) * k (ix2 m r) := by
  simp only [matmul]
  rw [Ideal.matmul_constant_zero_apply, ← Equiv.sum_comp (contrEquiv1 dot_S384x256_S384x256_S384x384_1_1_0_0_n_n 256 rfl rfl).symm]
  refine Finset.sum_congr rfl fun r _ => ?_
  have hk := contrEquiv1_symm_val dot_S384x256_S384x256_S384x384_1_1_0_0_n_n 256 rfl rfl r
  have el : dot_S384x256_S384x256_S384x384_1_1_0_0_n_n.lhsIdx (ix2 n m) ((contrEquiv1 dot_S384x256_S384x256_S384x384_1_1_0_0_n_n 256 rfl rfl).symm r) = ix2 n r :=
    funext fun a => Fin.ext (by
      match a with
      | ⟨0, _⟩ => exact lhs_scores3_0 _ _
      | ⟨1, _⟩ => exact (dot_S384x256_S384x256_S384x384_1_1_0_0_n_n.lhsIdx_val_of_single rfl _ _).trans hk)
  have er : dot_S384x256_S384x256_S384x384_1_1_0_0_n_n.rhsIdx (ix2 n m) ((contrEquiv1 dot_S384x256_S384x256_S384x384_1_1_0_0_n_n 256 rfl rfl).symm r) = ix2 m r :=
    funext fun a => Fin.ext (by
      match a with
      | ⟨0, _⟩ => exact rhs_scores3_0 _ _
      | ⟨1, _⟩ => exact (dot_S384x256_S384x256_S384x384_1_1_0_0_n_n.rhsIdx_val_of_single rfl _ _).trans hk)
  rw [el, er]

/-- The operand indices of the weight product, likewise. -/
theorem lhs_lw3_0 (i : S1x384.Idx) (q : dot_S1x384_S384x384_S1x384_1_1_0_0_n_n.contr.Idx) :
    (dot_S1x384_S384x384_S1x384_1_1_0_0_n_n.lhsIdx i q 0).val = (i 0).val := by
  unfold DotDims.lhsIdx
  rw [dif_neg (show ¬(0 : Fin S1x384.rank) ∈ dot_S1x384_S384x384_S1x384_1_1_0_0_n_n.lhsBatch by decide),
    dif_pos (show (0 : Fin S1x384.rank) ∈ dot_S1x384_S384x384_S1x384_1_1_0_0_n_n.lhsNonContracting by decide)]
  rfl
theorem rhs_lw3_0 (i : S1x384.Idx) (q : dot_S1x384_S384x384_S1x384_1_1_0_0_n_n.contr.Idx) :
    (dot_S1x384_S384x384_S1x384_1_1_0_0_n_n.rhsIdx i q 0).val = (i 1).val := by
  unfold DotDims.rhsIdx
  rw [dif_neg (show ¬(0 : Fin S384x384.rank) ∈ dot_S1x384_S384x384_S1x384_1_1_0_0_n_n.rhsBatch by decide),
    dif_pos (show (0 : Fin S384x384.rank) ∈ dot_S1x384_S384x384_S1x384_1_1_0_0_n_n.rhsNonContracting by decide)]
  rfl

/-- The product of the [1,384] weight row with the [384,384] weights of attention, both contracted along their last
    axis, into zeros: at (0, n) the sum over m of w[0,m]·a[n,m]. -/
theorem matmul_lw3_apply (w : FVec Ideal S1x384 .bf16) (a : FVec Ideal S384x384 .bf16) (u : Fin 1) (n : Fin 384) :
    matmul (F := Ideal) dot_S1x384_S384x384_S1x384_1_1_0_0_n_n none w a (constant S1x384 .f32 0x00000000#32) (ix2 u n)
      = ∑ m : Fin 384, w (ix2 u m) * a (ix2 n m) := by
  simp only [matmul]
  rw [Ideal.matmul_constant_zero_apply, ← Equiv.sum_comp (contrEquiv1 dot_S1x384_S384x384_S1x384_1_1_0_0_n_n 384 rfl rfl).symm]
  refine Finset.sum_congr rfl fun m _ => ?_
  have hk := contrEquiv1_symm_val dot_S1x384_S384x384_S1x384_1_1_0_0_n_n 384 rfl rfl m
  have el : dot_S1x384_S384x384_S1x384_1_1_0_0_n_n.lhsIdx (ix2 u n) ((contrEquiv1 dot_S1x384_S384x384_S1x384_1_1_0_0_n_n 384 rfl rfl).symm m) = ix2 u m :=
    funext fun a => Fin.ext (by
      match a with
      | ⟨0, _⟩ => exact lhs_lw3_0 _ _
      | ⟨1, _⟩ => exact (dot_S1x384_S384x384_S1x384_1_1_0_0_n_n.lhsIdx_val_of_single rfl _ _).trans hk)
  have er : dot_S1x384_S384x384_S1x384_1_1_0_0_n_n.rhsIdx (ix2 u n) ((contrEquiv1 dot_S1x384_S384x384_S1x384_1_1_0_0_n_n 384 rfl rfl).symm m) = ix2 n m :=
    funext fun a => Fin.ext (by
      match a with
      | ⟨0, _⟩ => exact rhs_lw3_0 _ _
      | ⟨1, _⟩ => exact (dot_S1x384_S384x384_S1x384_1_1_0_0_n_n.rhsIdx_val_of_single rfl _ _).trans hk)
  rw [el, er]

/-- The stored block at (0, 0, n): the gate of the two projection blocks, the weight row and the bias, at n. -/
theorem pay3_apply (x0 x1 : Vec Ideal S1x384x256 .f32) (w : Vec Ideal S1x384 .f32) (lb : Vec Ideal S1 .f32) (n : Fin 384) :
    k3_pay1 (F := Ideal) x0 x1 w lb (ix3 (0 : Fin 1) (0 : Fin 1) n)
      = Cert.Spec.gate (fun m => w (ix2 (0 : Fin 1) m)) (lb (ix1 (0 : Fin 1)))
          (Cert.Spec.attn (fun n r => x0 (ix3 (0 : Fin 1) n r)) (fun m r => x1 (ix3 (0 : Fin 1) m r))) n := by
  unfold k3_pay1
  rw [shapeCast_ab_1ab_apply]
  refine (softmaxRows_apply _ _ _ _ _ _ _ (0 : Fin 1) n).trans ?_
  unfold Cert.Spec.gate
  refine congrArg (fun s => Cert.Spec.softmax s n) (funext fun q => ?_)
  rw [addf_apply, column_apply, matmul_lw3_apply]
  refine congrArg (· + _) (Finset.sum_congr rfl fun m _ => ?_)
  rw [truncf_apply, truncf_apply]
  refine congrArg (w (ix2 (0 : Fin 1) m) * ·) ?_
  refine (softmaxRows_apply _ _ _ _ _ _ _ q m).trans ?_
  unfold Cert.Spec.attn
  refine congrArg (fun s => Cert.Spec.softmax s m) (funext fun m' => ?_)
  unfold Cert.Spec.scores
  rw [mulf_apply, broadcast_apply, matmul_scores3_apply]
  refine congrArg (· * _) (Finset.sum_congr rfl fun r _ => ?_)
  rw [truncf_apply, truncf_apply, shapeCast_1ab_ab_apply, shapeCast_1ab_ab_apply]

/-! ## From blocks to the array -/

theorem zeros3g : (![0, 0, 0] : Fin 3 → Nat) = fun _ => 0 := funext fun a => by fin_cases a <;> rfl
theorem zeros2g : (![0, 0] : Fin 2 → Nat) = fun _ => 0 := funext fun a => by fin_cases a <;> rfl
theorem zeros1g : (![0] : Fin 1 → Nat) = fun _ => 0 := funext fun a => by fin_cases a <;> rfl

/-- The index maps over the grid: at point t the two projection blocks and the gate block are block (t, 0, 0) of their
    arrays, the weight row and the bias are taken whole. -/
theorem index_facts3 : ∀ t : Fin cfg3.N,
    win3_0.index t (0 : Fin 3) = win3_4.index t (0 : Fin 3) ∧ win3_0.index t (1 : Fin 3) = 0 ∧ win3_0.index t (2 : Fin 3) = 0
    ∧ win3_1.index t (0 : Fin 3) = win3_4.index t (0 : Fin 3) ∧ win3_1.index t (1 : Fin 3) = 0 ∧ win3_1.index t (2 : Fin 3) = 0
    ∧ win3_2.index t (0 : Fin 2) = 0 ∧ win3_2.index t (1 : Fin 2) = 0 ∧ win3_3.index t (0 : Fin 1) = 0
    ∧ win3_4.index t (0 : Fin 3) ≤ 15 ∧ win3_4.index t (1 : Fin 3) = 0 ∧ win3_4.index t (2 : Fin 3) = 0 :=
  (by decide +kernel : ∀ t : Fin grid3.N, _)

/-- Every batch element is some point's block. -/
theorem index_onto3 : ∀ q0 : Fin 16, ∃ t : Fin cfg3.N, win3_4.index t = ![q0.val, 0, 0] :=
  (by decide +kernel : ∀ q0 : Fin 16, ∃ t : Fin grid3.N, win3_4.index t = ![q0.val, 0, 0])

section Arrays

variable (V : (c : Dev nD) → (b : Ref sig .tc) → Buf (Elt Ideal) ((c : Thread nD τ).loc b))

/-- The gate array: at (b, 0, n) the gate of batch element b at n. -/
abbrev gateArr (K1 K2 : S16x384x256.Idx → EReal) (W : S1x384.Idx → EReal) (B : S1.Idx → EReal) : S16x1x384.Idx → EReal :=
  fun i => Cert.Spec.gate (fun m => W (ix2 0 m)) (B (ix1 0))
    (Cert.Spec.attn (fun n r => K1 (ix3 (i 0) n r)) (fun m r => K2 (ix3 (i 0) m r))) (i 2)

/-- The stored block at any index of the block (the block's first two coordinates are 0). -/
theorem pay3_at (x0 x1 : Vec Ideal S1x384x256 .f32) (w : Vec Ideal S1x384 .f32) (lb : Vec Ideal S1 .f32) (j : S1x1x384.Idx) :
    k3_pay1 (F := Ideal) x0 x1 w lb j
      = Cert.Spec.gate (fun m => w (ix2 (0 : Fin 1) m)) (lb (ix1 (0 : Fin 1)))
          (Cert.Spec.attn (fun n r => x0 (ix3 (0 : Fin 1) n r)) (fun m r => x1 (ix3 (0 : Fin 1) m r))) (j 2) := by
  have h0 : j 0 = (0 : Fin 1) := Fin.ext (by have h : (j 0).val < 1 := (j 0).isLt; show (j 0).val = 0; omega)
  have h1 : j 1 = (0 : Fin 1) := Fin.ext (by have h : (j 1).val < 1 := (j 1).isLt; show (j 1).val = 0; omega)
  have hj : j = ix3 (0 : Fin 1) (0 : Fin 1) (j 2) := by
    have h := eq_ix3 j
    rw [h0, h1] at h
    exact h
  rw [hj]
  exact pay3_apply x0 x1 w lb (j 2)

/-- The gate depends on its four arguments only through their values. -/
theorem gate_attn_congr {A A' : Fin 384 → EReal} {B B' : EReal} {Q Q' K K' : Fin 384 → Fin 256 → EReal} {n n' : Fin 384}
    (hA : A = A') (hB : B = B') (hQ : Q = Q') (hK : K = K') (hn : n = n') :
    Cert.Spec.gate A B (Cert.Spec.attn Q K) n = Cert.Spec.gate A' B' (Cert.Spec.attn Q' K') n' := by
  subst hA hB hQ hK hn
  rfl

/-- What point t writes back to the gate array is block t of `gateArr` of the input arrays as the region finds them. -/
theorem flushed_gate (c : Dev nD) (t : Fin cfg3.N) :
    (dat3 (F := Ideal) V c).flushed 4 t = ((cfg3.win 4).blk t).view.read (Elt Ideal)
      (gateArr (V c (Pipeline.arrRef spec3 0)) (V c (Pipeline.arrRef spec3 1)) (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero zeros3g]
  simp only [View.ld_unit_zero (S := S1x384x256) zeros3g, View.ld_unit_zero (S := S1x384) zeros2g, View.ld_unit_zero (S := S1) zeros1g]
  obtain ⟨e00, e01, e02, e10, e11, e12, e20, e21, e30, b0, e41, e42⟩ := index_facts3 t
  funext j
  show k3_pay1 (F := Ideal) (iblk3 V c 0 t) (iblk3 V c 1 t) (iblk3 V c 2 t) (iblk3 V c 3 t) j = _
  rw [pay3_at]
  show _ = gateArr (V c (Pipeline.arrRef spec3 0)) (V c (Pipeline.arrRef spec3 1)) (V c (Pipeline.arrRef spec3 2))
    (V c (Pipeline.arrRef spec3 3)) (((cfg3.win 4).blk t).view.emb j)
  have hj0 : (j 0).val < 1 := (j 0).isLt
  have hj1 : (j 1).val < 1 := (j 1).isLt
  have hj2 : (j 2).val < 384 := (j 2).isLt
  refine gate_attn_congr (funext fun m => ?_) ?_ (funext fun n => funext fun r => ?_) (funext fun m => funext fun r => ?_) (Fin.ext ?_)
  · show V c (Pipeline.arrRef spec3 2) (((cfg3.win 2).blk t).view.emb (ix2 (0 : Fin 1) m)) = _
    refine congrArg (V c (Pipeline.arrRef spec3 2)) (funext fun a => Fin.ext ?_)
    match a with
    | ⟨0, _⟩ => show win3_2.index t (0 : Fin 2) * 1 + 1 * 0 = 0; omega
    | ⟨1, _⟩ => show win3_2.index t (1 : Fin 2) * 384 + 1 * m.val = m.val; omega
  · show V c (Pipeline.arrRef spec3 3) (((cfg3.win 3).blk t).view.emb (ix1 (0 : Fin 1))) = _
    refine congrArg (V c (Pipeline.arrRef spec3 3)) (funext fun a => Fin.ext ?_)
    match a with
    | ⟨0, _⟩ => show win3_3.index t (0 : Fin 1) * 1 + 1 * 0 = 0; omega
  · show V c (Pipeline.arrRef spec3 0) (((cfg3.win 0).blk t).view.emb (ix3 (0 : Fin 1) n r)) = _
    refine congrArg (V c (Pipeline.arrRef spec3 0)) (funext fun a => Fin.ext ?_)
    match a with
    | ⟨0, _⟩ => show win3_0.index t (0 : Fin 3) * 1 + 1 * 0 = win3_4.index t (0 : Fin 3) * 1 + 1 * (j 0).val; omega
    | ⟨1, _⟩ => show win3_0.index t (1 : Fin 3) * 384 + 1 * n.val = n.val; omega
    | ⟨2, _⟩ => show win3_0.index t (2 : Fin 3) * 256 + 1 * r.val = r.val; omega
  · show V c (Pipeline.arrRef spec3 1) (((cfg3.win 1).blk t).view.emb (ix3 (0 : Fin 1) m r)) = _
    refine congrArg (V c (Pipeline.arrRef spec3 1)) (funext fun a => Fin.ext ?_)
    match a with
    | ⟨0, _⟩ => show win3_1.index t (0 : Fin 3) * 1 + 1 * 0 = win3_4.index t (0 : Fin 3) * 1 + 1 * (j 0).val; omega
    | ⟨1, _⟩ => show win3_1.index t (1 : Fin 3) * 384 + 1 * m.val = m.val; omega
    | ⟨2, _⟩ => show win3_1.index t (2 : Fin 3) * 256 + 1 * r.val = r.val; omega
  · show (j 2).val = win3_4.index t (2 : Fin 3) * 384 + 1 * (j 2).val; omega

/-- An index of the gate array is in point t's block iff each coordinate is in the block's range on its axis. -/
theorem mem_blk_gate (t : Fin cfg3.N) (i : S16x1x384.Idx) :
    i ∈ ((cfg3.win 4).blk t).view.set ↔ ∀ a : Fin 3, win3_4.index t a * S1x1x384.size a ≤ (i a).val
      ∧ (i a).val < win3_4.index t a * S1x1x384.size a + S1x1x384.size a := by
  show i ∈ ((View.whole main_v3).slice (win3_4.rect t)).set ↔ _
  rw [View.set_slice_whole, Rect.mem_set_unit]
  exact Iff.rfl

/-- Every index of the gate array is in the block of the point i 0. -/
theorem cover_gate (i : S16x1x384.Idx) :
    ∃ t : Fin cfg3.N, (cfg3.win 4).flush t = true ∧ i ∈ ((cfg3.win 4).blk t).view.set := by
  have hi0 : (i 0).val < 16 := (i 0).isLt
  have hi1 : (i 1).val < 1 := (i 1).isLt
  have hi2 : (i 2).val < 384 := (i 2).isLt
  obtain ⟨t, ht⟩ := index_onto3 ⟨(i 0).val, hi0⟩
  have q0 : win3_4.index t (0 : Fin 3) = (i 0).val := congrFun ht 0
  have q1 : win3_4.index t (1 : Fin 3) = 0 := congrFun ht 1
  have q2 : win3_4.index t (2 : Fin 3) = 0 := congrFun ht 2
  refine ⟨t, flush3_4 t, ?_⟩
  rw [mem_blk_gate]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 1 ≤ (i 1).val ∧ (i 1).val < win3_4.index t (1 : Fin 3) * 1 + 1; omega
  | ⟨2, _⟩ => show win3_4.index t (2 : Fin 3) * 384 ≤ (i 2).val ∧ (i 2).val < win3_4.index t (2 : Fin 3) * 384 + 384; omega

end Arrays

end Gate3

section Arrays

variable (V : (c : Dev nD) → (b : Ref sig .tc) → Buf (Elt Ideal) ((c : Thread nD τ).loc b))

/-- THE GATE ARRAY after the region: at (b, 0, n) the gate of batch element b at n, of the input arrays as the region
    finds them. -/
theorem final3_4 (c : Dev nD) :
    (dat3 (F := Ideal) V c).arrAt 4 cfg3.N
      = fun (i : S16x1x384.Idx) => Cert.Spec.gate (fun m => (V c (Pipeline.arrRef spec3 2) : S1x384.Idx → EReal) (ix2 0 m))
          ((V c (Pipeline.arrRef spec3 3) : S1.Idx → EReal) (ix1 0))
          (Cert.Spec.attn (fun n r => (V c (Pipeline.arrRef spec3 0) : S16x384x256.Idx → EReal) (ix3 (i 0) n r))
            (fun m r => (V c (Pipeline.arrRef spec3 1) : S16x384x256.Idx → EReal) (ix3 (i 0) m r))) (i 2) :=
  (dat3 (F := Ideal) V c).arrAt_eq_of_cover 4 _ (fun t _ => Gate3.flushed_gate V c t) Gate3.cover_gate

end Arrays

end Cert.KernelIdeal.KValue

end
-- ==== Proof.KAttn4.lean ====
/-
  The second attention call, read off the TensorCore's run.

  The call runs once per batch element: point t of its sixteen stages batch element t of the queries ([1,1024,256]), the
  keys ([1,384,256]), the gate's row ([1,1,384]) and the features ([1,384,768]) and stores one [1,1024,768] block.  The
  body forms the scores (Σ_r q[n,r]·k[m,r]) · 1/16, passes each row through the softmax, adds the gate's row to every
  row of the weights, and applies the result to the features: out[n,d] = Σ_m (a[n,m] + h[m])·x[m,d].  Here that is
  proved at an index (the two products as finite sums, the row softmax by the shared lemma, the unit-axis casts and the
  row broadcast by coordinates), then carried from blocks to the whole array: point t's block of every window is block
  (t, 0, 0), what point t writes back is block t of ONE function of the four arrays, and the sixteen blocks cover the
  output array.
-/
import proofs.«178307_j44994077393156_1_alg».proof.Proof.Gen.KernelIdeal.Frame
import proofs.«178307_j44994077393156_1_alg».proof.Proof.KSoftmaxRows
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's two products read at an index -/

theorem scoresDot4_apply_lhs0 (j : S1024x384.Idx) (q : dot_S1024x256_S384x256_S1024x384_1_1_0_0_n_n.contr.Idx) :
    (dot_S1024x256_S384x256_S1024x384_1_1_0_0_n_n.lhsIdx j q 0).val = (j 0).val := by
  unfold DotDims.lhsIdx
  rw [dif_neg (show ¬(0 : Fin S1024x256.rank) ∈ dot_S1024x256_S384x256_S1024x384_1_1_0_0_n_n.lhsBatch by decide), dif_pos (show (0 : Fin S1024x256.rank) ∈ dot_S1024x256_S384x256_S1024x384_1_1_0_0_n_n.lhsNonContracting by decide)]
  rfl
theorem scoresDot4_apply_lhs1 (j : S1024x384.Idx) (q : dot_S1024x256_S384x256_S1024x384_1_1_0_0_n_n.contr.Idx) :
    (dot_S1024x256_S384x256_S1024x384_1_1_0_0_n_n.lhsIdx j q 1).val = (q ⟨0, by decide⟩).val :=
  dot_S1024x256_S384x256_S1024x384_1_1_0_0_n_n.lhsIdx_val_of_single rfl j q
theorem scoresDot4_apply_rhs0 (j : S1024x384.Idx) (q : dot_S1024x256_S384x256_S1024x384_1_1_0_0_n_n.contr.Idx) :
    (dot_S1024x256_S384x256_S1024x384_1_1_0_0_n_n.rhsIdx j q 0).val = (j 1).val := by
  unfold DotDims.rhsIdx
  rw [dif_neg (show ¬(0 : Fin S384x256.rank) ∈ dot_S1024x256_S384x256_S1024x384_1_1_0_0_n_n.rhsBatch by decide), dif_pos (show (0 : Fin S384x256.rank) ∈ dot_S1024x256_S384x256_S1024x384_1_1_0_0_n_n.rhsNonContracting by decide)]
  rfl
theorem scoresDot4_apply_rhs1 (j : S1024x384.Idx) (q : dot_S1024x256_S384x256_S1024x384_1_1_0_0_n_n.contr.Idx) :
    (dot_S1024x256_S384x256_S1024x384_1_1_0_0_n_n.rhsIdx j q 1).val = (q ⟨0, by decide⟩).val :=
  dot_S1024x256_S384x256_S1024x384_1_1_0_0_n_n.rhsIdx_val_of_single rfl j q

/-- The product of the two projections, rows against rows: at (n, m) the sum over r of A[n,r]·B[m,r]. -/
theorem scoresDot4_apply (A : FVec Ideal S1024x256 .bf16) (B : FVec Ideal S384x256 .bf16) (n : Fin 1024) (m : Fin 384) :
    matmul dot_S1024x256_S384x256_S1024x384_1_1_0_0_n_n none A B (constant (F := Ideal) S1024x384 .f32 0x00000000#32) (ix2 n m)
      = ∑ r : Fin 256, A (ix2 n r) * B (ix2 m r) := by
  simp only [matmul]
  rw [Ideal.matmul_constant_zero_apply, ← Equiv.sum_comp (contrEquiv1 dot_S1024x256_S384x256_S1024x384_1_1_0_0_n_n 256 rfl rfl).symm]
  refine Finset.sum_congr rfl fun r _ => ?_
  have hk := contrEquiv1_symm_val dot_S1024x256_S384x256_S1024x384_1_1_0_0_n_n 256 rfl rfl r
  have el : dot_S1024x256_S384x256_S1024x384_1_1_0_0_n_n.lhsIdx (ix2 n m) ((contrEquiv1 dot_S1024x256_S384x256_S1024x384_1_1_0_0_n_n 256 rfl rfl).symm r) = ix2 n r := funext fun a => Fin.ext (by
    match a with
    | ⟨0, _⟩ => exact scoresDot4_apply_lhs0 _ _
    | ⟨1, _⟩ => exact (scoresDot4_apply_lhs1 _ _).trans hk)
  have er : dot_S1024x256_S384x256_S1024x384_1_1_0_0_n_n.rhsIdx (ix2 n m) ((contrEquiv1 dot_S1024x256_S384x256_S1024x384_1_1_0_0_n_n 256 rfl rfl).symm r) = ix2 m r := funext fun a => Fin.ext (by
    match a with
    | ⟨0, _⟩ => exact scoresDot4_apply_rhs0 _ _
    | ⟨1, _⟩ => exact (scoresDot4_apply_rhs1 _ _).trans hk)
  rw [el, er]

theorem mixDot4_apply_lhs0 (j : S1024x768.Idx) (q : dot_S1024x384_S384x768_S1024x768_1_0_0_1_n_n.contr.Idx) :
    (dot_S1024x384_S384x768_S1024x768_1_0_0_1_n_n.lhsIdx j q 0).val = (j 0).val := by
  unfold DotDims.lhsIdx
  rw [dif_neg (show ¬(0 : Fin S1024x384.rank) ∈ dot_S1024x384_S384x768_S1024x768_1_0_0_1_n_n.lhsBatch by decide), dif_pos (show (0 : Fin S1024x384.rank) ∈ dot_S1024x384_S384x768_S1024x768_1_0_0_1_n_n.lhsNonContracting by decide)]
  rfl
theorem mixDot4_apply_lhs1 (j : S1024x768.Idx) (q : dot_S1024x384_S384x768_S1024x768_1_0_0_1_n_n.contr.Idx) :
    (dot_S1024x384_S384x768_S1024x768_1_0_0_1_n_n.lhsIdx j q 1).val = (q ⟨0, by decide⟩).val :=
  dot_S1024x384_S384x768_S1024x768_1_0_0_1_n_n.lhsIdx_val_of_single rfl j q
theorem mixDot4_apply_rhs0 (j : S1024x768.Idx) (q : dot_S1024x384_S384x768_S1024x768_1_0_0_1_n_n.contr.Idx) :
    (dot_S1024x384_S384x768_S1024x768_1_0_0_1_n_n.rhsIdx j q 0).val = (q ⟨0, by decide⟩).val :=
  dot_S1024x384_S384x768_S1024x768_1_0_0_1_n_n.rhsIdx_val_of_single rfl j q
theorem mixDot4_apply_rhs1 (j : S1024x768.Idx) (q : dot_S1024x384_S384x768_S1024x768_1_0_0_1_n_n.contr.Idx) :
    (dot_S1024x384_S384x768_S1024x768_1_0_0_1_n_n.rhsIdx j q 1).val = (j 1).val := by
  unfold DotDims.rhsIdx
  rw [dif_neg (show ¬(1 : Fin S384x768.rank) ∈ dot_S1024x384_S384x768_S1024x768_1_0_0_1_n_n.rhsBatch by decide), dif_pos (show (1 : Fin S384x768.rank) ∈ dot_S1024x384_S384x768_S1024x768_1_0_0_1_n_n.rhsNonContracting by decide)]
  rfl

/-- The weights times the features: at (n, d) the sum over m of A[n,m]·B[m,d]. -/
theorem mixDot4_apply (A : FVec Ideal S1024x384 .bf16) (B : FVec Ideal S384x768 .bf16) (n : Fin 1024) (m : Fin 768) :
    matmul dot_S1024x384_S384x768_S1024x768_1_0_0_1_n_n none A B (constant (F := Ideal) S1024x768 .f32 0x00000000#32) (ix2 n m)
      = ∑ r : Fin 384, A (ix2 n r) * B (ix2 r m) := by
  simp only [matmul]
  rw [Ideal.matmul_constant_zero_apply, ← Equiv.sum_comp (contrEquiv1 dot_S1024x384_S384x768_S1024x768_1_0_0_1_n_n 384 rfl rfl).symm]
  refine Finset.sum_congr rfl fun r _ => ?_
  have hk := contrEquiv1_symm_val dot_S1024x384_S384x768_S1024x768_1_0_0_1_n_n 384 rfl rfl r
  have el : dot_S1024x384_S384x768_S1024x768_1_0_0_1_n_n.lhsIdx (ix2 n m) ((contrEquiv1 dot_S1024x384_S384x768_S1024x768_1_0_0_1_n_n 384 rfl rfl).symm r) = ix2 n r := funext fun a => Fin.ext (by
    match a with
    | ⟨0, _⟩ => exact mixDot4_apply_lhs0 _ _
    | ⟨1, _⟩ => exact (mixDot4_apply_lhs1 _ _).trans hk)
  have er : dot_S1024x384_S384x768_S1024x768_1_0_0_1_n_n.rhsIdx (ix2 n m) ((contrEquiv1 dot_S1024x384_S384x768_S1024x768_1_0_0_1_n_n 384 rfl rfl).symm r) = ix2 r m := funext fun a => Fin.ext (by
    match a with
    | ⟨0, _⟩ => exact (mixDot4_apply_rhs0 _ _).trans hk
    | ⟨1, _⟩ => exact mixDot4_apply_rhs1 _ _)
  rw [el, er]

/-! ## The body's result at an index -/

/-- What the body stores, at (u, n, d), over its four loaded blocks: the attention weights of the two projections
    (scaled scores, each row through the softmax), the gate's row added to every row of them, applied to the features. -/
theorem pay4_apply (q : Vec Ideal S1x1024x256 .f32) (k : Vec Ideal S1x384x256 .f32) (h : Vec Ideal S1x1x384 .f32)
    (x : Vec Ideal S1x384x768 .f32) (u : Fin 1) (n : Fin 1024) (d : Fin 768) :
    k4_pay1 q k h x (ix3 u n d)
      = Cert.Spec.mix
          (fun n m => Cert.Spec.attn (fun n r => q (ix3 (0 : Fin 1) n r)) (fun m r => k (ix3 (0 : Fin 1) m r)) n m
            + h (ix3 (0 : Fin 1) (0 : Fin 1) m))
          (fun m d => x (ix3 (0 : Fin 1) m d)) n d := by
  unfold k4_pay1
  dsimp only
  refine (shapeCast_ab_1ab_apply _ _ u n d).trans ?_
  refine (mixDot4_apply _ _ n d).trans ?_
  unfold Cert.Spec.mix
  refine Finset.sum_congr rfl fun m _ => ?_
  refine congrArg₂ (· * ·) ?_ ?_
  · refine (truncf_apply (φ := .f32) (ψ := .bf16) _ bitsLt_bf16_f32 (ix2 n m)).trans ?_
    refine (addf_apply _ _ (ix2 n m)).trans ?_
    refine congrArg₂ (· + ·) ?_ ?_
    · refine (softmaxRows_apply (n := 1024) (m := 384) _ _ _ _ _ _ _ n m).trans ?_
      unfold Cert.Spec.attn
      refine congrArg (fun s => Cert.Spec.softmax s m) (funext fun m' => ?_)
      unfold Cert.Spec.scores
      refine congrArg (· * Cert.Spec.sixteenth) ?_
      refine (scoresDot4_apply _ _ n m').trans (Finset.sum_congr rfl fun r _ => ?_)
      refine congrArg₂ (· * ·) ?_ ?_
      · exact shapeCast_1ab_ab_apply q _ n r
      · exact shapeCast_1ab_ab_apply k _ m' r
    · exact (broadcastTo_1b_ab_apply _ _ n m).trans (shapeCast_1ab_ab_apply h _ (0 : Fin 1) m)
  · exact shapeCast_1ab_ab_apply x _ m d

/-! ## From the blocks to the array -/

theorem zeros3' : (![0, 0, 0] : Fin 3 → Nat) = fun _ => 0 := funext fun a => by fin_cases a <;> rfl

/-- The printed index maps, decided over the sixteen points: point t's block of every window is block (t, 0, 0). -/
theorem index4 : ∀ t : Fin cfg4.N,
    (win4_0.index t (0 : Fin 3) = t.val ∧ win4_0.index t (1 : Fin 3) = 0 ∧ win4_0.index t (2 : Fin 3) = 0)
    ∧ (win4_1.index t (0 : Fin 3) = t.val ∧ win4_1.index t (1 : Fin 3) = 0 ∧ win4_1.index t (2 : Fin 3) = 0)
    ∧ (win4_2.index t (0 : Fin 3) = t.val ∧ win4_2.index t (1 : Fin 3) = 0 ∧ win4_2.index t (2 : Fin 3) = 0)
    ∧ (win4_3.index t (0 : Fin 3) = t.val ∧ win4_3.index t (1 : Fin 3) = 0 ∧ win4_3.index t (2 : Fin 3) = 0)
    ∧ (win4_4.index t (0 : Fin 3) = t.val ∧ win4_4.index t (1 : Fin 3) = 0 ∧ win4_4.index t (2 : Fin 3) = 0) :=
  (by decide +kernel : ∀ t : Fin grid4.N, _)

/-- Point t as a batch coordinate. -/
abbrev batch4 (t : Fin cfg4.N) : Fin 16 := ⟨t.val, Nat.lt_of_lt_of_eq t.isLt N_4⟩

/-- The queries' block at point t is batch element t of their array. -/
theorem iblk4_0_apply (c : Dev nD) (t : Fin cfg4.N) (u : Fin 1) (n : Fin 1024) (r : Fin 256) :
    (iblk4 V c 0 t : Vec Ideal S1x1024x256 .f32) (ix3 u n r)
      = (V c (Pipeline.arrRef spec4 0) : S16x1024x256.Idx → EReal) (ix3 (batch4 t) n r) := by
  obtain ⟨e0, e1, e2⟩ := (index4 t).1
  unfold iblk4
  rw [View.read_apply]
  refine congrArg (V c (Pipeline.arrRef spec4 0) : S16x1024x256.Idx → EReal) (funext fun a => Fin.ext ?_)
  match a with
  | ⟨0, _⟩ => show win4_0.index t (0 : Fin 3) * 1 + 1 * u.val = t.val; omega
  | ⟨1, _⟩ => show win4_0.index t (1 : Fin 3) * 1024 + 1 * n.val = n.val; omega
  | ⟨2, _⟩ => show win4_0.index t (2 : Fin 3) * 256 + 1 * r.val = r.val; omega

/-- The keys' block at point t is batch element t of their array. -/
theorem iblk4_1_apply (c : Dev nD) (t : Fin cfg4.N) (u : Fin 1) (m : Fin 384) (r : Fin 256) :
    (iblk4 V c 1 t : Vec Ideal S1x384x256 .f32) (ix3 u m r)
      = (V c (Pipeline.arrRef spec4 1) : S16x384x256.Idx → EReal) (ix3 (batch4 t) m r) := by
  obtain ⟨e0, e1, e2⟩ := (index4 t).2.1
  unfold iblk4
  rw [View.read_apply]
  refine congrArg (V c (Pipeline.arrRef spec4 1) : S16x384x256.Idx → EReal) (funext fun a => Fin.ext ?_)
  match a with
  | ⟨0, _⟩ => show win4_1.index t (0 : Fin 3) * 1 + 1 * u.val = t.val; omega
  | ⟨1, _⟩ => show win4_1.index t (1 : Fin 3) * 384 + 1 * m.val = m.val; omega
  | ⟨2, _⟩ => show win4_1.index t (2 : Fin 3) * 256 + 1 * r.val = r.val; omega

/-- The gate's block at point t is batch element t of its array. -/
theorem iblk4_2_apply (c : Dev nD) (t : Fin cfg4.N) (u : Fin 1) (z : Fin 1) (m : Fin 384) :
    (iblk4 V c 2 t : Vec Ideal S1x1x384 .f32) (ix3 u z m)
      = (V c (Pipeline.arrRef spec4 2) : S16x1x384.Idx → EReal) (ix3 (batch4 t) z m) := by
  obtain ⟨e0, e1, e2⟩ := (index4 t).2.2.1
  unfold iblk4
  rw [View.read_apply]
  refine congrArg (V c (Pipeline.arrRef spec4 2) : S16x1x384.Idx → EReal) (funext fun a => Fin.ext ?_)
  match a with
  | ⟨0, _⟩ => show win4_2.index t (0 : Fin 3) * 1 + 1 * u.val = t.val; omega
  | ⟨1, _⟩ => show win4_2.index t (1 : Fin 3) * 1 + 1 * z.val = z.val; omega
  | ⟨2, _⟩ => show win4_2.index t (2 : Fin 3) * 384 + 1 * m.val = m.val; omega

/-- The features' block at point t is batch element t of their array. -/
theorem iblk4_3_apply (c : Dev nD) (t : Fin cfg4.N) (u : Fin 1) (m : Fin 384) (d : Fin 768) :
    (iblk4 V c 3 t : Vec Ideal S1x384x768 .f32) (ix3 u m d)
      = (V c (Pipeline.arrRef spec4 3) : S16x384x768.Idx → EReal) (ix3 (batch4 t) m d) := by
  obtain ⟨e0, e1, e2⟩ := (index4 t).2.2.2.1
  unfold iblk4
  rw [View.read_apply]
  refine congrArg (V c (Pipeline.arrRef spec4 3) : S16x384x768.Idx → EReal) (funext fun a => Fin.ext ?_)
  match a with
  | ⟨0, _⟩ => show win4_3.index t (0 : Fin 3) * 1 + 1 * u.val = t.val; omega
  | ⟨1, _⟩ => show win4_3.index t (1 : Fin 3) * 384 + 1 * m.val = m.val; omega
  | ⟨2, _⟩ => show win4_3.index t (2 : Fin 3) * 768 + 1 * d.val = d.val; omega

/-- The second attention output as ONE function of the four arrays the region reads: at (b, n, d), batch element b's
    weights with batch element b's gate row added to each row, applied to batch element b's features. -/
abbrev attnOut4 (Q : S16x1024x256.Idx → EReal) (K : S16x384x256.Idx → EReal) (H : S16x1x384.Idx → EReal)
    (X : S16x384x768.Idx → EReal) : S16x1024x768.Idx → EReal := fun i =>
  Cert.Spec.mix
    (fun n m => Cert.Spec.attn (fun n r => Q (ix3 (i 0) n r)) (fun m r => K (ix3 (i 0) m r)) n m + H (ix3 (i 0) 0 m))
    (fun m d => X (ix3 (i 0) m d)) (i 1) (i 2)

/-- The body's result over blocks that are batch element b of four arrays is block b of that function. -/
theorem pay4_block (x0 : Vec Ideal S1x1024x256 .f32) (x1 : Vec Ideal S1x384x256 .f32) (x2 : Vec Ideal S1x1x384 .f32)
    (x3 : Vec Ideal S1x384x768 .f32)
    (Q : S16x1024x256.Idx → EReal) (K : S16x384x256.Idx → EReal) (H : S16x1x384.Idx → EReal) (X : S16x384x768.Idx → EReal)
    (b : Fin 16)
    (h0 : ∀ n r, x0 (ix3 (0 : Fin 1) n r) = Q (ix3 b n r)) (h1 : ∀ m r, x1 (ix3 (0 : Fin 1) m r) = K (ix3 b m r))
    (h2 : ∀ m, x2 (ix3 (0 : Fin 1) (0 : Fin 1) m) = H (ix3 b 0 m))
    (h3 : ∀ m d, x3 (ix3 (0 : Fin 1) m d) = X (ix3 b m d)) (j : S1x1024x768.Idx) :
    k4_pay1 x0 x1 x2 x3 j = attnOut4 Q K H X (ix3 b (j 1) (j 2)) := by
  obtain ⟨u, n, d, rfl⟩ : ∃ (u : Fin 1) (n : Fin 1024) (d : Fin 768), j = ix3 u n d := ⟨j 0, j 1, j 2, eq_ix3 j⟩
  refine (pay4_apply x0 x1 x2 x3 u n d).trans ?_
  rw [show (fun n r => x0 (ix3 (0 : Fin 1) n r)) = fun n r => Q (ix3 b n r) from funext fun n => funext fun r => h0 n r,
    show (fun m r => x1 (ix3 (0 : Fin 1) m r)) = fun m r => K (ix3 b m r) from funext fun m => funext fun r => h1 m r,
    show (fun m d => x3 (ix3 (0 : Fin 1) m d)) = fun m d => X (ix3 b m d) from funext fun m => funext fun d => h3 m d]
  refine congrArg (fun a => Cert.Spec.mix a (fun m d => X (ix3 b m d)) n d) (funext fun n' => funext fun m => ?_)
  rw [h2 m]

/-- WHAT POINT t WRITES BACK is block t of the attention output of the arrays as the region finds them. -/
theorem flushed4_4_eq (c : Dev nD) (t : Fin cfg4.N) :
    (dat4 (F := Ideal) V c).flushed 4 t = ((cfg4.win 4).blk t).view.read (Elt Ideal)
      (attnOut4 (V c (Pipeline.arrRef spec4 0)) (V c (Pipeline.arrRef spec4 1)) (V c (Pipeline.arrRef spec4 2))
        (V c (Pipeline.arrRef spec4 3))) := by
  show (cfg4.win 4).cut (grid4.coords t) ((dat4 V c).after 4 t) = _
  rw [after4_4]
  unfold out4_4
  rw [View.canon_unit_zero zeros3']
  simp only [View.ld_unit_zero (S := S1x1024x256) zeros3', View.ld_unit_zero (S := S1x384x256) zeros3',
    View.ld_unit_zero (S := S1x1x384) zeros3', View.ld_unit_zero (S := S1x384x768) zeros3']
  obtain ⟨-, -, -, -, e0, e1, e2⟩ := index4 t
  funext j
  have hemb : ((cfg4.win 4).blk t).view.emb j = (ix3 (batch4 t) (j 1) (j 2) : S16x1024x768.Idx) := funext fun a => Fin.ext (by
    match a with
    | ⟨0, _⟩ => show win4_4.index t (0 : Fin 3) * 1 + 1 * (j 0).val = t.val; have hj : (j 0).val < 1 := (j 0).isLt; omega
    | ⟨1, _⟩ => show win4_4.index t (1 : Fin 3) * 1024 + 1 * (j 1).val = (j 1).val; omega
    | ⟨2, _⟩ => show win4_4.index t (2 : Fin 3) * 768 + 1 * (j 2).val = (j 2).val; omega)
  exact (pay4_block (iblk4 V c 0 t) (iblk4 V c 1 t) (iblk4 V c 2 t) (iblk4 V c 3 t)
      (V c (Pipeline.arrRef spec4 0)) (V c (Pipeline.arrRef spec4 1)) (V c (Pipeline.arrRef spec4 2))
      (V c (Pipeline.arrRef spec4 3)) (batch4 t)
      (fun n r => iblk4_0_apply V c t 0 n r) (fun m r => iblk4_1_apply V c t 0 m r) (fun m => iblk4_2_apply V c t 0 0 m)
      (fun m d => iblk4_3_apply V c t 0 m d) j).trans
    (congrArg (attnOut4 (V c (Pipeline.arrRef spec4 0)) (V c (Pipeline.arrRef spec4 1)) (V c (Pipeline.arrRef spec4 2))
      (V c (Pipeline.arrRef spec4 3))) hemb.symm)

/-- An index of the output array is in point t's block iff each coordinate is in the block's range on its axis. -/
theorem mem_blk4_4 (t : Fin cfg4.N) (i : S16x1024x768.Idx) :
    i ∈ ((cfg4.win 4).blk t).view.set ↔ ∀ a : Fin 3, win4_4.index t a * S1x1024x768.size a ≤ (i a).val ∧ (i a).val < win4_4.index t a * S1x1024x768.size a + S1x1024x768.size a := by
  show i ∈ ((View.whole main_v4).slice (win4_4.rect t)).set ↔ _
  rw [View.set_slice_whole, Rect.mem_set_unit]
  exact Iff.rfl

/-- Every index of the output array is in the block of the point its batch coordinate names. -/
theorem covered4_4 (i : S16x1024x768.Idx) :
    ∃ t : Fin cfg4.N, (cfg4.win 4).flush t = true ∧ i ∈ ((cfg4.win 4).blk t).view.set := by
  have hi0 : (i 0).val < 16 := (i 0).isLt
  have hi1 : (i 1).val < 1024 := (i 1).isLt
  have hi2 : (i 2).val < 768 := (i 2).isLt
  have ht : (i 0).val < cfg4.N := Nat.lt_of_lt_of_eq hi0 N_4.symm
  refine ⟨⟨(i 0).val, ht⟩, flush4_4 _, ?_⟩
  rw [mem_blk4_4]
  obtain ⟨-, -, -, -, e0, e1, e2⟩ := index4 ⟨(i 0).val, ht⟩
  have e0' : win4_4.index ⟨(i 0).val, ht⟩ (0 : Fin 3) = (i 0).val := e0
  intro a
  match a with
  | ⟨0, _⟩ => show win4_4.index ⟨(i 0).val, _⟩ (0 : Fin 3) * 1 ≤ (i 0).val ∧ (i 0).val < win4_4.index ⟨(i 0).val, _⟩ (0 : Fin 3) * 1 + 1; omega
  | ⟨1, _⟩ => show win4_4.index ⟨(i 0).val, _⟩ (1 : Fin 3) * 1024 ≤ (i 1).val ∧ (i 1).val < win4_4.index ⟨(i 0).val, _⟩ (1 : Fin 3) * 1024 + 1024; omega
  | ⟨2, _⟩ => show win4_4.index ⟨(i 0).val, _⟩ (2 : Fin 3) * 768 ≤ (i 2).val ∧ (i 2).val < win4_4.index ⟨(i 0).val, _⟩ (2 : Fin 3) * 768 + 768; omega

/-- THE ARRAY after the region: the attention output of the four arrays the region reads, everywhere. -/
theorem final4_4 (c : Dev nD) :
    (dat4 (F := Ideal) V c).arrAt 4 cfg4.N = fun (i : S16x1024x768.Idx) =>
      Cert.Spec.mix
        (fun n m => Cert.Spec.attn (fun n r => (V c (Pipeline.arrRef spec4 0) : S16x1024x256.Idx → EReal) (ix3 (i 0) n r))
            (fun m r => (V c (Pipeline.arrRef spec4 1) : S16x384x256.Idx → EReal) (ix3 (i 0) m r)) n m
          + (V c (Pipeline.arrRef spec4 2) : S16x1x384.Idx → EReal) (ix3 (i 0) 0 m))
        (fun m d => (V c (Pipeline.arrRef spec4 3) : S16x384x768.Idx → EReal) (ix3 (i 0) m d)) (i 1) (i 2) :=
  (dat4 (F := Ideal) V c).arrAt_eq_of_cover 4 _ (fun t _ => flushed4_4_eq V c t) covered4_4

end Cert.KernelIdeal.KValue

end
-- ==== Proof.SpecOut.lean ====
/-
  The last stage of the pipeline, stated free of both programs: the two attention features laid side by side along the
  last axis (`cat`, 768 + 768 = 1536 columns), and the output projection
      out[n,d] = (Σ_c cat[n,c]·W[d,c]) + b[d].
  One side computes the projection as ONE sum over the 1536 columns; the other as the sum over the first 768 columns plus
  the sum over the last 768.  The two agree by splitting a finite sum at 768 — associativity and commutativity of addition
  on the extended reals, no finiteness needed (`sum_cat_split`).
-/
import Idealize.ShloMosaic.PureOps.Ideal
import Mathlib.Algebra.BigOperators.Fin

noncomputable section

namespace Cert.Spec

variable {N : Nat}

/-- The two features side by side: columns 0…767 from the first, 768…1535 from the second. -/
def cat (a1 a2 : Fin N → Fin 768 → EReal) (n : Fin N) (c : Fin 1536) : EReal :=
  if h : c.val < 768 then a1 n ⟨c.val, h⟩ else a2 n ⟨c.val - 768, by omega⟩

/-- The output projection computed half by half: (Σ_{c<768} a1[n,c]·W[d,c]) + (Σ_{c<768} a2[n,c]·W[d,768+c]), plus b[d]. -/
def outHalves (a1 a2 : Fin N → Fin 768 → EReal) (W : Fin 768 → Fin 1536 → EReal) (b : Fin 768 → EReal)
    (n : Fin N) (d : Fin 768) : EReal :=
  ((∑ c : Fin 768, a1 n c * W d ⟨c.val, by omega⟩) + (∑ c : Fin 768, a2 n c * W d ⟨768 + c.val, by omega⟩)) + b d

/-- The sum over all 1536 columns of the joined array is the sum over the first half plus the sum over the second. -/
theorem sum_cat_split (a1 a2 : Fin N → Fin 768 → EReal) (W : Fin 768 → Fin 1536 → EReal) (n : Fin N) (d : Fin 768) :
    (∑ c : Fin 1536, cat a1 a2 n c * W d c)
      = (∑ c : Fin 768, a1 n c * W d ⟨c.val, by omega⟩) + (∑ c : Fin 768, a2 n c * W d ⟨768 + c.val, by omega⟩) := by
  have h := Fin.sum_univ_add (a := 768) (b := 768) (fun c : Fin (768 + 768) => cat a1 a2 n c * W d c)
  refine h.trans (congrArg₂ (· + ·) ?_ ?_)
  · refine Finset.sum_congr rfl fun c _ => ?_
    have hc : (Fin.castAdd 768 c : Fin (768 + 768)).val < 768 := c.isLt
    show cat a1 a2 n (Fin.castAdd 768 c) * W d (Fin.castAdd 768 c) = _
    unfold cat
    rw [dif_pos hc]
    rfl
  · refine Finset.sum_congr rfl fun c _ => ?_
    have hc : ¬ (Fin.natAdd 768 c : Fin (768 + 768)).val < 768 := by
      show ¬ (768 + c.val < 768); omega
    show cat a1 a2 n (Fin.natAdd 768 c) * W d (Fin.natAdd 768 c) = _
    unfold cat
    rw [dif_neg hc]
    congr 2
    exact Fin.ext (by show 768 + c.val - 768 = c.val; omega)

/-- So the projection of the joined array, as one sum, is the projection computed half by half. -/
theorem out_eq_outHalves (a1 a2 : Fin N → Fin 768 → EReal) (W : Fin 768 → Fin 1536 → EReal) (b : Fin 768 → EReal)
    (n : Fin N) (d : Fin 768) :
    (∑ c : Fin 1536, cat a1 a2 n c * W d c) + b d = outHalves a1 a2 W b n d := by
  unfold outHalves
  rw [sum_cat_split]

end Cert.Spec

end
-- ==== Proof.KCombine.lean ====
/-
  The last call of the pipeline, read as a function of its input arrays.

  One grid point (b, t) of the 16 × 2 grid handles rows 512·t … 512·t + 511 of batch element b.  Its body stores the two
  feature blocks side by side into the joined block (columns 0…767 and 768…1535), and stores
      ((Σ_c af1[n,c]·W[d,c]) + (Σ_c af2[n,c]·W[d,768+c])) + bias[d]
  into the output block: the weight matrix cut into its two column halves, one matrix product per half, their sum, the bias
  row broadcast over the rows.  The blocks tile both output arrays, so each array ends as ONE function of the input arrays:
  `Cert.Spec.cat` and `Cert.Spec.outHalves` of the arrays read in coordinates.
-/
import proofs.«178307_j44994077393156_1_alg».proof.Proof.Gen.KernelIdeal.Frame
import proofs.«178307_j44994077393156_1_alg».proof.Proof.Spec
import proofs.«178307_j44994077393156_1_alg».proof.Proof.SpecOut
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KValue.Combine5

open Cert.KernelIdeal Cert.KernelIdeal.Gen
open Idealize.ShloMosaic Idealize.ShloMosaic.TcCoe Idealize.SL.Sem Idealize.ShloMosaic.ValueIdx

/-! ## The body's payloads at an index -/

/-- A block cast to two axes and back is the block. -/
theorem pay3_apply (x : Vec Ideal S1x512x768 .f32) (j : S1x512x768.Idx) : k5_pay3 (F := Ideal) x j = x j := by
  unfold k5_pay3 k5_pay1
  exact congrFun (shapeCast_shapeCast x _ _) j

theorem pay4_apply (x : Vec Ideal S1x512x768 .f32) (j : S1x512x768.Idx) : k5_pay4 (F := Ideal) x j = x j := by
  unfold k5_pay4 k5_pay2
  exact congrFun (shapeCast_shapeCast x _ _) j

/-- The operand indices of the half product at output index i and contraction index q: the left operand's row is i's
    row, the right operand's row is i's column. -/
theorem lhs_half_0 (i : S512x768.Idx) (q : dot_S512x768_S768x768_S512x768_1_1_0_0_n_n.contr.Idx) :
    (dot_S512x768_S768x768_S512x768_1_1_0_0_n_n.lhsIdx i q 0).val = (i 0).val := by
  unfold DotDims.lhsIdx
  rw [dif_neg (show ¬(0 : Fin S512x768.rank) ∈ dot_S512x768_S768x768_S512x768_1_1_0_0_n_n.lhsBatch by decide),
    dif_pos (show (0 : Fin S512x768.rank) ∈ dot_S512x768_S768x768_S512x768_1_1_0_0_n_n.lhsNonContracting by decide)]
  rfl
theorem rhs_half_0 (i : S512x768.Idx) (q : dot_S512x768_S768x768_S512x768_1_1_0_0_n_n.contr.Idx) :
    (dot_S512x768_S768x768_S512x768_1_1_0_0_n_n.rhsIdx i q 0).val = (i 1).val := by
  unfold DotDims.rhsIdx
  rw [dif_neg (show ¬(0 : Fin S768x768.rank) ∈ dot_S512x768_S768x768_S512x768_1_1_0_0_n_n.rhsBatch by decide),
    dif_pos (show (0 : Fin S768x768.rank) ∈ dot_S512x768_S768x768_S512x768_1_1_0_0_n_n.rhsNonContracting by decide)]
  rfl

/-- The matrix product of a [512,768] block with a [768,768] weight half, both contracted along their last axis, into
    zeros: at (n, d) the sum over c of l[n,c]·r[d,c]. -/
theorem matmul_half_apply (l : FVec Ideal S512x768 .bf16) (r : FVec Ideal S768x768 .bf16) (n : Fin 512) (d : Fin 768) :
    matmul (F := Ideal) dot_S512x768_S768x768_S512x768_1_1_0_0_n_n none l r (constant S512x768 .f32 0x00000000#32) (ix2 n d)
      = ∑ c : Fin 768, l (ix2 n c) * r (ix2 d c) := by
  simp only [matmul]
  rw [Ideal.matmul_constant_zero_apply, ← Equiv.sum_comp (contrEquiv1 dot_S512x768_S768x768_S512x768_1_1_0_0_n_n 768 rfl rfl).symm]
  refine Finset.sum_congr rfl fun c _ => ?_
  have hk := contrEquiv1_symm_val dot_S512x768_S768x768_S512x768_1_1_0_0_n_n 768 rfl rfl c
  have el : dot_S512x768_S768x768_S512x768_1_1_0_0_n_n.lhsIdx (ix2 n d) ((contrEquiv1 dot_S512x768_S768x768_S512x768_1_1_0_0_n_n 768 rfl rfl).symm c) = ix2 n c :=
    funext fun a => Fin.ext (by
      match a with
      | ⟨0, _⟩ => exact lhs_half_0 _ _
      | ⟨1, _⟩ => exact (dot_S512x768_S768x768_S512x768_1_1_0_0_n_n.lhsIdx_val_of_single rfl _ _).trans hk)
  have er : dot_S512x768_S768x768_S512x768_1_1_0_0_n_n.rhsIdx (ix2 n d) ((contrEquiv1 dot_S512x768_S768x768_S512x768_1_1_0_0_n_n 768 rfl rfl).symm c) = ix2 d c :=
    funext fun a => Fin.ext (by
      match a with
      | ⟨0, _⟩ => exact rhs_half_0 _ _
      | ⟨1, _⟩ => exact (dot_S512x768_S768x768_S512x768_1_1_0_0_n_n.rhsIdx_val_of_single rfl _ _).trans hk)
  rw [el, er]

/-- The output block at (0, n, d): the two half products, their sum, the bias. -/
theorem pay5_apply (x1 x2 : Vec Ideal S1x512x768 .f32) (w : Vec Ideal S768x1536 .f32) (b : Vec Ideal S768 .f32)
    (n : Fin 512) (d : Fin 768) :
    k5_pay5 (F := Ideal) x1 x2 w b (ix3 (0 : Fin 1) n d)
      = ((∑ c : Fin 768, x1 (ix3 (0 : Fin 1) n c) * w (ix2 d (⟨c.val, by omega⟩ : Fin 1536)))
          + (∑ c : Fin 768, x2 (ix3 (0 : Fin 1) n c) * w (ix2 d (⟨768 + c.val, by omega⟩ : Fin 1536)))) + b (ix1 d) := by
  unfold k5_pay5 k5_pay1 k5_pay2
  rw [shapeCast_ab_1ab_apply, addf_apply, addf_apply, broadcastTo_1b_ab_apply, shapeCast_a_1a_apply,
    matmul_half_apply, matmul_half_apply]
  refine congrArg₂ (· + ·) (congrArg₂ (· + ·) (Finset.sum_congr rfl fun c _ => ?_) (Finset.sum_congr rfl fun c _ => ?_)) rfl
  · rw [truncf_apply, truncf_apply, shapeCast_1ab_ab_apply]
    exact congrArg (x1 (ix3 (0 : Fin 1) n c) * ·) (slice2_axis1_apply 0 w _ d c ⟨c.val, by omega⟩ (by simp))
  · rw [truncf_apply, truncf_apply, shapeCast_1ab_ab_apply]
    exact congrArg (x2 (ix3 (0 : Fin 1) n c) * ·) (slice2_axis1_apply 768 w _ d c ⟨768 + c.val, by omega⟩ rfl)

/-! ## From blocks to the arrays -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: at point t = (b, h) the two feature blocks and both output blocks are block (b, h, 0)
    of their arrays, the weight and the bias are taken whole. -/
theorem index_facts : ∀ t : Fin cfg5.N,
    win5_0.index t (0 : Fin 3) = win5_5.index t (0 : Fin 3) ∧ win5_0.index t (1 : Fin 3) = win5_5.index t (1 : Fin 3) ∧ win5_0.index t (2 : Fin 3) = 0
    ∧ win5_1.index t (0 : Fin 3) = win5_5.index t (0 : Fin 3) ∧ win5_1.index t (1 : Fin 3) = win5_5.index t (1 : Fin 3) ∧ win5_1.index t (2 : Fin 3) = 0
    ∧ win5_2.index t (0 : Fin 2) = 0 ∧ win5_2.index t (1 : Fin 2) = 0 ∧ win5_3.index t (0 : Fin 1) = 0
    ∧ win5_4.index t (0 : Fin 3) = win5_5.index t (0 : Fin 3) ∧ win5_4.index t (1 : Fin 3) = win5_5.index t (1 : Fin 3) ∧ win5_4.index t (2 : Fin 3) = 0
    ∧ win5_5.index t (0 : Fin 3) ≤ 15 ∧ win5_5.index t (1 : Fin 3) ≤ 1 ∧ win5_5.index t (2 : Fin 3) = 0 :=
  (by decide +kernel : ∀ t : Fin grid5.N, _)

/-- Every (batch element, half) is some point's block. -/
theorem index_onto : ∀ (q0 : Fin 16) (q1 : Fin 2), ∃ t : Fin cfg5.N, win5_5.index t = ![q0.val, q1.val, 0] :=
  (by decide +kernel : ∀ (q0 : Fin 16) (q1 : Fin 2), ∃ t : Fin grid5.N, win5_5.index t = ![q0.val, q1.val, 0])

/-! ### The two arrays as functions of the region's input arrays -/

section Arrays

variable (V : (c : Dev nD) → (b : Ref sig .tc) → Buf (Elt Ideal) ((c : Thread nD τ).loc b))

/-- The joined array: at (b, n, c) the first feature's (b, n, c) for c < 768, the second's (b, n, c − 768) otherwise. -/
def catArr (A1 A2 : S16x1024x768.Idx → EReal) : S16x1024x1536.Idx → EReal := fun i =>
  Cert.Spec.cat (fun n k => A1 (ix3 (i 0) n k)) (fun n k => A2 (ix3 (i 0) n k)) (i 1) (i 2)

/-- The output array: at (b, n, d) the projection of row n of batch element b, computed half by half. -/
def outArr (A1 A2 : S16x1024x768.Idx → EReal) (Wt : S768x1536.Idx → EReal) (Bs : S768.Idx → EReal) :
    S16x1024x768.Idx → EReal := fun i =>
  Cert.Spec.outHalves (fun n k => A1 (ix3 (i 0) n k)) (fun n k => A2 (ix3 (i 0) n k)) (fun d k => Wt (ix2 d k))
    (fun d => Bs (ix1 d)) (i 1) (i 2)

/-- The output block at any index of the block (the block's first coordinate is 0). -/
theorem pay5_at (x1 x2 : Vec Ideal S1x512x768 .f32) (w : Vec Ideal S768x1536 .f32) (b : Vec Ideal S768 .f32)
    (j : S1x512x768.Idx) :
    k5_pay5 (F := Ideal) x1 x2 w b j
      = ((∑ c : Fin 768, x1 (ix3 (0 : Fin 1) (j 1) c) * w (ix2 (j 2) (⟨c.val, by omega⟩ : Fin 1536)))
          + (∑ c : Fin 768, x2 (ix3 (0 : Fin 1) (j 1) c) * w (ix2 (j 2) (⟨768 + c.val, by omega⟩ : Fin 1536)))) + b (ix1 (j 2)) := by
  have h0 : j 0 = (0 : Fin 1) := Fin.ext (by have h : (j 0).val < 1 := (j 0).isLt; show (j 0).val = 0; omega)
  have hj : j = ix3 (0 : Fin 1) (j 1) (j 2) := by
    have h := eq_ix3 j
    rw [h0] at h
    exact h
  rw [hj]
  exact pay5_apply x1 x2 w b (j 1) (j 2)

/-- What point t writes back to the output array is block t of `outArr` of the input arrays as the region finds them. -/
theorem flushed_out (c : Dev nD) (t : Fin cfg5.N) :
    (dat5 (F := Ideal) V c).flushed 5 t = ((cfg5.win 5).blk t).view.read (Elt Ideal)
      (outArr (V c (Pipeline.arrRef spec5 0)) (V c (Pipeline.arrRef spec5 1)) (V c (Pipeline.arrRef spec5 2)) (V c (Pipeline.arrRef spec5 3))) := by
  show (cfg5.win 5).cut (grid5.coords t) ((dat5 (F := Ideal) V c).after 5 t) = _
  rw [after5_5]
  unfold out5_5
  rw [View.canon_unit_zero zeros3]
  simp only [View.ld_unit_zero (S := S1x512x768) zeros3, View.ld_unit_zero (S := S768x1536) zeros2, View.ld_unit_zero (S := S768) zeros1]
  obtain ⟨e00, e01, e02, e10, e11, e12, e20, e21, e30, e40, e41, e42, b0, b1, e52⟩ := index_facts t
  funext j
  show k5_pay5 (F := Ideal) (iblk5 V c 0 t) (iblk5 V c 1 t) (iblk5 V c 2 t) (iblk5 V c 3 t) j = _
  rw [pay5_at]
  show _ = outArr (V c (Pipeline.arrRef spec5 0)) (V c (Pipeline.arrRef spec5 1)) (V c (Pipeline.arrRef spec5 2))
    (V c (Pipeline.arrRef spec5 3)) (((cfg5.win 5).blk t).view.emb j)
  unfold outArr Cert.Spec.outHalves
  have hj0 : (j 0).val < 1 := (j 0).isLt
  have hj1 : (j 1).val < 512 := (j 1).isLt
  have hj2 : (j 2).val < 768 := (j 2).isLt
  refine congrArg₂ (· + ·) (congrArg₂ (· + ·) (Finset.sum_congr rfl fun k _ => congrArg₂ (· * ·) ?_ ?_)
    (Finset.sum_congr rfl fun k _ => congrArg₂ (· * ·) ?_ ?_)) ?_
  · show V c (Pipeline.arrRef spec5 0) (((cfg5.win 0).blk t).view.emb (ix3 (0 : Fin 1) (j 1) k)) = _
    refine congrArg (V c (Pipeline.arrRef spec5 0)) (funext fun a => Fin.ext ?_)
    match a with
    | ⟨0, _⟩ => show win5_0.index t (0 : Fin 3) * 1 + 1 * 0 = win5_5.index t (0 : Fin 3) * 1 + 1 * (j 0).val; omega
    | ⟨1, _⟩ => show win5_0.index t (1 : Fin 3) * 512 + 1 * (j 1).val = win5_5.index t (1 : Fin 3) * 512 + 1 * (j 1).val; omega
    | ⟨2, _⟩ => show win5_0.index t (2 : Fin 3) * 768 + 1 * k.val = k.val; omega
  · show V c (Pipeline.arrRef spec5 2) (((cfg5.win 2).blk t).view.emb (ix2 (j 2) (⟨k.val, by omega⟩ : Fin 1536))) = _
    refine congrArg (V c (Pipeline.arrRef spec5 2)) (funext fun a => Fin.ext ?_)
    match a with
    | ⟨0, _⟩ => show win5_2.index t (0 : Fin 2) * 768 + 1 * (j 2).val = win5_5.index t (2 : Fin 3) * 768 + 1 * (j 2).val; omega
    | ⟨1, _⟩ => show win5_2.index t (1 : Fin 2) * 1536 + 1 * k.val = k.val; omega
  · show V c (Pipeline.arrRef spec5 1) (((cfg5.win 1).blk t).view.emb (ix3 (0 : Fin 1) (j 1) k)) = _
    refine congrArg (V c (Pipeline.arrRef spec5 1)) (funext fun a => Fin.ext ?_)
    match a with
    | ⟨0, _⟩ => show win5_1.index t (0 : Fin 3) * 1 + 1 * 0 = win5_5.index t (0 : Fin 3) * 1 + 1 * (j 0).val; omega
    | ⟨1, _⟩ => show win5_1.index t (1 : Fin 3) * 512 + 1 * (j 1).val = win5_5.index t (1 : Fin 3) * 512 + 1 * (j 1).val; omega
    | ⟨2, _⟩ => show win5_1.index t (2 : Fin 3) * 768 + 1 * k.val = k.val; omega
  · show V c (Pipeline.arrRef spec5 2) (((cfg5.win 2).blk t).view.emb (ix2 (j 2) (⟨768 + k.val, by omega⟩ : Fin 1536))) = _
    refine congrArg (V c (Pipeline.arrRef spec5 2)) (funext fun a => Fin.ext ?_)
    match a with
    | ⟨0, _⟩ => show win5_2.index t (0 : Fin 2) * 768 + 1 * (j 2).val = win5_5.index t (2 : Fin 3) * 768 + 1 * (j 2).val; omega
    | ⟨1, _⟩ => show win5_2.index t (1 : Fin 2) * 1536 + 1 * (768 + k.val) = 768 + k.val; omega
  · show V c (Pipeline.arrRef spec5 3) (((cfg5.win 3).blk t).view.emb (ix1 (j 2))) = _
    refine congrArg (V c (Pipeline.arrRef spec5 3)) (funext fun a => Fin.ext ?_)
    match a with
    | ⟨0, _⟩ => show win5_3.index t (0 : Fin 1) * 768 + 1 * (j 2).val = win5_5.index t (2 : Fin 3) * 768 + 1 * (j 2).val; omega

/-- An index of the output array is in point t's block iff each coordinate is in the block's range on its axis. -/
theorem mem_blk_out (t : Fin cfg5.N) (i : S16x1024x768.Idx) :
    i ∈ ((cfg5.win 5).blk t).view.set ↔ ∀ a : Fin 3, win5_5.index t a * S1x512x768.size a ≤ (i a).val
      ∧ (i a).val < win5_5.index t a * S1x512x768.size a + S1x512x768.size a := by
  show i ∈ ((View.whole main_v5_1).slice (win5_5.rect t)).set ↔ _
  rw [View.set_slice_whole, Rect.mem_set_unit]
  exact Iff.rfl

/-- Every index of the output array is in the block of the point (i 0, i 1 / 512). -/
theorem cover_out (i : S16x1024x768.Idx) :
    ∃ t : Fin cfg5.N, (cfg5.win 5).flush t = true ∧ i ∈ ((cfg5.win 5).blk t).view.set := by
  have hi0 : (i 0).val < 16 := (i 0).isLt
  have hi1 : (i 1).val < 1024 := (i 1).isLt
  have hi2 : (i 2).val < 768 := (i 2).isLt
  obtain ⟨t, ht⟩ := index_onto ⟨(i 0).val, hi0⟩ ⟨(i 1).val / 512, by omega⟩
  have q0 : win5_5.index t (0 : Fin 3) = (i 0).val := congrFun ht 0
  have q1 : win5_5.index t (1 : Fin 3) = (i 1).val / 512 := congrFun ht 1
  have q2 : win5_5.index t (2 : Fin 3) = 0 := congrFun ht 2
  refine ⟨t, flush5_5 t, ?_⟩
  rw [mem_blk_out]
  intro a
  match a with
  | ⟨0, _⟩ => show win5_5.index t (0 : Fin 3) * 1 ≤ (i 0).val ∧ (i 0).val < win5_5.index t (0 : Fin 3) * 1 + 1; omega
  | ⟨1, _⟩ => show win5_5.index t (1 : Fin 3) * 512 ≤ (i 1).val ∧ (i 1).val < win5_5.index t (1 : Fin 3) * 512 + 512; omega
  | ⟨2, _⟩ => show win5_5.index t (2 : Fin 3) * 768 ≤ (i 2).val ∧ (i 2).val < win5_5.index t (2 : Fin 3) * 768 + 768; omega

/-- THE OUTPUT ARRAY after the region: `outArr` of the input arrays as the region finds them. -/
theorem final5_5 (c : Dev nD) :
    (dat5 (F := Ideal) V c).arrAt 5 cfg5.N
      = outArr (V c (Pipeline.arrRef spec5 0)) (V c (Pipeline.arrRef spec5 1)) (V c (Pipeline.arrRef spec5 2)) (V c (Pipeline.arrRef spec5 3)) :=
  (dat5 (F := Ideal) V c).arrAt_eq_of_cover 5 _ (fun t _ => flushed_out V c t) cover_out

/-- What point t writes back to the joined array is block t of `catArr`: the body's two stores are the two column halves
    of the block, each the matching feature block. -/
theorem flushed_cat (c : Dev nD) (t : Fin cfg5.N) :
    (dat5 (F := Ideal) V c).flushed 4 t = ((cfg5.win 4).blk t).view.read (Elt Ideal)
      (catArr (V c (Pipeline.arrRef spec5 0)) (V c (Pipeline.arrRef spec5 1))) := by
  show (cfg5.win 4).cut (grid5.coords t) ((dat5 (F := Ideal) V c).after 4 t) = _
  rw [after5_4]
  unfold out5_4
  simp only [View.ld_unit_zero (S := S1x512x768) zeros3]
  obtain ⟨e00, e01, e02, e10, e11, e12, e20, e21, e30, e40, e41, e42, b0, b1, e52⟩ := index_facts t
  funext j
  show View.canon [(⟨r5_2, k5_pay4 (F := Ideal) (iblk5 V c 1 t)⟩ : View.Piece (Elt Ideal) S1x512x1536 .f32),
      ⟨r5_1, k5_pay3 (F := Ideal) (iblk5 V c 0 t)⟩] j
    = catArr (V c (Pipeline.arrRef spec5 0)) (V c (Pipeline.arrRef spec5 1)) (((cfg5.win 4).blk t).view.emb j)
  refine View.canon_apply_of_pieces (Val := Elt Ideal) (S := S1x512x1536) (e := EltTy.f32)
    (fun y => catArr (V c (Pipeline.arrRef spec5 0)) (V c (Pipeline.arrRef spec5 1)) (((cfg5.win 4).blk t).view.emb y))
    _ ?_ j (cover5_4 _ _ j)
  intro p hp x
  simp only [List.mem_cons, List.mem_singleton, List.not_mem_nil, or_false] at hp
  rcases hp with rfl | rfl
  · show k5_pay4 (F := Ideal) (iblk5 V c 1 t) x
      = catArr (V c (Pipeline.arrRef spec5 0)) (V c (Pipeline.arrRef spec5 1)) (((cfg5.win 4).blk t).view.emb (r5_2.emb x))
    rw [pay4_apply]
    have hx0 : (x 0).val < 1 := (x 0).isLt
    have hx1 : (x 1).val < 512 := (x 1).isLt
    have hx2 : (x 2).val < 768 := (x 2).isLt
    unfold catArr Cert.Spec.cat
    split
    · rename_i h
      have h' : win5_4.index t (2 : Fin 3) * 1536 + 1 * (768 + 1 * (x 2).val) < 768 := h
      omega
    · show V c (Pipeline.arrRef spec5 1) (((cfg5.win 1).blk t).view.emb x) = V c (Pipeline.arrRef spec5 1) _
      refine congrArg (V c (Pipeline.arrRef spec5 1)) (funext fun a => Fin.ext ?_)
      match a with
      | ⟨0, _⟩ => show win5_1.index t (0 : Fin 3) * 1 + 1 * (x 0).val = win5_4.index t (0 : Fin 3) * 1 + 1 * (0 + 1 * (x 0).val); omega
      | ⟨1, _⟩ => show win5_1.index t (1 : Fin 3) * 512 + 1 * (x 1).val = win5_4.index t (1 : Fin 3) * 512 + 1 * (0 + 1 * (x 1).val); omega
      | ⟨2, _⟩ => show win5_1.index t (2 : Fin 3) * 768 + 1 * (x 2).val = win5_4.index t (2 : Fin 3) * 1536 + 1 * (768 + 1 * (x 2).val) - 768; omega
  · show k5_pay3 (F := Ideal) (iblk5 V c 0 t) x
      = catArr (V c (Pipeline.arrRef spec5 0)) (V c (Pipeline.arrRef spec5 1)) (((cfg5.win 4).blk t).view.emb (r5_1.emb x))
    rw [pay3_apply]
    have hx0 : (x 0).val < 1 := (x 0).isLt
    have hx1 : (x 1).val < 512 := (x 1).isLt
    have hx2 : (x 2).val < 768 := (x 2).isLt
    unfold catArr Cert.Spec.cat
    split
    · show V c (Pipeline.arrRef spec5 0) (((cfg5.win 0).blk t).view.emb x) = V c (Pipeline.arrRef spec5 0) _
      refine congrArg (V c (Pipeline.arrRef spec5 0)) (funext fun a => Fin.ext ?_)
      match a with
      | ⟨0, _⟩ => show win5_0.index t (0 : Fin 3) * 1 + 1 * (x 0).val = win5_4.index t (0 : Fin 3) * 1 + 1 * (0 + 1 * (x 0).val); omega
      | ⟨1, _⟩ => show win5_0.index t (1 : Fin 3) * 512 + 1 * (x 1).val = win5_4.index t (1 : Fin 3) * 512 + 1 * (0 + 1 * (x 1).val); omega
      | ⟨2, _⟩ => show win5_0.index t (2 : Fin 3) * 768 + 1 * (x 2).val = win5_4.index t (2 : Fin 3) * 1536 + 1 * (0 + 1 * (x 2).val); omega
    · rename_i h
      have h' : ¬ (win5_4.index t (2 : Fin 3) * 1536 + 1 * (0 + 1 * (x 2).val) < 768) := h
      omega

/-- An index of the joined array is in point t's block iff each coordinate is in the block's range on its axis. -/
theorem mem_blk_cat (t : Fin cfg5.N) (i : S16x1024x1536.Idx) :
    i ∈ ((cfg5.win 4).blk t).view.set ↔ ∀ a : Fin 3, win5_4.index t a * S1x512x1536.size a ≤ (i a).val
      ∧ (i a).val < win5_4.index t a * S1x512x1536.size a + S1x512x1536.size a := by
  show i ∈ ((View.whole main_v5_0).slice (win5_4.rect t)).set ↔ _
  rw [View.set_slice_whole, Rect.mem_set_unit]
  exact Iff.rfl

/-- Every index of the joined array is in the block of the point (i 0, i 1 / 512). -/
theorem cover_cat (i : S16x1024x1536.Idx) :
    ∃ t : Fin cfg5.N, (cfg5.win 4).flush t = true ∧ i ∈ ((cfg5.win 4).blk t).view.set := by
  have hi0 : (i 0).val < 16 := (i 0).isLt
  have hi1 : (i 1).val < 1024 := (i 1).isLt
  have hi2 : (i 2).val < 1536 := (i 2).isLt
  obtain ⟨t, ht⟩ := index_onto ⟨(i 0).val, hi0⟩ ⟨(i 1).val / 512, by omega⟩
  obtain ⟨e00, e01, e02, e10, e11, e12, e20, e21, e30, e40, e41, e42, b0, b1, e52⟩ := index_facts t
  have q0 : win5_5.index t (0 : Fin 3) = (i 0).val := congrFun ht 0
  have q1 : win5_5.index t (1 : Fin 3) = (i 1).val / 512 := congrFun ht 1
  refine ⟨t, flush5_4 t, ?_⟩
  rw [mem_blk_cat]
  intro a
  match a with
  | ⟨0, _⟩ => show win5_4.index t (0 : Fin 3) * 1 ≤ (i 0).val ∧ (i 0).val < win5_4.index t (0 : Fin 3) * 1 + 1; omega
  | ⟨1, _⟩ => show win5_4.index t (1 : Fin 3) * 512 ≤ (i 1).val ∧ (i 1).val < win5_4.index t (1 : Fin 3) * 512 + 512; omega
  | ⟨2, _⟩ => show win5_4.index t (2 : Fin 3) * 1536 ≤ (i 2).val ∧ (i 2).val < win5_4.index t (2 : Fin 3) * 1536 + 1536; omega

/-- THE JOINED ARRAY after the region: `catArr` of the two feature arrays as the region finds them. -/
theorem final5_4 (c : Dev nD) :
    (dat5 (F := Ideal) V c).arrAt 4 cfg5.N = catArr (V c (Pipeline.arrRef spec5 0)) (V c (Pipeline.arrRef spec5 1)) :=
  (dat5 (F := Ideal) V c).arrAt_eq_of_cover 4 _ (fun t _ => flushed_cat V c t) cover_cat

end Arrays

end Cert.KernelIdeal.KValue.Combine5

end
-- ==== Proof.SpecArr.lean ====
/-
  The pipeline's stages as functions from whole arrays to whole arrays.

  `Cert.Spec` states each stage on one batch element, in coordinates.  Here the same stages act on the arrays themselves
  (an array of shape [a,b,c] is a function of its index; `ix3 p q r` is the index with those coordinates): the batch
  coordinate `i 0` of the result index selects the batch element, the stage is applied to that element's slices, and the
  result is read at the remaining coordinates `i 1`, `i 2`.  The whole computation is then one composite of these:

      q_j = projArr 1024 X W_j b_j   (j = 1,2,3),        k_j = projArr 384 Y U_j c_j   (j = 1,2,3),
      f1  = attnMixArr q1 q2 X,      g = gateArr k1 k2 lw lb,      f2 = attnGateMixArr q3 k3 g Y,
      results:  catArr f1 f2   and   outArr f1 f2 Wout bout.
-/
import proofs.«178307_j44994077393156_1_alg».proof.Proof.Spec
import proofs.«178307_j44994077393156_1_alg».proof.Proof.SpecOut
import Idealize.ShloMosaic.Lib.ValueIdx

noncomputable section

namespace Cert.SpecArr

open Idealize.ShloMosaic Idealize.ShloMosaic.ValueIdx

abbrev Arr3 (a b c : Nat) := (⟨3, ![a, b, c]⟩ : Shape).Idx → EReal
abbrev Arr2 (a b : Nat) := (⟨2, ![a, b]⟩ : Shape).Idx → EReal
abbrev Arr1 (a : Nat) := (⟨1, ![a]⟩ : Shape).Idx → EReal

variable {N M : Nat}

/-- The centred projection of every batch element: [16,N,768] with [256,768] and [256] to [16,N,256]. -/
def projArr (cnt : EReal) (X : Arr3 16 N 768) (W : Arr2 256 768) (b : Arr1 256) : Arr3 16 N 256 := fun i =>
  Cert.Spec.proj cnt (fun n d => X (ix3 (i 0) n d)) (fun r d => W (ix2 r d)) (fun r => b (ix1 r)) (i 1) (i 2)

/-- Attention weights of q against k applied to the rows of x, per batch element. -/
def attnMixArr (Q : Arr3 16 N 256) (K : Arr3 16 M 256) (X : Arr3 16 M 768) : Arr3 16 N 768 := fun i =>
  Cert.Spec.mix (Cert.Spec.attn (fun n r => Q (ix3 (i 0) n r)) (fun m r => K (ix3 (i 0) m r)))
    (fun m d => X (ix3 (i 0) m d)) (i 1) (i 2)

/-- The gate of every batch element, as an array of shape [16,1,M]. -/
def gateArr (Q : Arr3 16 M 256) (K : Arr3 16 M 256) (lw : Arr2 1 M) (lb : Arr1 1) : Arr3 16 1 M := fun i =>
  Cert.Spec.gate (fun m => lw (ix2 0 m)) (lb (ix1 0))
    (Cert.Spec.attn (fun n r => Q (ix3 (i 0) n r)) (fun m r => K (ix3 (i 0) m r))) (i 2)

/-- Attention weights of q against k, the gate row added to every row, applied to the rows of x. -/
def attnGateMixArr (Q : Arr3 16 N 256) (K : Arr3 16 M 256) (H : Arr3 16 1 M) (X : Arr3 16 M 768) : Arr3 16 N 768 := fun i =>
  Cert.Spec.mix (fun n m => Cert.Spec.attn (fun n r => Q (ix3 (i 0) n r)) (fun m r => K (ix3 (i 0) m r)) n m + H (ix3 (i 0) 0 m))
    (fun m d => X (ix3 (i 0) m d)) (i 1) (i 2)

/-- The two features side by side along the last axis. -/
def catArr (A1 A2 : Arr3 16 N 768) : Arr3 16 N 1536 := fun i =>
  Cert.Spec.cat (fun n k => A1 (ix3 (i 0) n k)) (fun n k => A2 (ix3 (i 0) n k)) (i 1) (i 2)

/-- The output projection of the joined features, computed half by half. -/
def outArr (A1 A2 : Arr3 16 N 768) (Wt : Arr2 768 1536) (Bs : Arr1 768) : Arr3 16 N 768 := fun i =>
  Cert.Spec.outHalves (fun n k => A1 (ix3 (i 0) n k)) (fun n k => A2 (ix3 (i 0) n k)) (fun d k => Wt (ix2 d k))
    (fun d => Bs (ix1 d)) (i 1) (i 2)

end Cert.SpecArr

end
-- ==== Proof.KArr.lean ====
/-
  The idealized kernel's two results as functions of the argument arrays.

  The run leaves in each result buffer what the last region's pipeline leaves (`result_0`, `result_1`).  Each region's output
  array is one function of the arrays the region finds at its entry (the `final…` theorems), and what a region finds is
  either an argument array as launched or an earlier region's output (the `entry…` theorems).  Substituting from the last
  region back to the first gives the results as the composite of the stages of `Cert.SpecArr` applied to the arguments:
      q_j = Cert.SpecArr.projArr 1024 X W_j b_j,  k_j = Cert.SpecArr.projArr 384 Y U_j c_j,
      f1 = Cert.SpecArr.attnMixArr q1 q2 X,  g = Cert.SpecArr.gateArr k1 k2 lw lb,  f2 = Cert.SpecArr.attnGateMixArr q3 k3 g Y,
      catArr f1 f2  and  outArr f1 f2 Wout bout.
-/
import proofs.«178307_j44994077393156_1_alg».proof.Proof.KChain
import proofs.«178307_j44994077393156_1_alg».proof.Proof.KProj0
import proofs.«178307_j44994077393156_1_alg».proof.Proof.KProj1
import proofs.«178307_j44994077393156_1_alg».proof.Proof.KAttn2
import proofs.«178307_j44994077393156_1_alg».proof.Proof.KGate
import proofs.«178307_j44994077393156_1_alg».proof.Proof.KAttn4
import proofs.«178307_j44994077393156_1_alg».proof.Proof.KCombine
import proofs.«178307_j44994077393156_1_alg».proof.Proof.SpecArr

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The six centred projections -/

theorem q1_eq : (dat0 (F := Ideal) (V0 m ρ) c).arrAt 7 cfg0.N
    = Cert.SpecArr.projArr Cert.Spec.c1024 (m ((c : Thread nD τ).loc main_arg0)) (m ((c : Thread nD τ).loc main_arg2)) (m ((c : Thread nD τ).loc main_arg3)) := by
  have h := final0_7 (V0 m ρ) c
  rw [entry0_0 m ρ c, entry0_1 m ρ c, entry0_2 m ρ c] at h
  exact h
theorem q2_eq : (dat0 (F := Ideal) (V0 m ρ) c).arrAt 8 cfg0.N
    = Cert.SpecArr.projArr Cert.Spec.c1024 (m ((c : Thread nD τ).loc main_arg0)) (m ((c : Thread nD τ).loc main_arg4)) (m ((c : Thread nD τ).loc main_arg5)) := by
  have h := final0_8 (V0 m ρ) c
  rw [entry0_0 m ρ c, entry0_3 m ρ c, entry0_4 m ρ c] at h
  exact h
theorem q3_eq : (dat0 (F := Ideal) (V0 m ρ) c).arrAt 9 cfg0.N
    = Cert.SpecArr.projArr Cert.Spec.c1024 (m ((c : Thread nD τ).loc main_arg0)) (m ((c : Thread nD τ).loc main_arg6)) (m ((c : Thread nD τ).loc main_arg7)) := by
  have h := final0_9 (V0 m ρ) c
  rw [entry0_0 m ρ c, entry0_5 m ρ c, entry0_6 m ρ c] at h
  exact h
theorem k1_eq : (dat1 (F := Ideal) (V1 m ρ) c).arrAt 7 cfg1.N
    = Cert.SpecArr.projArr Cert.Spec.c384 (m ((c : Thread nD τ).loc main_arg1)) (m ((c : Thread nD τ).loc main_arg8)) (m ((c : Thread nD τ).loc main_arg9)) := by
  have h := final1_7 (V1 m ρ) c
  rw [entry1_0 m ρ c, entry1_1 m ρ c, entry1_2 m ρ c] at h
  exact h
theorem k2_eq : (dat1 (F := Ideal) (V1 m ρ) c).arrAt 8 cfg1.N
    = Cert.SpecArr.projArr Cert.Spec.c384 (m ((c : Thread nD τ).loc main_arg1)) (m ((c : Thread nD τ).loc main_arg10)) (m ((c : Thread nD τ).loc main_arg11)) := by
  have h := final1_8 (V1 m ρ) c
  rw [entry1_0 m ρ c, entry1_3 m ρ c, entry1_4 m ρ c] at h
  exact h
theorem k3_eq : (dat1 (F := Ideal) (V1 m ρ) c).arrAt 9 cfg1.N
    = Cert.SpecArr.projArr Cert.Spec.c384 (m ((c : Thread nD τ).loc main_arg1)) (m ((c : Thread nD τ).loc main_arg12)) (m ((c : Thread nD τ).loc main_arg13)) := by
  have h := final1_9 (V1 m ρ) c
  rw [entry1_0 m ρ c, entry1_5 m ρ c, entry1_6 m ρ c] at h
  exact h

/-! ## The two attention features and the gate -/

/-- The first feature: attention of q1 against q2 over the rows of the first argument. -/
theorem f1_eq : (dat2 (F := Ideal) (V2 m ρ) c).arrAt 3 cfg2.N
    = Cert.SpecArr.attnMixArr (Cert.SpecArr.projArr Cert.Spec.c1024 (m ((c : Thread nD τ).loc main_arg0)) (m ((c : Thread nD τ).loc main_arg2)) (m ((c : Thread nD τ).loc main_arg3)))
        (Cert.SpecArr.projArr Cert.Spec.c1024 (m ((c : Thread nD τ).loc main_arg0)) (m ((c : Thread nD τ).loc main_arg4)) (m ((c : Thread nD τ).loc main_arg5)))
        (m ((c : Thread nD τ).loc main_arg0)) := by
  have h := final2_3 (V2 m ρ) c
  rw [entry2_0 m ρ c, entry2_1 m ρ c, entry2_2 m ρ c, q1_eq m ρ c, q2_eq m ρ c] at h
  exact h

/-- The gate: from k1 and k2 and the gate's weight row and bias. -/
theorem g_eq : (dat3 (F := Ideal) (V3 m ρ) c).arrAt 4 cfg3.N
    = Cert.SpecArr.gateArr (Cert.SpecArr.projArr Cert.Spec.c384 (m ((c : Thread nD τ).loc main_arg1)) (m ((c : Thread nD τ).loc main_arg8)) (m ((c : Thread nD τ).loc main_arg9)))
        (Cert.SpecArr.projArr Cert.Spec.c384 (m ((c : Thread nD τ).loc main_arg1)) (m ((c : Thread nD τ).loc main_arg10)) (m ((c : Thread nD τ).loc main_arg11)))
        (m ((c : Thread nD τ).loc main_arg14)) (m ((c : Thread nD τ).loc main_arg15)) := by
  have h := final3_4 (V3 m ρ) c
  rw [entry3_0 m ρ c, entry3_1 m ρ c, entry3_2 m ρ c, entry3_3 m ρ c, k1_eq m ρ c, k2_eq m ρ c] at h
  exact h

/-- The second feature: attention of q3 against k3, the gate row added, over the rows of the second argument. -/
theorem f2_eq : (dat4 (F := Ideal) (V4 m ρ) c).arrAt 4 cfg4.N
    = Cert.SpecArr.attnGateMixArr (Cert.SpecArr.projArr Cert.Spec.c1024 (m ((c : Thread nD τ).loc main_arg0)) (m ((c : Thread nD τ).loc main_arg6)) (m ((c : Thread nD τ).loc main_arg7)))
        (Cert.SpecArr.projArr Cert.Spec.c384 (m ((c : Thread nD τ).loc main_arg1)) (m ((c : Thread nD τ).loc main_arg12)) (m ((c : Thread nD τ).loc main_arg13)))
        (Cert.SpecArr.gateArr (Cert.SpecArr.projArr Cert.Spec.c384 (m ((c : Thread nD τ).loc main_arg1)) (m ((c : Thread nD τ).loc main_arg8)) (m ((c : Thread nD τ).loc main_arg9)))
          (Cert.SpecArr.projArr Cert.Spec.c384 (m ((c : Thread nD τ).loc main_arg1)) (m ((c : Thread nD τ).loc main_arg10)) (m ((c : Thread nD τ).loc main_arg11)))
          (m ((c : Thread nD τ).loc main_arg14)) (m ((c : Thread nD τ).loc main_arg15)))
        (m ((c : Thread nD τ).loc main_arg1)) := by
  have h := final4_4 (V4 m ρ) c
  rw [entry4_0 m ρ c, entry4_1 m ρ c, entry4_2 m ρ c, entry4_3 m ρ c, q3_eq m ρ c, k3_eq m ρ c, g_eq m ρ c] at h
  exact h

/-! ## The two results -/

/-- The first result buffer after the run: the two features side by side. -/
theorem result_cat : W6 m ρ c (Proc.devRef .tc main_v5_0)
    = Cert.SpecArr.catArr ((dat2 (F := Ideal) (V2 m ρ) c).arrAt 3 cfg2.N) ((dat4 (F := Ideal) (V4 m ρ) c).arrAt 4 cfg4.N) := by
  have h := Combine5.final5_4 (V5 m ρ) c
  rw [entry5_0 m ρ c, entry5_1 m ρ c] at h
  exact (result_0 m ρ c).trans h

/-- The second result buffer after the run: the output projection of the joined features, half by half. -/
theorem result_out : W6 m ρ c (Proc.devRef .tc main_v5_1)
    = Cert.SpecArr.outArr ((dat2 (F := Ideal) (V2 m ρ) c).arrAt 3 cfg2.N) ((dat4 (F := Ideal) (V4 m ρ) c).arrAt 4 cfg4.N)
        (m ((c : Thread nD τ).loc main_arg16)) (m ((c : Thread nD τ).loc main_arg17)) := by
  have h := Combine5.final5_5 (V5 m ρ) c
  rw [entry5_0 m ρ c, entry5_1 m ρ c, entry5_2 m ρ c, entry5_3 m ρ c] at h
  exact (result_1 m ρ c).trans h

/-- The first result as the composite of the stages applied to the argument arrays. -/
theorem kernel_cat : W6 m ρ c (Proc.devRef .tc main_v5_0)
    = Cert.SpecArr.catArr (Cert.SpecArr.attnMixArr (Cert.SpecArr.projArr Cert.Spec.c1024 (m ((c : Thread nD τ).loc main_arg0)) (m ((c : Thread nD τ).loc main_arg2)) (m ((c : Thread nD τ).loc main_arg3))) (Cert.SpecArr.projArr Cert.Spec.c1024 (m ((c : Thread nD τ).loc main_arg0)) (m ((c : Thread nD τ).loc main_arg4)) (m ((c : Thread nD τ).loc main_arg5))) (m ((c : Thread nD τ).loc main_arg0))) (Cert.SpecArr.attnGateMixArr (Cert.SpecArr.projArr Cert.Spec.c1024 (m ((c : Thread nD τ).loc main_arg0)) (m ((c : Thread nD τ).loc main_arg6)) (m ((c : Thread nD τ).loc main_arg7))) (Cert.SpecArr.projArr Cert.Spec.c384 (m ((c : Thread nD τ).loc main_arg1)) (m ((c : Thread nD τ).loc main_arg12)) (m ((c : Thread nD τ).loc main_arg13))) (Cert.SpecArr.gateArr (Cert.SpecArr.projArr Cert.Spec.c384 (m ((c : Thread nD τ).loc main_arg1)) (m ((c : Thread nD τ).loc main_arg8)) (m ((c : Thread nD τ).loc main_arg9))) (Cert.SpecArr.projArr Cert.Spec.c384 (m ((c : Thread nD τ).loc main_arg1)) (m ((c : Thread nD τ).loc main_arg10)) (m ((c : Thread nD τ).loc main_arg11))) (m ((c : Thread nD τ).loc main_arg14)) (m ((c : Thread nD τ).loc main_arg15))) (m ((c : Thread nD τ).loc main_arg1))) := by
  rw [result_cat m ρ c, f1_eq m ρ c, f2_eq m ρ c]

/-- The second result as the composite of the stages applied to the argument arrays. -/
theorem kernel_out : W6 m ρ c (Proc.devRef .tc main_v5_1)
    = Cert.SpecArr.outArr (Cert.SpecArr.attnMixArr (Cert.SpecArr.projArr Cert.Spec.c1024 (m ((c : Thread nD τ).loc main_arg0)) (m ((c : Thread nD τ).loc main_arg2)) (m ((c : Thread nD τ).loc main_arg3))) (Cert.SpecArr.projArr Cert.Spec.c1024 (m ((c : Thread nD τ).loc main_arg0)) (m ((c : Thread nD τ).loc main_arg4)) (m ((c : Thread nD τ).loc main_arg5))) (m ((c : Thread nD τ).loc main_arg0))) (Cert.SpecArr.attnGateMixArr (Cert.SpecArr.projArr Cert.Spec.c1024 (m ((c : Thread nD τ).loc main_arg0)) (m ((c : Thread nD τ).loc main_arg6)) (m ((c : Thread nD τ).loc main_arg7))) (Cert.SpecArr.projArr Cert.Spec.c384 (m ((c : Thread nD τ).loc main_arg1)) (m ((c : Thread nD τ).loc main_arg12)) (m ((c : Thread nD τ).loc main_arg13))) (Cert.SpecArr.gateArr (Cert.SpecArr.projArr Cert.Spec.c384 (m ((c : Thread nD τ).loc main_arg1)) (m ((c : Thread nD τ).loc main_arg8)) (m ((c : Thread nD τ).loc main_arg9))) (Cert.SpecArr.projArr Cert.Spec.c384 (m ((c : Thread nD τ).loc main_arg1)) (m ((c : Thread nD τ).loc main_arg10)) (m ((c : Thread nD τ).loc main_arg11))) (m ((c : Thread nD τ).loc main_arg14)) (m ((c : Thread nD τ).loc main_arg15))) (m ((c : Thread nD τ).loc main_arg1))) (m ((c : Thread nD τ).loc main_arg16)) (m ((c : Thread nD τ).loc main_arg17)) := by
  rw [result_out m ρ c, f1_eq m ρ c, f2_eq m ρ c]

end Cert.KernelIdeal.KValue

end
-- ==== Proof.RefRunFwd.lean ====
/-
  The reference program's @main as the list of its 154 host operations, and its run read forward: the list is cut into
  twelve consecutive slices, each ending where a stage that later operations read is complete; the contents after a slice
  hold, at the arguments and at the stages still to be read, the arguments and those stages of the arguments, given that
  the contents before it did.  Chaining the twelve gives the two results at the last two stages.
-/
import proofs.«178307_j44994077393156_1_alg».proof.Proof.RefRead
import Idealize.ShloMosaic.Lib.StableHlo.Run

noncomputable section

namespace Cert.ReferenceIdeal.ValueF

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 154 operations, in order. -/
abbrev ops : List (HloOp τ sig (Elt F)) :=
  [ binary main_arg0 main_arg2 main_v0 ((fun l r => Host.dotGeneral dot_S16x1024x768_S256x768_S16x1024x256_2_1_01_0_n_n none l r) : (⟨S16x1024x768, .f32⟩ : BufTy).Contents (Elt F) → (⟨S256x768, .f32⟩ : BufTy).Contents (Elt F) → (⟨S16x1024x256, .f32⟩ : BufTy).Contents (Elt F)),
    unary main_arg3 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S16x1024x256 ![0, 1, 2] bcast_S1x1x256_S16x1024x256_0_1_2 : (⟨S1x1x256, .f32⟩ : BufTy).Contents (Elt F) → (⟨S16x1024x256, .f32⟩ : BufTy).Contents (Elt F)),
    binary main_v0 main_v2 main_v3 (addf : (⟨S16x1024x256, .f32⟩ : BufTy).Contents (Elt F) → (⟨S16x1024x256, .f32⟩ : BufTy).Contents (Elt F) → (⟨S16x1024x256, .f32⟩ : BufTy).Contents (Elt F)),
    nullary main_cst (constant S_ .f32 0x00000000#32),
    binary main_v3 main_cst main_v4 ((fun x v => Host.reduceAdd x v reducesTo_S16x1024x256_S16x256_d1 h_S_) : (⟨S16x1024x256, .f32⟩ : BufTy).Contents (Elt F) → (⟨S_, .f32⟩ : BufTy).Contents (Elt F) → (⟨S16x256, .f32⟩ : BufTy).Contents (Elt F)),
    unary main_v4 main_v5 (broadcastInDim S16x1x256 ![0, 2] bcast_S16x256_S16x1x256_0_2 : (⟨S16x256, .f32⟩ : BufTy).Contents (Elt F) → (⟨S16x1x256, .f32⟩ : BufTy).Contents (Elt F)),
    nullary main_cst_0 (constant S_ .f32 0x44800000#32),
    unary main_cst_0 main_v6 (broadcastInDim S16x1x256 ![] bcast_S_S16x1x256 : (⟨S_, .f32⟩ : BufTy).Contents (Elt F) → (⟨S16x1x256, .f32⟩ : BufTy).Contents (Elt F)),
    binary main_v5 main_v6 main_v7 (Host.divf : (⟨S16x1x256, .f32⟩ : BufTy).Contents (Elt F) → (⟨S16x1x256, .f32⟩ : BufTy).Contents (Elt F) → (⟨S16x1x256, .f32⟩ : BufTy).Contents (Elt F)),
    unary main_v7 main_v8 (broadcastInDim S16x1024x256 ![0, 1, 2] bcast_S16x1x256_S16x1024x256_0_1_2 : (⟨S16x1x256, .f32⟩ : BufTy).Contents (Elt F) → (⟨S16x1024x256, .f32⟩ : BufTy).Contents (Elt F)),
    binary main_v3 main_v8 main_v9 (subf : (⟨S16x1024x256, .f32⟩ : BufTy).Contents (Elt F) → (⟨S16x1024x256, .f32⟩ : BufTy).Contents (Elt F) → (⟨S16x1024x256, .f32⟩ : BufTy).Contents (Elt F)),
    binary main_arg0 main_arg4 main_v10 ((fun l r => Host.dotGeneral dot_S16x1024x768_S256x768_S16x1024x256_2_1_01_0_n_n none l r) : (⟨S16x1024x768, .f32⟩ : BufTy).Contents (Elt F) → (⟨S256x768, .f32⟩ : BufTy).Contents (Elt F) → (⟨S16x1024x256, .f32⟩ : BufTy).Contents (Elt F)),
    unary main_arg5 main_v11 (broadcastInDim S1x1x256 ![2] bcast_S256_S1x1x256_2 : (⟨S256, .f32⟩ : BufTy).Contents (Elt F) → (⟨S1x1x256, .f32⟩ : BufTy).Contents (Elt F)),
    unary main_v11 main_v12 (broadcastInDim S16x1024x256 ![0, 1, 2] bcast_S1x1x256_S16x1024x256_0_1_2 : (⟨S1x1x256, .f32⟩ : BufTy).Contents (Elt F) → (⟨S16x1024x256, .f32⟩ : BufTy).Contents (Elt F)),
    binary main_v10 main_v12 main_v13 (addf : (⟨S16x1024x256, .f32⟩ : BufTy).Contents (Elt F) → (⟨S16x1024x256, .f32⟩ : BufTy).Contents (Elt F) → (⟨S16x1024x256, .f32⟩ : BufTy).Contents (Elt F)),
    nullary main_cst_1 (constant S_ .f32 0x00000000#32),
    binary main_v13 main_cst_1 main_v14 ((fun x v => Host.reduceAdd x v reducesTo_S16x1024x256_S16x256_d1 h_S_) : (⟨S16x1024x256, .f32⟩ : BufTy).Contents (Elt F) → (⟨S_, .f32⟩ : BufTy).Contents (Elt F) → (⟨S16x256, .f32⟩ : BufTy).Contents (Elt F)),
    unary main_v14 main_v15 (broadcastInDim S16x1x256 ![0, 2] bcast_S16x256_S16x1x256_0_2 : (⟨S16x256, .f32⟩ : BufTy).Contents (Elt F) → (⟨S16x1x256, .f32⟩ : BufTy).Contents (Elt F)),
    nullary main_cst_2 (constant S_ .f32 0x44800000#32),
    unary main_cst_2 main_v16 (broadcastInDim S16x1x256 ![] bcast_S_S16x1x256 : (⟨S_, .f32⟩ : BufTy).Contents (Elt F) → (⟨S16x1x256, .f32⟩ : BufTy).Contents (Elt F)),
    binary main_v15 main_v16 main_v17 (Host.divf : (⟨S16x1x256, .f32⟩ : BufTy).Contents (Elt F) → (⟨S16x1x256, .f32⟩ : BufTy).Contents (Elt F) → (⟨S16x1x256, .f32⟩ : BufTy).Contents (Elt F)),
    unary main_v17 main_v18 (broadcastInDim S16x1024x256 ![0, 1, 2] bcast_S16x1x256_S16x1024x256_0_1_2 : (⟨S16x1x256, .f32⟩ : BufTy).Contents (Elt F) → (⟨S16x1024x256, .f32⟩ : BufTy).Contents (Elt F)),
    binary main_v13 main_v18 main_v19 (subf : (⟨S16x1024x256, .f32⟩ : BufTy).Contents (Elt F) → (⟨S16x1024x256, .f32⟩ : BufTy).Contents (Elt F) → (⟨S16x1024x256, .f32⟩ : BufTy).Contents (Elt F)),
    binary main_arg0 main_arg6 main_v20 ((fun l r => Host.dotGeneral dot_S16x1024x768_S256x768_S16x1024x256_2_1_01_0_n_n none l r) : (⟨S16x1024x768, .f32⟩ : BufTy).Contents (Elt F) → (⟨S256x768, .f32⟩ : BufTy).Contents (Elt F) → (⟨S16x1024x256, .f32⟩ : BufTy).Contents (Elt F)),
    unary main_arg7 main_v21 (broadcastInDim S1x1x256 ![2] bcast_S256_S1x1x256_2 : (⟨S256, .f32⟩ : BufTy).Contents (Elt F) → (⟨S1x1x256, .f32⟩ : BufTy).Contents (Elt F)),
    unary main_v21 main_v22 (broadcastInDim S16x1024x256 ![0, 1, 2] bcast_S1x1x256_S16x1024x256_0_1_2 : (⟨S1x1x256, .f32⟩ : BufTy).Contents (Elt F) → (⟨S16x1024x256, .f32⟩ : BufTy).Contents (Elt F)),
    binary main_v20 main_v22 main_v23 (addf : (⟨S16x1024x256, .f32⟩ : BufTy).Contents (Elt F) → (⟨S16x1024x256, .f32⟩ : BufTy).Contents (Elt F) → (⟨S16x1024x256, .f32⟩ : BufTy).Contents (Elt F)),
    nullary main_cst_3 (constant S_ .f32 0x00000000#32),
    binary main_v23 main_cst_3 main_v24 ((fun x v => Host.reduceAdd x v reducesTo_S16x1024x256_S16x256_d1 h_S_) : (⟨S16x1024x256, .f32⟩ : BufTy).Contents (Elt F) → (⟨S_, .f32⟩ : BufTy).Contents (Elt F) → (⟨S16x256, .f32⟩ : BufTy).Contents (Elt F)),
    unary main_v24 main_v25 (broadcastInDim S16x1x256 ![0, 2] bcast_S16x256_S16x1x256_0_2 : (⟨S16x256, .f32⟩ : BufTy).Contents (Elt F) → (⟨S16x1x256, .f32⟩ : BufTy).Contents (Elt F)),
    nullary main_cst_4 (constant S_ .f32 0x44800000#32),
    unary main_cst_4 main_v26 (broadcastInDim S16x1x256 ![] bcast_S_S16x1x256 : (⟨S_, .f32⟩ : BufTy).Contents (Elt F) → (⟨S16x1x256, .f32⟩ : BufTy).Contents (Elt F)),
    binary main_v25 main_v26 main_v27 (Host.divf : (⟨S16x1x256, .f32⟩ : BufTy).Contents (Elt F) → (⟨S16x1x256, .f32⟩ : BufTy).Contents (Elt F) → (⟨S16x1x256, .f32⟩ : BufTy).Contents (Elt F)),
    unary main_v27 main_v28 (broadcastInDim S16x1024x256 ![0, 1, 2] bcast_S16x1x256_S16x1024x256_0_1_2 : (⟨S16x1x256, .f32⟩ : BufTy).Contents (Elt F) → (⟨S16x1024x256, .f32⟩ : BufTy).Contents (Elt F)),
    binary main_v23 main_v28 main_v29 (subf : (⟨S16x1024x256, .f32⟩ : BufTy).Contents (Elt F) → (⟨S16x1024x256, .f32⟩ : BufTy).Contents (Elt F) → (⟨S16x1024x256, .f32⟩ : BufTy).Contents (Elt F)),
    binary main_arg1 main_arg8 main_v30 ((fun l r => Host.dotGeneral dot_S16x384x768_S256x768_S16x384x256_2_1_01_0_n_n none l r) : (⟨S16x384x768, .f32⟩ : BufTy).Contents (Elt F) → (⟨S256x768, .f32⟩ : BufTy).Contents (Elt F) → (⟨S16x384x256, .f32⟩ : BufTy).Contents (Elt F)),
    unary main_arg9 main_v31 (broadcastInDim S1x1x256 ![2] bcast_S256_S1x1x256_2 : (⟨S256, .f32⟩ : BufTy).Contents (Elt F) → (⟨S1x1x256, .f32⟩ : BufTy).Contents (Elt F)),
    unary main_v31 main_v32 (broadcastInDim S16x384x256 ![0, 1, 2] bcast_S1x1x256_S16x384x256_0_1_2 : (⟨S1x1x256, .f32⟩ : BufTy).Contents (Elt F) → (⟨S16x384x256, .f32⟩ : BufTy).Contents (Elt F)),
    binary main_v30 main_v32 main_v33 (addf : (⟨S16x384x256, .f32⟩ : BufTy).Contents (Elt F) → (⟨S16x384x256, .f32⟩ : BufTy).Contents (Elt F) → (⟨S16x384x256, .f32⟩ : BufTy).Contents (Elt F)),
    nullary main_cst_5 (constant S_ .f32 0x00000000#32),
    binary main_v33 main_cst_5 main_v34 ((fun x v => Host.reduceAdd x v reducesTo_S16x384x256_S16x256_d1 h_S_) : (⟨S16x384x256, .f32⟩ : BufTy).Contents (Elt F) → (⟨S_, .f32⟩ : BufTy).Contents (Elt F) → (⟨S16x256, .f32⟩ : BufTy).Contents (Elt F)),
    unary main_v34 main_v35 (broadcastInDim S16x1x256 ![0, 2] bcast_S16x256_S16x1x256_0_2 : (⟨S16x256, .f32⟩ : BufTy).Contents (Elt F) → (⟨S16x1x256, .f32⟩ : BufTy).Contents (Elt F)),
    nullary main_cst_6 (constant S_ .f32 0x43C00000#32),
    unary main_cst_6 main_v36 (broadcastInDim S16x1x256 ![] bcast_S_S16x1x256 : (⟨S_, .f32⟩ : BufTy).Contents (Elt F) → (⟨S16x1x256, .f32⟩ : BufTy).Contents (Elt F)),
    binary main_v35 main_v36 main_v37 (Host.divf : (⟨S16x1x256, .f32⟩ : BufTy).Contents (Elt F) → (⟨S16x1x256, .f32⟩ : BufTy).Contents (Elt F) → (⟨S16x1x256, .f32⟩ : BufTy).Contents (Elt F)),
    unary main_v37 main_v38 (broadcastInDim S16x384x256 ![0, 1, 2] bcast_S16x1x256_S16x384x256_0_1_2 : (⟨S16x1x256, .f32⟩ : BufTy).Contents (Elt F) → (⟨S16x384x256, .f32⟩ : BufTy).Contents (Elt F)),
    binary main_v33 main_v38 main_v39 (subf : (⟨S16x384x256, .f32⟩ : BufTy).Contents (Elt F) → (⟨S16x384x256, .f32⟩ : BufTy).Contents (Elt F) → (⟨S16x384x256, .f32⟩ : BufTy).Contents (Elt F)),
    binary main_arg1 main_arg10 main_v40 ((fun l r => Host.dotGeneral dot_S16x384x768_S256x768_S16x384x256_2_1_01_0_n_n none l r) : (⟨S16x384x768, .f32⟩ : BufTy).Contents (Elt F) → (⟨S256x768, .f32⟩ : BufTy).Contents (Elt F) → (⟨S16x384x256, .f32⟩ : BufTy).Contents (Elt F)),
    unary main_arg11 main_v41 (broadcastInDim S1x1x256 ![2] bcast_S256_S1x1x256_2 : (⟨S256, .f32⟩ : BufTy).Contents (Elt F) → (⟨S1x1x256, .f32⟩ : BufTy).Contents (Elt F)),
    unary main_v41 main_v42 (broadcastInDim S16x384x256 ![0, 1, 2] bcast_S1x1x256_S16x384x256_0_1_2 : (⟨S1x1x256, .f32⟩ : BufTy).Contents (Elt F) → (⟨S16x384x256, .f32⟩ : BufTy).Contents (Elt F)),
    binary main_v40 main_v42 main_v43 (addf : (⟨S16x384x256, .f32⟩ : BufTy).Contents (Elt F) → (⟨S16x384x256, .f32⟩ : BufTy).Contents (Elt F) → (⟨S16x384x256, .f32⟩ : BufTy).Contents (Elt F)),
    nullary main_cst_7 (constant S_ .f32 0x00000000#32),
    binary main_v43 main_cst_7 main_v44 ((fun x v => Host.reduceAdd x v reducesTo_S16x384x256_S16x256_d1 h_S_) : (⟨S16x384x256, .f32⟩ : BufTy).Contents (Elt F) → (⟨S_, .f32⟩ : BufTy).Contents (Elt F) → (⟨S16x256, .f32⟩ : BufTy).Contents (Elt F)),
    unary main_v44 main_v45 (broadcastInDim S16x1x256 ![0, 2] bcast_S16x256_S16x1x256_0_2 : (⟨S16x256, .f32⟩ : BufTy).Contents (Elt F) → (⟨S16x1x256, .f32⟩ : BufTy).Contents (Elt F)),
    nullary main_cst_8 (constant S_ .f32 0x43C00000#32),
    unary main_cst_8 main_v46 (broadcastInDim S16x1x256 ![] bcast_S_S16x1x256 : (⟨S_, .f32⟩ : BufTy).Contents (Elt F) → (⟨S16x1x256, .f32⟩ : BufTy).Contents (Elt F)),
    binary main_v45 main_v46 main_v47 (Host.divf : (⟨S16x1x256, .f32⟩ : BufTy).Contents (Elt F) → (⟨S16x1x256, .f32⟩ : BufTy).Contents (Elt F) → (⟨S16x1x256, .f32⟩ : BufTy).Contents (Elt F)),
    unary main_v47 main_v48 (broadcastInDim S16x384x256 ![0, 1, 2] bcast_S16x1x256_S16x384x256_0_1_2 : (⟨S16x1x256, .f32⟩ : BufTy).Contents (Elt F) → (⟨S16x384x256, .f32⟩ : BufTy).Contents (Elt F)),
    binary main_v43 main_v48 main_v49 (subf : (⟨S16x384x256, .f32⟩ : BufTy).Contents (Elt F) → (⟨S16x384x256, .f32⟩ : BufTy).Contents (Elt F) → (⟨S16x384x256, .f32⟩ : BufTy).Contents (Elt F)),
    binary main_arg1 main_arg12 main_v50 ((fun l r => Host.dotGeneral dot_S16x384x768_S256x768_S16x384x256_2_1_01_0_n_n none l r) : (⟨S16x384x768, .f32⟩ : BufTy).Contents (Elt F) → (⟨S256x768, .f32⟩ : BufTy).Contents (Elt F) → (⟨S16x384x256, .f32⟩ : BufTy).Contents (Elt F)),
    unary main_arg13 main_v51 (broadcastInDim S1x1x256 ![2] bcast_S256_S1x1x256_2 : (⟨S256, .f32⟩ : BufTy).Contents (Elt F) → (⟨S1x1x256, .f32⟩ : BufTy).Contents (Elt F)),
    unary main_v51 main_v52 (broadcastInDim S16x384x256 ![0, 1, 2] bcast_S1x1x256_S16x384x256_0_1_2 : (⟨S1x1x256, .f32⟩ : BufTy).Contents (Elt F) → (⟨S16x384x256, .f32⟩ : BufTy).Contents (Elt F)),
    binary main_v50 main_v52 main_v53 (addf : (⟨S16x384x256, .f32⟩ : BufTy).Contents (Elt F) → (⟨S16x384x256, .f32⟩ : BufTy).Contents (Elt F) → (⟨S16x384x256, .f32⟩ : BufTy).Contents (Elt F)),
    nullary main_cst_9 (constant S_ .f32 0x00000000#32),
    binary main_v53 main_cst_9 main_v54 ((fun x v => Host.reduceAdd x v reducesTo_S16x384x256_S16x256_d1 h_S_) : (⟨S16x384x256, .f32⟩ : BufTy).Contents (Elt F) → (⟨S_, .f32⟩ : BufTy).Contents (Elt F) → (⟨S16x256, .f32⟩ : BufTy).Contents (Elt F)),
    unary main_v54 main_v55 (broadcastInDim S16x1x256 ![0, 2] bcast_S16x256_S16x1x256_0_2 : (⟨S16x256, .f32⟩ : BufTy).Contents (Elt F) → (⟨S16x1x256, .f32⟩ : BufTy).Contents (Elt F)),
    nullary main_cst_10 (constant S_ .f32 0x43C00000#32),
    unary main_cst_10 main_v56 (broadcastInDim S16x1x256 ![] bcast_S_S16x1x256 : (⟨S_, .f32⟩ : BufTy).Contents (Elt F) → (⟨S16x1x256, .f32⟩ : BufTy).Contents (Elt F)),
    binary main_v55 main_v56 main_v57 (Host.divf : (⟨S16x1x256, .f32⟩ : BufTy).Contents (Elt F) → (⟨S16x1x256, .f32⟩ : BufTy).Contents (Elt F) → (⟨S16x1x256, .f32⟩ : BufTy).Contents (Elt F)),
    unary main_v57 main_v58 (broadcastInDim S16x384x256 ![0, 1, 2] bcast_S16x1x256_S16x384x256_0_1_2 : (⟨S16x1x256, .f32⟩ : BufTy).Contents (Elt F) → (⟨S16x384x256, .f32⟩ : BufTy).Contents (Elt F)),
    binary main_v53 main_v58 main_v59 (subf : (⟨S16x384x256, .f32⟩ : BufTy).Contents (Elt F) → (⟨S16x384x256, .f32⟩ : BufTy).Contents (Elt F) → (⟨S16x384x256, .f32⟩ : BufTy).Contents (Elt F)),
    binary main_v9 main_v19 main_v60 ((fun l r => Host.dotGeneral dot_S16x1024x256_S16x1024x256_S16x1024x1024_2_2_1_1_0_0 none l r) : (⟨S16x1024x256, .f32⟩ : BufTy).Contents (Elt F) → (⟨S16x1024x256, .f32⟩ : BufTy).Contents (Elt F) → (⟨S16x1024x1024, .f32⟩ : BufTy).Contents (Elt F)),
    nullary main_cst_11 (constant S_ .f32 0x3D800000#32),
    unary main_cst_11 main_v61 (broadcastInDim S16x1024x1024 ![] bcast_S_S16x1024x1024 : (⟨S_, .f32⟩ : BufTy).Contents (Elt F) → (⟨S16x1024x1024, .f32⟩ : BufTy).Contents (Elt F)),
    binary main_v60 main_v61 main_v62 (mulf : (⟨S16x1024x1024, .f32⟩ : BufTy).Contents (Elt F) → (⟨S16x1024x1024, .f32⟩ : BufTy).Contents (Elt F) → (⟨S16x1024x1024, .f32⟩ : BufTy).Contents (Elt F)),
    nullary main_cst_12 (constant S_ .f32 0xFF800000#32),
    binary main_v62 main_cst_12 main_v63 ((fun x v => Host.reduce FloatOps.maximumf x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    nullary main_cst_13 (constant S_ .f32 0xFF800000#32),
    unary main_cst_13 main_v64 (broadcastInDim S16x1024 ![] bcast_S_S16x1024 : (⟨S_, .f32⟩ : BufTy).Contents (Elt F) → (⟨S16x1024, .f32⟩ : BufTy).Contents (Elt F)),
    binary main_v64 main_v63 main_v65 (maximumf : (⟨S16x1024, .f32⟩ : BufTy).Contents (Elt F) → (⟨S16x1024, .f32⟩ : BufTy).Contents (Elt F) → (⟨S16x1024, .f32⟩ : BufTy).Contents (Elt F)),
    unary main_v65 main_v66 (broadcastInDim S16x1024x1 ![0, 1] bcast_S16x1024_S16x1024x1_0_1 : (⟨S16x1024, .f32⟩ : BufTy).Contents (Elt F) → (⟨S16x1024x1, .f32⟩ : BufTy).Contents (Elt F)),
    unary main_v66 main_v67 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    binary main_v62 main_v67 main_v68 (subf : (⟨S16x1024x1024, .f32⟩ : BufTy).Contents (Elt F) → (⟨S16x1024x1024, .f32⟩ : BufTy).Contents (Elt F) → (⟨S16x1024x1024, .f32⟩ : BufTy).Contents (Elt F)),
    unary main_v68 main_v69 (Host.exp : (⟨S16x1024x1024, .f32⟩ : BufTy).Contents (Elt F) → (⟨S16x1024x1024, .f32⟩ : BufTy).Contents (Elt F)),
    nullary main_cst_14 (constant S_ .f32 0x00000000#32),
    binary main_v69 main_cst_14 main_v70 ((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    unary main_v70 main_v71 (broadcastInDim S16x1024x1 ![0, 1] bcast_S16x1024_S16x1024x1_0_1 : (⟨S16x1024, .f32⟩ : BufTy).Contents (Elt F) → (⟨S16x1024x1, .f32⟩ : BufTy).Contents (Elt F)),
    unary main_v71 main_v72 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    binary main_v69 main_v72 main_v73 (Host.divf : (⟨S16x1024x1024, .f32⟩ : BufTy).Contents (Elt F) → (⟨S16x1024x1024, .f32⟩ : BufTy).Contents (Elt F) → (⟨S16x1024x1024, .f32⟩ : BufTy).Contents (Elt F)),
    binary main_v39 main_v49 main_v74 ((fun l r => Host.dotGeneral dot_S16x384x256_S16x384x256_S16x384x384_2_2_1_1_0_0 none l r) : (⟨S16x384x256, .f32⟩ : BufTy).Contents (Elt F) → (⟨S16x384x256, .f32⟩ : BufTy).Contents (Elt F) → (⟨S16x384x384, .f32⟩ : BufTy).Contents (Elt F)),
    nullary main_cst_15 (constant S_ .f32 0x3D800000#32),
    unary main_cst_15 main_v75 (broadcastInDim S16x384x384 ![] bcast_S_S16x384x384 : (⟨S_, .f32⟩ : BufTy).Contents (Elt F) → (⟨S16x384x384, .f32⟩ : BufTy).Contents (Elt F)),
    binary main_v74 main_v75 main_v76 (mulf : (⟨S16x384x384, .f32⟩ : BufTy).Contents (Elt F) → (⟨S16x384x384, .f32⟩ : BufTy).Contents (Elt F) → (⟨S16x384x384, .f32⟩ : BufTy).Contents (Elt F)),
    nullary main_cst_16 (constant S_ .f32 0xFF800000#32),
    binary main_v76 main_cst_16 main_v77 ((fun x v => Host.reduce FloatOps.maximumf x v reducesTo_S16x384x384_S16x384_d2 h_S_) : (⟨S16x384x384, .f32⟩ : BufTy).Contents (Elt F) → (⟨S_, .f32⟩ : BufTy).Contents (Elt F) → (⟨S16x384, .f32⟩ : BufTy).Contents (Elt F)),
    nullary main_cst_17 (constant S_ .f32 0xFF800000#32),
    unary main_cst_17 main_v78 (broadcastInDim S16x384 ![] bcast_S_S16x384 : (⟨S_, .f32⟩ : BufTy).Contents (Elt F) → (⟨S16x384, .f32⟩ : BufTy).Contents (Elt F)),
    binary main_v78 main_v77 main_v79 (maximumf : (⟨S16x384, .f32⟩ : BufTy).Contents (Elt F) → (⟨S16x384, .f32⟩ : BufTy).Contents (Elt F) → (⟨S16x384, .f32⟩ : BufTy).Contents (Elt F)),
    unary main_v79 main_v80 (broadcastInDim S16x384x1 ![0, 1] bcast_S16x384_S16x384x1_0_1 : (⟨S16x384, .f32⟩ : BufTy).Contents (Elt F) → (⟨S16x384x1, .f32⟩ : BufTy).Contents (Elt F)),
    unary main_v80 main_v81 (broadcastInDim S16x384x384 ![0, 1, 2] bcast_S16x384x1_S16x384x384_0_1_2 : (⟨S16x384x1, .f32⟩ : BufTy).Contents (Elt F) → (⟨S16x384x384, .f32⟩ : BufTy).Contents (Elt F)),
    binary main_v76 main_v81 main_v82 (subf : (⟨S16x384x384, .f32⟩ : BufTy).Contents (Elt F) → (⟨S16x384x384, .f32⟩ : BufTy).Contents (Elt F) → (⟨S16x384x384, .f32⟩ : BufTy).Contents (Elt F)),
    unary main_v82 main_v83 (Host.exp : (⟨S16x384x384, .f32⟩ : BufTy).Contents (Elt F) → (⟨S16x384x384, .f32⟩ : BufTy).Contents (Elt F)),
    nullary main_cst_18 (constant S_ .f32 0x00000000#32),
    binary main_v83 main_cst_18 main_v84 ((fun x v => Host.reduceAdd x v reducesTo_S16x384x384_S16x384_d2 h_S_) : (⟨S16x384x384, .f32⟩ : BufTy).Contents (Elt F) → (⟨S_, .f32⟩ : BufTy).Contents (Elt F) → (⟨S16x384, .f32⟩ : BufTy).Contents (Elt F)),
    unary main_v84 main_v85 (broadcastInDim S16x384x1 ![0, 1] bcast_S16x384_S16x384x1_0_1 : (⟨S16x384, .f32⟩ : BufTy).Contents (Elt F) → (⟨S16x384x1, .f32⟩ : BufTy).Contents (Elt F)),
    unary main_v85 main_v86 (broadcastInDim S16x384x384 ![0, 1, 2] bcast_S16x384x1_S16x384x384_0_1_2 : (⟨S16x384x1, .f32⟩ : BufTy).Contents (Elt F) → (⟨S16x384x384, .f32⟩ : BufTy).Contents (Elt F)),
    binary main_v83 main_v86 main_v87 (Host.divf : (⟨S16x384x384, .f32⟩ : BufTy).Contents (Elt F) → (⟨S16x384x384, .f32⟩ : BufTy).Contents (Elt F) → (⟨S16x384x384, .f32⟩ : BufTy).Contents (Elt F)),
    binary main_v29 main_v59 main_v88 ((fun l r => Host.dotGeneral dot_S16x1024x256_S16x384x256_S16x1024x384_2_2_1_1_0_0 none l r) : (⟨S16x1024x256, .f32⟩ : BufTy).Contents (Elt F) → (⟨S16x384x256, .f32⟩ : BufTy).Contents (Elt F) → (⟨S16x1024x384, .f32⟩ : BufTy).Contents (Elt F)),
    nullary main_cst_19 (constant S_ .f32 0x3D800000#32),
    unary main_cst_19 main_v89 (broadcastInDim S16x1024x384 ![] bcast_S_S16x1024x384 : (⟨S_, .f32⟩ : BufTy).Contents (Elt F) → (⟨S16x1024x384, .f32⟩ : BufTy).Contents (Elt F)),
    binary main_v88 main_v89 main_v90 (mulf : (⟨S16x1024x384, .f32⟩ : BufTy).Contents (Elt F) → (⟨S16x1024x384, .f32⟩ : BufTy).Contents (Elt F) → (⟨S16x1024x384, .f32⟩ : BufTy).Contents (Elt F)),
    nullary main_cst_20 (constant S_ .f32 0xFF800000#32),
    binary main_v90 main_cst_20 main_v91 ((fun x v => Host.reduce FloatOps.maximumf x v reducesTo_S16x1024x384_S16x1024_d2 h_S_) : (⟨S16x1024x384, .f32⟩ : BufTy).Contents (Elt F) → (⟨S_, .f32⟩ : BufTy).Contents (Elt F) → (⟨S16x1024, .f32⟩ : BufTy).Contents (Elt F)),
    nullary main_cst_21 (constant S_ .f32 0xFF800000#32),
    unary main_cst_21 main_v92 (broadcastInDim S16x1024 ![] bcast_S_S16x1024 : (⟨S_, .f32⟩ : BufTy).Contents (Elt F) → (⟨S16x1024, .f32⟩ : BufTy).Contents (Elt F)),
    binary main_v92 main_v91 main_v93 (maximumf : (⟨S16x1024, .f32⟩ : BufTy).Contents (Elt F) → (⟨S16x1024, .f32⟩ : BufTy).Contents (Elt F) → (⟨S16x1024, .f32⟩ : BufTy).Contents (Elt F)),
    unary main_v93 main_v94 (broadcastInDim S16x1024x1 ![0, 1] bcast_S16x1024_S16x1024x1_0_1 : (⟨S16x1024, .f32⟩ : BufTy).Contents (Elt F) → (⟨S16x1024x1, .f32⟩ : BufTy).Contents (Elt F)),
    unary main_v94 main_v95 (broadcastInDim S16x1024x384 ![0, 1, 2] bcast_S16x1024x1_S16x1024x384_0_1_2 : (⟨S16x1024x1, .f32⟩ : BufTy).Contents (Elt F) → (⟨S16x1024x384, .f32⟩ : BufTy).Contents (Elt F)),
    binary main_v90 main_v95 main_v96 (subf : (⟨S16x1024x384, .f32⟩ : BufTy).Contents (Elt F) → (⟨S16x1024x384, .f32⟩ : BufTy).Contents (Elt F) → (⟨S16x1024x384, .f32⟩ : BufTy).Contents (Elt F)),
    unary main_v96 main_v97 (Host.exp : (⟨S16x1024x384, .f32⟩ : BufTy).Contents (Elt F) → (⟨S16x1024x384, .f32⟩ : BufTy).Contents (Elt F)),
    nullary main_cst_22 (constant S_ .f32 0x00000000#32),
    binary main_v97 main_cst_22 main_v98 ((fun x v => Host.reduceAdd x v reducesTo_S16x1024x384_S16x1024_d2 h_S_) : (⟨S16x1024x384, .f32⟩ : BufTy).Contents (Elt F) → (⟨S_, .f32⟩ : BufTy).Contents (Elt F) → (⟨S16x1024, .f32⟩ : BufTy).Contents (Elt F)),
    unary main_v98 main_v99 (broadcastInDim S16x1024x1 ![0, 1] bcast_S16x1024_S16x1024x1_0_1 : (⟨S16x1024, .f32⟩ : BufTy).Contents (Elt F) → (⟨S16x1024x1, .f32⟩ : BufTy).Contents (Elt F)),
    unary main_v99 main_v100 (broadcastInDim S16x1024x384 ![0, 1, 2] bcast_S16x1024x1_S16x1024x384_0_1_2 : (⟨S16x1024x1, .f32⟩ : BufTy).Contents (Elt F) → (⟨S16x1024x384, .f32⟩ : BufTy).Contents (Elt F)),
    binary main_v97 main_v100 main_v101 (Host.divf : (⟨S16x1024x384, .f32⟩ : BufTy).Contents (Elt F) → (⟨S16x1024x384, .f32⟩ : BufTy).Contents (Elt F) → (⟨S16x1024x384, .f32⟩ : BufTy).Contents (Elt F)),
    binary main_v73 main_arg0 main_v102 ((fun l r => Host.dotGeneral dot_S16x1024x1024_S16x1024x768_S16x1024x768_2_1_1_2_0_0 none l r) : (⟨S16x1024x1024, .f32⟩ : BufTy).Contents (Elt F) → (⟨S16x1024x768, .f32⟩ : BufTy).Contents (Elt F) → (⟨S16x1024x768, .f32⟩ : BufTy).Contents (Elt F)),
    binary main_v87 main_arg14 main_v103 ((fun l r => Host.dotGeneral dot_S16x384x384_S1x384_S16x384x1_2_1_01_0_n_n none l r) : (⟨S16x384x384, .f32⟩ : BufTy).Contents (Elt F) → (⟨S1x384, .f32⟩ : BufTy).Contents (Elt F) → (⟨S16x384x1, .f32⟩ : BufTy).Contents (Elt F)),
    unary main_arg15 main_v104 (broadcastInDim S1x1x1 ![2] bcast_S1_S1x1x1_2 : (⟨S1, .f32⟩ : BufTy).Contents (Elt F) → (⟨S1x1x1, .f32⟩ : BufTy).Contents (Elt F)),
    unary main_v104 main_v105 (broadcastInDim S16x384x1 ![0, 1, 2] bcast_S1x1x1_S16x384x1_0_1_2 : (⟨S1x1x1, .f32⟩ : BufTy).Contents (Elt F) → (⟨S16x384x1, .f32⟩ : BufTy).Contents (Elt F)),
    binary main_v103 main_v105 main_v106 (addf : (⟨S16x384x1, .f32⟩ : BufTy).Contents (Elt F) → (⟨S16x384x1, .f32⟩ : BufTy).Contents (Elt F) → (⟨S16x384x1, .f32⟩ : BufTy).Contents (Elt F)),
    nullary main_cst_23 (constant S_ .f32 0xFF800000#32),
    binary main_v106 main_cst_23 main_v107 ((fun x v => Host.reduce FloatOps.maximumf x v reducesTo_S16x384x1_S16x1_d1 h_S_) : (⟨S16x384x1, .f32⟩ : BufTy).Contents (Elt F) → (⟨S_, .f32⟩ : BufTy).Contents (Elt F) → (⟨S16x1, .f32⟩ : BufTy).Contents (Elt F)),
    nullary main_cst_24 (constant S_ .f32 0xFF800000#32),
    unary main_cst_24 main_v108 (broadcastInDim S16x1 ![] bcast_S_S16x1 : (⟨S_, .f32⟩ : BufTy).Contents (Elt F) → (⟨S16x1, .f32⟩ : BufTy).Contents (Elt F)),
    binary main_v108 main_v107 main_v109 (maximumf : (⟨S16x1, .f32⟩ : BufTy).Contents (Elt F) → (⟨S16x1, .f32⟩ : BufTy).Contents (Elt F) → (⟨S16x1, .f32⟩ : BufTy).Contents (Elt F)),
    unary main_v109 main_v110 (broadcastInDim S16x1x1 ![0, 2] bcast_S16x1_S16x1x1_0_2 : (⟨S16x1, .f32⟩ : BufTy).Contents (Elt F) → (⟨S16x1x1, .f32⟩ : BufTy).Contents (Elt F)),
    unary main_v110 main_v111 (broadcastInDim S16x384x1 ![0, 1, 2] bcast_S16x1x1_S16x384x1_0_1_2 : (⟨S16x1x1, .f32⟩ : BufTy).Contents (Elt F) → (⟨S16x384x1, .f32⟩ : BufTy).Contents (Elt F)),
    binary main_v106 main_v111 main_v112 (subf : (⟨S16x384x1, .f32⟩ : BufTy).Contents (Elt F) → (⟨S16x384x1, .f32⟩ : BufTy).Contents (Elt F) → (⟨S16x384x1, .f32⟩ : BufTy).Contents (Elt F)),
    unary main_v112 main_v113 (Host.exp : (⟨S16x384x1, .f32⟩ : BufTy).Contents (Elt F) → (⟨S16x384x1, .f32⟩ : BufTy).Contents (Elt F)),
    nullary main_cst_25 (constant S_ .f32 0x00000000#32),
    binary main_v113 main_cst_25 main_v114 ((fun x v => Host.reduceAdd x v reducesTo_S16x384x1_S16x1_d1 h_S_) : (⟨S16x384x1, .f32⟩ : BufTy).Contents (Elt F) → (⟨S_, .f32⟩ : BufTy).Contents (Elt F) → (⟨S16x1, .f32⟩ : BufTy).Contents (Elt F)),
    unary main_v114 main_v115 (broadcastInDim S16x1x1 ![0, 2] bcast_S16x1_S16x1x1_0_2 : (⟨S16x1, .f32⟩ : BufTy).Contents (Elt F) → (⟨S16x1x1, .f32⟩ : BufTy).Contents (Elt F)),
    unary main_v115 main_v116 (broadcastInDim S16x384x1 ![0, 1, 2] bcast_S16x1x1_S16x384x1_0_1_2 : (⟨S16x1x1, .f32⟩ : BufTy).Contents (Elt F) → (⟨S16x384x1, .f32⟩ : BufTy).Contents (Elt F)),
    binary main_v113 main_v116 main_v117 (Host.divf : (⟨S16x384x1, .f32⟩ : BufTy).Contents (Elt F) → (⟨S16x384x1, .f32⟩ : BufTy).Contents (Elt F) → (⟨S16x384x1, .f32⟩ : BufTy).Contents (Elt F)),
    unary main_v117 main_v118 ((transpose S16x1x384 [0, 2, 1] · transposes_S16x384x1_S16x1x384_0_2_1) : (⟨S16x384x1, .f32⟩ : BufTy).Contents (Elt F) → (⟨S16x1x384, .f32⟩ : BufTy).Contents (Elt F)),
    unary main_v118 main_v119 (broadcastInDim S16x1024x384 ![0, 1, 2] bcast_S16x1x384_S16x1024x384_0_1_2 : (⟨S16x1x384, .f32⟩ : BufTy).Contents (Elt F) → (⟨S16x1024x384, .f32⟩ : BufTy).Contents (Elt F)),
    binary main_v101 main_v119 main_v120 (addf : (⟨S16x1024x384, .f32⟩ : BufTy).Contents (Elt F) → (⟨S16x1024x384, .f32⟩ : BufTy).Contents (Elt F) → (⟨S16x1024x384, .f32⟩ : BufTy).Contents (Elt F)),
    binary main_v120 main_arg1 main_v121 ((fun l r => Host.dotGeneral dot_S16x1024x384_S16x384x768_S16x1024x768_2_1_1_2_0_0 none l r) : (⟨S16x1024x384, .f32⟩ : BufTy).Contents (Elt F) → (⟨S16x384x768, .f32⟩ : BufTy).Contents (Elt F) → (⟨S16x1024x768, .f32⟩ : BufTy).Contents (Elt F)),
    binary main_v102 main_v121 main_v122 ((fun a b => concatenate S16x1024x1536 2 [⟨S16x1024x768, a⟩, ⟨S16x1024x768, b⟩] concatenates_S16x1024x768_S16x1024x768_S16x1024x1536_d2) : (⟨S16x1024x768, .f32⟩ : BufTy).Contents (Elt F) → (⟨S16x1024x768, .f32⟩ : BufTy).Contents (Elt F) → (⟨S16x1024x1536, .f32⟩ : BufTy).Contents (Elt F)),
    binary main_v122 main_arg16 main_v123 ((fun l r => Host.dotGeneral dot_S16x1024x1536_S768x1536_S16x1024x768_2_1_01_0_n_n none l r) : (⟨S16x1024x1536, .f32⟩ : BufTy).Contents (Elt F) → (⟨S768x1536, .f32⟩ : BufTy).Contents (Elt F) → (⟨S16x1024x768, .f32⟩ : BufTy).Contents (Elt F)),
    unary main_arg17 main_v124 (broadcastInDim S1x1x768 ![2] bcast_S768_S1x1x768_2 : (⟨S768, .f32⟩ : BufTy).Contents (Elt F) → (⟨S1x1x768, .f32⟩ : BufTy).Contents (Elt F)),
    unary main_v124 main_v125 (broadcastInDim S16x1024x768 ![0, 1, 2] bcast_S1x1x768_S16x1024x768_0_1_2 : (⟨S1x1x768, .f32⟩ : BufTy).Contents (Elt F) → (⟨S16x1024x768, .f32⟩ : BufTy).Contents (Elt F)),
    binary main_v123 main_v125 main_v126 (addf : (⟨S16x1024x768, .f32⟩ : BufTy).Contents (Elt F) → (⟨S16x1024x768, .f32⟩ : BufTy).Contents (Elt F) → (⟨S16x1024x768, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩

/-- Operations 1 to 12 of @main. -/
abbrev sl1 : List (HloOp τ sig (Elt F)) :=
  [ binary main_arg0 main_arg2 main_v0 ((fun l r => Host.dotGeneral dot_S16x1024x768_S256x768_S16x1024x256_2_1_01_0_n_n none l r) : (⟨S16x1024x768, .f32⟩ : BufTy).Contents (Elt F) → (⟨S256x768, .f32⟩ : BufTy).Contents (Elt F) → (⟨S16x1024x256, .f32⟩ : BufTy).Contents (Elt F)),
    unary main_arg3 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S16x1024x256 ![0, 1, 2] bcast_S1x1x256_S16x1024x256_0_1_2 : (⟨S1x1x256, .f32⟩ : BufTy).Contents (Elt F) → (⟨S16x1024x256, .f32⟩ : BufTy).Contents (Elt F)),
    binary main_v0 main_v2 main_v3 (addf : (⟨S16x1024x256, .f32⟩ : BufTy).Contents (Elt F) → (⟨S16x1024x256, .f32⟩ : BufTy).Contents (Elt F) → (⟨S16x1024x256, .f32⟩ : BufTy).Contents (Elt F)),
    nullary main_cst (constant S_ .f32 0x00000000#32),
    binary main_v3 main_cst main_v4 ((fun x v => Host.reduceAdd x v reducesTo_S16x1024x256_S16x256_d1 h_S_) : (⟨S16x1024x256, .f32⟩ : BufTy).Contents (Elt F) → (⟨S_, .f32⟩ : BufTy).Contents (Elt F) → (⟨S16x256, .f32⟩ : BufTy).Contents (Elt F)),
    unary main_v4 main_v5 (broadcastInDim S16x1x256 ![0, 2] bcast_S16x256_S16x1x256_0_2 : (⟨S16x256, .f32⟩ : BufTy).Contents (Elt F) → (⟨S16x1x256, .f32⟩ : BufTy).Contents (Elt F)),
    nullary main_cst_0 (constant S_ .f32 0x44800000#32),
    unary main_cst_0 main_v6 (broadcastInDim S16x1x256 ![] bcast_S_S16x1x256 : (⟨S_, .f32⟩ : BufTy).Contents (Elt F) → (⟨S16x1x256, .f32⟩ : BufTy).Contents (Elt F)),
    binary main_v5 main_v6 main_v7 (Host.divf : (⟨S16x1x256, .f32⟩ : BufTy).Contents (Elt F) → (⟨S16x1x256, .f32⟩ : BufTy).Contents (Elt F) → (⟨S16x1x256, .f32⟩ : BufTy).Contents (Elt F)),
    unary main_v7 main_v8 (broadcastInDim S16x1024x256 ![0, 1, 2] bcast_S16x1x256_S16x1024x256_0_1_2 : (⟨S16x1x256, .f32⟩ : BufTy).Contents (Elt F) → (⟨S16x1024x256, .f32⟩ : BufTy).Contents (Elt F)),
    binary main_v3 main_v8 main_v9 (subf : (⟨S16x1024x256, .f32⟩ : BufTy).Contents (Elt F) → (⟨S16x1024x256, .f32⟩ : BufTy).Contents (Elt F) → (⟨S16x1024x256, .f32⟩ : BufTy).Contents (Elt F)) ]

/-- Operations 13 to 24 of @main. -/
abbrev sl2 : List (HloOp τ sig (Elt F)) :=
  [ binary main_arg0 main_arg4 main_v10 ((fun l r => Host.dotGeneral dot_S16x1024x768_S256x768_S16x1024x256_2_1_01_0_n_n none l r) : (⟨S16x1024x768, .f32⟩ : BufTy).Contents (Elt F) → (⟨S256x768, .f32⟩ : BufTy).Contents (Elt F) → (⟨S16x1024x256, .f32⟩ : BufTy).Contents (Elt F)),
    unary main_arg5 main_v11 (broadcastInDim S1x1x256 ![2] bcast_S256_S1x1x256_2 : (⟨S256, .f32⟩ : BufTy).Contents (Elt F) → (⟨S1x1x256, .f32⟩ : BufTy).Contents (Elt F)),
    unary main_v11 main_v12 (broadcastInDim S16x1024x256 ![0, 1, 2] bcast_S1x1x256_S16x1024x256_0_1_2 : (⟨S1x1x256, .f32⟩ : BufTy).Contents (Elt F) → (⟨S16x1024x256, .f32⟩ : BufTy).Contents (Elt F)),
    binary main_v10 main_v12 main_v13 (addf : (⟨S16x1024x256, .f32⟩ : BufTy).Contents (Elt F) → (⟨S16x1024x256, .f32⟩ : BufTy).Contents (Elt F) → (⟨S16x1024x256, .f32⟩ : BufTy).Contents (Elt F)),
    nullary main_cst_1 (constant S_ .f32 0x00000000#32),
    binary main_v13 main_cst_1 main_v14 ((fun x v => Host.reduceAdd x v reducesTo_S16x1024x256_S16x256_d1 h_S_) : (⟨S16x1024x256, .f32⟩ : BufTy).Contents (Elt F) → (⟨S_, .f32⟩ : BufTy).Contents (Elt F) → (⟨S16x256, .f32⟩ : BufTy).Contents (Elt F)),
    unary main_v14 main_v15 (broadcastInDim S16x1x256 ![0, 2] bcast_S16x256_S16x1x256_0_2 : (⟨S16x256, .f32⟩ : BufTy).Contents (Elt F) → (⟨S16x1x256, .f32⟩ : BufTy).Contents (Elt F)),
    nullary main_cst_2 (constant S_ .f32 0x44800000#32),
    unary main_cst_2 main_v16 (broadcastInDim S16x1x256 ![] bcast_S_S16x1x256 : (⟨S_, .f32⟩ : BufTy).Contents (Elt F) → (⟨S16x1x256, .f32⟩ : BufTy).Contents (Elt F)),
    binary main_v15 main_v16 main_v17 (Host.divf : (⟨S16x1x256, .f32⟩ : BufTy).Contents (Elt F) → (⟨S16x1x256, .f32⟩ : BufTy).Contents (Elt F) → (⟨S16x1x256, .f32⟩ : BufTy).Contents (Elt F)),
    unary main_v17 main_v18 (broadcastInDim S16x1024x256 ![0, 1, 2] bcast_S16x1x256_S16x1024x256_0_1_2 : (⟨S16x1x256, .f32⟩ : BufTy).Contents (Elt F) → (⟨S16x1024x256, .f32⟩ : BufTy).Contents (Elt F)),
    binary main_v13 main_v18 main_v19 (subf : (⟨S16x1024x256, .f32⟩ : BufTy).Contents (Elt F) → (⟨S16x1024x256, .f32⟩ : BufTy).Contents (Elt F) → (⟨S16x1024x256, .f32⟩ : BufTy).Contents (Elt F)) ]

/-- Operations 25 to 36 of @main. -/
abbrev sl3 : List (HloOp τ sig (Elt F)) :=
  [ binary main_arg0 main_arg6 main_v20 ((fun l r => Host.dotGeneral dot_S16x1024x768_S256x768_S16x1024x256_2_1_01_0_n_n none l r) : (⟨S16x1024x768, .f32⟩ : BufTy).Contents (Elt F) → (⟨S256x768, .f32⟩ : BufTy).Contents (Elt F) → (⟨S16x1024x256, .f32⟩ : BufTy).Contents (Elt F)),
    unary main_arg7 main_v21 (broadcastInDim S1x1x256 ![2] bcast_S256_S1x1x256_2 : (⟨S256, .f32⟩ : BufTy).Contents (Elt F) → (⟨S1x1x256, .f32⟩ : BufTy).Contents (Elt F)),
    unary main_v21 main_v22 (broadcastInDim S16x1024x256 ![0, 1, 2] bcast_S1x1x256_S16x1024x256_0_1_2 : (⟨S1x1x256, .f32⟩ : BufTy).Contents (Elt F) → (⟨S16x1024x256, .f32⟩ : BufTy).Contents (Elt F)),
    binary main_v20 main_v22 main_v23 (addf : (⟨S16x1024x256, .f32⟩ : BufTy).Contents (Elt F) → (⟨S16x1024x256, .f32⟩ : BufTy).Contents (Elt F) → (⟨S16x1024x256, .f32⟩ : BufTy).Contents (Elt F)),
    nullary main_cst_3 (constant S_ .f32 0x00000000#32),
    binary main_v23 main_cst_3 main_v24 ((fun x v => Host.reduceAdd x v reducesTo_S16x1024x256_S16x256_d1 h_S_) : (⟨S16x1024x256, .f32⟩ : BufTy).Contents (Elt F) → (⟨S_, .f32⟩ : BufTy).Contents (Elt F) → (⟨S16x256, .f32⟩ : BufTy).Contents (Elt F)),
    unary main_v24 main_v25 (broadcastInDim S16x1x256 ![0, 2] bcast_S16x256_S16x1x256_0_2 : (⟨S16x256, .f32⟩ : BufTy).Contents (Elt F) → (⟨S16x1x256, .f32⟩ : BufTy).Contents (Elt F)),
    nullary main_cst_4 (constant S_ .f32 0x44800000#32),
    unary main_cst_4 main_v26 (broadcastInDim S16x1x256 ![] bcast_S_S16x1x256 : (⟨S_, .f32⟩ : BufTy).Contents (Elt F) → (⟨S16x1x256, .f32⟩ : BufTy).Contents (Elt F)),
    binary main_v25 main_v26 main_v27 (Host.divf : (⟨S16x1x256, .f32⟩ : BufTy).Contents (Elt F) → (⟨S16x1x256, .f32⟩ : BufTy).Contents (Elt F) → (⟨S16x1x256, .f32⟩ : BufTy).Contents (Elt F)),
    unary main_v27 main_v28 (broadcastInDim S16x1024x256 ![0, 1, 2] bcast_S16x1x256_S16x1024x256_0_1_2 : (⟨S16x1x256, .f32⟩ : BufTy).Contents (Elt F) → (⟨S16x1024x256, .f32⟩ : BufTy).Contents (Elt F)),
    binary main_v23 main_v28 main_v29 (subf : (⟨S16x1024x256, .f32⟩ : BufTy).Contents (Elt F) → (⟨S16x1024x256, .f32⟩ : BufTy).Contents (Elt F) → (⟨S16x1024x256, .f32⟩ : BufTy).Contents (Elt F)) ]

/-- Operations 37 to 48 of @main. -/
abbrev sl4 : List (HloOp τ sig (Elt F)) :=
  [ binary main_arg1 main_arg8 main_v30 ((fun l r => Host.dotGeneral dot_S16x384x768_S256x768_S16x384x256_2_1_01_0_n_n none l r) : (⟨S16x384x768, .f32⟩ : BufTy).Contents (Elt F) → (⟨S256x768, .f32⟩ : BufTy).Contents (Elt F) → (⟨S16x384x256, .f32⟩ : BufTy).Contents (Elt F)),
    unary main_arg9 main_v31 (broadcastInDim S1x1x256 ![2] bcast_S256_S1x1x256_2 : (⟨S256, .f32⟩ : BufTy).Contents (Elt F) → (⟨S1x1x256, .f32⟩ : BufTy).Contents (Elt F)),
    unary main_v31 main_v32 (broadcastInDim S16x384x256 ![0, 1, 2] bcast_S1x1x256_S16x384x256_0_1_2 : (⟨S1x1x256, .f32⟩ : BufTy).Contents (Elt F) → (⟨S16x384x256, .f32⟩ : BufTy).Contents (Elt F)),
    binary main_v30 main_v32 main_v33 (addf : (⟨S16x384x256, .f32⟩ : BufTy).Contents (Elt F) → (⟨S16x384x256, .f32⟩ : BufTy).Contents (Elt F) → (⟨S16x384x256, .f32⟩ : BufTy).Contents (Elt F)),
    nullary main_cst_5 (constant S_ .f32 0x00000000#32),
    binary main_v33 main_cst_5 main_v34 ((fun x v => Host.reduceAdd x v reducesTo_S16x384x256_S16x256_d1 h_S_) : (⟨S16x384x256, .f32⟩ : BufTy).Contents (Elt F) → (⟨S_, .f32⟩ : BufTy).Contents (Elt F) → (⟨S16x256, .f32⟩ : BufTy).Contents (Elt F)),
    unary main_v34 main_v35 (broadcastInDim S16x1x256 ![0, 2] bcast_S16x256_S16x1x256_0_2 : (⟨S16x256, .f32⟩ : BufTy).Contents (Elt F) → (⟨S16x1x256, .f32⟩ : BufTy).Contents (Elt F)),
    nullary main_cst_6 (constant S_ .f32 0x43C00000#32),
    unary main_cst_6 main_v36 (broadcastInDim S16x1x256 ![] bcast_S_S16x1x256 : (⟨S_, .f32⟩ : BufTy).Contents (Elt F) → (⟨S16x1x256, .f32⟩ : BufTy).Contents (Elt F)),
    binary main_v35 main_v36 main_v37 (Host.divf : (⟨S16x1x256, .f32⟩ : BufTy).Contents (Elt F) → (⟨S16x1x256, .f32⟩ : BufTy).Contents (Elt F) → (⟨S16x1x256, .f32⟩ : BufTy).Contents (Elt F)),
    unary main_v37 main_v38 (broadcastInDim S16x384x256 ![0, 1, 2] bcast_S16x1x256_S16x384x256_0_1_2 : (⟨S16x1x256, .f32⟩ : BufTy).Contents (Elt F) → (⟨S16x384x256, .f32⟩ : BufTy).Contents (Elt F)),
    binary main_v33 main_v38 main_v39 (subf : (⟨S16x384x256, .f32⟩ : BufTy).Contents (Elt F) → (⟨S16x384x256, .f32⟩ : BufTy).Contents (Elt F) → (⟨S16x384x256, .f32⟩ : BufTy).Contents (Elt F)) ]

/-- Operations 49 to 60 of @main. -/
abbrev sl5 : List (HloOp τ sig (Elt F)) :=
  [ binary main_arg1 main_arg10 main_v40 ((fun l r => Host.dotGeneral dot_S16x384x768_S256x768_S16x384x256_2_1_01_0_n_n none l r) : (⟨S16x384x768, .f32⟩ : BufTy).Contents (Elt F) → (⟨S256x768, .f32⟩ : BufTy).Contents (Elt F) → (⟨S16x384x256, .f32⟩ : BufTy).Contents (Elt F)),
    unary main_arg11 main_v41 (broadcastInDim S1x1x256 ![2] bcast_S256_S1x1x256_2 : (⟨S256, .f32⟩ : BufTy).Contents (Elt F) → (⟨S1x1x256, .f32⟩ : BufTy).Contents (Elt F)),
    unary main_v41 main_v42 (broadcastInDim S16x384x256 ![0, 1, 2] bcast_S1x1x256_S16x384x256_0_1_2 : (⟨S1x1x256, .f32⟩ : BufTy).Contents (Elt F) → (⟨S16x384x256, .f32⟩ : BufTy).Contents (Elt F)),
    binary main_v40 main_v42 main_v43 (addf : (⟨S16x384x256, .f32⟩ : BufTy).Contents (Elt F) → (⟨S16x384x256, .f32⟩ : BufTy).Contents (Elt F) → (⟨S16x384x256, .f32⟩ : BufTy).Contents (Elt F)),
    nullary main_cst_7 (constant S_ .f32 0x00000000#32),
    binary main_v43 main_cst_7 main_v44 ((fun x v => Host.reduceAdd x v reducesTo_S16x384x256_S16x256_d1 h_S_) : (⟨S16x384x256, .f32⟩ : BufTy).Contents (Elt F) → (⟨S_, .f32⟩ : BufTy).Contents (Elt F) → (⟨S16x256, .f32⟩ : BufTy).Contents (Elt F)),
    unary main_v44 main_v45 (broadcastInDim S16x1x256 ![0, 2] bcast_S16x256_S16x1x256_0_2 : (⟨S16x256, .f32⟩ : BufTy).Contents (Elt F) → (⟨S16x1x256, .f32⟩ : BufTy).Contents (Elt F)),
    nullary main_cst_8 (constant S_ .f32 0x43C00000#32),
    unary main_cst_8 main_v46 (broadcastInDim S16x1x256 ![] bcast_S_S16x1x256 : (⟨S_, .f32⟩ : BufTy).Contents (Elt F) → (⟨S16x1x256, .f32⟩ : BufTy).Contents (Elt F)),
    binary main_v45 main_v46 main_v47 (Host.divf : (⟨S16x1x256, .f32⟩ : BufTy).Contents (Elt F) → (⟨S16x1x256, .f32⟩ : BufTy).Contents (Elt F) → (⟨S16x1x256, .f32⟩ : BufTy).Contents (Elt F)),
    unary main_v47 main_v48 (broadcastInDim S16x384x256 ![0, 1, 2] bcast_S16x1x256_S16x384x256_0_1_2 : (⟨S16x1x256, .f32⟩ : BufTy).Contents (Elt F) → (⟨S16x384x256, .f32⟩ : BufTy).Contents (Elt F)),
    binary main_v43 main_v48 main_v49 (subf : (⟨S16x384x256, .f32⟩ : BufTy).Contents (Elt F) → (⟨S16x384x256, .f32⟩ : BufTy).Contents (Elt F) → (⟨S16x384x256, .f32⟩ : BufTy).Contents (Elt F)) ]

/-- Operations 61 to 72 of @main. -/
abbrev sl6 : List (HloOp τ sig (Elt F)) :=
  [ binary main_arg1 main_arg12 main_v50 ((fun l r => Host.dotGeneral dot_S16x384x768_S256x768_S16x384x256_2_1_01_0_n_n none l r) : (⟨S16x384x768, .f32⟩ : BufTy).Contents (Elt F) → (⟨S256x768, .f32⟩ : BufTy).Contents (Elt F) → (⟨S16x384x256, .f32⟩ : BufTy).Contents (Elt F)),
    unary main_arg13 main_v51 (broadcastInDim S1x1x256 ![2] bcast_S256_S1x1x256_2 : (⟨S256, .f32⟩ : BufTy).Contents (Elt F) → (⟨S1x1x256, .f32⟩ : BufTy).Contents (Elt F)),
    unary main_v51 main_v52 (broadcastInDim S16x384x256 ![0, 1, 2] bcast_S1x1x256_S16x384x256_0_1_2 : (⟨S1x1x256, .f32⟩ : BufTy).Contents (Elt F) → (⟨S16x384x256, .f32⟩ : BufTy).Contents (Elt F)),
    binary main_v50 main_v52 main_v53 (addf : (⟨S16x384x256, .f32⟩ : BufTy).Contents (Elt F) → (⟨S16x384x256, .f32⟩ : BufTy).Contents (Elt F) → (⟨S16x384x256, .f32⟩ : BufTy).Contents (Elt F)),
    nullary main_cst_9 (constant S_ .f32 0x00000000#32),
    binary main_v53 main_cst_9 main_v54 ((fun x v => Host.reduceAdd x v reducesTo_S16x384x256_S16x256_d1 h_S_) : (⟨S16x384x256, .f32⟩ : BufTy).Contents (Elt F) → (⟨S_, .f32⟩ : BufTy).Contents (Elt F) → (⟨S16x256, .f32⟩ : BufTy).Contents (Elt F)),
    unary main_v54 main_v55 (broadcastInDim S16x1x256 ![0, 2] bcast_S16x256_S16x1x256_0_2 : (⟨S16x256, .f32⟩ : BufTy).Contents (Elt F) → (⟨S16x1x256, .f32⟩ : BufTy).Contents (Elt F)),
    nullary main_cst_10 (constant S_ .f32 0x43C00000#32),
    unary main_cst_10 main_v56 (broadcastInDim S16x1x256 ![] bcast_S_S16x1x256 : (⟨S_, .f32⟩ : BufTy).Contents (Elt F) → (⟨S16x1x256, .f32⟩ : BufTy).Contents (Elt F)),
    binary main_v55 main_v56 main_v57 (Host.divf : (⟨S16x1x256, .f32⟩ : BufTy).Contents (Elt F) → (⟨S16x1x256, .f32⟩ : BufTy).Contents (Elt F) → (⟨S16x1x256, .f32⟩ : BufTy).Contents (Elt F)),
    unary main_v57 main_v58 (broadcastInDim S16x384x256 ![0, 1, 2] bcast_S16x1x256_S16x384x256_0_1_2 : (⟨S16x1x256, .f32⟩ : BufTy).Contents (Elt F) → (⟨S16x384x256, .f32⟩ : BufTy).Contents (Elt F)),
    binary main_v53 main_v58 main_v59 (subf : (⟨S16x384x256, .f32⟩ : BufTy).Contents (Elt F) → (⟨S16x384x256, .f32⟩ : BufTy).Contents (Elt F) → (⟨S16x384x256, .f32⟩ : BufTy).Contents (Elt F)) ]

/-- Operations 73 to 90 of @main. -/
abbrev sl7 : List (HloOp τ sig (Elt F)) :=
  [ binary main_v9 main_v19 main_v60 ((fun l r => Host.dotGeneral dot_S16x1024x256_S16x1024x256_S16x1024x1024_2_2_1_1_0_0 none l r) : (⟨S16x1024x256, .f32⟩ : BufTy).Contents (Elt F) → (⟨S16x1024x256, .f32⟩ : BufTy).Contents (Elt F) → (⟨S16x1024x1024, .f32⟩ : BufTy).Contents (Elt F)),
    nullary main_cst_11 (constant S_ .f32 0x3D800000#32),
    unary main_cst_11 main_v61 (broadcastInDim S16x1024x1024 ![] bcast_S_S16x1024x1024 : (⟨S_, .f32⟩ : BufTy).Contents (Elt F) → (⟨S16x1024x1024, .f32⟩ : BufTy).Contents (Elt F)),
    binary main_v60 main_v61 main_v62 (mulf : (⟨S16x1024x1024, .f32⟩ : BufTy).Contents (Elt F) → (⟨S16x1024x1024, .f32⟩ : BufTy).Contents (Elt F) → (⟨S16x1024x1024, .f32⟩ : BufTy).Contents (Elt F)),
    nullary main_cst_12 (constant S_ .f32 0xFF800000#32),
    binary main_v62 main_cst_12 main_v63 ((fun x v => Host.reduce FloatOps.maximumf x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    nullary main_cst_13 (constant S_ .f32 0xFF800000#32),
    unary main_cst_13 main_v64 (broadcastInDim S16x1024 ![] bcast_S_S16x1024 : (⟨S_, .f32⟩ : BufTy).Contents (Elt F) → (⟨S16x1024, .f32⟩ : BufTy).Contents (Elt F)),
    binary main_v64 main_v63 main_v65 (maximumf : (⟨S16x1024, .f32⟩ : BufTy).Contents (Elt F) → (⟨S16x1024, .f32⟩ : BufTy).Contents (Elt F) → (⟨S16x1024, .f32⟩ : BufTy).Contents (Elt F)),
    unary main_v65 main_v66 (broadcastInDim S16x1024x1 ![0, 1] bcast_S16x1024_S16x1024x1_0_1 : (⟨S16x1024, .f32⟩ : BufTy).Contents (Elt F) → (⟨S16x1024x1, .f32⟩ : BufTy).Contents (Elt F)),
    unary main_v66 main_v67 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    binary main_v62 main_v67 main_v68 (subf : (⟨S16x1024x1024, .f32⟩ : BufTy).Contents (Elt F) → (⟨S16x1024x1024, .f32⟩ : BufTy).Contents (Elt F) → (⟨S16x1024x1024, .f32⟩ : BufTy).Contents (Elt F)),
    unary main_v68 main_v69 (Host.exp : (⟨S16x1024x1024, .f32⟩ : BufTy).Contents (Elt F) → (⟨S16x1024x1024, .f32⟩ : BufTy).Contents (Elt F)),
    nullary main_cst_14 (constant S_ .f32 0x00000000#32),
    binary main_v69 main_cst_14 main_v70 ((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    unary main_v70 main_v71 (broadcastInDim S16x1024x1 ![0, 1] bcast_S16x1024_S16x1024x1_0_1 : (⟨S16x1024, .f32⟩ : BufTy).Contents (Elt F) → (⟨S16x1024x1, .f32⟩ : BufTy).Contents (Elt F)),
    unary main_v71 main_v72 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    binary main_v69 main_v72 main_v73 (Host.divf : (⟨S16x1024x1024, .f32⟩ : BufTy).Contents (Elt F) → (⟨S16x1024x1024, .f32⟩ : BufTy).Contents (Elt F) → (⟨S16x1024x1024, .f32⟩ : BufTy).Contents (Elt F)) ]

/-- Operations 91 to 108 of @main. -/
abbrev sl8 : List (HloOp τ sig (Elt F)) :=
  [ binary main_v39 main_v49 main_v74 ((fun l r => Host.dotGeneral dot_S16x384x256_S16x384x256_S16x384x384_2_2_1_1_0_0 none l r) : (⟨S16x384x256, .f32⟩ : BufTy).Contents (Elt F) → (⟨S16x384x256, .f32⟩ : BufTy).Contents (Elt F) → (⟨S16x384x384, .f32⟩ : BufTy).Contents (Elt F)),
    nullary main_cst_15 (constant S_ .f32 0x3D800000#32),
    unary main_cst_15 main_v75 (broadcastInDim S16x384x384 ![] bcast_S_S16x384x384 : (⟨S_, .f32⟩ : BufTy).Contents (Elt F) → (⟨S16x384x384, .f32⟩ : BufTy).Contents (Elt F)),
    binary main_v74 main_v75 main_v76 (mulf : (⟨S16x384x384, .f32⟩ : BufTy).Contents (Elt F) → (⟨S16x384x384, .f32⟩ : BufTy).Contents (Elt F) → (⟨S16x384x384, .f32⟩ : BufTy).Contents (Elt F)),
    nullary main_cst_16 (constant S_ .f32 0xFF800000#32),
    binary main_v76 main_cst_16 main_v77 ((fun x v => Host.reduce FloatOps.maximumf x v reducesTo_S16x384x384_S16x384_d2 h_S_) : (⟨S16x384x384, .f32⟩ : BufTy).Contents (Elt F) → (⟨S_, .f32⟩ : BufTy).Contents (Elt F) → (⟨S16x384, .f32⟩ : BufTy).Contents (Elt F)),
    nullary main_cst_17 (constant S_ .f32 0xFF800000#32),
    unary main_cst_17 main_v78 (broadcastInDim S16x384 ![] bcast_S_S16x384 : (⟨S_, .f32⟩ : BufTy).Contents (Elt F) → (⟨S16x384, .f32⟩ : BufTy).Contents (Elt F)),
    binary main_v78 main_v77 main_v79 (maximumf : (⟨S16x384, .f32⟩ : BufTy).Contents (Elt F) → (⟨S16x384, .f32⟩ : BufTy).Contents (Elt F) → (⟨S16x384, .f32⟩ : BufTy).Contents (Elt F)),
    unary main_v79 main_v80 (broadcastInDim S16x384x1 ![0, 1] bcast_S16x384_S16x384x1_0_1 : (⟨S16x384, .f32⟩ : BufTy).Contents (Elt F) → (⟨S16x384x1, .f32⟩ : BufTy).Contents (Elt F)),
    unary main_v80 main_v81 (broadcastInDim S16x384x384 ![0, 1, 2] bcast_S16x384x1_S16x384x384_0_1_2 : (⟨S16x384x1, .f32⟩ : BufTy).Contents (Elt F) → (⟨S16x384x384, .f32⟩ : BufTy).Contents (Elt F)),
    binary main_v76 main_v81 main_v82 (subf : (⟨S16x384x384, .f32⟩ : BufTy).Contents (Elt F) → (⟨S16x384x384, .f32⟩ : BufTy).Contents (Elt F) → (⟨S16x384x384, .f32⟩ : BufTy).Contents (Elt F)),
    unary main_v82 main_v83 (Host.exp : (⟨S16x384x384, .f32⟩ : BufTy).Contents (Elt F) → (⟨S16x384x384, .f32⟩ : BufTy).Contents (Elt F)),
    nullary main_cst_18 (constant S_ .f32 0x00000000#32),
    binary main_v83 main_cst_18 main_v84 ((fun x v => Host.reduceAdd x v reducesTo_S16x384x384_S16x384_d2 h_S_) : (⟨S16x384x384, .f32⟩ : BufTy).Contents (Elt F) → (⟨S_, .f32⟩ : BufTy).Contents (Elt F) → (⟨S16x384, .f32⟩ : BufTy).Contents (Elt F)),
    unary main_v84 main_v85 (broadcastInDim S16x384x1 ![0, 1] bcast_S16x384_S16x384x1_0_1 : (⟨S16x384, .f32⟩ : BufTy).Contents (Elt F) → (⟨S16x384x1, .f32⟩ : BufTy).Contents (Elt F)),
    unary main_v85 main_v86 (broadcastInDim S16x384x384 ![0, 1, 2] bcast_S16x384x1_S16x384x384_0_1_2 : (⟨S16x384x1, .f32⟩ : BufTy).Contents (Elt F) → (⟨S16x384x384, .f32⟩ : BufTy).Contents (Elt F)),
    binary main_v83 main_v86 main_v87 (Host.divf : (⟨S16x384x384, .f32⟩ : BufTy).Contents (Elt F) → (⟨S16x384x384, .f32⟩ : BufTy).Contents (Elt F) → (⟨S16x384x384, .f32⟩ : BufTy).Contents (Elt F)) ]

/-- Operations 109 to 126 of @main. -/
abbrev sl9 : List (HloOp τ sig (Elt F)) :=
  [ binary main_v29 main_v59 main_v88 ((fun l r => Host.dotGeneral dot_S16x1024x256_S16x384x256_S16x1024x384_2_2_1_1_0_0 none l r) : (⟨S16x1024x256, .f32⟩ : BufTy).Contents (Elt F) → (⟨S16x384x256, .f32⟩ : BufTy).Contents (Elt F) → (⟨S16x1024x384, .f32⟩ : BufTy).Contents (Elt F)),
    nullary main_cst_19 (constant S_ .f32 0x3D800000#32),
    unary main_cst_19 main_v89 (broadcastInDim S16x1024x384 ![] bcast_S_S16x1024x384 : (⟨S_, .f32⟩ : BufTy).Contents (Elt F) → (⟨S16x1024x384, .f32⟩ : BufTy).Contents (Elt F)),
    binary main_v88 main_v89 main_v90 (mulf : (⟨S16x1024x384, .f32⟩ : BufTy).Contents (Elt F) → (⟨S16x1024x384, .f32⟩ : BufTy).Contents (Elt F) → (⟨S16x1024x384, .f32⟩ : BufTy).Contents (Elt F)),
    nullary main_cst_20 (constant S_ .f32 0xFF800000#32),
    binary main_v90 main_cst_20 main_v91 ((fun x v => Host.reduce FloatOps.maximumf x v reducesTo_S16x1024x384_S16x1024_d2 h_S_) : (⟨S16x1024x384, .f32⟩ : BufTy).Contents (Elt F) → (⟨S_, .f32⟩ : BufTy).Contents (Elt F) → (⟨S16x1024, .f32⟩ : BufTy).Contents (Elt F)),
    nullary main_cst_21 (constant S_ .f32 0xFF800000#32),
    unary main_cst_21 main_v92 (broadcastInDim S16x1024 ![] bcast_S_S16x1024 : (⟨S_, .f32⟩ : BufTy).Contents (Elt F) → (⟨S16x1024, .f32⟩ : BufTy).Contents (Elt F)),
    binary main_v92 main_v91 main_v93 (maximumf : (⟨S16x1024, .f32⟩ : BufTy).Contents (Elt F) → (⟨S16x1024, .f32⟩ : BufTy).Contents (Elt F) → (⟨S16x1024, .f32⟩ : BufTy).Contents (Elt F)),
    unary main_v93 main_v94 (broadcastInDim S16x1024x1 ![0, 1] bcast_S16x1024_S16x1024x1_0_1 : (⟨S16x1024, .f32⟩ : BufTy).Contents (Elt F) → (⟨S16x1024x1, .f32⟩ : BufTy).Contents (Elt F)),
    unary main_v94 main_v95 (broadcastInDim S16x1024x384 ![0, 1, 2] bcast_S16x1024x1_S16x1024x384_0_1_2 : (⟨S16x1024x1, .f32⟩ : BufTy).Contents (Elt F) → (⟨S16x1024x384, .f32⟩ : BufTy).Contents (Elt F)),
    binary main_v90 main_v95 main_v96 (subf : (⟨S16x1024x384, .f32⟩ : BufTy).Contents (Elt F) → (⟨S16x1024x384, .f32⟩ : BufTy).Contents (Elt F) → (⟨S16x1024x384, .f32⟩ : BufTy).Contents (Elt F)),
    unary main_v96 main_v97 (Host.exp : (⟨S16x1024x384, .f32⟩ : BufTy).Contents (Elt F) → (⟨S16x1024x384, .f32⟩ : BufTy).Contents (Elt F)),
    nullary main_cst_22 (constant S_ .f32 0x00000000#32),
    binary main_v97 main_cst_22 main_v98 ((fun x v => Host.reduceAdd x v reducesTo_S16x1024x384_S16x1024_d2 h_S_) : (⟨S16x1024x384, .f32⟩ : BufTy).Contents (Elt F) → (⟨S_, .f32⟩ : BufTy).Contents (Elt F) → (⟨S16x1024, .f32⟩ : BufTy).Contents (Elt F)),
    unary main_v98 main_v99 (broadcastInDim S16x1024x1 ![0, 1] bcast_S16x1024_S16x1024x1_0_1 : (⟨S16x1024, .f32⟩ : BufTy).Contents (Elt F) → (⟨S16x1024x1, .f32⟩ : BufTy).Contents (Elt F)),
    unary main_v99 main_v100 (broadcastInDim S16x1024x384 ![0, 1, 2] bcast_S16x1024x1_S16x1024x384_0_1_2 : (⟨S16x1024x1, .f32⟩ : BufTy).Contents (Elt F) → (⟨S16x1024x384, .f32⟩ : BufTy).Contents (Elt F)),
    binary main_v97 main_v100 main_v101 (Host.divf : (⟨S16x1024x384, .f32⟩ : BufTy).Contents (Elt F) → (⟨S16x1024x384, .f32⟩ : BufTy).Contents (Elt F) → (⟨S16x1024x384, .f32⟩ : BufTy).Contents (Elt F)) ]

/-- Operations 127 to 145 of @main. -/
abbrev sl10 : List (HloOp τ sig (Elt F)) :=
  [ binary main_v73 main_arg0 main_v102 ((fun l r => Host.dotGeneral dot_S16x1024x1024_S16x1024x768_S16x1024x768_2_1_1_2_0_0 none l r) : (⟨S16x1024x1024, .f32⟩ : BufTy).Contents (Elt F) → (⟨S16x1024x768, .f32⟩ : BufTy).Contents (Elt F) → (⟨S16x1024x768, .f32⟩ : BufTy).Contents (Elt F)),
    binary main_v87 main_arg14 main_v103 ((fun l r => Host.dotGeneral dot_S16x384x384_S1x384_S16x384x1_2_1_01_0_n_n none l r) : (⟨S16x384x384, .f32⟩ : BufTy).Contents (Elt F) → (⟨S1x384, .f32⟩ : BufTy).Contents (Elt F) → (⟨S16x384x1, .f32⟩ : BufTy).Contents (Elt F)),
    unary main_arg15 main_v104 (broadcastInDim S1x1x1 ![2] bcast_S1_S1x1x1_2 : (⟨S1, .f32⟩ : BufTy).Contents (Elt F) → (⟨S1x1x1, .f32⟩ : BufTy).Contents (Elt F)),
    unary main_v104 main_v105 (broadcastInDim S16x384x1 ![0, 1, 2] bcast_S1x1x1_S16x384x1_0_1_2 : (⟨S1x1x1, .f32⟩ : BufTy).Contents (Elt F) → (⟨S16x384x1, .f32⟩ : BufTy).Contents (Elt F)),
    binary main_v103 main_v105 main_v106 (addf : (⟨S16x384x1, .f32⟩ : BufTy).Contents (Elt F) → (⟨S16x384x1, .f32⟩ : BufTy).Contents (Elt F) → (⟨S16x384x1, .f32⟩ : BufTy).Contents (Elt F)),
    nullary main_cst_23 (constant S_ .f32 0xFF800000#32),
    binary main_v106 main_cst_23 main_v107 ((fun x v => Host.reduce FloatOps.maximumf x v reducesTo_S16x384x1_S16x1_d1 h_S_) : (⟨S16x384x1, .f32⟩ : BufTy).Contents (Elt F) → (⟨S_, .f32⟩ : BufTy).Contents (Elt F) → (⟨S16x1, .f32⟩ : BufTy).Contents (Elt F)),
    nullary main_cst_24 (constant S_ .f32 0xFF800000#32),
    unary main_cst_24 main_v108 (broadcastInDim S16x1 ![] bcast_S_S16x1 : (⟨S_, .f32⟩ : BufTy).Contents (Elt F) → (⟨S16x1, .f32⟩ : BufTy).Contents (Elt F)),
    binary main_v108 main_v107 main_v109 (maximumf : (⟨S16x1, .f32⟩ : BufTy).Contents (Elt F) → (⟨S16x1, .f32⟩ : BufTy).Contents (Elt F) → (⟨S16x1, .f32⟩ : BufTy).Contents (Elt F)),
    unary main_v109 main_v110 (broadcastInDim S16x1x1 ![0, 2] bcast_S16x1_S16x1x1_0_2 : (⟨S16x1, .f32⟩ : BufTy).Contents (Elt F) → (⟨S16x1x1, .f32⟩ : BufTy).Contents (Elt F)),
    unary main_v110 main_v111 (broadcastInDim S16x384x1 ![0, 1, 2] bcast_S16x1x1_S16x384x1_0_1_2 : (⟨S16x1x1, .f32⟩ : BufTy).Contents (Elt F) → (⟨S16x384x1, .f32⟩ : BufTy).Contents (Elt F)),
    binary main_v106 main_v111 main_v112 (subf : (⟨S16x384x1, .f32⟩ : BufTy).Contents (Elt F) → (⟨S16x384x1, .f32⟩ : BufTy).Contents (Elt F) → (⟨S16x384x1, .f32⟩ : BufTy).Contents (Elt F)),
    unary main_v112 main_v113 (Host.exp : (⟨S16x384x1, .f32⟩ : BufTy).Contents (Elt F) → (⟨S16x384x1, .f32⟩ : BufTy).Contents (Elt F)),
    nullary main_cst_25 (constant S_ .f32 0x00000000#32),
    binary main_v113 main_cst_25 main_v114 ((fun x v => Host.reduceAdd x v reducesTo_S16x384x1_S16x1_d1 h_S_) : (⟨S16x384x1, .f32⟩ : BufTy).Contents (Elt F) → (⟨S_, .f32⟩ : BufTy).Contents (Elt F) → (⟨S16x1, .f32⟩ : BufTy).Contents (Elt F)),
    unary main_v114 main_v115 (broadcastInDim S16x1x1 ![0, 2] bcast_S16x1_S16x1x1_0_2 : (⟨S16x1, .f32⟩ : BufTy).Contents (Elt F) → (⟨S16x1x1, .f32⟩ : BufTy).Contents (Elt F)),
    unary main_v115 main_v116 (broadcastInDim S16x384x1 ![0, 1, 2] bcast_S16x1x1_S16x384x1_0_1_2 : (⟨S16x1x1, .f32⟩ : BufTy).Contents (Elt F) → (⟨S16x384x1, .f32⟩ : BufTy).Contents (Elt F)),
    binary main_v113 main_v116 main_v117 (Host.divf : (⟨S16x384x1, .f32⟩ : BufTy).Contents (Elt F) → (⟨S16x384x1, .f32⟩ : BufTy).Contents (Elt F) → (⟨S16x384x1, .f32⟩ : BufTy).Contents (Elt F)) ]

/-- Operations 146 to 149 of @main. -/
abbrev sl11 : List (HloOp τ sig (Elt F)) :=
  [ unary main_v117 main_v118 ((transpose S16x1x384 [0, 2, 1] · transposes_S16x384x1_S16x1x384_0_2_1) : (⟨S16x384x1, .f32⟩ : BufTy).Contents (Elt F) → (⟨S16x1x384, .f32⟩ : BufTy).Contents (Elt F)),
    unary main_v118 main_v119 (broadcastInDim S16x1024x384 ![0, 1, 2] bcast_S16x1x384_S16x1024x384_0_1_2 : (⟨S16x1x384, .f32⟩ : BufTy).Contents (Elt F) → (⟨S16x1024x384, .f32⟩ : BufTy).Contents (Elt F)),
    binary main_v101 main_v119 main_v120 (addf : (⟨S16x1024x384, .f32⟩ : BufTy).Contents (Elt F) → (⟨S16x1024x384, .f32⟩ : BufTy).Contents (Elt F) → (⟨S16x1024x384, .f32⟩ : BufTy).Contents (Elt F)),
    binary main_v120 main_arg1 main_v121 ((fun l r => Host.dotGeneral dot_S16x1024x384_S16x384x768_S16x1024x768_2_1_1_2_0_0 none l r) : (⟨S16x1024x384, .f32⟩ : BufTy).Contents (Elt F) → (⟨S16x384x768, .f32⟩ : BufTy).Contents (Elt F) → (⟨S16x1024x768, .f32⟩ : BufTy).Contents (Elt F)) ]

/-- Operations 150 to 154 of @main. -/
abbrev sl12 : List (HloOp τ sig (Elt F)) :=
  [ binary main_v102 main_v121 main_v122 ((fun a b => concatenate S16x1024x1536 2 [⟨S16x1024x768, a⟩, ⟨S16x1024x768, b⟩] concatenates_S16x1024x768_S16x1024x768_S16x1024x1536_d2) : (⟨S16x1024x768, .f32⟩ : BufTy).Contents (Elt F) → (⟨S16x1024x768, .f32⟩ : BufTy).Contents (Elt F) → (⟨S16x1024x1536, .f32⟩ : BufTy).Contents (Elt F)),
    binary main_v122 main_arg16 main_v123 ((fun l r => Host.dotGeneral dot_S16x1024x1536_S768x1536_S16x1024x768_2_1_01_0_n_n none l r) : (⟨S16x1024x1536, .f32⟩ : BufTy).Contents (Elt F) → (⟨S768x1536, .f32⟩ : BufTy).Contents (Elt F) → (⟨S16x1024x768, .f32⟩ : BufTy).Contents (Elt F)),
    unary main_arg17 main_v124 (broadcastInDim S1x1x768 ![2] bcast_S768_S1x1x768_2 : (⟨S768, .f32⟩ : BufTy).Contents (Elt F) → (⟨S1x1x768, .f32⟩ : BufTy).Contents (Elt F)),
    unary main_v124 main_v125 (broadcastInDim S16x1024x768 ![0, 1, 2] bcast_S1x1x768_S16x1024x768_0_1_2 : (⟨S1x1x768, .f32⟩ : BufTy).Contents (Elt F) → (⟨S16x1024x768, .f32⟩ : BufTy).Contents (Elt F)),
    binary main_v123 main_v125 main_v126 (addf : (⟨S16x1024x768, .f32⟩ : BufTy).Contents (Elt F) → (⟨S16x1024x768, .f32⟩ : BufTy).Contents (Elt F) → (⟨S16x1024x768, .f32⟩ : BufTy).Contents (Elt F)) ]

set_option maxRecDepth 8192 in
set_option maxHeartbeats 4000000 in
/-- Slice 1: from contents holding the arguments and the stages still to be read, the contents after the slice hold
    the arguments and the stages still to be read after it. -/
theorem slice1 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
     :
    after (sl1 (F := F)) V (Proc.devRef .tc main_arg0) = X0
    ∧ after (sl1 (F := F)) V (Proc.devRef .tc main_arg1) = X1
    ∧ after (sl1 (F := F)) V (Proc.devRef .tc main_arg2) = X2
    ∧ after (sl1 (F := F)) V (Proc.devRef .tc main_arg3) = X3
    ∧ after (sl1 (F := F)) V (Proc.devRef .tc main_arg4) = X4
    ∧ after (sl1 (F := F)) V (Proc.devRef .tc main_arg5) = X5
    ∧ after (sl1 (F := F)) V (Proc.devRef .tc main_arg6) = X6
    ∧ after (sl1 (F := F)) V (Proc.devRef .tc main_arg7) = X7
    ∧ after (sl1 (F := F)) V (Proc.devRef .tc main_arg8) = X8
    ∧ after (sl1 (F := F)) V (Proc.devRef .tc main_arg9) = X9
    ∧ after (sl1 (F := F)) V (Proc.devRef .tc main_arg10) = X10
    ∧ after (sl1 (F := F)) V (Proc.devRef .tc main_arg11) = X11
    ∧ after (sl1 (F := F)) V (Proc.devRef .tc main_arg12) = X12
    ∧ after (sl1 (F := F)) V (Proc.devRef .tc main_arg13) = X13
    ∧ after (sl1 (F := F)) V (Proc.devRef .tc main_arg14) = X14
    ∧ after (sl1 (F := F)) V (Proc.devRef .tc main_arg15) = X15
    ∧ after (sl1 (F := F)) V (Proc.devRef .tc main_arg16) = X16
    ∧ after (sl1 (F := F)) V (Proc.devRef .tc main_arg17) = X17
    ∧ after (sl1 (F := F)) V (Proc.devRef .tc main_v9) = val_main_v9 (F := F) X0 X2 X3 := by
  subst a0 a1 a2 a3 a4 a5 a6 a7 a8 a9 a10 a11 a12 a13 a14 a15 a16 a17
  unfold sl1
  refine ⟨?_, ?_, ?_, ?_, ?_, ?_, ?_, ?_, ?_, ?_, ?_, ?_, ?_, ?_, ?_, ?_, ?_, ?_, ?_⟩ <;> after_results_simp <;> (try rfl)

set_option maxRecDepth 8192 in
set_option maxHeartbeats 4000000 in
/-- Slice 2: from contents holding the arguments and the stages still to be read, the contents after the slice hold
    the arguments and the stages still to be read after it. -/
theorem slice2 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v9 : V (Proc.devRef .tc main_v9) = val_main_v9 (F := F) X0 X2 X3) :
    after (sl2 (F := F)) V (Proc.devRef .tc main_arg0) = X0
    ∧ after (sl2 (F := F)) V (Proc.devRef .tc main_arg1) = X1
    ∧ after (sl2 (F := F)) V (Proc.devRef .tc main_arg2) = X2
    ∧ after (sl2 (F := F)) V (Proc.devRef .tc main_arg3) = X3
    ∧ after (sl2 (F := F)) V (Proc.devRef .tc main_arg4) = X4
    ∧ after (sl2 (F := F)) V (Proc.devRef .tc main_arg5) = X5
    ∧ after (sl2 (F := F)) V (Proc.devRef .tc main_arg6) = X6
    ∧ after (sl2 (F := F)) V (Proc.devRef .tc main_arg7) = X7
    ∧ after (sl2 (F := F)) V (Proc.devRef .tc main_arg8) = X8
    ∧ after (sl2 (F := F)) V (Proc.devRef .tc main_arg9) = X9
    ∧ after (sl2 (F := F)) V (Proc.devRef .tc main_arg10) = X10
    ∧ after (sl2 (F := F)) V (Proc.devRef .tc main_arg11) = X11
    ∧ after (sl2 (F := F)) V (Proc.devRef .tc main_arg12) = X12
    ∧ after (sl2 (F := F)) V (Proc.devRef .tc main_arg13) = X13
    ∧ after (sl2 (F := F)) V (Proc.devRef .tc main_arg14) = X14
    ∧ after (sl2 (F := F)) V (Proc.devRef .tc main_arg15) = X15
    ∧ after (sl2 (F := F)) V (Proc.devRef .tc main_arg16) = X16
    ∧ after (sl2 (F := F)) V (Proc.devRef .tc main_arg17) = X17
    ∧ after (sl2 (F := F)) V (Proc.devRef .tc main_v9) = val_main_v9 (F := F) X0 X2 X3
    ∧ after (sl2 (F := F)) V (Proc.devRef .tc main_v19) = val_main_v19 (F := F) X0 X4 X5 := by
  subst a0 a1 a2 a3 a4 a5 a6 a7 a8 a9 a10 a11 a12 a13 a14 a15 a16 a17
  unfold sl2
  refine ⟨?_, ?_, ?_, ?_, ?_, ?_, ?_, ?_, ?_, ?_, ?_, ?_, ?_, ?_, ?_, ?_, ?_, ?_, ?_, ?_⟩ <;> after_results_simp <;> (try rw [h_v9]) <;> (try rfl)

set_option maxRecDepth 8192 in
set_option maxHeartbeats 4000000 in
/-- Slice 3: from contents holding the arguments and the stages still to be read, the contents after the slice hold
    the arguments and the stages still to be read after it. -/
theorem slice3 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v9 : V (Proc.devRef .tc main_v9) = val_main_v9 (F := F) X0 X2 X3)
    (h_v19 : V (Proc.devRef .tc main_v19) = val_main_v19 (F := F) X0 X4 X5) :
    after (sl3 (F := F)) V (Proc.devRef .tc main_arg0) = X0
    ∧ after (sl3 (F := F)) V (Proc.devRef .tc main_arg1) = X1
    ∧ after (sl3 (F := F)) V (Proc.devRef .tc main_arg2) = X2
    ∧ after (sl3 (F := F)) V (Proc.devRef .tc main_arg3) = X3
    ∧ after (sl3 (F := F)) V (Proc.devRef .tc main_arg4) = X4
    ∧ after (sl3 (F := F)) V (Proc.devRef .tc main_arg5) = X5
    ∧ after (sl3 (F := F)) V (Proc.devRef .tc main_arg6) = X6
    ∧ after (sl3 (F := F)) V (Proc.devRef .tc main_arg7) = X7
    ∧ after (sl3 (F := F)) V (Proc.devRef .tc main_arg8) = X8
    ∧ after (sl3 (F := F)) V (Proc.devRef .tc main_arg9) = X9
    ∧ after (sl3 (F := F)) V (Proc.devRef .tc main_arg10) = X10
    ∧ after (sl3 (F := F)) V (Proc.devRef .tc main_arg11) = X11
    ∧ after (sl3 (F := F)) V (Proc.devRef .tc main_arg12) = X12
    ∧ after (sl3 (F := F)) V (Proc.devRef .tc main_arg13) = X13
    ∧ after (sl3 (F := F)) V (Proc.devRef .tc main_arg14) = X14
    ∧ after (sl3 (F := F)) V (Proc.devRef .tc main_arg15) = X15
    ∧ after (sl3 (F := F)) V (Proc.devRef .tc main_arg16) = X16
    ∧ after (sl3 (F := F)) V (Proc.devRef .tc main_arg17) = X17
    ∧ after (sl3 (F := F)) V (Proc.devRef .tc main_v9) = val_main_v9 (F := F) X0 X2 X3
    ∧ after (sl3 (F := F)) V (Proc.devRef .tc main_v19) = val_main_v19 (F := F) X0 X4 X5
    ∧ after (sl3 (F := F)) V (Proc.devRef .tc main_v29) = val_main_v29 (F := F) X0 X6 X7 := by
  subst a0 a1 a2 a3 a4 a5 a6 a7 a8 a9 a10 a11 a12 a13 a14 a15 a16 a17
  unfold sl3
  refine ⟨?_, ?_, ?_, ?_, ?_, ?_, ?_, ?_, ?_, ?_, ?_, ?_, ?_, ?_, ?_, ?_, ?_, ?_, ?_, ?_, ?_⟩ <;> after_results_simp <;> (try rw [h_v9]) <;> (try rw [h_v19]) <;> (try rfl)

set_option maxRecDepth 8192 in
set_option maxHeartbeats 4000000 in
/-- Slice 4: from contents holding the arguments and the stages still to be read, the contents after the slice hold
    the arguments and the stages still to be read after it. -/
theorem slice4 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v9 : V (Proc.devRef .tc main_v9) = val_main_v9 (F := F) X0 X2 X3)
    (h_v19 : V (Proc.devRef .tc main_v19) = val_main_v19 (F := F) X0 X4 X5)
    (h_v29 : V (Proc.devRef .tc main_v29) = val_main_v29 (F := F) X0 X6 X7) :
    after (sl4 (F := F)) V (Proc.devRef .tc main_arg0) = X0
    ∧ after (sl4 (F := F)) V (Proc.devRef .tc main_arg1) = X1
    ∧ after (sl4 (F := F)) V (Proc.devRef .tc main_arg2) = X2
    ∧ after (sl4 (F := F)) V (Proc.devRef .tc main_arg3) = X3
    ∧ after (sl4 (F := F)) V (Proc.devRef .tc main_arg4) = X4
    ∧ after (sl4 (F := F)) V (Proc.devRef .tc main_arg5) = X5
    ∧ after (sl4 (F := F)) V (Proc.devRef .tc main_arg6) = X6
    ∧ after (sl4 (F := F)) V (Proc.devRef .tc main_arg7) = X7
    ∧ after (sl4 (F := F)) V (Proc.devRef .tc main_arg8) = X8
    ∧ after (sl4 (F := F)) V (Proc.devRef .tc main_arg9) = X9
    ∧ after (sl4 (F := F)) V (Proc.devRef .tc main_arg10) = X10
    ∧ after (sl4 (F := F)) V (Proc.devRef .tc main_arg11) = X11
    ∧ after (sl4 (F := F)) V (Proc.devRef .tc main_arg12) = X12
    ∧ after (sl4 (F := F)) V (Proc.devRef .tc main_arg13) = X13
    ∧ after (sl4 (F := F)) V (Proc.devRef .tc main_arg14) = X14
    ∧ after (sl4 (F := F)) V (Proc.devRef .tc main_arg15) = X15
    ∧ after (sl4 (F := F)) V (Proc.devRef .tc main_arg16) = X16
    ∧ after (sl4 (F := F)) V (Proc.devRef .tc main_arg17) = X17
    ∧ after (sl4 (F := F)) V (Proc.devRef .tc main_v9) = val_main_v9 (F := F) X0 X2 X3
    ∧ after (sl4 (F := F)) V (Proc.devRef .tc main_v19) = val_main_v19 (F := F) X0 X4 X5
    ∧ after (sl4 (F := F)) V (Proc.devRef .tc main_v29) = val_main_v29 (F := F) X0 X6 X7
    ∧ after (sl4 (F := F)) V (Proc.devRef .tc main_v39) = val_main_v39 (F := F) X1 X8 X9 := by
  subst a0 a1 a2 a3 a4 a5 a6 a7 a8 a9 a10 a11 a12 a13 a14 a15 a16 a17
  unfold sl4
  refine ⟨?_, ?_, ?_, ?_, ?_, ?_, ?_, ?_, ?_, ?_, ?_, ?_, ?_, ?_, ?_, ?_, ?_, ?_, ?_, ?_, ?_, ?_⟩ <;> after_results_simp <;> (try rw [h_v9]) <;> (try rw [h_v19]) <;> (try rw [h_v29]) <;> (try rfl)

set_option maxRecDepth 8192 in
set_option maxHeartbeats 4000000 in
/-- Slice 5: from contents holding the arguments and the stages still to be read, the contents after the slice hold
    the arguments and the stages still to be read after it. -/
theorem slice5 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v9 : V (Proc.devRef .tc main_v9) = val_main_v9 (F := F) X0 X2 X3)
    (h_v19 : V (Proc.devRef .tc main_v19) = val_main_v19 (F := F) X0 X4 X5)
    (h_v29 : V (Proc.devRef .tc main_v29) = val_main_v29 (F := F) X0 X6 X7)
    (h_v39 : V (Proc.devRef .tc main_v39) = val_main_v39 (F := F) X1 X8 X9) :
    after (sl5 (F := F)) V (Proc.devRef .tc main_arg0) = X0
    ∧ after (sl5 (F := F)) V (Proc.devRef .tc main_arg1) = X1
    ∧ after (sl5 (F := F)) V (Proc.devRef .tc main_arg2) = X2
    ∧ after (sl5 (F := F)) V (Proc.devRef .tc main_arg3) = X3
    ∧ after (sl5 (F := F)) V (Proc.devRef .tc main_arg4) = X4
    ∧ after (sl5 (F := F)) V (Proc.devRef .tc main_arg5) = X5
    ∧ after (sl5 (F := F)) V (Proc.devRef .tc main_arg6) = X6
    ∧ after (sl5 (F := F)) V (Proc.devRef .tc main_arg7) = X7
    ∧ after (sl5 (F := F)) V (Proc.devRef .tc main_arg8) = X8
    ∧ after (sl5 (F := F)) V (Proc.devRef .tc main_arg9) = X9
    ∧ after (sl5 (F := F)) V (Proc.devRef .tc main_arg10) = X10
    ∧ after (sl5 (F := F)) V (Proc.devRef .tc main_arg11) = X11
    ∧ after (sl5 (F := F)) V (Proc.devRef .tc main_arg12) = X12
    ∧ after (sl5 (F := F)) V (Proc.devRef .tc main_arg13) = X13
    ∧ after (sl5 (F := F)) V (Proc.devRef .tc main_arg14) = X14
    ∧ after (sl5 (F := F)) V (Proc.devRef .tc main_arg15) = X15
    ∧ after (sl5 (F := F)) V (Proc.devRef .tc main_arg16) = X16
    ∧ after (sl5 (F := F)) V (Proc.devRef .tc main_arg17) = X17
    ∧ after (sl5 (F := F)) V (Proc.devRef .tc main_v9) = val_main_v9 (F := F) X0 X2 X3
    ∧ after (sl5 (F := F)) V (Proc.devRef .tc main_v19) = val_main_v19 (F := F) X0 X4 X5
    ∧ after (sl5 (F := F)) V (Proc.devRef .tc main_v29) = val_main_v29 (F := F) X0 X6 X7
    ∧ after (sl5 (F := F)) V (Proc.devRef .tc main_v39) = val_main_v39 (F := F) X1 X8 X9
    ∧ after (sl5 (F := F)) V (Proc.devRef .tc main_v49) = val_main_v49 (F := F) X1 X10 X11 := by
  subst a0 a1 a2 a3 a4 a5 a6 a7 a8 a9 a10 a11 a12 a13 a14 a15 a16 a17
  unfold sl5
  refine ⟨?_, ?_, ?_, ?_, ?_, ?_, ?_, ?_, ?_, ?_, ?_, ?_, ?_, ?_, ?_, ?_, ?_, ?_, ?_, ?_, ?_, ?_, ?_⟩ <;> after_results_simp <;> (try rw [h_v9]) <;> (try rw [h_v19]) <;> (try rw [h_v29]) <;> (try rw [h_v39]) <;> (try rfl)

set_option maxRecDepth 8192 in
set_option maxHeartbeats 4000000 in
/-- Slice 6: from contents holding the arguments and the stages still to be read, the contents after the slice hold
    the arguments and the stages still to be read after it. -/
theorem slice6 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v9 : V (Proc.devRef .tc main_v9) = val_main_v9 (F := F) X0 X2 X3)
    (h_v19 : V (Proc.devRef .tc main_v19) = val_main_v19 (F := F) X0 X4 X5)
    (h_v29 : V (Proc.devRef .tc main_v29) = val_main_v29 (F := F) X0 X6 X7)
    (h_v39 : V (Proc.devRef .tc main_v39) = val_main_v39 (F := F) X1 X8 X9)
    (h_v49 : V (Proc.devRef .tc main_v49) = val_main_v49 (F := F) X1 X10 X11) :
    after (sl6 (F := F)) V (Proc.devRef .tc main_arg0) = X0
    ∧ after (sl6 (F := F)) V (Proc.devRef .tc main_arg1) = X1
    ∧ after (sl6 (F := F)) V (Proc.devRef .tc main_arg2) = X2
    ∧ after (sl6 (F := F)) V (Proc.devRef .tc main_arg3) = X3
    ∧ after (sl6 (F := F)) V (Proc.devRef .tc main_arg4) = X4
    ∧ after (sl6 (F := F)) V (Proc.devRef .tc main_arg5) = X5
    ∧ after (sl6 (F := F)) V (Proc.devRef .tc main_arg6) = X6
    ∧ after (sl6 (F := F)) V (Proc.devRef .tc main_arg7) = X7
    ∧ after (sl6 (F := F)) V (Proc.devRef .tc main_arg8) = X8
    ∧ after (sl6 (F := F)) V (Proc.devRef .tc main_arg9) = X9
    ∧ after (sl6 (F := F)) V (Proc.devRef .tc main_arg10) = X10
    ∧ after (sl6 (F := F)) V (Proc.devRef .tc main_arg11) = X11
    ∧ after (sl6 (F := F)) V (Proc.devRef .tc main_arg12) = X12
    ∧ after (sl6 (F := F)) V (Proc.devRef .tc main_arg13) = X13
    ∧ after (sl6 (F := F)) V (Proc.devRef .tc main_arg14) = X14
    ∧ after (sl6 (F := F)) V (Proc.devRef .tc main_arg15) = X15
    ∧ after (sl6 (F := F)) V (Proc.devRef .tc main_arg16) = X16
    ∧ after (sl6 (F := F)) V (Proc.devRef .tc main_arg17) = X17
    ∧ after (sl6 (F := F)) V (Proc.devRef .tc main_v9) = val_main_v9 (F := F) X0 X2 X3
    ∧ after (sl6 (F := F)) V (Proc.devRef .tc main_v19) = val_main_v19 (F := F) X0 X4 X5
    ∧ after (sl6 (F := F)) V (Proc.devRef .tc main_v29) = val_main_v29 (F := F) X0 X6 X7
    ∧ after (sl6 (F := F)) V (Proc.devRef .tc main_v39) = val_main_v39 (F := F) X1 X8 X9
    ∧ after (sl6 (F := F)) V (Proc.devRef .tc main_v49) = val_main_v49 (F := F) X1 X10 X11
    ∧ after (sl6 (F := F)) V (Proc.devRef .tc main_v59) = val_main_v59 (F := F) X1 X12 X13 := by
  subst a0 a1 a2 a3 a4 a5 a6 a7 a8 a9 a10 a11 a12 a13 a14 a15 a16 a17
  unfold sl6
  refine ⟨?_, ?_, ?_, ?_, ?_, ?_, ?_, ?_, ?_, ?_, ?_, ?_, ?_, ?_, ?_, ?_, ?_, ?_, ?_, ?_, ?_, ?_, ?_, ?_⟩ <;> after_results_simp <;> (try rw [h_v9]) <;> (try rw [h_v19]) <;> (try rw [h_v29]) <;> (try rw [h_v39]) <;> (try rw [h_v49]) <;> (try rfl)

set_option maxRecDepth 8192 in
set_option maxHeartbeats 4000000 in
/-- Slice 7: from contents holding the arguments and the stages still to be read, the contents after the slice hold
    the arguments and the stages still to be read after it. -/
theorem slice7 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v9 : V (Proc.devRef .tc main_v9) = val_main_v9 (F := F) X0 X2 X3)
    (h_v19 : V (Proc.devRef .tc main_v19) = val_main_v19 (F := F) X0 X4 X5)
    (h_v29 : V (Proc.devRef .tc main_v29) = val_main_v29 (F := F) X0 X6 X7)
    (h_v39 : V (Proc.devRef .tc main_v39) = val_main_v39 (F := F) X1 X8 X9)
    (h_v49 : V (Proc.devRef .tc main_v49) = val_main_v49 (F := F) X1 X10 X11)
    (h_v59 : V (Proc.devRef .tc main_v59) = val_main_v59 (F := F) X1 X12 X13) :
    after (sl7 (F := F)) V (Proc.devRef .tc main_arg0) = X0
    ∧ after (sl7 (F := F)) V (Proc.devRef .tc main_arg1) = X1
    ∧ after (sl7 (F := F)) V (Proc.devRef .tc main_arg2) = X2
    ∧ after (sl7 (F := F)) V (Proc.devRef .tc main_arg3) = X3
    ∧ after (sl7 (F := F)) V (Proc.devRef .tc main_arg4) = X4
    ∧ after (sl7 (F := F)) V (Proc.devRef .tc main_arg5) = X5
    ∧ after (sl7 (F := F)) V (Proc.devRef .tc main_arg6) = X6
    ∧ after (sl7 (F := F)) V (Proc.devRef .tc main_arg7) = X7
    ∧ after (sl7 (F := F)) V (Proc.devRef .tc main_arg8) = X8
    ∧ after (sl7 (F := F)) V (Proc.devRef .tc main_arg9) = X9
    ∧ after (sl7 (F := F)) V (Proc.devRef .tc main_arg10) = X10
    ∧ after (sl7 (F := F)) V (Proc.devRef .tc main_arg11) = X11
    ∧ after (sl7 (F := F)) V (Proc.devRef .tc main_arg12) = X12
    ∧ after (sl7 (F := F)) V (Proc.devRef .tc main_arg13) = X13
    ∧ after (sl7 (F := F)) V (Proc.devRef .tc main_arg14) = X14
    ∧ after (sl7 (F := F)) V (Proc.devRef .tc main_arg15) = X15
    ∧ after (sl7 (F := F)) V (Proc.devRef .tc main_arg16) = X16
    ∧ after (sl7 (F := F)) V (Proc.devRef .tc main_arg17) = X17
    ∧ after (sl7 (F := F)) V (Proc.devRef .tc main_v29) = val_main_v29 (F := F) X0 X6 X7
    ∧ after (sl7 (F := F)) V (Proc.devRef .tc main_v39) = val_main_v39 (F := F) X1 X8 X9
    ∧ after (sl7 (F := F)) V (Proc.devRef .tc main_v49) = val_main_v49 (F := F) X1 X10 X11
    ∧ after (sl7 (F := F)) V (Proc.devRef .tc main_v59) = val_main_v59 (F := F) X1 X12 X13
    ∧ after (sl7 (F := F)) V (Proc.devRef .tc main_v73) = val_main_v73 (F := F) X0 X2 X3 X4 X5 := by
  subst a0 a1 a2 a3 a4 a5 a6 a7 a8 a9 a10 a11 a12 a13 a14 a15 a16 a17
  unfold sl7
  refine ⟨?_, ?_, ?_, ?_, ?_, ?_, ?_, ?_, ?_, ?_, ?_, ?_, ?_, ?_, ?_, ?_, ?_, ?_, ?_, ?_, ?_, ?_, ?_⟩ <;> after_results_simp <;> (try rw [h_v9]) <;> (try rw [h_v19]) <;> (try rw [h_v29]) <;> (try rw [h_v39]) <;> (try rw [h_v49]) <;> (try rw [h_v59]) <;> (try rfl)

set_option maxRecDepth 8192 in
set_option maxHeartbeats 4000000 in
/-- Slice 8: from contents holding the arguments and the stages still to be read, the contents after the slice hold
    the arguments and the stages still to be read after it. -/
theorem slice8 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v29 : V (Proc.devRef .tc main_v29) = val_main_v29 (F := F) X0 X6 X7)
    (h_v39 : V (Proc.devRef .tc main_v39) = val_main_v39 (F := F) X1 X8 X9)
    (h_v49 : V (Proc.devRef .tc main_v49) = val_main_v49 (F := F) X1 X10 X11)
    (h_v59 : V (Proc.devRef .tc main_v59) = val_main_v59 (F := F) X1 X12 X13)
    (h_v73 : V (Proc.devRef .tc main_v73) = val_main_v73 (F := F) X0 X2 X3 X4 X5) :
    after (sl8 (F := F)) V (Proc.devRef .tc main_arg0) = X0
    ∧ after (sl8 (F := F)) V (Proc.devRef .tc main_arg1) = X1
    ∧ after (sl8 (F := F)) V (Proc.devRef .tc main_arg2) = X2
    ∧ after (sl8 (F := F)) V (Proc.devRef .tc main_arg3) = X3
    ∧ after (sl8 (F := F)) V (Proc.devRef .tc main_arg4) = X4
    ∧ after (sl8 (F := F)) V (Proc.devRef .tc main_arg5) = X5
    ∧ after (sl8 (F := F)) V (Proc.devRef .tc main_arg6) = X6
    ∧ after (sl8 (F := F)) V (Proc.devRef .tc main_arg7) = X7
    ∧ after (sl8 (F := F)) V (Proc.devRef .tc main_arg8) = X8
    ∧ after (sl8 (F := F)) V (Proc.devRef .tc main_arg9) = X9
    ∧ after (sl8 (F := F)) V (Proc.devRef .tc main_arg10) = X10
    ∧ after (sl8 (F := F)) V (Proc.devRef .tc main_arg11) = X11
    ∧ after (sl8 (F := F)) V (Proc.devRef .tc main_arg12) = X12
    ∧ after (sl8 (F := F)) V (Proc.devRef .tc main_arg13) = X13
    ∧ after (sl8 (F := F)) V (Proc.devRef .tc main_arg14) = X14
    ∧ after (sl8 (F := F)) V (Proc.devRef .tc main_arg15) = X15
    ∧ after (sl8 (F := F)) V (Proc.devRef .tc main_arg16) = X16
    ∧ after (sl8 (F := F)) V (Proc.devRef .tc main_arg17) = X17
    ∧ after (sl8 (F := F)) V (Proc.devRef .tc main_v29) = val_main_v29 (F := F) X0 X6 X7
    ∧ after (sl8 (F := F)) V (Proc.devRef .tc main_v59) = val_main_v59 (F := F) X1 X12 X13
    ∧ after (sl8 (F := F)) V (Proc.devRef .tc main_v73) = val_main_v73 (F := F) X0 X2 X3 X4 X5
    ∧ after (sl8 (F := F)) V (Proc.devRef .tc main_v87) = val_main_v87 (F := F) X1 X8 X9 X10 X11 := by
  subst a0 a1 a2 a3 a4 a5 a6 a7 a8 a9 a10 a11 a12 a13 a14 a15 a16 a17
  unfold sl8
  refine ⟨?_, ?_, ?_, ?_, ?_, ?_, ?_, ?_, ?_, ?_, ?_, ?_, ?_, ?_, ?_, ?_, ?_, ?_, ?_, ?_, ?_, ?_⟩ <;> after_results_simp <;> (try rw [h_v29]) <;> (try rw [h_v39]) <;> (try rw [h_v49]) <;> (try rw [h_v59]) <;> (try rw [h_v73]) <;> (try rfl)

set_option maxRecDepth 8192 in
set_option maxHeartbeats 4000000 in
/-- Slice 9: from contents holding the arguments and the stages still to be read, the contents after the slice hold
    the arguments and the stages still to be read after it. -/
theorem slice9 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v29 : V (Proc.devRef .tc main_v29) = val_main_v29 (F := F) X0 X6 X7)
    (h_v59 : V (Proc.devRef .tc main_v59) = val_main_v59 (F := F) X1 X12 X13)
    (h_v73 : V (Proc.devRef .tc main_v73) = val_main_v73 (F := F) X0 X2 X3 X4 X5)
    (h_v87 : V (Proc.devRef .tc main_v87) = val_main_v87 (F := F) X1 X8 X9 X10 X11) :
    after (sl9 (F := F)) V (Proc.devRef .tc main_arg0) = X0
    ∧ after (sl9 (F := F)) V (Proc.devRef .tc main_arg1) = X1
    ∧ after (sl9 (F := F)) V (Proc.devRef .tc main_arg2) = X2
    ∧ after (sl9 (F := F)) V (Proc.devRef .tc main_arg3) = X3
    ∧ after (sl9 (F := F)) V (Proc.devRef .tc main_arg4) = X4
    ∧ after (sl9 (F := F)) V (Proc.devRef .tc main_arg5) = X5
    ∧ after (sl9 (F := F)) V (Proc.devRef .tc main_arg6) = X6
    ∧ after (sl9 (F := F)) V (Proc.devRef .tc main_arg7) = X7
    ∧ after (sl9 (F := F)) V (Proc.devRef .tc main_arg8) = X8
    ∧ after (sl9 (F := F)) V (Proc.devRef .tc main_arg9) = X9
    ∧ after (sl9 (F := F)) V (Proc.devRef .tc main_arg10) = X10
    ∧ after (sl9 (F := F)) V (Proc.devRef .tc main_arg11) = X11
    ∧ after (sl9 (F := F)) V (Proc.devRef .tc main_arg12) = X12
    ∧ after (sl9 (F := F)) V (Proc.devRef .tc main_arg13) = X13
    ∧ after (sl9 (F := F)) V (Proc.devRef .tc main_arg14) = X14
    ∧ after (sl9 (F := F)) V (Proc.devRef .tc main_arg15) = X15
    ∧ after (sl9 (F := F)) V (Proc.devRef .tc main_arg16) = X16
    ∧ after (sl9 (F := F)) V (Proc.devRef .tc main_arg17) = X17
    ∧ after (sl9 (F := F)) V (Proc.devRef .tc main_v73) = val_main_v73 (F := F) X0 X2 X3 X4 X5
    ∧ after (sl9 (F := F)) V (Proc.devRef .tc main_v87) = val_main_v87 (F := F) X1 X8 X9 X10 X11
    ∧ after (sl9 (F := F)) V (Proc.devRef .tc main_v101) = val_main_v101 (F := F) X0 X1 X6 X7 X12 X13 := by
  subst a0 a1 a2 a3 a4 a5 a6 a7 a8 a9 a10 a11 a12 a13 a14 a15 a16 a17
  unfold sl9
  refine ⟨?_, ?_, ?_, ?_, ?_, ?_, ?_, ?_, ?_, ?_, ?_, ?_, ?_, ?_, ?_, ?_, ?_, ?_, ?_, ?_, ?_⟩ <;> after_results_simp <;> (try rw [h_v29]) <;> (try rw [h_v59]) <;> (try rw [h_v73]) <;> (try rw [h_v87]) <;> (try rfl)

set_option maxRecDepth 8192 in
set_option maxHeartbeats 4000000 in
/-- Slice 10: from contents holding the arguments and the stages still to be read, the contents after the slice hold
    the arguments and the stages still to be read after it. -/
theorem slice10 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v73 : V (Proc.devRef .tc main_v73) = val_main_v73 (F := F) X0 X2 X3 X4 X5)
    (h_v87 : V (Proc.devRef .tc main_v87) = val_main_v87 (F := F) X1 X8 X9 X10 X11)
    (h_v101 : V (Proc.devRef .tc main_v101) = val_main_v101 (F := F) X0 X1 X6 X7 X12 X13) :
    after (sl10 (F := F)) V (Proc.devRef .tc main_arg0) = X0
    ∧ after (sl10 (F := F)) V (Proc.devRef .tc main_arg1) = X1
    ∧ after (sl10 (F := F)) V (Proc.devRef .tc main_arg2) = X2
    ∧ after (sl10 (F := F)) V (Proc.devRef .tc main_arg3) = X3
    ∧ after (sl10 (F := F)) V (Proc.devRef .tc main_arg4) = X4
    ∧ after (sl10 (F := F)) V (Proc.devRef .tc main_arg5) = X5
    ∧ after (sl10 (F := F)) V (Proc.devRef .tc main_arg6) = X6
    ∧ after (sl10 (F := F)) V (Proc.devRef .tc main_arg7) = X7
    ∧ after (sl10 (F := F)) V (Proc.devRef .tc main_arg8) = X8
    ∧ after (sl10 (F := F)) V (Proc.devRef .tc main_arg9) = X9
    ∧ after (sl10 (F := F)) V (Proc.devRef .tc main_arg10) = X10
    ∧ after (sl10 (F := F)) V (Proc.devRef .tc main_arg11) = X11
    ∧ after (sl10 (F := F)) V (Proc.devRef .tc main_arg12) = X12
    ∧ after (sl10 (F := F)) V (Proc.devRef .tc main_arg13) = X13
    ∧ after (sl10 (F := F)) V (Proc.devRef .tc main_arg14) = X14
    ∧ after (sl10 (F := F)) V (Proc.devRef .tc main_arg15) = X15
    ∧ after (sl10 (F := F)) V (Proc.devRef .tc main_arg16) = X16
    ∧ after (sl10 (F := F)) V (Proc.devRef .tc main_arg17) = X17
    ∧ after (sl10 (F := F)) V (Proc.devRef .tc main_v101) = val_main_v101 (F := F) X0 X1 X6 X7 X12 X13
    ∧ after (sl10 (F := F)) V (Proc.devRef .tc main_v102) = val_main_v102 (F := F) X0 X2 X3 X4 X5
    ∧ after (sl10 (F := F)) V (Proc.devRef .tc main_v117) = val_main_v117 (F := F) X1 X8 X9 X10 X11 X14 X15 := by
  subst a0 a1 a2 a3 a4 a5 a6 a7 a8 a9 a10 a11 a12 a13 a14 a15 a16 a17
  unfold sl10
  refine ⟨?_, ?_, ?_, ?_, ?_, ?_, ?_, ?_, ?_, ?_, ?_, ?_, ?_, ?_, ?_, ?_, ?_, ?_, ?_, ?_, ?_⟩ <;> after_results_simp <;> (try rw [h_v73]) <;> (try rw [h_v87]) <;> (try rw [h_v101]) <;> (try rfl)

set_option maxRecDepth 8192 in
set_option maxHeartbeats 4000000 in
/-- Slice 11: from contents holding the arguments and the stages still to be read, the contents after the slice hold
    the arguments and the stages still to be read after it. -/
theorem slice11 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v101 : V (Proc.devRef .tc main_v101) = val_main_v101 (F := F) X0 X1 X6 X7 X12 X13)
    (h_v102 : V (Proc.devRef .tc main_v102) = val_main_v102 (F := F) X0 X2 X3 X4 X5)
    (h_v117 : V (Proc.devRef .tc main_v117) = val_main_v117 (F := F) X1 X8 X9 X10 X11 X14 X15) :
    after (sl11 (F := F)) V (Proc.devRef .tc main_arg0) = X0
    ∧ after (sl11 (F := F)) V (Proc.devRef .tc main_arg1) = X1
    ∧ after (sl11 (F := F)) V (Proc.devRef .tc main_arg2) = X2
    ∧ after (sl11 (F := F)) V (Proc.devRef .tc main_arg3) = X3
    ∧ after (sl11 (F := F)) V (Proc.devRef .tc main_arg4) = X4
    ∧ after (sl11 (F := F)) V (Proc.devRef .tc main_arg5) = X5
    ∧ after (sl11 (F := F)) V (Proc.devRef .tc main_arg6) = X6
    ∧ after (sl11 (F := F)) V (Proc.devRef .tc main_arg7) = X7
    ∧ after (sl11 (F := F)) V (Proc.devRef .tc main_arg8) = X8
    ∧ after (sl11 (F := F)) V (Proc.devRef .tc main_arg9) = X9
    ∧ after (sl11 (F := F)) V (Proc.devRef .tc main_arg10) = X10
    ∧ after (sl11 (F := F)) V (Proc.devRef .tc main_arg11) = X11
    ∧ after (sl11 (F := F)) V (Proc.devRef .tc main_arg12) = X12
    ∧ after (sl11 (F := F)) V (Proc.devRef .tc main_arg13) = X13
    ∧ after (sl11 (F := F)) V (Proc.devRef .tc main_arg14) = X14
    ∧ after (sl11 (F := F)) V (Proc.devRef .tc main_arg15) = X15
    ∧ after (sl11 (F := F)) V (Proc.devRef .tc main_arg16) = X16
    ∧ after (sl11 (F := F)) V (Proc.devRef .tc main_arg17) = X17
    ∧ after (sl11 (F := F)) V (Proc.devRef .tc main_v102) = val_main_v102 (F := F) X0 X2 X3 X4 X5
    ∧ after (sl11 (F := F)) V (Proc.devRef .tc main_v121) = val_main_v121 (F := F) X0 X1 X6 X7 X8 X9 X10 X11 X12 X13 X14 X15 := by
  subst a0 a1 a2 a3 a4 a5 a6 a7 a8 a9 a10 a11 a12 a13 a14 a15 a16 a17
  unfold sl11
  refine ⟨?_, ?_, ?_, ?_, ?_, ?_, ?_, ?_, ?_, ?_, ?_, ?_, ?_, ?_, ?_, ?_, ?_, ?_, ?_, ?_⟩ <;> after_results_simp <;> (try rw [h_v101]) <;> (try rw [h_v102]) <;> (try rw [h_v117]) <;> (try rfl)

set_option maxRecDepth 8192 in
set_option maxHeartbeats 4000000 in
/-- Slice 12: from contents holding the arguments and the stages still to be read, the contents after the slice hold
    the arguments and the stages still to be read after it. -/
theorem slice12 (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17)
    (h_v102 : V (Proc.devRef .tc main_v102) = val_main_v102 (F := F) X0 X2 X3 X4 X5)
    (h_v121 : V (Proc.devRef .tc main_v121) = val_main_v121 (F := F) X0 X1 X6 X7 X8 X9 X10 X11 X12 X13 X14 X15) :
    after (sl12 (F := F)) V (Proc.devRef .tc main_arg0) = X0
    ∧ after (sl12 (F := F)) V (Proc.devRef .tc main_arg1) = X1
    ∧ after (sl12 (F := F)) V (Proc.devRef .tc main_arg2) = X2
    ∧ after (sl12 (F := F)) V (Proc.devRef .tc main_arg3) = X3
    ∧ after (sl12 (F := F)) V (Proc.devRef .tc main_arg4) = X4
    ∧ after (sl12 (F := F)) V (Proc.devRef .tc main_arg5) = X5
    ∧ after (sl12 (F := F)) V (Proc.devRef .tc main_arg6) = X6
    ∧ after (sl12 (F := F)) V (Proc.devRef .tc main_arg7) = X7
    ∧ after (sl12 (F := F)) V (Proc.devRef .tc main_arg8) = X8
    ∧ after (sl12 (F := F)) V (Proc.devRef .tc main_arg9) = X9
    ∧ after (sl12 (F := F)) V (Proc.devRef .tc main_arg10) = X10
    ∧ after (sl12 (F := F)) V (Proc.devRef .tc main_arg11) = X11
    ∧ after (sl12 (F := F)) V (Proc.devRef .tc main_arg12) = X12
    ∧ after (sl12 (F := F)) V (Proc.devRef .tc main_arg13) = X13
    ∧ after (sl12 (F := F)) V (Proc.devRef .tc main_arg14) = X14
    ∧ after (sl12 (F := F)) V (Proc.devRef .tc main_arg15) = X15
    ∧ after (sl12 (F := F)) V (Proc.devRef .tc main_arg16) = X16
    ∧ after (sl12 (F := F)) V (Proc.devRef .tc main_arg17) = X17
    ∧ after (sl12 (F := F)) V (Proc.devRef .tc main_v122) = val_main_v122 (F := F) X0 X1 X2 X3 X4 X5 X6 X7 X8 X9 X10 X11 X12 X13 X14 X15
    ∧ after (sl12 (F := F)) V (Proc.devRef .tc main_v126) = val_main_v126 (F := F) X0 X1 X2 X3 X4 X5 X6 X7 X8 X9 X10 X11 X12 X13 X14 X15 X16 X17 := by
  subst a0 a1 a2 a3 a4 a5 a6 a7 a8 a9 a10 a11 a12 a13 a14 a15 a16 a17
  unfold sl12
  refine ⟨?_, ?_, ?_, ?_, ?_, ?_, ?_, ?_, ?_, ?_, ?_, ?_, ?_, ?_, ?_, ?_, ?_, ?_, ?_, ?_⟩ <;> after_results_simp <;> (try rw [h_v102]) <;> (try rw [h_v121]) <;> (try rfl)

/-- Two lists run one after the other: the second's contents, from the first's. -/
theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The list is its slices in order. -/
theorem ops_split : (ops : List (HloOp τ sig (Elt F))) = sl1 ++ sl2 ++ sl3 ++ sl4 ++ sl5 ++ sl6 ++ sl7 ++ sl8 ++ sl9 ++ sl10 ++ sl11 ++ sl12 := rfl

set_option maxRecDepth 8192 in
/-- The whole list, from contents holding the arguments: the two results are the last two stages of the arguments, and the
    arguments are as they were. -/
theorem fwd (V : Valuation τ sig (Elt F)) (X0 : (⟨S16x1024x768, .f32⟩ : BufTy).Contents (Elt F)) (X1 : (⟨S16x384x768, .f32⟩ : BufTy).Contents (Elt F)) (X2 : (⟨S256x768, .f32⟩ : BufTy).Contents (Elt F)) (X3 : (⟨S256, .f32⟩ : BufTy).Contents (Elt F)) (X4 : (⟨S256x768, .f32⟩ : BufTy).Contents (Elt F)) (X5 : (⟨S256, .f32⟩ : BufTy).Contents (Elt F)) (X6 : (⟨S256x768, .f32⟩ : BufTy).Contents (Elt F)) (X7 : (⟨S256, .f32⟩ : BufTy).Contents (Elt F)) (X8 : (⟨S256x768, .f32⟩ : BufTy).Contents (Elt F)) (X9 : (⟨S256, .f32⟩ : BufTy).Contents (Elt F)) (X10 : (⟨S256x768, .f32⟩ : BufTy).Contents (Elt F)) (X11 : (⟨S256, .f32⟩ : BufTy).Contents (Elt F)) (X12 : (⟨S256x768, .f32⟩ : BufTy).Contents (Elt F)) (X13 : (⟨S256, .f32⟩ : BufTy).Contents (Elt F)) (X14 : (⟨S1x384, .f32⟩ : BufTy).Contents (Elt F)) (X15 : (⟨S1, .f32⟩ : BufTy).Contents (Elt F)) (X16 : (⟨S768x1536, .f32⟩ : BufTy).Contents (Elt F)) (X17 : (⟨S768, .f32⟩ : BufTy).Contents (Elt F))
    (a0 : V (Proc.devRef .tc main_arg0) = X0) (a1 : V (Proc.devRef .tc main_arg1) = X1) (a2 : V (Proc.devRef .tc main_arg2) = X2) (a3 : V (Proc.devRef .tc main_arg3) = X3) (a4 : V (Proc.devRef .tc main_arg4) = X4) (a5 : V (Proc.devRef .tc main_arg5) = X5) (a6 : V (Proc.devRef .tc main_arg6) = X6) (a7 : V (Proc.devRef .tc main_arg7) = X7) (a8 : V (Proc.devRef .tc main_arg8) = X8) (a9 : V (Proc.devRef .tc main_arg9) = X9) (a10 : V (Proc.devRef .tc main_arg10) = X10) (a11 : V (Proc.devRef .tc main_arg11) = X11) (a12 : V (Proc.devRef .tc main_arg12) = X12) (a13 : V (Proc.devRef .tc main_arg13) = X13) (a14 : V (Proc.devRef .tc main_arg14) = X14) (a15 : V (Proc.devRef .tc main_arg15) = X15) (a16 : V (Proc.devRef .tc main_arg16) = X16) (a17 : V (Proc.devRef .tc main_arg17) = X17) :
    after (ops (F := F)) V (Proc.devRef .tc main_v122) = val_main_v122 (F := F) X0 X1 X2 X3 X4 X5 X6 X7 X8 X9 X10 X11 X12 X13 X14 X15
    ∧ after (ops (F := F)) V (Proc.devRef .tc main_v126) = val_main_v126 (F := F) X0 X1 X2 X3 X4 X5 X6 X7 X8 X9 X10 X11 X12 X13 X14 X15 X16 X17
    ∧ after (ops (F := F)) V (Proc.devRef .tc main_arg0) = X0
    ∧ after (ops (F := F)) V (Proc.devRef .tc main_arg1) = X1
    ∧ after (ops (F := F)) V (Proc.devRef .tc main_arg2) = X2
    ∧ after (ops (F := F)) V (Proc.devRef .tc main_arg3) = X3
    ∧ after (ops (F := F)) V (Proc.devRef .tc main_arg4) = X4
    ∧ after (ops (F := F)) V (Proc.devRef .tc main_arg5) = X5
    ∧ after (ops (F := F)) V (Proc.devRef .tc main_arg6) = X6
    ∧ after (ops (F := F)) V (Proc.devRef .tc main_arg7) = X7
    ∧ after (ops (F := F)) V (Proc.devRef .tc main_arg8) = X8
    ∧ after (ops (F := F)) V (Proc.devRef .tc main_arg9) = X9
    ∧ after (ops (F := F)) V (Proc.devRef .tc main_arg10) = X10
    ∧ after (ops (F := F)) V (Proc.devRef .tc main_arg11) = X11
    ∧ after (ops (F := F)) V (Proc.devRef .tc main_arg12) = X12
    ∧ after (ops (F := F)) V (Proc.devRef .tc main_arg13) = X13
    ∧ after (ops (F := F)) V (Proc.devRef .tc main_arg14) = X14
    ∧ after (ops (F := F)) V (Proc.devRef .tc main_arg15) = X15
    ∧ after (ops (F := F)) V (Proc.devRef .tc main_arg16) = X16
    ∧ after (ops (F := F)) V (Proc.devRef .tc main_arg17) = X17 := by
  rw [ops_split]
  simp only [after_app]
  obtain ⟨a0, a1, a2, a3, a4, a5, a6, a7, a8, a9, a10, a11, a12, a13, a14, a15, a16, a17, h_v9⟩ := slice1 V X0 X1 X2 X3 X4 X5 X6 X7 X8 X9 X10 X11 X12 X13 X14 X15 X16 X17 a0 a1 a2 a3 a4 a5 a6 a7 a8 a9 a10 a11 a12 a13 a14 a15 a16 a17
  obtain ⟨a0, a1, a2, a3, a4, a5, a6, a7, a8, a9, a10, a11, a12, a13, a14, a15, a16, a17, h_v9, h_v19⟩ := slice2 _ X0 X1 X2 X3 X4 X5 X6 X7 X8 X9 X10 X11 X12 X13 X14 X15 X16 X17 a0 a1 a2 a3 a4 a5 a6 a7 a8 a9 a10 a11 a12 a13 a14 a15 a16 a17 h_v9
  obtain ⟨a0, a1, a2, a3, a4, a5, a6, a7, a8, a9, a10, a11, a12, a13, a14, a15, a16, a17, h_v9, h_v19, h_v29⟩ := slice3 _ X0 X1 X2 X3 X4 X5 X6 X7 X8 X9 X10 X11 X12 X13 X14 X15 X16 X17 a0 a1 a2 a3 a4 a5 a6 a7 a8 a9 a10 a11 a12 a13 a14 a15 a16 a17 h_v9 h_v19
  obtain ⟨a0, a1, a2, a3, a4, a5, a6, a7, a8, a9, a10, a11, a12, a13, a14, a15, a16, a17, h_v9, h_v19, h_v29, h_v39⟩ := slice4 _ X0 X1 X2 X3 X4 X5 X6 X7 X8 X9 X10 X11 X12 X13 X14 X15 X16 X17 a0 a1 a2 a3 a4 a5 a6 a7 a8 a9 a10 a11 a12 a13 a14 a15 a16 a17 h_v9 h_v19 h_v29
  obtain ⟨a0, a1, a2, a3, a4, a5, a6, a7, a8, a9, a10, a11, a12, a13, a14, a15, a16, a17, h_v9, h_v19, h_v29, h_v39, h_v49⟩ := slice5 _ X0 X1 X2 X3 X4 X5 X6 X7 X8 X9 X10 X11 X12 X13 X14 X15 X16 X17 a0 a1 a2 a3 a4 a5 a6 a7 a8 a9 a10 a11 a12 a13 a14 a15 a16 a17 h_v9 h_v19 h_v29 h_v39
  obtain ⟨a0, a1, a2, a3, a4, a5, a6, a7, a8, a9, a10, a11, a12, a13, a14, a15, a16, a17, h_v9, h_v19, h_v29, h_v39, h_v49, h_v59⟩ := slice6 _ X0 X1 X2 X3 X4 X5 X6 X7 X8 X9 X10 X11 X12 X13 X14 X15 X16 X17 a0 a1 a2 a3 a4 a5 a6 a7 a8 a9 a10 a11 a12 a13 a14 a15 a16 a17 h_v9 h_v19 h_v29 h_v39 h_v49
  obtain ⟨a0, a1, a2, a3, a4, a5, a6, a7, a8, a9, a10, a11, a12, a13, a14, a15, a16, a17, h_v29, h_v39, h_v49, h_v59, h_v73⟩ := slice7 _ X0 X1 X2 X3 X4 X5 X6 X7 X8 X9 X10 X11 X12 X13 X14 X15 X16 X17 a0 a1 a2 a3 a4 a5 a6 a7 a8 a9 a10 a11 a12 a13 a14 a15 a16 a17 h_v9 h_v19 h_v29 h_v39 h_v49 h_v59
  obtain ⟨a0, a1, a2, a3, a4, a5, a6, a7, a8, a9, a10, a11, a12, a13, a14, a15, a16, a17, h_v29, h_v59, h_v73, h_v87⟩ := slice8 _ X0 X1 X2 X3 X4 X5 X6 X7 X8 X9 X10 X11 X12 X13 X14 X15 X16 X17 a0 a1 a2 a3 a4 a5 a6 a7 a8 a9 a10 a11 a12 a13 a14 a15 a16 a17 h_v29 h_v39 h_v49 h_v59 h_v73
  obtain ⟨a0, a1, a2, a3, a4, a5, a6, a7, a8, a9, a10, a11, a12, a13, a14, a15, a16, a17, h_v73, h_v87, h_v101⟩ := slice9 _ X0 X1 X2 X3 X4 X5 X6 X7 X8 X9 X10 X11 X12 X13 X14 X15 X16 X17 a0 a1 a2 a3 a4 a5 a6 a7 a8 a9 a10 a11 a12 a13 a14 a15 a16 a17 h_v29 h_v59 h_v73 h_v87
  obtain ⟨a0, a1, a2, a3, a4, a5, a6, a7, a8, a9, a10, a11, a12, a13, a14, a15, a16, a17, h_v101, h_v102, h_v117⟩ := slice10 _ X0 X1 X2 X3 X4 X5 X6 X7 X8 X9 X10 X11 X12 X13 X14 X15 X16 X17 a0 a1 a2 a3 a4 a5 a6 a7 a8 a9 a10 a11 a12 a13 a14 a15 a16 a17 h_v73 h_v87 h_v101
  obtain ⟨a0, a1, a2, a3, a4, a5, a6, a7, a8, a9, a10, a11, a12, a13, a14, a15, a16, a17, h_v102, h_v121⟩ := slice11 _ X0 X1 X2 X3 X4 X5 X6 X7 X8 X9 X10 X11 X12 X13 X14 X15 X16 X17 a0 a1 a2 a3 a4 a5 a6 a7 a8 a9 a10 a11 a12 a13 a14 a15 a16 a17 h_v101 h_v102 h_v117
  obtain ⟨a0, a1, a2, a3, a4, a5, a6, a7, a8, a9, a10, a11, a12, a13, a14, a15, a16, a17, h_v122, h_v126⟩ := slice12 _ X0 X1 X2 X3 X4 X5 X6 X7 X8 X9 X10 X11 X12 X13 X14 X15 X16 X17 a0 a1 a2 a3 a4 a5 a6 a7 a8 a9 a10 a11 a12 a13 a14 a15 a16 a17 h_v102 h_v121
  exact ⟨h_v122, h_v126, a0, a1, a2, a3, a4, a5, a6, a7, a8, a9, a10, a11, a12, a13, a14, a15, a16, a17⟩

/-- On every device, for any float values, from any memory with zero counters: every weakly fair execution of @main
    terminates with each result at its stage of the arguments' launch contents and the arguments unchanged. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122) = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v126) = val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      obtain ⟨h122, h126, a0, a1, a2, a3, a4, a5, a6, a7, a8, a9, a10, a11, a12, a13, a14, a15, a16, a17⟩ := fwd (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
        rfl rfl rfl rfl rfl rfl rfl rfl rfl rfl rfl rfl rfl rfl rfl rfl rfl rfl
      exact ⟨(h c main_v122).trans h122, (h c main_v126).trans h126, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13, (h c main_arg14).trans a14, (h c main_arg15).trans a15, (h c main_arg16).trans a16, (h c main_arg17).trans a17⟩)
    (run_seq scopedRefs_eq scopedSems_eq defs main (fun _ => ops) main_eq (fun _ => ops_sub) m ρ)

end Cert.ReferenceIdeal.ValueF

end
-- ==== Proof.RefProj.lean ====
/-
  The reference's six centred projections, read in coordinates: each is the affine map y[n,r] = (Σ_d x[n,d]·W[r,d]) + b[r]
  with the mean of column r (the column's sum from zero, divided by the number of rows) taken off.
-/
import proofs.«178307_j44994077393156_1_alg».proof.Proof.RefRead
import proofs.«178307_j44994077393156_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

variable (X0 : (⟨S16x1024x768, .f32⟩ : BufTy).Contents (Elt Ideal))
  (X1 : (⟨S16x384x768, .f32⟩ : BufTy).Contents (Elt Ideal))
  (X2 : (⟨S256x768, .f32⟩ : BufTy).Contents (Elt Ideal))
  (X3 : (⟨S256, .f32⟩ : BufTy).Contents (Elt Ideal))
  (X4 : (⟨S256x768, .f32⟩ : BufTy).Contents (Elt Ideal))
  (X5 : (⟨S256, .f32⟩ : BufTy).Contents (Elt Ideal))
  (X6 : (⟨S256x768, .f32⟩ : BufTy).Contents (Elt Ideal))
  (X7 : (⟨S256, .f32⟩ : BufTy).Contents (Elt Ideal))
  (X8 : (⟨S256x768, .f32⟩ : BufTy).Contents (Elt Ideal))
  (X9 : (⟨S256, .f32⟩ : BufTy).Contents (Elt Ideal))
  (X10 : (⟨S256x768, .f32⟩ : BufTy).Contents (Elt Ideal))
  (X11 : (⟨S256, .f32⟩ : BufTy).Contents (Elt Ideal))
  (X12 : (⟨S256x768, .f32⟩ : BufTy).Contents (Elt Ideal))
  (X13 : (⟨S256, .f32⟩ : BufTy).Contents (Elt Ideal))
  (X14 : (⟨S1x384, .f32⟩ : BufTy).Contents (Elt Ideal))
  (X15 : (⟨S1, .f32⟩ : BufTy).Contents (Elt Ideal))
  (X16 : (⟨S768x1536, .f32⟩ : BufTy).Contents (Elt Ideal))
  (X17 : (⟨S768, .f32⟩ : BufTy).Contents (Elt Ideal))

/-- The affine map before the centring: stage v3 read in coordinates. -/
theorem v3_eq (b : Fin 16) (n : Fin 1024) (r : Fin 256) :
    val_main_v3 (F := Ideal) X0 X2 X3 (ix3 b n r)
      = Cert.Spec.lin (fun n d => X0 (ix3 b n d)) (fun r d => X2 (ix2 r d)) (fun r => X3 (ix1 r)) n r := by
  rw [val_main_v3_apply, val_main_v0_apply, val_main_v2_apply, val_main_v1_apply]
  have e1 : ∀ k : Fin 768, lidx_main_v0 (ix3 b n r) k = ix3 b n k := fun k => funext fun a => Fin.ext (by match a with | ⟨0, _⟩ => rfl | ⟨1, _⟩ => rfl | ⟨2, _⟩ => rfl)
  have e2 : ∀ k : Fin 768, ridx_main_v0 (ix3 b n r) k = ix2 r k := fun k => funext fun a => Fin.ext (by match a with | ⟨0, _⟩ => rfl | ⟨1, _⟩ => rfl)
  have e3 : idx_main_v1 (idx_main_v2 (ix3 b n r)) = ix1 r := funext fun a => Fin.ext (by match a with | ⟨0, _⟩ => rfl)
  simp only [e1, e2, e3, Cert.Spec.lin, Ideal.addf_def]

theorem v9_eq (b : Fin 16) (n : Fin 1024) (r : Fin 256) :
    val_main_v9 (F := Ideal) X0 X2 X3 (ix3 b n r)
      = Cert.Spec.proj Cert.Spec.c1024 (fun n d => X0 (ix3 b n d)) (fun r d => X2 (ix2 r d)) (fun r => X3 (ix1 r)) n r := by
  rw [val_main_v9_apply, val_main_v8_apply, val_main_v7_apply, val_main_v5_apply, val_main_v4_apply,
    val_main_v6_apply, val_main_cst_0_apply, val_main_cst_apply]
  have e4 : ∀ k : Fin 1024, idx_main_v4 (idx_main_v5 (idx_main_v8 (ix3 b n r))) k = ix3 b k r := fun k => funext fun a => Fin.ext (by match a with | ⟨0, _⟩ => rfl | ⟨1, _⟩ => rfl | ⟨2, _⟩ => rfl)
  simp only [e4, v3_eq, Cert.Spec.proj, Cert.Spec.centre, Ideal.subf_def, Ideal.hostDivf_def, Ideal.ofBits_def,
    Ideal.ofBits_zero_f32, zero_add]

/-- The affine map before the centring: stage v13 read in coordinates. -/
theorem v13_eq (b : Fin 16) (n : Fin 1024) (r : Fin 256) :
    val_main_v13 (F := Ideal) X0 X4 X5 (ix3 b n r)
      = Cert.Spec.lin (fun n d => X0 (ix3 b n d)) (fun r d => X4 (ix2 r d)) (fun r => X5 (ix1 r)) n r := by
  rw [val_main_v13_apply, val_main_v10_apply, val_main_v12_apply, val_main_v11_apply]
  have e1 : ∀ k : Fin 768, lidx_main_v10 (ix3 b n r) k = ix3 b n k := fun k => funext fun a => Fin.ext (by match a with | ⟨0, _⟩ => rfl | ⟨1, _⟩ => rfl | ⟨2, _⟩ => rfl)
  have e2 : ∀ k : Fin 768, ridx_main_v10 (ix3 b n r) k = ix2 r k := fun k => funext fun a => Fin.ext (by match a with | ⟨0, _⟩ => rfl | ⟨1, _⟩ => rfl)
  have e3 : idx_main_v11 (idx_main_v12 (ix3 b n r)) = ix1 r := funext fun a => Fin.ext (by match a with | ⟨0, _⟩ => rfl)
  simp only [e1, e2, e3, Cert.Spec.lin, Ideal.addf_def]

theorem v19_eq (b : Fin 16) (n : Fin 1024) (r : Fin 256) :
    val_main_v19 (F := Ideal) X0 X4 X5 (ix3 b n r)
      = Cert.Spec.proj Cert.Spec.c1024 (fun n d => X0 (ix3 b n d)) (fun r d => X4 (ix2 r d)) (fun r => X5 (ix1 r)) n r := by
  rw [val_main_v19_apply, val_main_v18_apply, val_main_v17_apply, val_main_v15_apply, val_main_v14_apply,
    val_main_v16_apply, val_main_cst_2_apply, val_main_cst_1_apply]
  have e4 : ∀ k : Fin 1024, idx_main_v14 (idx_main_v15 (idx_main_v18 (ix3 b n r))) k = ix3 b k r := fun k => funext fun a => Fin.ext (by match a with | ⟨0, _⟩ => rfl | ⟨1, _⟩ => rfl | ⟨2, _⟩ => rfl)
  simp only [e4, v13_eq, Cert.Spec.proj, Cert.Spec.centre, Ideal.subf_def, Ideal.hostDivf_def, Ideal.ofBits_def,
    Ideal.ofBits_zero_f32, zero_add]

/-- The affine map before the centring: stage v23 read in coordinates. -/
theorem v23_eq (b : Fin 16) (n : Fin 1024) (r : Fin 256) :
    val_main_v23 (F := Ideal) X0 X6 X7 (ix3 b n r)
      = Cert.Spec.lin (fun n d => X0 (ix3 b n d)) (fun r d => X6 (ix2 r d)) (fun r => X7 (ix1 r)) n r := by
  rw [val_main_v23_apply, val_main_v20_apply, val_main_v22_apply, val_main_v21_apply]
  have e1 : ∀ k : Fin 768, lidx_main_v20 (ix3 b n r) k = ix3 b n k := fun k => funext fun a => Fin.ext (by match a with | ⟨0, _⟩ => rfl | ⟨1, _⟩ => rfl | ⟨2, _⟩ => rfl)
  have e2 : ∀ k : Fin 768, ridx_main_v20 (ix3 b n r) k = ix2 r k := fun k => funext fun a => Fin.ext (by match a with | ⟨0, _⟩ => rfl | ⟨1, _⟩ => rfl)
  have e3 : idx_main_v21 (idx_main_v22 (ix3 b n r)) = ix1 r := funext fun a => Fin.ext (by match a with | ⟨0, _⟩ => rfl)
  simp only [e1, e2, e3, Cert.Spec.lin, Ideal.addf_def]

theorem v29_eq (b : Fin 16) (n : Fin 1024) (r : Fin 256) :
    val_main_v29 (F := Ideal) X0 X6 X7 (ix3 b n r)
      = Cert.Spec.proj Cert.Spec.c1024 (fun n d => X0 (ix3 b n d)) (fun r d => X6 (ix2 r d)) (fun r => X7 (ix1 r)) n r := by
  rw [val_main_v29_apply, val_main_v28_apply, val_main_v27_apply, val_main_v25_apply, val_main_v24_apply,
    val_main_v26_apply, val_main_cst_4_apply, val_main_cst_3_apply]
  have e4 : ∀ k : Fin 1024, idx_main_v24 (idx_main_v25 (idx_main_v28 (ix3 b n r))) k = ix3 b k r := fun k => funext fun a => Fin.ext (by match a with | ⟨0, _⟩ => rfl | ⟨1, _⟩ => rfl | ⟨2, _⟩ => rfl)
  simp only [e4, v23_eq, Cert.Spec.proj, Cert.Spec.centre, Ideal.subf_def, Ideal.hostDivf_def, Ideal.ofBits_def,
    Ideal.ofBits_zero_f32, zero_add]

/-- The affine map before the centring: stage v33 read in coordinates. -/
theorem v33_eq (b : Fin 16) (n : Fin 384) (r : Fin 256) :
    val_main_v33 (F := Ideal) X1 X8 X9 (ix3 b n r)
      = Cert.Spec.lin (fun n d => X1 (ix3 b n d)) (fun r d => X8 (ix2 r d)) (fun r => X9 (ix1 r)) n r := by
  rw [val_main_v33_apply, val_main_v30_apply, val_main_v32_apply, val_main_v31_apply]
  have e1 : ∀ k : Fin 768, lidx_main_v30 (ix3 b n r) k = ix3 b n k := fun k => funext fun a => Fin.ext (by match a with | ⟨0, _⟩ => rfl | ⟨1, _⟩ => rfl | ⟨2, _⟩ => rfl)
  have e2 : ∀ k : Fin 768, ridx_main_v30 (ix3 b n r) k = ix2 r k := fun k => funext fun a => Fin.ext (by match a with | ⟨0, _⟩ => rfl | ⟨1, _⟩ => rfl)
  have e3 : idx_main_v31 (idx_main_v32 (ix3 b n r)) = ix1 r := funext fun a => Fin.ext (by match a with | ⟨0, _⟩ => rfl)
  simp only [e1, e2, e3, Cert.Spec.lin, Ideal.addf_def]

theorem v39_eq (b : Fin 16) (n : Fin 384) (r : Fin 256) :
    val_main_v39 (F := Ideal) X1 X8 X9 (ix3 b n r)
      = Cert.Spec.proj Cert.Spec.c384 (fun n d => X1 (ix3 b n d)) (fun r d => X8 (ix2 r d)) (fun r => X9 (ix1 r)) n r := by
  rw [val_main_v39_apply, val_main_v38_apply, val_main_v37_apply, val_main_v35_apply, val_main_v34_apply,
    val_main_v36_apply, val_main_cst_6_apply, val_main_cst_5_apply]
  have e4 : ∀ k : Fin 384, idx_main_v34 (idx_main_v35 (idx_main_v38 (ix3 b n r))) k = ix3 b k r := fun k => funext fun a => Fin.ext (by match a with | ⟨0, _⟩ => rfl | ⟨1, _⟩ => rfl | ⟨2, _⟩ => rfl)
  simp only [e4, v33_eq, Cert.Spec.proj, Cert.Spec.centre, Ideal.subf_def, Ideal.hostDivf_def, Ideal.ofBits_def,
    Ideal.ofBits_zero_f32, zero_add]

/-- The affine map before the centring: stage v43 read in coordinates. -/
theorem v43_eq (b : Fin 16) (n : Fin 384) (r : Fin 256) :
    val_main_v43 (F := Ideal) X1 X10 X11 (ix3 b n r)
      = Cert.Spec.lin (fun n d => X1 (ix3 b n d)) (fun r d => X10 (ix2 r d)) (fun r => X11 (ix1 r)) n r := by
  rw [val_main_v43_apply, val_main_v40_apply, val_main_v42_apply, val_main_v41_apply]
  have e1 : ∀ k : Fin 768, lidx_main_v40 (ix3 b n r) k = ix3 b n k := fun k => funext fun a => Fin.ext (by match a with | ⟨0, _⟩ => rfl | ⟨1, _⟩ => rfl | ⟨2, _⟩ => rfl)
  have e2 : ∀ k : Fin 768, ridx_main_v40 (ix3 b n r) k = ix2 r k := fun k => funext fun a => Fin.ext (by match a with | ⟨0, _⟩ => rfl | ⟨1, _⟩ => rfl)
  have e3 : idx_main_v41 (idx_main_v42 (ix3 b n r)) = ix1 r := funext fun a => Fin.ext (by match a with | ⟨0, _⟩ => rfl)
  simp only [e1, e2, e3, Cert.Spec.lin, Ideal.addf_def]

theorem v49_eq (b : Fin 16) (n : Fin 384) (r : Fin 256) :
    val_main_v49 (F := Ideal) X1 X10 X11 (ix3 b n r)
      = Cert.Spec.proj Cert.Spec.c384 (fun n d => X1 (ix3 b n d)) (fun r d => X10 (ix2 r d)) (fun r => X11 (ix1 r)) n r := by
  rw [val_main_v49_apply, val_main_v48_apply, val_main_v47_apply, val_main_v45_apply, val_main_v44_apply,
    val_main_v46_apply, val_main_cst_8_apply, val_main_cst_7_apply]
  have e4 : ∀ k : Fin 384, idx_main_v44 (idx_main_v45 (idx_main_v48 (ix3 b n r))) k = ix3 b k r := fun k => funext fun a => Fin.ext (by match a with | ⟨0, _⟩ => rfl | ⟨1, _⟩ => rfl | ⟨2, _⟩ => rfl)
  simp only [e4, v43_eq, Cert.Spec.proj, Cert.Spec.centre, Ideal.subf_def, Ideal.hostDivf_def, Ideal.ofBits_def,
    Ideal.ofBits_zero_f32, zero_add]

/-- The affine map before the centring: stage v53 read in coordinates. -/
theorem v53_eq (b : Fin 16) (n : Fin 384) (r : Fin 256) :
    val_main_v53 (F := Ideal) X1 X12 X13 (ix3 b n r)
      = Cert.Spec.lin (fun n d => X1 (ix3 b n d)) (fun r d => X12 (ix2 r d)) (fun r => X13 (ix1 r)) n r := by
  rw [val_main_v53_apply, val_main_v50_apply, val_main_v52_apply, val_main_v51_apply]
  have e1 : ∀ k : Fin 768, lidx_main_v50 (ix3 b n r) k = ix3 b n k := fun k => funext fun a => Fin.ext (by match a with | ⟨0, _⟩ => rfl | ⟨1, _⟩ => rfl | ⟨2, _⟩ => rfl)
  have e2 : ∀ k : Fin 768, ridx_main_v50 (ix3 b n r) k = ix2 r k := fun k => funext fun a => Fin.ext (by match a with | ⟨0, _⟩ => rfl | ⟨1, _⟩ => rfl)
  have e3 : idx_main_v51 (idx_main_v52 (ix3 b n r)) = ix1 r := funext fun a => Fin.ext (by match a with | ⟨0, _⟩ => rfl)
  simp only [e1, e2, e3, Cert.Spec.lin, Ideal.addf_def]

theorem v59_eq (b : Fin 16) (n : Fin 384) (r : Fin 256) :
    val_main_v59 (F := Ideal) X1 X12 X13 (ix3 b n r)
      = Cert.Spec.proj Cert.Spec.c384 (fun n d => X1 (ix3 b n d)) (fun r d => X12 (ix2 r d)) (fun r => X13 (ix1 r)) n r := by
  rw [val_main_v59_apply, val_main_v58_apply, val_main_v57_apply, val_main_v55_apply, val_main_v54_apply,
    val_main_v56_apply, val_main_cst_10_apply, val_main_cst_9_apply]
  have e4 : ∀ k : Fin 384, idx_main_v54 (idx_main_v55 (idx_main_v58 (ix3 b n r))) k = ix3 b k r := fun k => funext fun a => Fin.ext (by match a with | ⟨0, _⟩ => rfl | ⟨1, _⟩ => rfl | ⟨2, _⟩ => rfl)
  simp only [e4, v53_eq, Cert.Spec.proj, Cert.Spec.centre, Ideal.subf_def, Ideal.hostDivf_def, Ideal.ofBits_def,
    Ideal.ofBits_zero_f32, zero_add]

end Cert.ReferenceIdeal.RefValue

end
-- ==== Proof.LibHostReduceMax.lean ====
/-
  The host's reduction with a maximum body over one axis, read at an index.
-/
import Idealize.ShloMosaic.PureOps.Ideal
import Idealize.ShloMosaic.PureOps.Ideal.Laws
import Idealize.ShloMosaic.PureOps.Reduce

noncomputable section

namespace Cert.ReferenceIdeal.RefValue

open Idealize.ShloMosaic

/-- The host's reduction with a maximum body over ONE axis, from an initial value that is −∞, read at an index: the
    fold of max from ⊥ over that axis's coordinates (the reduced index with the coordinate inserted). -/
theorem hostReduce_max_single {s t u : Shape} {a : Fin s.rank} (x : s.Idx → EReal) (init : u.Idx → EReal)
    (h' : s.ReducesTo [a] t) (h : s.Reduces [a] t) (hu : 0 < u.numel) (j : t.Idx) (hinit : init (Shape.Idx.first hu) = ⊥) :
    Host.reduce (FloatOps.maximumf (F := Ideal) (φ := .f32)) x init h' hu j
      = (Finset.univ : Finset (Fin (s.size a))).fold max ⊥ (fun k => x (h.lift j k)) := by
  rw [Host.reduce_eq_fold_single (FloatOps.maximumf (F := Ideal) (φ := .f32)) x init h' h hu j, hinit]
  rfl

end Cert.ReferenceIdeal.RefValue

end
-- ==== Proof.RefAttn.lean ====
/-
  The reference's three attention weights and the first mixture, read in coordinates: the scores are the contraction of
  the two projections over r times 1/16; a row's maximum is the fold of max from −∞; the weights are
  exp(s − max) divided by the row's sum of exp(s − max); the mixture is Σ_m a[n,m]·x[m,d].
-/
import proofs.«178307_j44994077393156_1_alg».proof.Proof.RefRead
import proofs.«178307_j44994077393156_1_alg».proof.Proof.Spec
import proofs.«178307_j44994077393156_1_alg».proof.Proof.LibHostReduceMax

noncomputable section

namespace Cert.ReferenceIdeal.RefValue

open Cert.ReferenceIdeal Cert.ReferenceIdeal.Gen Cert.ReferenceIdeal.ReadP Idealize.ShloMosaic Idealize.ShloMosaic.ValueIdx

variable (X0 : (⟨S16x1024x768, .f32⟩ : BufTy).Contents (Elt Ideal))
  (X1 : (⟨S16x384x768, .f32⟩ : BufTy).Contents (Elt Ideal))
  (X2 : (⟨S256x768, .f32⟩ : BufTy).Contents (Elt Ideal))
  (X3 : (⟨S256, .f32⟩ : BufTy).Contents (Elt Ideal))
  (X4 : (⟨S256x768, .f32⟩ : BufTy).Contents (Elt Ideal))
  (X5 : (⟨S256, .f32⟩ : BufTy).Contents (Elt Ideal))
  (X6 : (⟨S256x768, .f32⟩ : BufTy).Contents (Elt Ideal))
  (X7 : (⟨S256, .f32⟩ : BufTy).Contents (Elt Ideal))
  (X8 : (⟨S256x768, .f32⟩ : BufTy).Contents (Elt Ideal))
  (X9 : (⟨S256, .f32⟩ : BufTy).Contents (Elt Ideal))
  (X10 : (⟨S256x768, .f32⟩ : BufTy).Contents (Elt Ideal))
  (X11 : (⟨S256, .f32⟩ : BufTy).Contents (Elt Ideal))
  (X12 : (⟨S256x768, .f32⟩ : BufTy).Contents (Elt Ideal))
  (X13 : (⟨S256, .f32⟩ : BufTy).Contents (Elt Ideal))
  (X14 : (⟨S1x384, .f32⟩ : BufTy).Contents (Elt Ideal))
  (X15 : (⟨S1, .f32⟩ : BufTy).Contents (Elt Ideal))
  (X16 : (⟨S768x1536, .f32⟩ : BufTy).Contents (Elt Ideal))
  (X17 : (⟨S768, .f32⟩ : BufTy).Contents (Elt Ideal))

/-- The scaled scores: stage v62 read in coordinates. -/
theorem v62_eq (b : Fin 16) (n : Fin 1024) (m : Fin 1024) :
    val_main_v62 (F := Ideal) X0 X2 X3 X4 X5 (ix3 b n m)
      = Cert.Spec.scores (fun n r => val_main_v9 (F := Ideal) X0 X2 X3 (ix3 b n r)) (fun m r => val_main_v19 (F := Ideal) X0 X4 X5 (ix3 b m r)) n m := by
  rw [val_main_v62_apply, val_main_v60_apply, val_main_v61_apply, val_main_cst_11_apply]
  have e1 : ∀ k : Fin 256, lidx_main_v60 (ix3 b n m) k = ix3 b n k := fun k => funext fun a => Fin.ext (by match a with | ⟨0, _⟩ => rfl | ⟨1, _⟩ => rfl | ⟨2, _⟩ => rfl)
  have e2 : ∀ k : Fin 256, ridx_main_v60 (ix3 b n m) k = ix3 b m k := fun k => funext fun a => Fin.ext (by match a with | ⟨0, _⟩ => rfl | ⟨1, _⟩ => rfl | ⟨2, _⟩ => rfl)
  simp only [e1, e2, Cert.Spec.scores, Ideal.mulf_def, Ideal.ofBits_def]

/-- The row maximum: the fold of max from −∞ over the last axis; the further maximum with −∞ changes nothing. -/
theorem v65_eq (b : Fin 16) (n : Fin 1024) :
    val_main_v65 (F := Ideal) X0 X2 X3 X4 X5 (ix2 b n)
      = Cert.Spec.rowMax (fun m : Fin 1024 => val_main_v62 (F := Ideal) X0 X2 X3 X4 X5 (ix3 b n m)) := by
  have h : S16x1024x1024.Reduces [2] S16x1024 := by decide
  rw [val_main_v65_apply, val_main_v64_apply, val_main_cst_13_apply]
  unfold val_main_v63
  rw [hostReduce_max_single _ _ reducesTo_S16x1024x1024_S16x1024_d2 h h_S_ _ Cert.Spec.ofBits_neg_inf]
  rw [Ideal.ofBits_def, Cert.Spec.ofBits_neg_inf, Ideal.maximumf_def, max_bot_left]
  unfold Cert.Spec.rowMax
  refine Finset.fold_congr fun m _ => ?_
  exact congrArg _ (funext fun a => Fin.ext (by match a with | ⟨0, _⟩ => rfl | ⟨1, _⟩ => rfl | ⟨2, _⟩ => rfl))

theorem v73_eq (b : Fin 16) (n : Fin 1024) (m : Fin 1024) :
    val_main_v73 (F := Ideal) X0 X2 X3 X4 X5 (ix3 b n m)
      = Cert.Spec.attn (fun n r => val_main_v9 (F := Ideal) X0 X2 X3 (ix3 b n r)) (fun m r => val_main_v19 (F := Ideal) X0 X4 X5 (ix3 b m r)) n m := by
  have h69 : ∀ j : Fin 1024, val_main_v69 (F := Ideal) X0 X2 X3 X4 X5 (ix3 b n j)
      = Ideal.exp (Cert.Spec.scores (fun n r => val_main_v9 (F := Ideal) X0 X2 X3 (ix3 b n r)) (fun m r => val_main_v19 (F := Ideal) X0 X4 X5 (ix3 b m r)) n j - Cert.Spec.rowMax (Cert.Spec.scores (fun n r => val_main_v9 (F := Ideal) X0 X2 X3 (ix3 b n r)) (fun m r => val_main_v19 (F := Ideal) X0 X4 X5 (ix3 b m r)) n)) := by
    intro j
    rw [val_main_v69_apply, val_main_v68_apply, val_main_v67_apply, val_main_v66_apply]
    have e : idx_main_v66 (idx_main_v67 (ix3 b n j)) = ix2 b n := funext fun a => Fin.ext (by match a with | ⟨0, _⟩ => rfl | ⟨1, _⟩ => rfl)
    rw [e, v65_eq]
    simp only [v62_eq, Ideal.subf_def, Ideal.hostUnary_exp_def]
  rw [val_main_v73_apply, val_main_v72_apply, val_main_v71_apply, val_main_v70_apply, val_main_cst_14_apply]
  have e70 : ∀ j : Fin 1024, idx_main_v70 (idx_main_v71 (idx_main_v72 (ix3 b n m))) j = ix3 b n j := fun j => funext fun a => Fin.ext (by match a with | ⟨0, _⟩ => rfl | ⟨1, _⟩ => rfl | ⟨2, _⟩ => rfl)
  simp only [e70, h69, Cert.Spec.attn, Cert.Spec.softmax, Ideal.hostDivf_def, Ideal.ofBits_def, Ideal.ofBits_zero_f32, zero_add]

/-- The scaled scores: stage v76 read in coordinates. -/
theorem v76_eq (b : Fin 16) (n : Fin 384) (m : Fin 384) :
    val_main_v76 (F := Ideal) X1 X8 X9 X10 X11 (ix3 b n m)
      = Cert.Spec.scores (fun n r => val_main_v39 (F := Ideal) X1 X8 X9 (ix3 b n r)) (fun m r => val_main_v49 (F := Ideal) X1 X10 X11 (ix3 b m r)) n m := by
  rw [val_main_v76_apply, val_main_v74_apply, val_main_v75_apply, val_main_cst_15_apply]
  have e1 : ∀ k : Fin 256, lidx_main_v74 (ix3 b n m) k = ix3 b n k := fun k => funext fun a => Fin.ext (by match a with | ⟨0, _⟩ => rfl | ⟨1, _⟩ => rfl | ⟨2, _⟩ => rfl)
  have e2 : ∀ k : Fin 256, ridx_main_v74 (ix3 b n m) k = ix3 b m k := fun k => funext fun a => Fin.ext (by match a with | ⟨0, _⟩ => rfl | ⟨1, _⟩ => rfl | ⟨2, _⟩ => rfl)
  simp only [e1, e2, Cert.Spec.scores, Ideal.mulf_def, Ideal.ofBits_def]

/-- The row maximum: the fold of max from −∞ over the last axis; the further maximum with −∞ changes nothing. -/
theorem v79_eq (b : Fin 16) (n : Fin 384) :
    val_main_v79 (F := Ideal) X1 X8 X9 X10 X11 (ix2 b n)
      = Cert.Spec.rowMax (fun m : Fin 384 => val_main_v76 (F := Ideal) X1 X8 X9 X10 X11 (ix3 b n m)) := by
  have h : S16x384x384.Reduces [2] S16x384 := by decide
  rw [val_main_v79_apply, val_main_v78_apply, val_main_cst_17_apply]
  unfold val_main_v77
  rw [hostReduce_max_single _ _ reducesTo_S16x384x384_S16x384_d2 h h_S_ _ Cert.Spec.ofBits_neg_inf]
  rw [Ideal.ofBits_def, Cert.Spec.ofBits_neg_inf, Ideal.maximumf_def, max_bot_left]
  unfold Cert.Spec.rowMax
  refine Finset.fold_congr fun m _ => ?_
  exact congrArg _ (funext fun a => Fin.ext (by match a with | ⟨0, _⟩ => rfl | ⟨1, _⟩ => rfl | ⟨2, _⟩ => rfl))

theorem v87_eq (b : Fin 16) (n : Fin 384) (m : Fin 384) :
    val_main_v87 (F := Ideal) X1 X8 X9 X10 X11 (ix3 b n m)
      = Cert.Spec.attn (fun n r => val_main_v39 (F := Ideal) X1 X8 X9 (ix3 b n r)) (fun m r => val_main_v49 (F := Ideal) X1 X10 X11 (ix3 b m r)) n m := by
  have h69 : ∀ j : Fin 384, val_main_v83 (F := Ideal) X1 X8 X9 X10 X11 (ix3 b n j)
      = Ideal.exp (Cert.Spec.scores (fun n r => val_main_v39 (F := Ideal) X1 X8 X9 (ix3 b n r)) (fun m r => val_main_v49 (F := Ideal) X1 X10 X11 (ix3 b m r)) n j - Cert.Spec.rowMax (Cert.Spec.scores (fun n r => val_main_v39 (F := Ideal) X1 X8 X9 (ix3 b n r)) (fun m r => val_main_v49 (F := Ideal) X1 X10 X11 (ix3 b m r)) n)) := by
    intro j
    rw [val_main_v83_apply, val_main_v82_apply, val_main_v81_apply, val_main_v80_apply]
    have e : idx_main_v80 (idx_main_v81 (ix3 b n j)) = ix2 b n := funext fun a => Fin.ext (by match a with | ⟨0, _⟩ => rfl | ⟨1, _⟩ => rfl)
    rw [e, v79_eq]
    simp only [v76_eq, Ideal.subf_def, Ideal.hostUnary_exp_def]
  rw [val_main_v87_apply, val_main_v86_apply, val_main_v85_apply, val_main_v84_apply, val_main_cst_18_apply]
  have e70 : ∀ j : Fin 384, idx_main_v84 (idx_main_v85 (idx_main_v86 (ix3 b n m))) j = ix3 b n j := fun j => funext fun a => Fin.ext (by match a with | ⟨0, _⟩ => rfl | ⟨1, _⟩ => rfl | ⟨2, _⟩ => rfl)
  simp only [e70, h69, Cert.Spec.attn, Cert.Spec.softmax, Ideal.hostDivf_def, Ideal.ofBits_def, Ideal.ofBits_zero_f32, zero_add]

/-- The scaled scores: stage v90 read in coordinates. -/
theorem v90_eq (b : Fin 16) (n : Fin 1024) (m : Fin 384) :
    val_main_v90 (F := Ideal) X0 X1 X6 X7 X12 X13 (ix3 b n m)
      = Cert.Spec.scores (fun n r => val_main_v29 (F := Ideal) X0 X6 X7 (ix3 b n r)) (fun m r => val_main_v59 (F := Ideal) X1 X12 X13 (ix3 b m r)) n m := by
  rw [val_main_v90_apply, val_main_v88_apply, val_main_v89_apply, val_main_cst_19_apply]
  have e1 : ∀ k : Fin 256, lidx_main_v88 (ix3 b n m) k = ix3 b n k := fun k => funext fun a => Fin.ext (by match a with | ⟨0, _⟩ => rfl | ⟨1, _⟩ => rfl | ⟨2, _⟩ => rfl)
  have e2 : ∀ k : Fin 256, ridx_main_v88 (ix3 b n m) k = ix3 b m k := fun k => funext fun a => Fin.ext (by match a with | ⟨0, _⟩ => rfl | ⟨1, _⟩ => rfl | ⟨2, _⟩ => rfl)
  simp only [e1, e2, Cert.Spec.scores, Ideal.mulf_def, Ideal.ofBits_def]

/-- The row maximum: the fold of max from −∞ over the last axis; the further maximum with −∞ changes nothing. -/
theorem v93_eq (b : Fin 16) (n : Fin 1024) :
    val_main_v93 (F := Ideal) X0 X1 X6 X7 X12 X13 (ix2 b n)
      = Cert.Spec.rowMax (fun m : Fin 384 => val_main_v90 (F := Ideal) X0 X1 X6 X7 X12 X13 (ix3 b n m)) := by
  have h : S16x1024x384.Reduces [2] S16x1024 := by decide
  rw [val_main_v93_apply, val_main_v92_apply, val_main_cst_21_apply]
  unfold val_main_v91
  rw [hostReduce_max_single _ _ reducesTo_S16x1024x384_S16x1024_d2 h h_S_ _ Cert.Spec.ofBits_neg_inf]
  rw [Ideal.ofBits_def, Cert.Spec.ofBits_neg_inf, Ideal.maximumf_def, max_bot_left]
  unfold Cert.Spec.rowMax
  refine Finset.fold_congr fun m _ => ?_
  exact congrArg _ (funext fun a => Fin.ext (by match a with | ⟨0, _⟩ => rfl | ⟨1, _⟩ => rfl | ⟨2, _⟩ => rfl))

theorem v101_eq (b : Fin 16) (n : Fin 1024) (m : Fin 384) :
    val_main_v101 (F := Ideal) X0 X1 X6 X7 X12 X13 (ix3 b n m)
      = Cert.Spec.attn (fun n r => val_main_v29 (F := Ideal) X0 X6 X7 (ix3 b n r)) (fun m r => val_main_v59 (F := Ideal) X1 X12 X13 (ix3 b m r)) n m := by
  have h69 : ∀ j : Fin 384, val_main_v97 (F := Ideal) X0 X1 X6 X7 X12 X13 (ix3 b n j)
      = Ideal.exp (Cert.Spec.scores (fun n r => val_main_v29 (F := Ideal) X0 X6 X7 (ix3 b n r)) (fun m r => val_main_v59 (F := Ideal) X1 X12 X13 (ix3 b m r)) n j - Cert.Spec.rowMax (Cert.Spec.scores (fun n r => val_main_v29 (F := Ideal) X0 X6 X7 (ix3 b n r)) (fun m r => val_main_v59 (F := Ideal) X1 X12 X13 (ix3 b m r)) n)) := by
    intro j
    rw [val_main_v97_apply, val_main_v96_apply, val_main_v95_apply, val_main_v94_apply]
    have e : idx_main_v94 (idx_main_v95 (ix3 b n j)) = ix2 b n := funext fun a => Fin.ext (by match a with | ⟨0, _⟩ => rfl | ⟨1, _⟩ => rfl)
    rw [e, v93_eq]
    simp only [v90_eq, Ideal.subf_def, Ideal.hostUnary_exp_def]
  rw [val_main_v101_apply, val_main_v100_apply, val_main_v99_apply, val_main_v98_apply, val_main_cst_22_apply]
  have e70 : ∀ j : Fin 384, idx_main_v98 (idx_main_v99 (idx_main_v100 (ix3 b n m))) j = ix3 b n j := fun j => funext fun a => Fin.ext (by match a with | ⟨0, _⟩ => rfl | ⟨1, _⟩ => rfl | ⟨2, _⟩ => rfl)
  simp only [e70, h69, Cert.Spec.attn, Cert.Spec.softmax, Ideal.hostDivf_def, Ideal.ofBits_def, Ideal.ofBits_zero_f32, zero_add]

theorem v102_eq (b : Fin 16) (n : Fin 1024) (d : Fin 768) :
    val_main_v102 (F := Ideal) X0 X2 X3 X4 X5 (ix3 b n d)
      = Cert.Spec.mix (fun n m => val_main_v73 (F := Ideal) X0 X2 X3 X4 X5 (ix3 b n m)) (fun m d => X0 (ix3 b m d)) n d := by
  rw [val_main_v102_apply]
  have e1 : ∀ k : Fin 1024, lidx_main_v102 (ix3 b n d) k = ix3 b n k := fun k => funext fun a => Fin.ext (by match a with | ⟨0, _⟩ => rfl | ⟨1, _⟩ => rfl | ⟨2, _⟩ => rfl)
  have e2 : ∀ k : Fin 1024, ridx_main_v102 (ix3 b n d) k = ix3 b k d := fun k => funext fun a => Fin.ext (by match a with | ⟨0, _⟩ => rfl | ⟨1, _⟩ => rfl | ⟨2, _⟩ => rfl)
  simp only [e1, e2, Cert.Spec.mix]

end Cert.ReferenceIdeal.RefValue

end
-- ==== Proof.RefGate.lean ====
/-
  The reference's gate, read in coordinates: the scores Σ_m a[n,m]·w[m] + c (a product commuted to w[m]·a[n,m]) go
  through the softmax over n; the gate is added to every row of the third attention weights (through a transpose and a
  broadcast), and the sum is mixed with the second input.
-/
import proofs.«178307_j44994077393156_1_alg».proof.Proof.RefRead
import proofs.«178307_j44994077393156_1_alg».proof.Proof.Spec
import proofs.«178307_j44994077393156_1_alg».proof.Proof.LibHostReduceMax

noncomputable section

namespace Cert.ReferenceIdeal.RefValue

open Cert.ReferenceIdeal Cert.ReferenceIdeal.Gen Cert.ReferenceIdeal.ReadP Idealize.ShloMosaic Idealize.ShloMosaic.ValueIdx

variable (X0 : (⟨S16x1024x768, .f32⟩ : BufTy).Contents (Elt Ideal))
  (X1 : (⟨S16x384x768, .f32⟩ : BufTy).Contents (Elt Ideal))
  (X2 : (⟨S256x768, .f32⟩ : BufTy).Contents (Elt Ideal))
  (X3 : (⟨S256, .f32⟩ : BufTy).Contents (Elt Ideal))
  (X4 : (⟨S256x768, .f32⟩ : BufTy).Contents (Elt Ideal))
  (X5 : (⟨S256, .f32⟩ : BufTy).Contents (Elt Ideal))
  (X6 : (⟨S256x768, .f32⟩ : BufTy).Contents (Elt Ideal))
  (X7 : (⟨S256, .f32⟩ : BufTy).Contents (Elt Ideal))
  (X8 : (⟨S256x768, .f32⟩ : BufTy).Contents (Elt Ideal))
  (X9 : (⟨S256, .f32⟩ : BufTy).Contents (Elt Ideal))
  (X10 : (⟨S256x768, .f32⟩ : BufTy).Contents (Elt Ideal))
  (X11 : (⟨S256, .f32⟩ : BufTy).Contents (Elt Ideal))
  (X12 : (⟨S256x768, .f32⟩ : BufTy).Contents (Elt Ideal))
  (X13 : (⟨S256, .f32⟩ : BufTy).Contents (Elt Ideal))
  (X14 : (⟨S1x384, .f32⟩ : BufTy).Contents (Elt Ideal))
  (X15 : (⟨S1, .f32⟩ : BufTy).Contents (Elt Ideal))
  (X16 : (⟨S768x1536, .f32⟩ : BufTy).Contents (Elt Ideal))
  (X17 : (⟨S768, .f32⟩ : BufTy).Contents (Elt Ideal))

/-- The gate's scores: stage v106 read in coordinates, the factors in the order weight · attention. -/
theorem v106_eq (b : Fin 16) (n : Fin 384) :
    val_main_v106 (F := Ideal) X1 X8 X9 X10 X11 X14 X15 (ix3 b n 0)
      = (∑ m : Fin 384, X14 (ix2 0 m) * val_main_v87 (F := Ideal) X1 X8 X9 X10 X11 (ix3 b n m)) + X15 (ix1 0) := by
  rw [val_main_v106_apply, val_main_v103_apply, val_main_v105_apply, val_main_v104_apply]
  have e1 : ∀ k : Fin 384, lidx_main_v103 (ix3 b n (0 : Fin 1)) k = ix3 b n k := fun k => funext fun a => Fin.ext (by match a with | ⟨0, _⟩ => rfl | ⟨1, _⟩ => rfl | ⟨2, _⟩ => rfl)
  have e2 : ∀ k : Fin 384, ridx_main_v103 (ix3 b n (0 : Fin 1)) k = ix2 (0 : Fin 1) k := fun k => funext fun a => Fin.ext (by match a with | ⟨0, _⟩ => rfl | ⟨1, _⟩ => rfl)
  have e3 : idx_main_v104 (idx_main_v105 (ix3 b n (0 : Fin 1))) = ix1 (0 : Fin 1) := funext fun a => Fin.ext (by match a with | ⟨0, _⟩ => rfl)
  simp only [e1, e2, e3, Ideal.addf_def]
  exact congrArg (· + _) (Finset.sum_congr rfl fun m _ => mul_comm _ _)

/-- The maximum over the rows: the fold of max from −∞ over the middle axis; the further maximum with −∞ changes nothing. -/
theorem v109_eq (b : Fin 16) :
    val_main_v109 (F := Ideal) X1 X8 X9 X10 X11 X14 X15 (ix2 b 0)
      = Cert.Spec.rowMax (fun n : Fin 384 => val_main_v106 (F := Ideal) X1 X8 X9 X10 X11 X14 X15 (ix3 b n 0)) := by
  have h : S16x384x1.Reduces [1] S16x1 := by decide
  rw [val_main_v109_apply, val_main_v108_apply, val_main_cst_24_apply]
  unfold val_main_v107
  rw [hostReduce_max_single _ _ reducesTo_S16x384x1_S16x1_d1 h h_S_ _ Cert.Spec.ofBits_neg_inf]
  rw [Ideal.ofBits_def, Cert.Spec.ofBits_neg_inf, Ideal.maximumf_def, max_bot_left]
  unfold Cert.Spec.rowMax
  refine Finset.fold_congr fun k _ => ?_
  exact congrArg _ (funext fun a => Fin.ext (by match a with | ⟨0, _⟩ => rfl | ⟨1, _⟩ => rfl | ⟨2, _⟩ => rfl))

theorem v117_eq (b : Fin 16) (n : Fin 384) :
    val_main_v117 (F := Ideal) X1 X8 X9 X10 X11 X14 X15 (ix3 b n 0)
      = Cert.Spec.gate (fun m => X14 (ix2 0 m)) (X15 (ix1 0)) (fun n m => val_main_v87 (F := Ideal) X1 X8 X9 X10 X11 (ix3 b n m)) n := by
  have h113 : ∀ j : Fin 384, val_main_v113 (F := Ideal) X1 X8 X9 X10 X11 X14 X15 (ix3 b j 0)
      = Ideal.exp ((fun n : Fin 384 => (∑ m : Fin 384, X14 (ix2 0 m) * val_main_v87 (F := Ideal) X1 X8 X9 X10 X11 (ix3 b n m)) + X15 (ix1 0)) j - Cert.Spec.rowMax (fun n : Fin 384 => (∑ m : Fin 384, X14 (ix2 0 m) * val_main_v87 (F := Ideal) X1 X8 X9 X10 X11 (ix3 b n m)) + X15 (ix1 0))) := by
    intro j
    rw [val_main_v113_apply, val_main_v112_apply, val_main_v111_apply, val_main_v110_apply]
    have e : idx_main_v110 (idx_main_v111 (ix3 b j (0 : Fin 1))) = ix2 b (0 : Fin 1) := funext fun a => Fin.ext (by match a with | ⟨0, _⟩ => rfl | ⟨1, _⟩ => rfl)
    rw [e, v109_eq]
    simp only [v106_eq, Ideal.subf_def, Ideal.hostUnary_exp_def]
  rw [val_main_v117_apply, val_main_v116_apply, val_main_v115_apply, val_main_v114_apply, val_main_cst_25_apply]
  have e114 : ∀ j : Fin 384, idx_main_v114 (idx_main_v115 (idx_main_v116 (ix3 b n (0 : Fin 1)))) j = ix3 b j (0 : Fin 1) := fun j => funext fun a => Fin.ext (by match a with | ⟨0, _⟩ => rfl | ⟨1, _⟩ => rfl | ⟨2, _⟩ => rfl)
  simp only [e114, h113, Cert.Spec.gate, Cert.Spec.softmax, Ideal.hostDivf_def, Ideal.ofBits_def, Ideal.ofBits_zero_f32, zero_add]

theorem v120_eq (b : Fin 16) (n : Fin 1024) (m : Fin 384) :
    val_main_v120 (F := Ideal) X0 X1 X6 X7 X8 X9 X10 X11 X12 X13 X14 X15 (ix3 b n m)
      = val_main_v101 (F := Ideal) X0 X1 X6 X7 X12 X13 (ix3 b n m) + val_main_v117 (F := Ideal) X1 X8 X9 X10 X11 X14 X15 (ix3 b m 0) := by
  rw [val_main_v120_apply, val_main_v119_apply, val_main_v118_apply]
  have e : idx_main_v118 (idx_main_v119 (ix3 b n m)) = ix3 b m (0 : Fin 1) := funext fun a => Fin.ext (by match a with | ⟨0, _⟩ => rfl | ⟨1, _⟩ => rfl | ⟨2, _⟩ => rfl)
  rw [e, Ideal.addf_def]

theorem v121_eq (b : Fin 16) (n : Fin 1024) (d : Fin 768) :
    val_main_v121 (F := Ideal) X0 X1 X6 X7 X8 X9 X10 X11 X12 X13 X14 X15 (ix3 b n d)
      = Cert.Spec.mix (fun n m => val_main_v120 (F := Ideal) X0 X1 X6 X7 X8 X9 X10 X11 X12 X13 X14 X15 (ix3 b n m)) (fun m d => X1 (ix3 b m d)) n d := by
  rw [val_main_v121_apply]
  have e1 : ∀ k : Fin 384, lidx_main_v121 (ix3 b n d) k = ix3 b n k := fun k => funext fun a => Fin.ext (by match a with | ⟨0, _⟩ => rfl | ⟨1, _⟩ => rfl | ⟨2, _⟩ => rfl)
  have e2 : ∀ k : Fin 384, ridx_main_v121 (ix3 b n d) k = ix3 b k d := fun k => funext fun a => Fin.ext (by match a with | ⟨0, _⟩ => rfl | ⟨1, _⟩ => rfl | ⟨2, _⟩ => rfl)
  simp only [e1, e2, Cert.Spec.mix]

end Cert.ReferenceIdeal.RefValue

end
-- ==== Proof.RefOut.lean ====
/-
  The reference's two results, read in coordinates: the concatenation along the last axis (the first 768 columns from the
  first mixture, the others from the second), and the final affine map Σ_c cat[n,c]·W[d,c] + b[d].
-/
import proofs.«178307_j44994077393156_1_alg».proof.Proof.RefRead
import proofs.«178307_j44994077393156_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

variable (X0 : (⟨S16x1024x768, .f32⟩ : BufTy).Contents (Elt Ideal))
  (X1 : (⟨S16x384x768, .f32⟩ : BufTy).Contents (Elt Ideal))
  (X2 : (⟨S256x768, .f32⟩ : BufTy).Contents (Elt Ideal))
  (X3 : (⟨S256, .f32⟩ : BufTy).Contents (Elt Ideal))
  (X4 : (⟨S256x768, .f32⟩ : BufTy).Contents (Elt Ideal))
  (X5 : (⟨S256, .f32⟩ : BufTy).Contents (Elt Ideal))
  (X6 : (⟨S256x768, .f32⟩ : BufTy).Contents (Elt Ideal))
  (X7 : (⟨S256, .f32⟩ : BufTy).Contents (Elt Ideal))
  (X8 : (⟨S256x768, .f32⟩ : BufTy).Contents (Elt Ideal))
  (X9 : (⟨S256, .f32⟩ : BufTy).Contents (Elt Ideal))
  (X10 : (⟨S256x768, .f32⟩ : BufTy).Contents (Elt Ideal))
  (X11 : (⟨S256, .f32⟩ : BufTy).Contents (Elt Ideal))
  (X12 : (⟨S256x768, .f32⟩ : BufTy).Contents (Elt Ideal))
  (X13 : (⟨S256, .f32⟩ : BufTy).Contents (Elt Ideal))
  (X14 : (⟨S1x384, .f32⟩ : BufTy).Contents (Elt Ideal))
  (X15 : (⟨S1, .f32⟩ : BufTy).Contents (Elt Ideal))
  (X16 : (⟨S768x1536, .f32⟩ : BufTy).Contents (Elt Ideal))
  (X17 : (⟨S768, .f32⟩ : BufTy).Contents (Elt Ideal))

theorem v122_eq (b : Fin 16) (n : Fin 1024) (c : Fin 1536) :
    val_main_v122 (F := Ideal) X0 X1 X2 X3 X4 X5 X6 X7 X8 X9 X10 X11 X12 X13 X14 X15 (ix3 b n c)
      = if h : c.val < 768 then val_main_v102 (F := Ideal) X0 X2 X3 X4 X5 (ix3 b n ⟨c.val, h⟩)
        else val_main_v121 (F := Ideal) X0 X1 X6 X7 X8 X9 X10 X11 X12 X13 X14 X15 (ix3 b n ⟨c.val - 768, by omega⟩) := by
  unfold val_main_v122
  by_cases h : c.val < 768
  · rw [dif_pos h]
    exact concatenate_pair_apply_left _ _ _ concatenates_S16x1024x768_S16x1024x768_S16x1024x1536_d2 (ix3 b n c) rfl
      (ix3 b n ⟨c.val, h⟩) (fun a => match a with | ⟨0, _⟩ => rfl | ⟨1, _⟩ => rfl | ⟨2, _⟩ => rfl)
  · rw [dif_neg h]
    exact concatenate_pair_apply_right _ _ _ concatenates_S16x1024x768_S16x1024x768_S16x1024x1536_d2 (ix3 b n c) rfl rfl
      (ix3 b n ⟨c.val - 768, by omega⟩)
      (fun a ha => match a, ha with
        | ⟨0, _⟩, _ => rfl
        | ⟨1, _⟩, _ => rfl
        | ⟨2, _⟩, ha => absurd rfl ha)
      (by show c.val - 768 + 768 = c.val; omega)

theorem v126_eq (b : Fin 16) (n : Fin 1024) (d : Fin 768) :
    val_main_v126 (F := Ideal) X0 X1 X2 X3 X4 X5 X6 X7 X8 X9 X10 X11 X12 X13 X14 X15 X16 X17 (ix3 b n d)
      = (∑ c : Fin 1536, val_main_v122 (F := Ideal) X0 X1 X2 X3 X4 X5 X6 X7 X8 X9 X10 X11 X12 X13 X14 X15 (ix3 b n c) * X16 (ix2 d c)) + X17 (ix1 d) := by
  rw [val_main_v126_apply, val_main_v123_apply, val_main_v125_apply, val_main_v124_apply]
  have e1 : ∀ k : Fin 1536, lidx_main_v123 (ix3 b n d) k = ix3 b n k := fun k => funext fun a => Fin.ext (by match a with | ⟨0, _⟩ => rfl | ⟨1, _⟩ => rfl | ⟨2, _⟩ => rfl)
  have e2 : ∀ k : Fin 1536, ridx_main_v123 (ix3 b n d) k = ix2 d k := fun k => funext fun a => Fin.ext (by match a with | ⟨0, _⟩ => rfl | ⟨1, _⟩ => rfl)
  have e3 : idx_main_v124 (idx_main_v125 (ix3 b n d)) = ix1 d := funext fun a => Fin.ext (by match a with | ⟨0, _⟩ => rfl)
  simp only [e1, e2, e3, Ideal.addf_def]

end Cert.ReferenceIdeal.RefValue

end
-- ==== Proof.RefArr.lean ====
/-
  The reference in array form: each stage, and the two results, as the stages of the pipeline acting on whole arrays.
  A stage read at (b, n, r) in coordinates is the whole-array stage at the index with those coordinates; the joined
  result's dependent choice of a column is the joined array's; the projected result's one sum over the 1536 joined
  columns is the sum over the first 768 plus the sum over the last 768.
-/
import proofs.«178307_j44994077393156_1_alg».proof.Proof.RefRead
import proofs.«178307_j44994077393156_1_alg».proof.Proof.Spec
import proofs.«178307_j44994077393156_1_alg».proof.Proof.RefProj
import proofs.«178307_j44994077393156_1_alg».proof.Proof.RefAttn
import proofs.«178307_j44994077393156_1_alg».proof.Proof.RefGate
import proofs.«178307_j44994077393156_1_alg».proof.Proof.RefOut
import proofs.«178307_j44994077393156_1_alg».proof.Proof.SpecArr

noncomputable section

namespace Cert.ReferenceIdeal.RefValue

open Cert.ReferenceIdeal Cert.ReferenceIdeal.Gen Cert.ReferenceIdeal.ReadP Idealize.ShloMosaic Idealize.ShloMosaic.ValueIdx

variable (X0 : (⟨S16x1024x768, .f32⟩ : BufTy).Contents (Elt Ideal))
  (X1 : (⟨S16x384x768, .f32⟩ : BufTy).Contents (Elt Ideal))
  (X2 : (⟨S256x768, .f32⟩ : BufTy).Contents (Elt Ideal))
  (X3 : (⟨S256, .f32⟩ : BufTy).Contents (Elt Ideal))
  (X4 : (⟨S256x768, .f32⟩ : BufTy).Contents (Elt Ideal))
  (X5 : (⟨S256, .f32⟩ : BufTy).Contents (Elt Ideal))
  (X6 : (⟨S256x768, .f32⟩ : BufTy).Contents (Elt Ideal))
  (X7 : (⟨S256, .f32⟩ : BufTy).Contents (Elt Ideal))
  (X8 : (⟨S256x768, .f32⟩ : BufTy).Contents (Elt Ideal))
  (X9 : (⟨S256, .f32⟩ : BufTy).Contents (Elt Ideal))
  (X10 : (⟨S256x768, .f32⟩ : BufTy).Contents (Elt Ideal))
  (X11 : (⟨S256, .f32⟩ : BufTy).Contents (Elt Ideal))
  (X12 : (⟨S256x768, .f32⟩ : BufTy).Contents (Elt Ideal))
  (X13 : (⟨S256, .f32⟩ : BufTy).Contents (Elt Ideal))
  (X14 : (⟨S1x384, .f32⟩ : BufTy).Contents (Elt Ideal))
  (X15 : (⟨S1, .f32⟩ : BufTy).Contents (Elt Ideal))
  (X16 : (⟨S768x1536, .f32⟩ : BufTy).Contents (Elt Ideal))
  (X17 : (⟨S768, .f32⟩ : BufTy).Contents (Elt Ideal))

theorem v9_arr :
    val_main_v9 (F := Ideal) X0 X2 X3 = Cert.SpecArr.projArr Cert.Spec.c1024 X0 X2 X3 := by
  funext i
  obtain ⟨b, n, r, rfl⟩ : ∃ b n r, i = ix3 b n r := ⟨i 0, i 1, i 2, eq_ix3 i⟩
  exact v9_eq X0 X2 X3 b n r

theorem v19_arr :
    val_main_v19 (F := Ideal) X0 X4 X5 = Cert.SpecArr.projArr Cert.Spec.c1024 X0 X4 X5 := by
  funext i
  obtain ⟨b, n, r, rfl⟩ : ∃ b n r, i = ix3 b n r := ⟨i 0, i 1, i 2, eq_ix3 i⟩
  exact v19_eq X0 X4 X5 b n r

theorem v29_arr :
    val_main_v29 (F := Ideal) X0 X6 X7 = Cert.SpecArr.projArr Cert.Spec.c1024 X0 X6 X7 := by
  funext i
  obtain ⟨b, n, r, rfl⟩ : ∃ b n r, i = ix3 b n r := ⟨i 0, i 1, i 2, eq_ix3 i⟩
  exact v29_eq X0 X6 X7 b n r

theorem v39_arr :
    val_main_v39 (F := Ideal) X1 X8 X9 = Cert.SpecArr.projArr Cert.Spec.c384 X1 X8 X9 := by
  funext i
  obtain ⟨b, n, r, rfl⟩ : ∃ b n r, i = ix3 b n r := ⟨i 0, i 1, i 2, eq_ix3 i⟩
  exact v39_eq X1 X8 X9 b n r

theorem v49_arr :
    val_main_v49 (F := Ideal) X1 X10 X11 = Cert.SpecArr.projArr Cert.Spec.c384 X1 X10 X11 := by
  funext i
  obtain ⟨b, n, r, rfl⟩ : ∃ b n r, i = ix3 b n r := ⟨i 0, i 1, i 2, eq_ix3 i⟩
  exact v49_eq X1 X10 X11 b n r

theorem v59_arr :
    val_main_v59 (F := Ideal) X1 X12 X13 = Cert.SpecArr.projArr Cert.Spec.c384 X1 X12 X13 := by
  funext i
  obtain ⟨b, n, r, rfl⟩ : ∃ b n r, i = ix3 b n r := ⟨i 0, i 1, i 2, eq_ix3 i⟩
  exact v59_eq X1 X12 X13 b n r

/-- The first feature: the attention weights of the first two projections applied to the first input. -/
theorem v102_arr :
    val_main_v102 (F := Ideal) X0 X2 X3 X4 X5 = Cert.SpecArr.attnMixArr (val_main_v9 (F := Ideal) X0 X2 X3) (val_main_v19 (F := Ideal) X0 X4 X5) X0 := by
  funext i
  obtain ⟨b, n, d, rfl⟩ : ∃ b n d, i = ix3 b n d := ⟨i 0, i 1, i 2, eq_ix3 i⟩
  exact (v102_eq X0 X2 X3 X4 X5 b n d).trans
    (congrArg (fun a => Cert.Spec.mix a (fun m d => X0 (ix3 b m d)) n d)
      (funext fun n => funext fun m => v73_eq X0 X2 X3 X4 X5 b n m))

/-- The gate stage is the gate array, read through the exchange of its last two axes. -/
theorem v117_arr (b : Fin 16) (m : Fin 384) :
    val_main_v117 (F := Ideal) X1 X8 X9 X10 X11 X14 X15 (ix3 b m 0)
      = Cert.SpecArr.gateArr (val_main_v39 (F := Ideal) X1 X8 X9) (val_main_v49 (F := Ideal) X1 X10 X11) X14 X15 (ix3 b 0 m) :=
  (v117_eq X1 X8 X9 X10 X11 X14 X15 b m).trans
    (congrArg (fun a => Cert.Spec.gate (fun m => X14 (ix2 0 m)) (X15 (ix1 0)) a m)
      (funext fun n => funext fun m' => v87_eq X1 X8 X9 X10 X11 b n m'))

/-- The second feature: the third attention weights with the gate row added to every row, applied to the second input. -/
theorem v121_arr :
    val_main_v121 (F := Ideal) X0 X1 X6 X7 X8 X9 X10 X11 X12 X13 X14 X15
      = Cert.SpecArr.attnGateMixArr (val_main_v29 (F := Ideal) X0 X6 X7) (val_main_v59 (F := Ideal) X1 X12 X13)
          (Cert.SpecArr.gateArr (val_main_v39 (F := Ideal) X1 X8 X9) (val_main_v49 (F := Ideal) X1 X10 X11) X14 X15) X1 := by
  funext i
  obtain ⟨b, n, d, rfl⟩ : ∃ b n d, i = ix3 b n d := ⟨i 0, i 1, i 2, eq_ix3 i⟩
  refine (v121_eq X0 X1 X6 X7 X8 X9 X10 X11 X12 X13 X14 X15 b n d).trans
    (congrArg (fun a => Cert.Spec.mix a (fun m d => X1 (ix3 b m d)) n d) (funext fun n => funext fun m => ?_))
  rw [v120_eq, v101_eq, v117_arr]

/-- The joined result. -/
theorem v122_arr :
    val_main_v122 (F := Ideal) X0 X1 X2 X3 X4 X5 X6 X7 X8 X9 X10 X11 X12 X13 X14 X15 = Cert.SpecArr.catArr (val_main_v102 (F := Ideal) X0 X2 X3 X4 X5) (val_main_v121 (F := Ideal) X0 X1 X6 X7 X8 X9 X10 X11 X12 X13 X14 X15) := by
  funext i
  obtain ⟨b, n, c, rfl⟩ : ∃ b n c, i = ix3 b n c := ⟨i 0, i 1, i 2, eq_ix3 i⟩
  exact v122_eq X0 X1 X2 X3 X4 X5 X6 X7 X8 X9 X10 X11 X12 X13 X14 X15 b n c

/-- The projected result: one sum over the 1536 joined columns is the two half sums. -/
theorem v126_arr :
    val_main_v126 (F := Ideal) X0 X1 X2 X3 X4 X5 X6 X7 X8 X9 X10 X11 X12 X13 X14 X15 X16 X17 = Cert.SpecArr.outArr (val_main_v102 (F := Ideal) X0 X2 X3 X4 X5) (val_main_v121 (F := Ideal) X0 X1 X6 X7 X8 X9 X10 X11 X12 X13 X14 X15) X16 X17 := by
  funext i
  obtain ⟨b, n, d, rfl⟩ : ∃ b n d, i = ix3 b n d := ⟨i 0, i 1, i 2, eq_ix3 i⟩
  refine (v126_eq X0 X1 X2 X3 X4 X5 X6 X7 X8 X9 X10 X11 X12 X13 X14 X15 X16 X17 b n d).trans ?_
  refine (congrArg (· + X17 (ix1 d)) (Finset.sum_congr rfl fun c _ => congrArg (· * X16 (ix2 d c))
    (v122_eq X0 X1 X2 X3 X4 X5 X6 X7 X8 X9 X10 X11 X12 X13 X14 X15 b n c))).trans ?_
  exact Cert.Spec.out_eq_outHalves (fun n k => val_main_v102 (F := Ideal) X0 X2 X3 X4 X5 (ix3 b n k)) (fun n k => val_main_v121 (F := Ideal) X0 X1 X6 X7 X8 X9 X10 X11 X12 X13 X14 X15 (ix3 b n k))
    (fun d k => X16 (ix2 d k)) (fun d => X17 (ix1 d)) n d

/-- THE REFERENCE'S FIRST RESULT as one composite of the stages on whole arrays. -/
theorem ref_cat :
    val_main_v122 (F := Ideal) X0 X1 X2 X3 X4 X5 X6 X7 X8 X9 X10 X11 X12 X13 X14 X15
      = Cert.SpecArr.catArr
          (Cert.SpecArr.attnMixArr (Cert.SpecArr.projArr Cert.Spec.c1024 X0 X2 X3) (Cert.SpecArr.projArr Cert.Spec.c1024 X0 X4 X5) X0)
          (Cert.SpecArr.attnGateMixArr (Cert.SpecArr.projArr Cert.Spec.c1024 X0 X6 X7) (Cert.SpecArr.projArr Cert.Spec.c384 X1 X12 X13)
        (Cert.SpecArr.gateArr (Cert.SpecArr.projArr Cert.Spec.c384 X1 X8 X9) (Cert.SpecArr.projArr Cert.Spec.c384 X1 X10 X11) X14 X15) X1) := by
  rw [v122_arr, v102_arr, v121_arr, v9_arr, v19_arr, v29_arr, v39_arr, v49_arr, v59_arr]

/-- THE REFERENCE'S SECOND RESULT likewise. -/
theorem ref_out :
    val_main_v126 (F := Ideal) X0 X1 X2 X3 X4 X5 X6 X7 X8 X9 X10 X11 X12 X13 X14 X15 X16 X17
      = Cert.SpecArr.outArr
          (Cert.SpecArr.attnMixArr (Cert.SpecArr.projArr Cert.Spec.c1024 X0 X2 X3) (Cert.SpecArr.projArr Cert.Spec.c1024 X0 X4 X5) X0)
          (Cert.SpecArr.attnGateMixArr (Cert.SpecArr.projArr Cert.Spec.c1024 X0 X6 X7) (Cert.SpecArr.projArr Cert.Spec.c384 X1 X12 X13)
        (Cert.SpecArr.gateArr (Cert.SpecArr.projArr Cert.Spec.c384 X1 X8 X9) (Cert.SpecArr.projArr Cert.Spec.c384 X1 X10 X11) X14 X15) X1) X16 X17 := by
  rw [v126_arr, v102_arr, v121_arr, v9_arr, v19_arr, v29_arr, v39_arr, v49_arr, v59_arr]

end Cert.ReferenceIdeal.RefValue

end
-- ==== Proof.lean ====
/-
  The certificate of a six-call attention pipeline against its plain jnp reference.

  Both programs compute, per batch element: three centred projections q1, q2, q3 of the query features and three, k1, k2, k3,
  of the input features (an affine map, then the column mean over the tokens taken off); the attention of q1 against q2
  applied to the query features (the first feature); the gate, a softmax over the tokens of a linear read-out of the
  attention of k1 against k2; the attention of q3 against k3 with the gate row added to every row, applied to the input
  features (the second feature); the two features side by side (the first result); and a linear map of that joined array
  plus a bias (the second result).  At the ideal values the matrix unit's narrow formats are the identity, a product
  accumulated from zero is the plain sum, and the two programs differ only in how they arrange these sums:

  * the kernel runs the stages block by block (one batch element per grid point; the last call also halves the tokens),
    the reference on the whole arrays — the blocks tile the arrays, so each array is one function of the arrays before it;
  * the gate's read-out multiplies weight·attention in one program and attention·weight in the other;
  * the kernel computes the last linear map as a sum over the first 768 columns plus a sum over the last 768, the reference
    as one sum over all 1536 — a finite sum split in two, which holds on the extended reals without any finiteness.

  The stages are stated once (Proof/Spec.lean, SpecOut.lean, SpecArr.lean); the kernel's regions are read off the
  generated frame one by one (Proof/KProj0 … KCombine), chained through the region boundaries (KChain, KArr) and
  re-posted on the run (KRun); the reference's stages are read off its operations (RefProj … RefOut, RefArr) over its run
  read forward (RefRunFwd).
  Nothing needs the inputs to be finite: every law used is associativity or commutativity of + and ·.
-/
import proofs.«178307_j44994077393156_1_alg».proof.Defs
import proofs.«178307_j44994077393156_1_alg».proof.Proof.Gen.Kernel
import proofs.«178307_j44994077393156_1_alg».proof.Proof.Gen.Kernel.Skeleton
import proofs.«178307_j44994077393156_1_alg».proof.Proof.Gen.Kernel.Launch
import proofs.«178307_j44994077393156_1_alg».proof.Proof.Gen.Kernel.Points
import proofs.«178307_j44994077393156_1_alg».proof.Proof.Gen.Kernel.Frame
import proofs.«178307_j44994077393156_1_alg».proof.Proof.Gen.KernelIdeal
import proofs.«178307_j44994077393156_1_alg».proof.Proof.Gen.KernelIdeal.Skeleton
import proofs.«178307_j44994077393156_1_alg».proof.Proof.Gen.KernelIdeal.Launch
import proofs.«178307_j44994077393156_1_alg».proof.Proof.Gen.KernelIdeal.Points
import proofs.«178307_j44994077393156_1_alg».proof.Proof.Gen.KernelIdeal.Frame
import proofs.«178307_j44994077393156_1_alg».proof.Proof.Gen.ReferenceIdeal
import proofs.«178307_j44994077393156_1_alg».proof.Proof.Gen.Pre_finite_inputs
import proofs.«178307_j44994077393156_1_alg».proof.Proof.KRun
import proofs.«178307_j44994077393156_1_alg».proof.Proof.KArr
import proofs.«178307_j44994077393156_1_alg».proof.Proof.RefRunFwd
import proofs.«178307_j44994077393156_1_alg».proof.Proof.RefArr
import Idealize.ShloMosaic.Adequacy
import Idealize.ShloMosaic.Init

set_option maxRecDepth 16384

noncomputable section

namespace Cert.Proof

open Idealize.ShloMosaic Idealize.SL.Sem

/-- The word-level kernel runs and leaves its arguments as launched: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.ValueF.run' (F := Ideal) m ρ)

/-- The ideal pass rewrote nothing: the idealization is the kernel's own text read at the ideal values. -/
theorem preserves : Cert.preserves_Kernel_KernelIdeal := trivial

/-- The reference's first result, at arguments that agree with the kernel's, is the composite of the stages applied to
    the kernel's argument arrays. -/
theorem ref_cat_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (c : Dev Cert.ReferenceIdeal.nD) :
    Cert.ReferenceIdeal.ReadP.val_main_v122 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      = Cert.SpecArr.catArr (Cert.SpecArr.attnMixArr (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg0))) (Cert.SpecArr.attnGateMixArr (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (Cert.SpecArr.gateArr (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1))) := by
  obtain ⟨h0, h1, h2, h3, h4, h5, h6, h7, h8, h9, h10, h11, h12, h13, h14, h15, h16, h17⟩ := hagree c
  rw [Cert.ReferenceIdeal.RefValue.ref_cat, h0, h1, h2, h3, h4, h5, h6, h7, h8, h9, h10, h11, h12, h13, h14, h15]

/-- The same for the second result. -/
theorem ref_out_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) (c : Dev Cert.ReferenceIdeal.nD) :
    Cert.ReferenceIdeal.ReadP.val_main_v126 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      = Cert.SpecArr.outArr (Cert.SpecArr.attnMixArr (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg0))) (Cert.SpecArr.attnGateMixArr (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (Cert.SpecArr.gateArr (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  obtain ⟨h0, h1, h2, h3, h4, h5, h6, h7, h8, h9, h10, h11, h12, h13, h14, h15, h16, h17⟩ := hagree c
  rw [Cert.ReferenceIdeal.RefValue.ref_out, h0, h1, h2, h3, h4, h5, h6, h7, h8, h9, h10, h11, h12, h13, h14, h15, h16, h17]

/-- From memories agreeing on the arguments both programs end with the two results at the same composite of the stages
    applied to the argument arrays. -/
theorem algebraic : Cert.algebraic_KernelIdeal_ReferenceIdeal := by
  intro m ρ m' ρ' _ hagree
  refine ⟨fun c => Cert.SpecArr.catArr (Cert.SpecArr.attnMixArr (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg0))) (Cert.SpecArr.attnGateMixArr (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (Cert.SpecArr.gateArr (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1))),
    fun c => Cert.SpecArr.outArr (Cert.SpecArr.attnMixArr (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg0))) (Cert.SpecArr.attnGateMixArr (Cert.SpecArr.projArr Cert.Spec.c1024 (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (Cert.SpecArr.gateArr (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.SpecArr.projArr Cert.Spec.c384 (m ((c.tc : Thread Cert.KernelIdeal.nD Cert.KernelIdeal.τ).loc Cert.KernelIdeal.main_arg1)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.KValue.kernel_cat m ρ c),
        (h c).2.1.trans (Cert.KernelIdeal.KValue.kernel_out m ρ c), (h c).2.2⟩)
      (Cert.KernelIdeal.KValue.run (F := Ideal) m ρ)
  · exact (θ_run Cert.ReferenceIdeal.defs _ _).mono
      (fun r h c => ⟨(h c).1.trans (ref_cat_of_agree m m' hagree c), (h c).2.1.trans (ref_out_of_agree m m' hagree c), (h c).2.2⟩)
      (Cert.ReferenceIdeal.ValueF.run' (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
